-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x128 : Shape := ⟨2, ![128, 128]⟩
abbrev S2x5 : Shape := ⟨2, ![2, 5]⟩
abbrev S128x40 : Shape := ⟨2, ![128, 40]⟩
abbrev S40 : Shape := ⟨1, ![40]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x5 : S_.BroadcastsInDim S2x5 (![] : Fin 0 → Fin S2x5.rank)
  reducesTo_S2x5_S_d0_1 : S2x5.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S128x40 .f32) (main_arg8 : FVec F S40 .f32) (main_v33 : IVec S_ 1) : IVec S_ 1 :=
  let main_v34 : FVec F S128x40 .f32 := Host.absf main_arg7
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg8
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg4 : FVec F S128x128 .f32) (main_arg5 : FVec F S128 .f32) (main_arg6 : FVec F S2x5 .f32) (main_arg7 : FVec F S128x40 .f32) (main_arg8 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x5 .f32 := Host.absf main_arg6
  let main_cst_10 : FVec F S_ .f32 := constant S_ .f32 0x7F800000#32
  let main_v30 : FVec F S2x5 .f32 := broadcastInDim S2x5 ![] bcast_S_S2x5 main_cst_10
  let main_v31 : IVec S2x5 1 := cmpf .olt main_v29 main_v30
  let main_c_11 : IVec S_ 1 := constantI S_ 1 1#1
  let main_v32 : IVec S_ 1 := (fun x v => Host.reduce IntOp.andi x v reducesTo_S2x5_S_d0_1 h_S_) main_v31 main_c_11
  let main_v33 : IVec S_ 1 := andi main_v28 main_v32
  fn_part2 (F := F) main_arg7 main_arg8 main_v33

def fn {F : FTy → Type} [FloatOps F] (main_arg0 : FVec F S10000x256 .f32) (main_arg1 : FVec F S10000x10000 .f32) (main_arg2 : FVec F S256x128 .f32) (main_arg3 : FVec F S128 .f32) (main_arg4 : FVec F S128x128 .f32) (main_arg5 : FVec F S128 .f32) (main_arg6 : FVec F S2x5 .f32) (main_arg7 : FVec F S128x40 .f32) (main_arg8 : FVec F S40 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x128 : Shape := ⟨2, ![128, 128]⟩
abbrev S2x5 : Shape := ⟨2, ![2, 5]⟩
abbrev S128x40 : Shape := ⟨2, ![128, 40]⟩
abbrev S40 : Shape := ⟨1, ![40]⟩
abbrev S5x5 : Shape := ⟨2, ![5, 5]⟩
abbrev S5x2 : Shape := ⟨2, ![5, 2]⟩
abbrev S1x128 : Shape := ⟨2, ![1, 128]⟩
abbrev S10000x128 : Shape := ⟨2, ![10000, 128]⟩
abbrev S400x256 : Shape := ⟨2, ![400, 256]⟩
abbrev S400x128 : Shape := ⟨2, ![400, 128]⟩
abbrev S1x1 : Shape := ⟨2, ![1, 1]⟩
abbrev S_ : Shape := ⟨0, ![]⟩
abbrev S80x10000 : Shape := ⟨2, ![80, 10000]⟩
abbrev S80x128 : Shape := ⟨2, ![80, 128]⟩
abbrev S1000x10000 : Shape := ⟨2, ![1000, 10000]⟩
abbrev S1000x128 : Shape := ⟨2, ![1000, 128]⟩
abbrev S10000x40 : Shape := ⟨2, ![10000, 40]⟩

abbrev nBuf : Space → Nat
  | .hbm => 82
  | .vmem => 112
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S2x5, .f32⟩
  | .hbm, ⟨7, _⟩ => ⟨S128x40, .f32⟩
  | .hbm, ⟨8, _⟩ => ⟨S40, .f32⟩
  | .hbm, ⟨9, _⟩ => ⟨S5x5, .f32⟩
  | .hbm, ⟨10, _⟩ => ⟨S5x2, .f32⟩
  | .hbm, ⟨11, _⟩ => ⟨S5x2, .f32⟩
  | .hbm, ⟨12, _⟩ => ⟨S2x5, .f32⟩
  | .hbm, ⟨13, _⟩ => ⟨S1x128, .f32⟩
  | .hbm, ⟨14, _⟩ => ⟨S1x128, .f32⟩
  | .hbm, ⟨15, _⟩ => ⟨S10000x128, .f32⟩
  | .hbm, ⟨16, _⟩ => ⟨S1x1, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .bf16⟩
  | .hbm, ⟨21, _⟩ => ⟨S1x1, .f32⟩
  | .hbm, ⟨22, _⟩ => ⟨S_, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S10000x10000, .bf16⟩
  | .hbm, ⟨27, _⟩ => ⟨S10000x128, .bf16⟩
  | .hbm, ⟨28, _⟩ => ⟨S1x1, .f32⟩
  | .hbm, ⟨29, _⟩ => ⟨S_, .f32⟩
  | .hbm, ⟨30, _⟩ => ⟨S1x128, .f32⟩
  | .hbm, ⟨31, _⟩ => ⟨S10000x128, .f32⟩
  | .hbm, ⟨32, _⟩ => ⟨S10000x128, .f32⟩
  | .hbm, ⟨33, _⟩ => ⟨S10000x128, .bf16⟩
  | .hbm, ⟨34, _⟩ => ⟨S1x1, .f32⟩
  | .hbm, ⟨35, _⟩ => ⟨S_, .f32⟩
  | .hbm, ⟨36, _⟩ => ⟨S1x128, .f32⟩
  | .hbm, ⟨37, _⟩ => ⟨S10000x128, .f32⟩
  | .hbm, ⟨38, _⟩ => ⟨S10000x128, .f32⟩
  | .hbm, ⟨39, _⟩ => ⟨S10000x128, .bf16⟩
  | .hbm, ⟨40, _⟩ => ⟨S1x1, .f32⟩
  | .hbm, ⟨41, _⟩ => ⟨S_, .f32⟩
  | .hbm, ⟨42, _⟩ => ⟨S1x128, .f32⟩
  | .hbm, ⟨43, _⟩ => ⟨S10000x128, .f32⟩
  | .hbm, ⟨44, _⟩ => ⟨S10000x128, .f32⟩
  | .hbm, ⟨45, _⟩ => ⟨S1x1, .f32⟩
  | .hbm, ⟨46, _⟩ => ⟨S_, .f32⟩
  | .hbm, ⟨47, _⟩ => ⟨S10000x128, .f32⟩
  | .hbm, ⟨48, _⟩ => ⟨S10000x128, .f32⟩
  | .hbm, ⟨49, _⟩ => ⟨S10000x128, .bf16⟩
  | .hbm, ⟨50, _⟩ => ⟨S1x1, .f32⟩
  | .hbm, ⟨51, _⟩ => ⟨S_, .f32⟩
  | .hbm, ⟨52, _⟩ => ⟨S1x128, .f32⟩
  | .hbm, ⟨53, _⟩ => ⟨S10000x128, .f32⟩
  | .hbm, ⟨54, _⟩ => ⟨S10000x128, .f32⟩
  | .hbm, ⟨55, _⟩ => ⟨S10000x128, .bf16⟩
  | .hbm, ⟨56, _⟩ => ⟨S1x1, .f32⟩
  | .hbm, ⟨57, _⟩ => ⟨S_, .f32⟩
  | .hbm, ⟨58, _⟩ => ⟨S1x128, .f32⟩
  | .hbm, ⟨59, _⟩ => ⟨S10000x128, .f32⟩
  | .hbm, ⟨60, _⟩ => ⟨S10000x128, .f32⟩
  | .hbm, ⟨61, _⟩ => ⟨S10000x128, .bf16⟩
  | .hbm, ⟨62, _⟩ => ⟨S1x1, .f32⟩
  | .hbm, ⟨63, _⟩ => ⟨S_, .f32⟩
  | .hbm, ⟨64, _⟩ => ⟨S1x128, .f32⟩
  | .hbm, ⟨65, _⟩ => ⟨S10000x128, .f32⟩
  | .hbm, ⟨66, _⟩ => ⟨S10000x128, .f32⟩
  | .hbm, ⟨67, _⟩ => ⟨S10000x128, .bf16⟩
  | .hbm, ⟨68, _⟩ => ⟨S1x1, .f32⟩
  | .hbm, ⟨69, _⟩ => ⟨S_, .f32⟩
  | .hbm, ⟨70, _⟩ => ⟨S1x128, .f32⟩
  | .hbm, ⟨71, _⟩ => ⟨S10000x128, .f32⟩
  | .hbm, ⟨72, _⟩ => ⟨S10000x128, .f32⟩
  | .hbm, ⟨73, _⟩ => ⟨S_, .i32⟩
  | .hbm, ⟨74, _⟩ => ⟨S_, .f32⟩
  | .hbm, ⟨75, _⟩ => ⟨S128x128, .f32⟩
  | .hbm, ⟨76, _⟩ => ⟨S_, .i32⟩
  | .hbm, ⟨77, _⟩ => ⟨S_, .f32⟩
  | .hbm, ⟨78, _⟩ => ⟨S128, .f32⟩
  | .hbm, ⟨79, _⟩ => ⟨S1x128, .f32⟩
  | .hbm, ⟨80, _⟩ => ⟨S10000x128, .f32⟩
  | .hbm, ⟨81, _⟩ => ⟨S10000x40, .f32⟩
  | .local _ .vmem, ⟨0, _⟩ => ⟨S400x256, .f32⟩
  | .local _ .vmem, ⟨1, _⟩ => ⟨S400x256, .f32⟩
  | .local _ .vmem, ⟨2, _⟩ => ⟨S256x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S400x128, .f32⟩
  | .local _ .vmem, ⟨7, _⟩ => ⟨S400x128, .f32⟩
  | .local _ .vmem, ⟨8, _⟩ => ⟨S80x10000, .f32⟩
  | .local _ .vmem, ⟨9, _⟩ => ⟨S80x10000, .f32⟩
  | .local _ .vmem, ⟨10, _⟩ => ⟨S10000x128, .bf16⟩
  | .local _ .vmem, ⟨11, _⟩ => ⟨S80x128, .f32⟩
  | .local _ .vmem, ⟨12, _⟩ => ⟨S80x128, .f32⟩
  | .local _ .vmem, ⟨13, _⟩ => ⟨S80x128, .f32⟩
  | .local _ .vmem, ⟨14, _⟩ => ⟨S80x128, .f32⟩
  | .local _ .vmem, ⟨15, _⟩ => ⟨S1x128, .f32⟩
  | .local _ .vmem, ⟨16, _⟩ => ⟨S80x128, .f32⟩
  | .local _ .vmem, ⟨17, _⟩ => ⟨S80x128, .f32⟩
  | .local _ .vmem, ⟨18, _⟩ => ⟨S80x128, .f32⟩
  | .local _ .vmem, ⟨19, _⟩ => ⟨S80x128, .f32⟩
  | .local _ .vmem, ⟨20, _⟩ => ⟨S80x10000, .bf16⟩
  | .local _ .vmem, ⟨21, _⟩ => ⟨S80x10000, .bf16⟩
  | .local _ .vmem, ⟨22, _⟩ => ⟨S1000x10000, .bf16⟩
  | .local _ .vmem, ⟨23, _⟩ => ⟨S1000x10000, .bf16⟩
  | .local _ .vmem, ⟨24, _⟩ => ⟨S10000x128, .bf16⟩
  | .local _ .vmem, ⟨25, _⟩ => ⟨S1000x128, .f32⟩
  | .local _ .vmem, ⟨26, _⟩ => ⟨S1000x128, .f32⟩
  | .local _ .vmem, ⟨27, _⟩ => ⟨S1000x128, .f32⟩
  | .local _ .vmem, ⟨28, _⟩ => ⟨S1000x128, .f32⟩
  | .local _ .vmem, ⟨29, _⟩ => ⟨S1x128, .f32⟩
  | .local _ .vmem, ⟨30, _⟩ => ⟨S1000x128, .f32⟩
  | .local _ .vmem, ⟨31, _⟩ => ⟨S1000x128, .f32⟩
  | .local _ .vmem, ⟨32, _⟩ => ⟨S1000x128, .f32⟩
  | .local _ .vmem, ⟨33, _⟩ => ⟨S1000x128, .f32⟩
  | .local _ .vmem, ⟨34, _⟩ => ⟨S1000x10000, .bf16⟩
  | .local _ .vmem, ⟨35, _⟩ => ⟨S1000x10000, .bf16⟩
  | .local _ .vmem, ⟨36, _⟩ => ⟨S10000x128, .bf16⟩
  | .local _ .vmem, ⟨37, _⟩ => ⟨S1000x128, .f32⟩
  | .local _ .vmem, ⟨38, _⟩ => ⟨S1000x128, .f32⟩
  | .local _ .vmem, ⟨39, _⟩ => ⟨S1000x128, .f32⟩
  | .local _ .vmem, ⟨40, _⟩ => ⟨S1000x128, .f32⟩
  | .local _ .vmem, ⟨41, _⟩ => ⟨S1x128, .f32⟩
  | .local _ .vmem, ⟨42, _⟩ => ⟨S1000x128, .f32⟩
  | .local _ .vmem, ⟨43, _⟩ => ⟨S1000x128, .f32⟩
  | .local _ .vmem, ⟨44, _⟩ => ⟨S1000x128, .f32⟩
  | .local _ .vmem, ⟨45, _⟩ => ⟨S1000x128, .f32⟩
  | .local _ .vmem, ⟨46, _⟩ => ⟨S1000x10000, .bf16⟩
  | .local _ .vmem, ⟨47, _⟩ => ⟨S1000x10000, .bf16⟩
  | .local _ .vmem, ⟨48, _⟩ => ⟨S10000x128, .bf16⟩
  | .local _ .vmem, ⟨49, _⟩ => ⟨S1000x128, .f32⟩
  | .local _ .vmem, ⟨50, _⟩ => ⟨S1000x128, .f32⟩
  | .local _ .vmem, ⟨51, _⟩ => ⟨S1000x128, .f32⟩
  | .local _ .vmem, ⟨52, _⟩ => ⟨S1000x128, .f32⟩
  | .local _ .vmem, ⟨53, _⟩ => ⟨S1x128, .f32⟩
  | .local _ .vmem, ⟨54, _⟩ => ⟨S1000x128, .f32⟩
  | .local _ .vmem, ⟨55, _⟩ => ⟨S1000x128, .f32⟩
  | .local _ .vmem, ⟨56, _⟩ => ⟨S1000x128, .f32⟩
  | .local _ .vmem, ⟨57, _⟩ => ⟨S1000x128, .f32⟩
  | .local _ .vmem, ⟨58, _⟩ => ⟨S1000x10000, .bf16⟩
  | .local _ .vmem, ⟨59, _⟩ => ⟨S1000x10000, .bf16⟩
  | .local _ .vmem, ⟨60, _⟩ => ⟨S10000x128, .bf16⟩
  | .local _ .vmem, ⟨61, _⟩ => ⟨S1000x128, .f32⟩
  | .local _ .vmem, ⟨62, _⟩ => ⟨S1000x128, .f32⟩
  | .local _ .vmem, ⟨63, _⟩ => ⟨S1000x128, .f32⟩
  | .local _ .vmem, ⟨64, _⟩ => ⟨S1000x128, .f32⟩
  | .local _ .vmem, ⟨65, _⟩ => ⟨S1x128, .f32⟩
  | .local _ .vmem, ⟨66, _⟩ => ⟨S1000x128, .f32⟩
  | .local _ .vmem, ⟨67, _⟩ => ⟨S1000x128, .f32⟩
  | .local _ .vmem, ⟨68, _⟩ => ⟨S1000x128, .f32⟩
  | .local _ .vmem, ⟨69, _⟩ => ⟨S1000x128, .f32⟩
  | .local _ .vmem, ⟨70, _⟩ => ⟨S1000x10000, .bf16⟩
  | .local _ .vmem, ⟨71, _⟩ => ⟨S1000x10000, .bf16⟩
  | .local _ .vmem, ⟨72, _⟩ => ⟨S10000x128, .bf16⟩
  | .local _ .vmem, ⟨73, _⟩ => ⟨S1000x128, .f32⟩
  | .local _ .vmem, ⟨74, _⟩ => ⟨S1000x128, .f32⟩
  | .local _ .vmem, ⟨75, _⟩ => ⟨S1000x128, .f32⟩
  | .local _ .vmem, ⟨76, _⟩ => ⟨S1000x128, .f32⟩
  | .local _ .vmem, ⟨77, _⟩ => ⟨S1x128, .f32⟩
  | .local _ .vmem, ⟨78, _⟩ => ⟨S1000x128, .f32⟩
  | .local _ .vmem, ⟨79, _⟩ => ⟨S1000x128, .f32⟩
  | .local _ .vmem, ⟨80, _⟩ => ⟨S1000x128, .f32⟩
  | .local _ .vmem, ⟨81, _⟩ => ⟨S1000x128, .f32⟩
  | .local _ .vmem, ⟨82, _⟩ => ⟨S1000x10000, .bf16⟩
  | .local _ .vmem, ⟨83, _⟩ => ⟨S1000x10000, .bf16⟩
  | .local _ .vmem, ⟨84, _⟩ => ⟨S10000x128, .bf16⟩
  | .local _ .vmem, ⟨85, _⟩ => ⟨S1000x128, .f32⟩
  | .local _ .vmem, ⟨86, _⟩ => ⟨S1000x128, .f32⟩
  | .local _ .vmem, ⟨87, _⟩ => ⟨S1000x128, .f32⟩
  | .local _ .vmem, ⟨88, _⟩ => ⟨S1000x128, .f32⟩
  | .local _ .vmem, ⟨89, _⟩ => ⟨S1x128, .f32⟩
  | .local _ .vmem, ⟨90, _⟩ => ⟨S1000x128, .f32⟩
  | .local _ .vmem, ⟨91, _⟩ => ⟨S1000x128, .f32⟩
  | .local _ .vmem, ⟨92, _⟩ => ⟨S1000x128, .f32⟩
  | .local _ .vmem, ⟨93, _⟩ => ⟨S1000x128, .f32⟩
  | .local _ .vmem, ⟨94, _⟩ => ⟨S1000x10000, .bf16⟩
  | .local _ .vmem, ⟨95, _⟩ => ⟨S1000x10000, .bf16⟩
  | .local _ .vmem, ⟨96, _⟩ => ⟨S10000x128, .bf16⟩
  | .local _ .vmem, ⟨97, _⟩ => ⟨S1000x128, .f32⟩
  | .local _ .vmem, ⟨98, _⟩ => ⟨S1000x128, .f32⟩
  | .local _ .vmem, ⟨99, _⟩ => ⟨S1000x128, .f32⟩
  | .local _ .vmem, ⟨100, _⟩ => ⟨S1000x128, .f32⟩
  | .local _ .vmem, ⟨101, _⟩ => ⟨S1x128, .f32⟩
  | .local _ .vmem, ⟨102, _⟩ => ⟨S1000x128, .f32⟩
  | .local _ .vmem, ⟨103, _⟩ => ⟨S1000x128, .f32⟩
  | .local _ .vmem, ⟨104, _⟩ => ⟨S1000x128, .f32⟩
  | .local _ .vmem, ⟨105, _⟩ => ⟨S1000x128, .f32⟩
  | .local _ .vmem, ⟨106, _⟩ => ⟨S400x128, .f32⟩
  | .local _ .vmem, ⟨107, _⟩ => ⟨S400x128, .f32⟩
  | .local _ .vmem, ⟨108, _⟩ => ⟨S128x128, .f32⟩
  | .local _ .vmem, ⟨109, _⟩ => ⟨S1x128, .f32⟩
  | .local _ .vmem, ⟨110, _⟩ => ⟨S400x128, .f32⟩
  | .local _ .vmem, ⟨111, _⟩ => ⟨S400x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38_0 : Ref sig .tc := ⟨.hbm, 53, rfl⟩
abbrev main_v38_1 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43_0 : Ref sig .tc := ⟨.hbm, 59, rfl⟩
abbrev main_v43_1 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48_0 : Ref sig .tc := ⟨.hbm, 65, rfl⟩
abbrev main_v48_1 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53_0 : Ref sig .tc := ⟨.hbm, 71, rfl⟩
abbrev main_v53_1 : Ref sig .tc := ⟨.hbm, 72, rfl⟩
abbrev main_c : Ref sig .tc := ⟨.hbm, 73, rfl⟩
abbrev main_call0_v0 : Ref sig .tc := ⟨.hbm, 74, rfl⟩
abbrev main_v54 : Ref sig .tc := ⟨.hbm, 75, rfl⟩
abbrev main_c_0 : Ref sig .tc := ⟨.hbm, 76, rfl⟩
abbrev main_call1_v0 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc3_stg6_0 : Ref sig .tc := ⟨.vmem, 44, rfl⟩
abbrev cc3_stg6_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg2_0 : Ref sig .tc := ⟨.vmem, 49, rfl⟩
abbrev cc4_stg2_1 : Ref sig .tc := ⟨.vmem, 50, rfl⟩
abbrev cc4_stg3_0 : Ref sig .tc := ⟨.vmem, 51, rfl⟩
abbrev cc4_stg3_1 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg5_1 : Ref sig .tc := ⟨.vmem, 55, rfl⟩
abbrev cc4_stg6_0 : Ref sig .tc := ⟨.vmem, 56, rfl⟩
abbrev cc4_stg6_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg2_1 : Ref sig .tc := ⟨.vmem, 62, rfl⟩
abbrev cc5_stg3_0 : Ref sig .tc := ⟨.vmem, 63, rfl⟩
abbrev cc5_stg3_1 : Ref sig .tc := ⟨.vmem, 64, rfl⟩
abbrev cc5_stg4_0 : Ref sig .tc := ⟨.vmem, 65, rfl⟩
abbrev cc5_stg5_0 : Ref sig .tc := ⟨.vmem, 66, rfl⟩
abbrev cc5_stg5_1 : Ref sig .tc := ⟨.vmem, 67, rfl⟩
abbrev cc5_stg6_0 : Ref sig .tc := ⟨.vmem, 68, rfl⟩
abbrev cc5_stg6_1 : Ref sig .tc := ⟨.vmem, 69, rfl⟩
abbrev cc6_stg0_0 : Ref sig .tc := ⟨.vmem, 70, rfl⟩
abbrev cc6_stg0_1 : Ref sig .tc := ⟨.vmem, 71, rfl⟩
abbrev cc6_stg1_0 : Ref sig .tc := ⟨.vmem, 72, rfl⟩
abbrev cc6_stg2_0 : Ref sig .tc := ⟨.vmem, 73, rfl⟩
abbrev cc6_stg2_1 : Ref sig .tc := ⟨.vmem, 74, rfl⟩
abbrev cc6_stg3_0 : Ref sig .tc := ⟨.vmem, 75, rfl⟩
abbrev cc6_stg3_1 : Ref sig .tc := ⟨.vmem, 76, rfl⟩
abbrev cc6_stg4_0 : Ref sig .tc := ⟨.vmem, 77, rfl⟩
abbrev cc6_stg5_0 : Ref sig .tc := ⟨.vmem, 78, rfl⟩
abbrev cc6_stg5_1 : Ref sig .tc := ⟨.vmem, 79, rfl⟩
abbrev cc6_stg6_0 : Ref sig .tc := ⟨.vmem, 80, rfl⟩
abbrev cc6_stg6_1 : Ref sig .tc := ⟨.vmem, 81, rfl⟩
abbrev cc7_stg0_0 : Ref sig .tc := ⟨.vmem, 82, rfl⟩
abbrev cc7_stg0_1 : Ref sig .tc := ⟨.vmem, 83, rfl⟩
abbrev cc7_stg1_0 : Ref sig .tc := ⟨.vmem, 84, rfl⟩
abbrev cc7_stg2_0 : Ref sig .tc := ⟨.vmem, 85, rfl⟩
abbrev cc7_stg2_1 : Ref sig .tc := ⟨.vmem, 86, rfl⟩
abbrev cc7_stg3_0 : Ref sig .tc := ⟨.vmem, 87, rfl⟩
abbrev cc7_stg3_1 : Ref sig .tc := ⟨.vmem, 88, rfl⟩
abbrev cc7_stg4_0 : Ref sig .tc := ⟨.vmem, 89, rfl⟩
abbrev cc7_stg5_0 : Ref sig .tc := ⟨.vmem, 90, rfl⟩
abbrev cc7_stg5_1 : Ref sig .tc := ⟨.vmem, 91, rfl⟩
abbrev cc7_stg6_0 : Ref sig .tc := ⟨.vmem, 92, rfl⟩
abbrev cc7_stg6_1 : Ref sig .tc := ⟨.vmem, 93, rfl⟩
abbrev cc8_stg0_0 : Ref sig .tc := ⟨.vmem, 94, rfl⟩
abbrev cc8_stg0_1 : Ref sig .tc := ⟨.vmem, 95, rfl⟩
abbrev cc8_stg1_0 : Ref sig .tc := ⟨.vmem, 96, rfl⟩
abbrev cc8_stg2_0 : Ref sig .tc := ⟨.vmem, 97, rfl⟩
abbrev cc8_stg2_1 : Ref sig .tc := ⟨.vmem, 98, rfl⟩
abbrev cc8_stg3_0 : Ref sig .tc := ⟨.vmem, 99, rfl⟩
abbrev cc8_stg3_1 : Ref sig .tc := ⟨.vmem, 100, rfl⟩
abbrev cc8_stg4_0 : Ref sig .tc := ⟨.vmem, 101, rfl⟩
abbrev cc8_stg5_0 : Ref sig .tc := ⟨.vmem, 102, rfl⟩
abbrev cc8_stg5_1 : Ref sig .tc := ⟨.vmem, 103, rfl⟩
abbrev cc8_stg6_0 : Ref sig .tc := ⟨.vmem, 104, rfl⟩
abbrev cc8_stg6_1 : Ref sig .tc := ⟨.vmem, 105, rfl⟩
abbrev cc9_stg0_0 : Ref sig .tc := ⟨.vmem, 106, rfl⟩
abbrev cc9_stg0_1 : Ref sig .tc := ⟨.vmem, 107, rfl⟩
abbrev cc9_stg1_0 : Ref sig .tc := ⟨.vmem, 108, rfl⟩
abbrev cc9_stg2_0 : Ref sig .tc := ⟨.vmem, 109, rfl⟩
abbrev cc9_stg3_0 : Ref sig .tc := ⟨.vmem, 110, rfl⟩
abbrev cc9_stg3_1 : Ref sig .tc := ⟨.vmem, 111, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem6_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem5_0 : DmaSem sig := 42
abbrev cc3_sem5_1 : DmaSem sig := 43
abbrev cc3_sem6_0 : DmaSem sig := 44
abbrev cc3_sem6_1 : DmaSem sig := 45
abbrev cc4_sem0_0 : DmaSem sig := 46
abbrev cc4_sem0_1 : DmaSem sig := 47
abbrev cc4_sem1_0 : DmaSem sig := 48
abbrev cc4_sem2_0 : DmaSem sig := 49
abbrev cc4_sem2_1 : DmaSem sig := 50
abbrev cc4_sem3_0 : DmaSem sig := 51
abbrev cc4_sem3_1 : DmaSem sig := 52
abbrev cc4_sem4_0 : DmaSem sig := 53
abbrev cc4_sem5_0 : DmaSem sig := 54
abbrev cc4_sem5_1 : DmaSem sig := 55
abbrev cc4_sem6_0 : DmaSem sig := 56
abbrev cc4_sem6_1 : DmaSem sig := 57
abbrev cc5_sem0_0 : DmaSem sig := 58
abbrev cc5_sem0_1 : DmaSem sig := 59
abbrev cc5_sem1_0 : DmaSem sig := 60
abbrev cc5_sem2_0 : DmaSem sig := 61
abbrev cc5_sem2_1 : DmaSem sig := 62
abbrev cc5_sem3_0 : DmaSem sig := 63
abbrev cc5_sem3_1 : DmaSem sig := 64
abbrev cc5_sem4_0 : DmaSem sig := 65
abbrev cc5_sem5_0 : DmaSem sig := 66
abbrev cc5_sem5_1 : DmaSem sig := 67
abbrev cc5_sem6_0 : DmaSem sig := 68
abbrev cc5_sem6_1 : DmaSem sig := 69
abbrev cc6_sem0_0 : DmaSem sig := 70
abbrev cc6_sem0_1 : DmaSem sig := 71
abbrev cc6_sem1_0 : DmaSem sig := 72
abbrev cc6_sem2_0 : DmaSem sig := 73
abbrev cc6_sem2_1 : DmaSem sig := 74
abbrev cc6_sem3_0 : DmaSem sig := 75
abbrev cc6_sem3_1 : DmaSem sig := 76
abbrev cc6_sem4_0 : DmaSem sig := 77
abbrev cc6_sem5_0 : DmaSem sig := 78
abbrev cc6_sem5_1 : DmaSem sig := 79
abbrev cc6_sem6_0 : DmaSem sig := 80
abbrev cc6_sem6_1 : DmaSem sig := 81
abbrev cc7_sem0_0 : DmaSem sig := 82
abbrev cc7_sem0_1 : DmaSem sig := 83
abbrev cc7_sem1_0 : DmaSem sig := 84
abbrev cc7_sem2_0 : DmaSem sig := 85
abbrev cc7_sem2_1 : DmaSem sig := 86
abbrev cc7_sem3_0 : DmaSem sig := 87
abbrev cc7_sem3_1 : DmaSem sig := 88
abbrev cc7_sem4_0 : DmaSem sig := 89
abbrev cc7_sem5_0 : DmaSem sig := 90
abbrev cc7_sem5_1 : DmaSem sig := 91
abbrev cc7_sem6_0 : DmaSem sig := 92
abbrev cc7_sem6_1 : DmaSem sig := 93
abbrev cc8_sem0_0 : DmaSem sig := 94
abbrev cc8_sem0_1 : DmaSem sig := 95
abbrev cc8_sem1_0 : DmaSem sig := 96
abbrev cc8_sem2_0 : DmaSem sig := 97
abbrev cc8_sem2_1 : DmaSem sig := 98
abbrev cc8_sem3_0 : DmaSem sig := 99
abbrev cc8_sem3_1 : DmaSem sig := 100
abbrev cc8_sem4_0 : DmaSem sig := 101
abbrev cc8_sem5_0 : DmaSem sig := 102
abbrev cc8_sem5_1 : DmaSem sig := 103
abbrev cc8_sem6_0 : DmaSem sig := 104
abbrev cc8_sem6_1 : DmaSem sig := 105
abbrev cc9_sem0_0 : DmaSem sig := 106
abbrev cc9_sem0_1 : DmaSem sig := 107
abbrev cc9_sem1_0 : DmaSem sig := 108
abbrev cc9_sem2_0 : DmaSem sig := 109
abbrev cc9_sem3_0 : DmaSem sig := 110
abbrev cc9_sem3_1 : DmaSem sig := 111

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S80x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S80x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S80x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S80x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S80x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S80x10000 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S1000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x10000 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10000x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S1000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x10000 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S10000x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S1000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S1000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x10000 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S10000x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S1000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S1000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S1000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S400x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S400x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  transposes_S2x5_S5x2_1_0 : S2x5.Transposes [1, 0] S5x2
  transposes_S5x2_S2x5_1_0 : S5x2.Transposes [1, 0] S2x5
  shapeCasts_S128_S1x128 : S128.ShapeCasts S1x128
  inb_S400x256_S400x256_0_0 : ∀ a, (![0, 0] : Fin 2 → Nat) a + S400x256.size a ≤ S400x256.size a
  h_S400x256 : 0 < S400x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x128_S128x128_0_0 : ∀ a, (![0, 0] : Fin 2 → Nat) a + S128x128.size a ≤ S128x128.size a
  h_S128x128 : 0 < S128x128.numel
  inb_S400x128_S400x128_0_0 : ∀ a, (![0, 0] : Fin 2 → Nat) a + S400x128.size a ≤ S400x128.size a
  h_S400x128 : 0 < S400x128.numel
  slices_S2x5_S1x1_0_0 : S2x5.Slices ![0, 0] S1x1
  shapeCasts_S1x1_S_ : S1x1.ShapeCasts S_
  bcast_S_S10000x128 : S_.BroadcastsInDim S10000x128 (![] : Fin 0 → Fin S10000x128.rank)
  bitsLt_bf16_f32 : FTy.bits .bf16 < FTy.bits .f32
  slices_S2x5_S1x1_0_1 : S2x5.Slices ![0, 1] S1x1
  bcast_S_S1x128 : S_.BroadcastsInDim S1x128 (![] : Fin 0 → Fin S1x128.rank)
  iota_S80x10000_d0_w32 : S80x10000.Iotas .tc 32 [0]
  iota_S80x10000_d1_w32 : S80x10000.Iotas .tc 32 [1]
  inb_S80x10000_S80x10000_0_0 : ∀ a, (![0, 0] : Fin 2 → Nat) a + S80x10000.size a ≤ S80x10000.size a
  h_S80x10000 : 0 < S80x10000.numel
  natLt_1_32 : 1 < 32
  packedbf16_S80x10000_S80x10000_0_0 : (Rect.unit (s := S80x10000) ![0, 0] S80x10000.size inb_S80x10000_S80x10000_0_0).PackedRows (EltTy.packing .bf16)
  inb_S80x128_S80x128_0_0 : ∀ a, (![0, 0] : Fin 2 → Nat) a + S80x128.size a ≤ S80x128.size a
  h_S80x128 : 0 < S80x128.numel
  shapeCasts_S80x128_S80x128 : S80x128.ShapeCasts S80x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S80x128 : S1x128.Broadcasts S80x128
  slices_S2x5_S1x1_0_2 : S2x5.Slices ![0, 2] S1x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x128_S1000x128 : S1x128.Broadcasts S1000x128
  slices_S2x5_S1x1_0_3 : S2x5.Slices ![0, 3] S1x1
  slices_S2x5_S1x1_0_4 : S2x5.Slices ![0, 4] S1x1
  slices_S2x5_S1x1_1_0 : S2x5.Slices ![1, 0] S1x1
  slices_S2x5_S1x1_1_1 : S2x5.Slices ![1, 1] S1x1
  slices_S2x5_S1x1_1_2 : S2x5.Slices ![1, 2] S1x1
  slices_S2x5_S1x1_1_3 : S2x5.Slices ![1, 3] S1x1
  slices_S2x5_S1x1_1_4 : S2x5.Slices ![1, 4] S1x1
  pads_S128x40_S128x128_000_0880 : S128x40.Pads (![0, 0] : Fin 2 → Nat) ![0, 88] ![0, 0] S128x128
  h_S_ : 0 < S_.numel
  pads_S40_S128_0880 : S40.Pads (![0] : Fin 1 → Nat) ![88] ![0] S128
  shapeCasts_S400x128_S400x128 : S400x128.ShapeCasts S400x128
  shapeCasts_S128x128_S128x128 : S128x128.ShapeCasts S128x128
  slices_S10000x128_S10000x40_0_0 : S10000x128.Slices ![0, 0] S10000x40
  dot_S5x5_S5x2_S5x2_1_0_0_1_n_n_wf : DotDims.WF S5x5 S5x2 S5x2 [1] [0] [0] [1] [] []
  dot_S400x256_S256x128_S400x128_1_0_0_1_n_n_wf : DotDims.WF S400x256 S256x128 S400x128 [1] [0] [0] [1] [] []
  dot_S400x128_S128x128_S400x128_1_0_0_1_n_n_wf : DotDims.WF S400x128 S128x128 S400x128 [1] [0] [0] [1] [] []
  dot_S80x10000_S10000x128_S80x128_1_0_0_1_n_n_wf : DotDims.WF S80x10000 S10000x128 S80x128 [1] [0] [0] [1] [] []
  dot_S1000x10000_S10000x128_S1000x128_1_0_0_1_n_n_wf : DotDims.WF S1000x10000 S10000x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x256.size a ≤ S10000x256.size a
  hwx0_0 : ∀ i : grid0.Coords, EltTy.bits .f32 = 32 ∨ (Rect.block (s := S10000x256) S400x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S80x10000.size a ≤ S10000x10000.size a
  hwx1_0 : ∀ i : grid1.Coords, EltTy.bits .f32 = 32 ∨ (Rect.block (s := S10000x10000) S80x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S80x128.size a ≤ S10000x128.size a
  hwx1_2 : ∀ i : grid1.Coords, EltTy.bits .f32 = 32 ∨ (Rect.block (s := S10000x128) S80x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S80x128.size a ≤ S10000x128.size a
  hwx1_3 : ∀ i : grid1.Coords, EltTy.bits .f32 = 32 ∨ (Rect.block (s := S10000x128) S80x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S80x128.size a ≤ S10000x128.size a
  hwx1_5 : ∀ i : grid1.Coords, EltTy.bits .f32 = 32 ∨ (Rect.block (s := S10000x128) S80x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S80x128.size a ≤ S10000x128.size a
  hwx1_6 : ∀ i : grid1.Coords, EltTy.bits .f32 = 32 ∨ (Rect.block (s := S10000x128) S80x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S80x10000.size a ≤ S10000x10000.size a
  hwx1_7 : ∀ i : grid1.Coords, EltTy.bits .bf16 = 32 ∨ (Rect.block (s := S10000x10000) S80x10000.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S10000x128.size a
  hwx2_2 : ∀ i : grid2.Coords, EltTy.bits .f32 = 32 ∨ (Rect.block (s := S10000x128) S1000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x128.size a ≤ S10000x128.size a
  hwx2_3 : ∀ i : grid2.Coords, EltTy.bits .f32 = 32 ∨ (Rect.block (s := S10000x128) S1000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x128.size a ≤ S10000x128.size a
  hwx2_5 : ∀ i : grid2.Coords, EltTy.bits .f32 = 32 ∨ (Rect.block (s := S10000x128) S1000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x128.size a ≤ S10000x128.size a
  hwx2_6 : ∀ i : grid2.Coords, EltTy.bits .f32 = 32 ∨ (Rect.block (s := S10000x128) S1000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x10000.size a ≤ S10000x10000.size a
  hwx3_0 : ∀ i : grid3.Coords, EltTy.bits .bf16 = 32 ∨ (Rect.block (s := S10000x10000) S1000x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x128.size a ≤ S10000x128.size a
  hwx3_2 : ∀ i : grid3.Coords, EltTy.bits .f32 = 32 ∨ (Rect.block (s := S10000x128) S1000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x128.size a ≤ S10000x128.size a
  hwx3_3 : ∀ i : grid3.Coords, EltTy.bits .f32 = 32 ∨ (Rect.block (s := S10000x128) S1000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x128.size a ≤ S10000x128.size a
  hwx3_5 : ∀ i : grid3.Coords, EltTy.bits .f32 = 32 ∨ (Rect.block (s := S10000x128) S1000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x128.size a ≤ S10000x128.size a
  hwx3_6 : ∀ i : grid3.Coords, EltTy.bits .f32 = 32 ∨ (Rect.block (s := S10000x128) S1000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x10000.size a ≤ S10000x10000.size a
  hwx4_0 : ∀ i : grid4.Coords, EltTy.bits .bf16 = 32 ∨ (Rect.block (s := S10000x10000) S1000x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S10000x128.size a
  hwx4_1 : ∀ i : grid4.Coords, EltTy.bits .bf16 = 32 ∨ (Rect.block (s := S10000x128) S10000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x128.size a ≤ S10000x128.size a
  hwx4_2 : ∀ i : grid4.Coords, EltTy.bits .f32 = 32 ∨ (Rect.block (s := S10000x128) S1000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x128.size a ≤ S10000x128.size a
  hwx4_3 : ∀ i : grid4.Coords, EltTy.bits .f32 = 32 ∨ (Rect.block (s := S10000x128) S1000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x128.size a ≤ S10000x128.size a
  hwx4_5 : ∀ i : grid4.Coords, EltTy.bits .f32 = 32 ∨ (Rect.block (s := S10000x128) S1000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1000x128.size a ≤ S10000x128.size a
  hwx4_6 : ∀ i : grid4.Coords, EltTy.bits .f32 = 32 ∨ (Rect.block (s := S10000x128) S1000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x10000.size a ≤ S10000x10000.size a
  hwx5_0 : ∀ i : grid5.Coords, EltTy.bits .bf16 = 32 ∨ (Rect.block (s := S10000x10000) S1000x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S10000x128.size a
  hwx5_1 : ∀ i : grid5.Coords, EltTy.bits .bf16 = 32 ∨ (Rect.block (s := S10000x128) S10000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x128.size a ≤ S10000x128.size a
  hwx5_2 : ∀ i : grid5.Coords, EltTy.bits .f32 = 32 ∨ (Rect.block (s := S10000x128) S1000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1000x128.size a ≤ S10000x128.size a
  hwx5_3 : ∀ i : grid5.Coords, EltTy.bits .f32 = 32 ∨ (Rect.block (s := S10000x128) S1000x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x128.size a ≤ S10000x128.size a
  hwx5_5 : ∀ i : grid5.Coords, EltTy.bits .f32 = 32 ∨ (Rect.block (s := S10000x128) S1000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1000x128.size a ≤ S10000x128.size a
  hwx5_6 : ∀ i : grid5.Coords, EltTy.bits .f32 = 32 ∨ (Rect.block (s := S10000x128) S1000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x10000.size a ≤ S10000x10000.size a
  hwx6_0 : ∀ i : grid6.Coords, EltTy.bits .bf16 = 32 ∨ (Rect.block (s := S10000x10000) S1000x10000.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S10000x128.size a
  hwx6_1 : ∀ i : grid6.Coords, EltTy.bits .bf16 = 32 ∨ (Rect.block (s := S10000x128) S10000x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x128.size a ≤ S10000x128.size a
  hwx6_2 : ∀ i : grid6.Coords, EltTy.bits .f32 = 32 ∨ (Rect.block (s := S10000x128) S1000x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1000x128.size a ≤ S10000x128.size a
  hwx6_3 : ∀ i : grid6.Coords, EltTy.bits .f32 = 32 ∨ (Rect.block (s := S10000x128) S1000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1000x128.size a ≤ S10000x128.size a
  hwx6_5 : ∀ i : grid6.Coords, EltTy.bits .f32 = 32 ∨ (Rect.block (s := S10000x128) S1000x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S1000x128.size a ≤ S10000x128.size a
  hwx6_6 : ∀ i : grid6.Coords, EltTy.bits .f32 = 32 ∨ (Rect.block (s := S10000x128) S1000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x10000.size a ≤ S10000x10000.size a
  hwx7_0 : ∀ i : grid7.Coords, EltTy.bits .bf16 = 32 ∨ (Rect.block (s := S10000x10000) S1000x10000.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S10000x128.size a ≤ S10000x128.size a
  hwx7_1 : ∀ i : grid7.Coords, EltTy.bits .bf16 = 32 ∨ (Rect.block (s := S10000x128) S10000x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1000x128.size a ≤ S10000x128.size a
  hwx7_2 : ∀ i : grid7.Coords, EltTy.bits .f32 = 32 ∨ (Rect.block (s := S10000x128) S1000x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1000x128.size a ≤ S10000x128.size a
  hwx7_3 : ∀ i : grid7.Coords, EltTy.bits .f32 = 32 ∨ (Rect.block (s := S10000x128) S1000x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1000x128.size a ≤ S10000x128.size a
  hwx7_5 : ∀ i : grid7.Coords, EltTy.bits .f32 = 32 ∨ (Rect.block (s := S10000x128) S1000x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1000x128.size a ≤ S10000x128.size a
  hwx7_6 : ∀ i : grid7.Coords, EltTy.bits .f32 = 32 ∨ (Rect.block (s := S10000x128) S1000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x10000.size a ≤ S10000x10000.size a
  hwx8_0 : ∀ i : grid8.Coords, EltTy.bits .bf16 = 32 ∨ (Rect.block (s := S10000x10000) S1000x10000.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S10000x128.size a ≤ S10000x128.size a
  hwx8_1 : ∀ i : grid8.Coords, EltTy.bits .bf16 = 32 ∨ (Rect.block (s := S10000x128) S10000x128.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1000x128.size a ≤ S10000x128.size a
  hwx8_2 : ∀ i : grid8.Coords, EltTy.bits .f32 = 32 ∨ (Rect.block (s := S10000x128) S1000x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1000x128.size a ≤ S10000x128.size a
  hwx8_3 : ∀ i : grid8.Coords, EltTy.bits .f32 = 32 ∨ (Rect.block (s := S10000x128) S1000x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1000x128.size a ≤ S10000x128.size a
  hwx8_5 : ∀ i : grid8.Coords, EltTy.bits .f32 = 32 ∨ (Rect.block (s := S10000x128) S1000x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S1000x128.size a ≤ S10000x128.size a
  hwx8_6 : ∀ i : grid8.Coords, EltTy.bits .f32 = 32 ∨ (Rect.block (s := S10000x128) S1000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S400x128.size a ≤ S10000x128.size a
  hwx9_0 : ∀ i : grid9.Coords, EltTy.bits .f32 = 32 ∨ (Rect.block (s := S10000x128) S400x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S400x128.size a ≤ S10000x128.size a
  hwx9_3 : ∀ i : grid9.Coords, EltTy.bits .f32 = 32 ∨ (Rect.block (s := S10000x128) S400x128.size (cc9_transform_3 i) (hinb9_3 i)).WholeWords (EltTy.packing .f32)

variable [Facts₀]

def dot_S5x5_S5x2_S5x2_1_0_0_1_n_n : DotDims S5x5 S5x2 S5x2 where
  lhsContracting := [1]
  rhsContracting := [0]
  lhsNonContracting := [0]
  rhsNonContracting := [1]
  lhsBatch := []
  rhsBatch := []
  wf := dot_S5x5_S5x2_S5x2_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S80x10000_S10000x128_S80x128_1_0_0_1_n_n : DotDims S80x10000 S10000x128 S80x128 where
  lhsContracting := [1]
  rhsContracting := [0]
  lhsNonContracting := [0]
  rhsNonContracting := [1]
  lhsBatch := []
  rhsBatch := []
  wf := dot_S80x10000_S10000x128_S80x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf

abbrev win0_0 : Pipeline.Window sig grid0 :=
  Pipeline.Window.ofSpec (Memref.whole main_arg0) S400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S80x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S80x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S80x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14_0) S80x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v14_1) S80x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v14_2) S80x10000.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v14_2) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14_0) S1000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v14_1) S1000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19_0) S1000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v19_1) S1000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v14_2) S1000x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v19_0) S1000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v19_1) S1000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v23) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v24_0) S1000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v24_1) S1000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v14_2) S1000x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S10000x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v24_0) S1000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v24_1) S1000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v28) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v29_0) S1000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v29_1) S1000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v14_2) S1000x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v34) S10000x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v29_1) S1000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v33) S1000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v37) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v38_0) S1000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v38_1) S1000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v14_2) S1000x10000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v39) S10000x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v38_0) S1000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v38_1) S1000x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v42) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v43_0) S1000x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v43_1) S1000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v14_2) S1000x10000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v44) S10000x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v43_0) S1000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v43_1) S1000x128.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v47) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v48_0) S1000x128.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v48_1) S1000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v14_2) S1000x10000.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v49) S10000x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v48_0) S1000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v48_1) S1000x128.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v52) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v53_0) S1000x128.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v53_1) S1000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v53_1) S400x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v54) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v56) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v57) S400x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x128 : Shape := ⟨2, ![128, 128]⟩
abbrev S2x5 : Shape := ⟨2, ![2, 5]⟩
abbrev S128x40 : Shape := ⟨2, ![128, 40]⟩
abbrev S40 : Shape := ⟨1, ![40]⟩
abbrev S10000x128 : Shape := ⟨2, ![10000, 128]⟩
abbrev S1x128 : Shape := ⟨2, ![1, 128]⟩
abbrev S_ : Shape := ⟨0, ![]⟩
abbrev S1x5 : Shape := ⟨2, ![1, 5]⟩
abbrev S5 : Shape := ⟨1, ![5]⟩
abbrev S1 : Shape := ⟨1, ![1]⟩
abbrev S10000x40 : Shape := ⟨2, ![10000, 40]⟩
abbrev S1x40 : Shape := ⟨2, ![1, 40]⟩

abbrev nBuf : Space → Nat
  | .hbm => 162
  | .vmem => 0
  | .smem => 0
  | _ => 0

abbrev hbmTy0_0 (i : Nat) : BufTy := match i % 128 with
  | 0 => ⟨S10000x256, .f32⟩
  | 1 => ⟨S10000x10000, .f32⟩
  | 2 => ⟨S256x128, .f32⟩
  | 3 => ⟨S128, .f32⟩
  | 4 => ⟨S128x128, .f32⟩
  | 5 => ⟨S128, .f32⟩
  | 6 => ⟨S2x5, .f32⟩
  | 7 => ⟨S128x40, .f32⟩
  | 8 => ⟨S40, .f32⟩
  | 9 => ⟨S10000x128, .f32⟩
  | 10 => ⟨S1x128, .f32⟩
  | 11 => ⟨S10000x128, .f32⟩
  | 12 => ⟨S10000x128, .f32⟩
  | 13 => ⟨S_, .f32⟩
  | 14 => ⟨S10000x128, .f32⟩
  | 15 => ⟨S10000x128, .f32⟩
  | 16 => ⟨S10000x128, .f32⟩
  | 17 => ⟨S1x128, .f32⟩
  | 18 => ⟨S10000x128, .f32⟩
  | 19 => ⟨S10000x128, .f32⟩
  | 20 => ⟨S1x5, .f32⟩
  | 21 => ⟨S5, .f32⟩
  | 22 => ⟨S_, .f32⟩
  | 23 => ⟨S10000x128, .f32⟩
  | 24 => ⟨S10000x128, .f32⟩
  | 25 => ⟨S10000x128, .f32⟩
  | 26 => ⟨S10000x128, .f32⟩
  | 27 => ⟨S_, .f32⟩
  | 28 => ⟨S10000x128, .f32⟩
  | 29 => ⟨S10000x128, .f32⟩
  | 30 => ⟨S10000x128, .f32⟩
  | 31 => ⟨S10000x128, .f32⟩
  | 32 => ⟨S_, .f32⟩
  | 33 => ⟨S10000x128, .f32⟩
  | 34 => ⟨S10000x128, .f32⟩
  | 35 => ⟨S10000x128, .f32⟩
  | 36 => ⟨S10000x128, .f32⟩
  | 37 => ⟨S_, .f32⟩
  | 38 => ⟨S10000x128, .f32⟩
  | 39 => ⟨S10000x128, .f32⟩
  | 40 => ⟨S10000x128, .f32⟩
  | 41 => ⟨S10000x128, .f32⟩
  | 42 => ⟨S1, .f32⟩
  | 43 => ⟨S_, .f32⟩
  | 44 => ⟨S_, .f32⟩
  | 45 => ⟨S_, .f32⟩
  | 46 => ⟨S10000x128, .f32⟩
  | 47 => ⟨S10000x128, .f32⟩
  | 48 => ⟨S10000x128, .f32⟩
  | 49 => ⟨S1, .f32⟩
  | 50 => ⟨S_, .f32⟩
  | 51 => ⟨S_, .f32⟩
  | 52 => ⟨S_, .f32⟩
  | 53 => ⟨S10000x128, .f32⟩
  | 54 => ⟨S10000x128, .f32⟩
  | 55 => ⟨S10000x128, .f32⟩
  | 56 => ⟨S10000x128, .f32⟩
  | 57 => ⟨S10000x128, .f32⟩
  | 58 => ⟨S1, .f32⟩
  | 59 => ⟨S_, .f32⟩
  | 60 => ⟨S_, .f32⟩
  | 61 => ⟨S_, .f32⟩
  | 62 => ⟨S10000x128, .f32⟩
  | 63 => ⟨S10000x128, .f32⟩
  | 64 => ⟨S10000x128, .f32⟩
  | 65 => ⟨S10000x128, .f32⟩
  | 66 => ⟨S10000x128, .f32⟩
  | 67 => ⟨S10000x128, .f32⟩
  | 68 => ⟨S1, .f32⟩
  | 69 => ⟨S_, .f32⟩
  | 70 => ⟨S_, .f32⟩
  | 71 => ⟨S_, .f32⟩
  | 72 => ⟨S10000x128, .f32⟩
  | 73 => ⟨S10000x128, .f32⟩
  | 74 => ⟨S10000x128, .f32⟩
  | 75 => ⟨S10000x128, .f32⟩
  | 76 => ⟨S10000x128, .f32⟩
  | 77 => ⟨S10000x128, .f32⟩
  | 78 => ⟨S10000x128, .f32⟩
  | 79 => ⟨S1, .f32⟩
  | 80 => ⟨S_, .f32⟩
  | 81 => ⟨S_, .f32⟩
  | 82 => ⟨S_, .f32⟩
  | 83 => ⟨S10000x128, .f32⟩
  | 84 => ⟨S10000x128, .f32⟩
  | 85 => ⟨S10000x128, .f32⟩
  | 86 => ⟨S_, .f32⟩
  | 87 => ⟨S10000x128, .f32⟩
  | 88 => ⟨S10000x128, .f32⟩
  | 89 => ⟨S1x5, .f32⟩
  | 90 => ⟨S5, .f32⟩
  | 91 => ⟨S_, .f32⟩
  | 92 => ⟨S10000x128, .f32⟩
  | 93 => ⟨S10000x128, .f32⟩
  | 94 => ⟨S10000x128, .f32⟩
  | 95 => ⟨S10000x128, .f32⟩
  | 96 => ⟨S_, .f32⟩
  | 97 => ⟨S10000x128, .f32⟩
  | 98 => ⟨S10000x128, .f32⟩
  | 99 => ⟨S10000x128, .f32⟩
  | 100 => ⟨S10000x128, .f32⟩
  | 101 => ⟨S_, .f32⟩
  | 102 => ⟨S10000x128, .f32⟩
  | 103 => ⟨S10000x128, .f32⟩
  | 104 => ⟨S10000x128, .f32⟩
  | 105 => ⟨S10000x128, .f32⟩
  | 106 => ⟨S_, .f32⟩
  | 107 => ⟨S10000x128, .f32⟩
  | 108 => ⟨S10000x128, .f32⟩
  | 109 => ⟨S10000x128, .f32⟩
  | 110 => ⟨S10000x128, .f32⟩
  | 111 => ⟨S1, .f32⟩
  | 112 => ⟨S_, .f32⟩
  | 113 => ⟨S_, .f32⟩
  | 114 => ⟨S_, .f32⟩
  | 115 => ⟨S10000x128, .f32⟩
  | 116 => ⟨S10000x128, .f32⟩
  | 117 => ⟨S10000x128, .f32⟩
  | 118 => ⟨S1, .f32⟩
  | 119 => ⟨S_, .f32⟩
  | 120 => ⟨S_, .f32⟩
  | 121 => ⟨S_, .f32⟩
  | 122 => ⟨S10000x128, .f32⟩
  | 123 => ⟨S10000x128, .f32⟩
  | 124 => ⟨S10000x128, .f32⟩
  | 125 => ⟨S10000x128, .f32⟩
  | 126 => ⟨S10000x128, .f32⟩
  | 127 => ⟨S1, .f32⟩
  | _ => ⟨S10000x256, .f32⟩

abbrev hbmTy0_1 (i : Nat) : BufTy := match i % 128 with
  | 0 => ⟨S_, .f32⟩
  | 1 => ⟨S_, .f32⟩
  | 2 => ⟨S_, .f32⟩
  | 3 => ⟨S10000x128, .f32⟩
  | 4 => ⟨S10000x128, .f32⟩
  | 5 => ⟨S10000x128, .f32⟩
  | 6 => ⟨S10000x128, .f32⟩
  | 7 => ⟨S10000x128, .f32⟩
  | 8 => ⟨S10000x128, .f32⟩
  | 9 => ⟨S1, .f32⟩
  | 10 => ⟨S_, .f32⟩
  | 11 => ⟨S_, .f32⟩
  | 12 => ⟨S_, .f32⟩
  | 13 => ⟨S10000x128, .f32⟩
  | 14 => ⟨S10000x128, .f32⟩
  | 15 => ⟨S10000x128, .f32⟩
  | 16 => ⟨S10000x128, .f32⟩
  | 17 => ⟨S10000x128, .f32⟩
  | 18 => ⟨S10000x128, .f32⟩
  | 19 => ⟨S10000x128, .f32⟩
  | 20 => ⟨S1, .f32⟩
  | 21 => ⟨S_, .f32⟩
  | 22 => ⟨S_, .f32⟩
  | 23 => ⟨S_, .f32⟩
  | 24 => ⟨S10000x128, .f32⟩
  | 25 => ⟨S10000x128, .f32⟩
  | 26 => ⟨S10000x128, .f32⟩
  | 27 => ⟨S_, .f32⟩
  | 28 => ⟨S10000x128, .f32⟩
  | 29 => ⟨S10000x128, .f32⟩
  | 30 => ⟨S10000x40, .f32⟩
  | 31 => ⟨S1x40, .f32⟩
  | 32 => ⟨S10000x40, .f32⟩
  | 33 => ⟨S10000x40, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_9 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_10 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_12 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_13 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_14 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_15 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_16 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_17 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_cst_18 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_cst_19 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  slices_S2x5_S1x5_0_0 : S2x5.Slices ![0, 0] S1x5
  shapeCasts_S1x5_S5 : S1x5.ShapeCasts S5
  slices_S5_S1_0 : S5.Slices ![0] S1
  shapeCasts_S1_S_ : S1.ShapeCasts S_
  slices_S5_S1_1 : S5.Slices ![1] S1
  slices_S5_S1_2 : S5.Slices ![2] S1
  slices_S5_S1_3 : S5.Slices ![3] S1
  slices_S5_S1_4 : S5.Slices ![4] S1
  slices_S2x5_S1x5_1_0 : S2x5.Slices ![1, 0] S1x5
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  dot_S10000x256_S256x128_S10000x128_1_0_0_1_n_n_wf : DotDims.WF S10000x256 S256x128 S10000x128 [1] [0] [0] [1] [] []
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x40_S10000x40_1_0_0_1_n_n_wf : DotDims.WF S10000x128 S128x40 S10000x40 [1] [0] [0] [1] [] []

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

class Facts : Prop extends Facts₀ where

variable [Facts]
-- ==== Proof.KRun.lean ====
/-
  The idealized kernel's run with its result buffer read: every weakly fair execution of @main terminates, nothing
  faulting, with the result array holding what the last boundary of the run holds there (`W25`: the fold of the host
  stretches and the ten regions' write-backs from the launch memory), and the nine arguments as launched.

  This is the frame's own run (the launch over the 25 segments) with one more buffer read off the final thread state:
  the final state holds every unscoped buffer at the last boundary's contents, the result buffer among them.
-/
import proofs.«116373_g1589137899740_cont_week2b_1182_8_alg».proof.Proof.FrameKI

set_option maxRecDepth 16384

noncomputable section

namespace Cert.KernelIdeal.KVal

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result buffer at the last boundary's contents and the arguments unchanged. -/
theorem run_val : θ_run defs (onTc (τ := τ) (main (F := F))) ⟨m, fun _ => 0, ρ⟩ (fun r => ∀ c : Dev nD,
      r.2.mem ((c.tc : Thread nD τ).loc main_v58) = W25 m ρ c (Proc.devRef .tc main_v58)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v58 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c)⟩)

end Cert.KernelIdeal.KVal

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.KDense0Pay.lean ====
/-
  The two-layer perceptron on one block of 400 rows, entry by entry, on the extended reals.

  The block's result is  max (x · W1 + b1, 0) · W2 + b2 : the 400 x 256 block x of inputs times the 256 x 128 weights
  W1, the one-row bias b1 added to every row, the maximum with 0 taken entry by entry, then the product with the
  128 x 128 weights W2 and the one-row bias b2 added to every row. Entry (p, q) is therefore
      (sum over k < 128 of  max ((sum over i < 256 of x (p, i) * W1 (i, k)) + b1 (0, k), 0) * W2 (k, q)) + b2 (0, q).
  Both products start from the all-zero block, so nothing but the sums is left of them; the casts of the bias rows to
  their own shape are identities; a broadcast bias row reads its own column whatever the row; the constant the maximum
  is taken with is the word of +0, which is 0.
-/
import proofs.«116373_g1589137899740_cont_week2b_1182_8_alg».proof.Proof.Gen.KernelIdeal.Skeleton
import proofs.«116373_g1589137899740_cont_week2b_1182_8_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.KVal

open Cert.KernelIdeal Cert.KernelIdeal.Gen Idealize.ShloMosaic Idealize.ShloMosaic.ValueIdx

/-- Entry (p, q) of the two-layer block: the hidden row p is max (x · W1 + b1, 0) entry by entry; the result is that
    row times column q of the second weights, plus entry q of the second bias row. -/
theorem pay0_apply (x0 : Vec Ideal S400x256 .f32) (x1 : Vec Ideal S256x128 .f32) (x2 : Vec Ideal S1x128 .f32)
    (x3 : Vec Ideal S128x128 .f32) (x4 : Vec Ideal S1x128 .f32) (p : Fin 400) (q : Fin 128) :
    (k0_pay1 (F := Ideal) x0 x1 x2 x3 x4 (ix2 p q) : EReal)
      = (∑ k : Fin 128,
            max ((∑ i : Fin 256, (x0 (ix2 p i) : EReal) * x1 (ix2 i k)) + x2 (ix2 (0 : Fin 1) k)) 0 * x3 (ix2 k q))
          + x4 (ix2 (0 : Fin 1) q) := by
  unfold k0_pay1
  simp only [shapeCast_self]
  refine (addf_apply _ _ (ix2 p q)).trans ?_
  refine congrArg₂ (· + ·) ?_ ?_
  · refine (Idealize.ShloMosaic.PlainDot.matmul_zero_apply dot_S400x128_S128x128_S400x128_1_0_0_1_n_n
      rfl rfl rfl rfl rfl rfl rfl rfl none _ x3 p q).trans ?_
    refine Finset.sum_congr rfl fun k _ => ?_
    refine congrArg (· * (x3 (ix2 k q) : EReal)) ?_
    refine (maximumf_apply _ _ (ix2 p k)).trans ?_
    refine congrArg₂ max ?_ ?_
    · refine (addf_apply _ _ (ix2 p k)).trans ?_
      refine congrArg₂ (· + ·) ?_ ?_
      · exact Idealize.ShloMosaic.PlainDot.matmul_zero_apply dot_S400x256_S256x128_S400x128_1_0_0_1_n_n
          rfl rfl rfl rfl rfl rfl rfl rfl none x0 x1 p k
      · exact broadcastTo_1b_ab_apply x2 broadcasts_S1x128_S400x128 p k
    · exact Ideal.ofBits_zero_f32
  · exact broadcastTo_1b_ab_apply x4 broadcasts_S1x128_S400x128 p q

end Cert.KernelIdeal.KVal

end
-- ==== Proof.KDense0.lean ====
/-
  The two-layer perceptron, from blocks to the whole array, on the extended reals.

  The grid has 25 points. Point t reads rows 400 t .. 400 t + 399 of the 10000 x 256 inputs x, the whole weights W1
  (256 x 128) and W2 (128 x 128) and the whole one-row biases b1 and b2, and writes rows 400 t .. 400 t + 399 of the
  10000 x 128 result. What it writes is max (x_t · W1 + b1, 0) · W2 + b2 on its block, and entry (p, q) of that block only
  reads row 400 t + p of x. So the block point t writes is the block of ONE function of the whole arrays,
      mlp0 x W1 b1 W2 b2 (r, q)
        = (sum over k < 128 of  max ((sum over l < 256 of x (r, l) * W1 (l, k)) + b1 (0, k), 0) * W2 (k, q)) + b2 (0, q),
  and since row r lies in the block of point r / 400, the 25 blocks fill the array: after the region the result array is
  mlp0 of the arrays the region found.
-/
import proofs.«116373_g1589137899740_cont_week2b_1182_8_alg».proof.Proof.FrameKI
import proofs.«116373_g1589137899740_cont_week2b_1182_8_alg».proof.Proof.KDense0Pay

set_option maxRecDepth 16384

noncomputable section

namespace Cert.KernelIdeal.KVal

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

/-- The two-layer perceptron as a function of whole arrays: the hidden row (j 0) is max (x · W1 + b1, 0) entry by entry;
    the result is that row times column (j 1) of the second weights, plus entry (j 1) of the second bias row. -/
abbrev mlp0 (X : FVec Ideal S10000x256 .f32) (W1 : FVec Ideal S256x128 .f32) (B1 : FVec Ideal S1x128 .f32)
    (W2 : FVec Ideal S128x128 .f32) (B2 : FVec Ideal S1x128 .f32) : FVec Ideal S10000x128 .f32 :=
  fun j => ((∑ k : Fin 128,
      max ((∑ i : Fin 256, (X (ix2 (j 0) i) : EReal) * W1 (ix2 i k)) + B1 (ix2 (0 : Fin 1) k)) 0 * W2 (ix2 k (j 1)))
        + B2 (ix2 (0 : Fin 1) (j 1)) : EReal)

variable (V : (c : Dev nD) → (b : Ref sig .tc) → Buf (Elt Ideal) ((c : Thread nD τ).loc b))

theorem hz0 : (![0, 0] : Fin 2 → Nat) = fun _ => 0 := funext fun a => by fin_cases a <;> rfl

/-- The block indices of the six windows at every grid point: the row blocks of the inputs and of the result are the
    point's number, every other block index is 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block of the inputs is row 400 t + p of the array. -/
theorem iblk0_0_apply (c : Dev nD) (t : Fin cfg0.N) (p : Fin 400) (l : Fin 256) (i : S10000x256.Idx)
    (h0 : (i 0).val = 400 * t.val + p.val) (h1 : (i 1).val = l.val) :
    (iblk0 V c 0 t : Vec Ideal S400x256 .f32) (ix2 p l) = (V c main_arg0 : S10000x256.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 400 + 1 * p.val = (i 0).val; rw [e0, h0]; omega
  | ⟨1, _⟩ => show win0_0.index t 1 * 256 + 1 * l.val = (i 1).val; rw [e1, h1]; omega

/-- The first weights' one block is the whole array. -/
theorem iblk0_1_apply (c : Dev nD) (t : Fin cfg0.N) (l : Fin 256) (k : Fin 128) (i : S256x128.Idx)
    (h0 : (i 0).val = l.val) (h1 : (i 1).val = k.val) :
    (iblk0 V c 1 t : Vec Ideal S256x128 .f32) (ix2 l k) = (V c main_arg2 : S256x128.Idx → EReal) i := by
  obtain ⟨-, -, e0, e1, -⟩ := idx_facts0 t
  unfold iblk0
  rw [View.read_apply]
  show V c main_arg2 _ = V c main_arg2 _
  congr 1
  funext a
  apply Fin.ext
  match a with
  | ⟨0, _⟩ => show win0_1.index t 0 * 256 + 1 * l.val = (i 0).val; rw [e0, h0]; omega
  | ⟨1, _⟩ => show win0_1.index t 1 * 128 + 1 * k.val = (i 1).val; rw [e1, h1]; omega

/-- The first bias row's one block is the whole array. -/
theorem iblk0_2_apply (c : Dev nD) (t : Fin cfg0.N) (k : Fin 128) (i : S1x128.Idx) (h1 : (i 1).val = k.val) :
    (iblk0 V c 2 t : Vec Ideal S1x128 .f32) (ix2 (0 : Fin 1) k) = (V c main_v3 : S1x128.Idx → EReal) i := by
  obtain ⟨-, -, -, -, e0, e1, -⟩ := idx_facts0 t
  have hi0 : (i 0).val < 1 := (i 0).isLt
  unfold iblk0
  rw [View.read_apply]
  show V c main_v3 _ = V c main_v3 _
  congr 1
  funext a
  apply Fin.ext
  match a with
  | ⟨0, _⟩ => show win0_2.index t 0 * 1 + 1 * 0 = (i 0).val; rw [e0]; omega
  | ⟨1, _⟩ => show win0_2.index t 1 * 128 + 1 * k.val = (i 1).val; rw [e1, h1]; omega

/-- The second weights' one block is the whole array. -/
theorem iblk0_3_apply (c : Dev nD) (t : Fin cfg0.N) (k : Fin 128) (q : Fin 128) (i : S128x128.Idx)
    (h0 : (i 0).val = k.val) (h1 : (i 1).val = q.val) :
    (iblk0 V c 3 t : Vec Ideal S128x128 .f32) (ix2 k q) = (V c main_arg4 : S128x128.Idx → EReal) i := by
  obtain ⟨-, -, -, -, -, -, e0, e1, -⟩ := idx_facts0 t
  unfold iblk0
  rw [View.read_apply]
  show V c main_arg4 _ = V c main_arg4 _
  congr 1
  funext a
  apply Fin.ext
  match a with
  | ⟨0, _⟩ => show win0_3.index t 0 * 128 + 1 * k.val = (i 0).val; rw [e0, h0]; omega
  | ⟨1, _⟩ => show win0_3.index t 1 * 128 + 1 * q.val = (i 1).val; rw [e1, h1]; omega

/-- The second bias row's one block is the whole array. -/
theorem iblk0_4_apply (c : Dev nD) (t : Fin cfg0.N) (q : Fin 128) (i : S1x128.Idx) (h1 : (i 1).val = q.val) :
    (iblk0 V c 4 t : Vec Ideal S1x128 .f32) (ix2 (0 : Fin 1) q) = (V c main_v4 : S1x128.Idx → EReal) i := by
  obtain ⟨-, -, -, -, -, -, -, -, e0, e1, -⟩ := idx_facts0 t
  have hi0 : (i 0).val < 1 := (i 0).isLt
  unfold iblk0
  rw [View.read_apply]
  show V c main_v4 _ = V c main_v4 _
  congr 1
  funext a
  apply Fin.ext
  match a with
  | ⟨0, _⟩ => show win0_4.index t 0 * 1 + 1 * 0 = (i 0).val; rw [e0]; omega
  | ⟨1, _⟩ => show win0_4.index t 1 * 128 + 1 * q.val = (i 1).val; rw [e1, h1]; omega

/-- What point t writes back is block t of the perceptron of the whole arrays: entry (p, q) of the block is entry
    (400 t + p, q) of the array, and reads row 400 t + p of the inputs, the whole first weights and bias row, column q of
    the second weights and of the second bias row. -/
theorem flushed0_5_eq (c : Dev nD) (t : Fin cfg0.N) :
    (dat0 V c).flushed 5 t
      = ((cfg0.win 5).blk t).view.read (Elt Ideal)
          (mlp0 (V c main_arg0) (V c main_arg2) (V c main_v3) (V c main_arg4) (V c main_v4)) := by
  show (cfg0.win 5).cut (grid0.coords t) ((dat0 V c).after 5 t) = _
  rw [after0_5]
  unfold out0_5
  rw [View.canon_unit_zero hz0]
  simp only [View.ld_unit_zero (S := S400x256) hz0, View.ld_unit_zero (S := S256x128) hz0,
    View.ld_unit_zero (S := S128x128) hz0, View.ld_unit_zero (S := S1x128) hz0]
  obtain ⟨-, -, -, -, -, -, -, -, -, -, e0, e1⟩ := idx_facts0 t
  have key : ∀ (p : Fin 400) (q : Fin 128),
      (k0_pay1 (F := Ideal) (iblk0 V c 0 t) (iblk0 V c 1 t) (iblk0 V c 2 t) (iblk0 V c 3 t) (iblk0 V c 4 t) (ix2 p q) : EReal)
        = mlp0 (V c main_arg0) (V c main_arg2) (V c main_v3) (V c main_arg4) (V c main_v4)
            (((cfg0.win 5).blk t).view.emb (ix2 p q)) := by
    intro p q
    refine (pay0_apply (iblk0 V c 0 t) (iblk0 V c 1 t) (iblk0 V c 2 t) (iblk0 V c 3 t) (iblk0 V c 4 t) p q).trans ?_
    refine congrArg₂ (· + ·) (Finset.sum_congr rfl fun k _ => congrArg₂ (· * ·) (congrArg₂ max
      (congrArg₂ (· + ·) (Finset.sum_congr rfl fun l _ => congrArg₂ (· * ·) ?_ ?_) ?_) rfl) ?_) ?_
    · refine iblk0_0_apply V c t p l _ ?_ rfl
      show win0_5.index t 0 * 400 + 1 * p.val = 400 * t.val + p.val
      rw [e0]; omega
    · exact iblk0_1_apply V c t l k _ rfl rfl
    · exact iblk0_2_apply V c t k _ rfl
    · refine iblk0_3_apply V c t k q _ rfl ?_
      show win0_5.index t 1 * 128 + 1 * q.val = q.val
      rw [e1]; omega
    · refine iblk0_4_apply V c t q _ ?_
      show win0_5.index t 1 * 128 + 1 * q.val = q.val
      rw [e1]; omega
  funext j
  obtain ⟨p, q, rfl⟩ : ∃ (p : Fin 400) (q : Fin 128), j = ix2 p q := ⟨j 0, j 1, eq_ix2 j⟩
  exact key p q

/-- An index of the result array is in point t's block iff each coordinate is in the block's range on its axis. -/
theorem mem_blk0_5 (t : Fin cfg0.N) (i : S10000x128.Idx) :
    i ∈ ((cfg0.win 5).blk t).view.set ↔ ∀ a : Fin 2, win0_5.index t a * S400x128.size a ≤ (i a).val
      ∧ (i a).val < win0_5.index t a * S400x128.size a + S400x128.size a := by
  show i ∈ ((View.whole main_v5).slice (win0_5.rect t)).set ↔ _
  rw [View.set_slice_whole, Rect.mem_set_unit]
  exact Iff.rfl

/-- Row r of the result lies in the block of point r / 400: the 25 blocks fill the array. -/
theorem cover0_5_arr (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : grid0.N = 25 := N_0
  obtain ⟨t, ht⟩ : ∃ t : Fin cfg0.N, t.val = (i 0).val / 400 :=
    ⟨⟨(i 0).val / 400, by show _ < grid0.N; omega⟩, rfl⟩
  obtain ⟨-, -, -, -, -, -, -, -, -, -, e0, e1⟩ := idx_facts0 t
  refine ⟨t, flush0_5 t, ?_⟩
  rw [mem_blk0_5]
  intro a
  match a with
  | ⟨0, _⟩ =>
    show win0_5.index t 0 * 400 ≤ (i 0).val ∧ (i 0).val < win0_5.index t 0 * 400 + 400
    rw [e0, ht]; omega
  | ⟨1, _⟩ =>
    show win0_5.index t 1 * 128 ≤ (i 1).val ∧ (i 1).val < win0_5.index t 1 * 128 + 128
    rw [e1]; omega

/-- THE RESULT ARRAY after the region: the perceptron of the inputs, weights and bias rows the region found. -/
theorem final0_5 (c : Dev nD) :
    (dat0 V c).arrAt 5 cfg0.N = mlp0 (V c main_arg0) (V c main_arg2) (V c main_v3) (V c main_arg4) (V c main_v4) :=
  (dat0 V c).arrAt_eq_of_cover 5 (mlp0 (V c main_arg0) (V c main_arg2) (V c main_v3) (V c main_arg4) (V c main_v4))
    (fun t _ => flushed0_5_eq V c t) cover0_5_arr

/-- The same, index by index. -/
theorem final0_5_apply (c : Dev nD) (j : S10000x128.Idx) :
    ((dat0 V c).arrAt 5 cfg0.N : S10000x128.Idx → EReal) j
      = mlp0 (V c main_arg0) (V c main_arg2) (V c main_v3) (V c main_arg4) (V c main_v4) j :=
  congrFun (final0_5 V c) j

/-- The perceptron at row r and column q. -/
theorem mlp0_apply (X : FVec Ideal S10000x256 .f32) (W1 : FVec Ideal S256x128 .f32) (B1 : FVec Ideal S1x128 .f32)
    (W2 : FVec Ideal S128x128 .f32) (B2 : FVec Ideal S1x128 .f32) (r : Fin 10000) (q : Fin 128) :
    mlp0 X W1 B1 W2 B2 (ix2 r q)
      = (∑ k : Fin 128,
            max ((∑ i : Fin 256, (X (ix2 r i) : EReal) * W1 (ix2 i k)) + B1 (ix2 (0 : Fin 1) k)) 0 * W2 (ix2 k q))
          + B2 (ix2 (0 : Fin 1) q) := rfl

end Cert.KernelIdeal.KVal

end
-- ==== Proof.KDense9Pay.lean ====
/-
  The read-out layer on one block of 400 rows, entry by entry, on the extended reals.

  The block's result is  h · W + b : the 400 x 128 block h of node features times the 128 x 128 weights W, with the
  one-row bias b added to every row. Entry (p, q) is therefore
      (sum over k < 128 of h (p, k) * W (k, q)) + b (0, q).
  The product starts from the all-zero block, so nothing but the sum is left of it; the casts of the operands to
  their own shapes are identities; the broadcast of the bias row reads its column q whatever the row p.
-/
import proofs.«116373_g1589137899740_cont_week2b_1182_8_alg».proof.Proof.Gen.KernelIdeal.Skeleton
import proofs.«116373_g1589137899740_cont_week2b_1182_8_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.KVal

open Cert.KernelIdeal Cert.KernelIdeal.Gen Idealize.ShloMosaic Idealize.ShloMosaic.ValueIdx

/-- Entry (p, q) of the read-out block: row p of the block times column q of the weights, plus entry q of the bias row. -/
theorem pay9_apply (x0 : Vec Ideal S400x128 .f32) (x1 : Vec Ideal S128x128 .f32) (x2 : Vec Ideal S1x128 .f32)
    (p : Fin 400) (q : Fin 128) :
    (k9_pay1 (F := Ideal) x0 x1 x2 (ix2 p q) : EReal)
      = (∑ k : Fin 128, (x0 (ix2 p k) : EReal) * x1 (ix2 k q)) + x2 (ix2 (0 : Fin 1) q) := by
  unfold k9_pay1
  simp only [shapeCast_self]
  refine (addf_apply _ _ (ix2 p q)).trans ?_
  refine congrArg₂ (· + ·) ?_ ?_
  · exact Idealize.ShloMosaic.PlainDot.matmul_zero_apply dot_S400x128_S128x128_S400x128_1_0_0_1_n_n
      rfl rfl rfl rfl rfl rfl rfl rfl none x0 x1 p q
  · exact broadcastTo_1b_ab_apply x2 broadcasts_S1x128_S400x128 p q

end Cert.KernelIdeal.KVal

end
-- ==== Proof.KDense9.lean ====
/-
  The read-out layer, from blocks to the whole array, on the extended reals.

  The grid has 25 points. Point t reads rows 400 t .. 400 t + 399 of the 10000 x 128 node features h, the whole 128 x 128
  weights W and the whole one-row bias b, and writes rows 400 t .. 400 t + 399 of the 10000 x 128 result. What it writes
  is h_t · W + b on its block, and entry (p, q) of that block only reads row 400 t + p of h. So the block point t writes
  is the block of ONE function of the whole arrays,
      readout9 h W b (r, q) = (sum over k < 128 of h (r, k) * W (k, q)) + b (0, q),
  and since row r lies in the block of point r / 400, the 25 blocks fill the array: after the region the result array is
  readout9 of the arrays the region found.
-/
import proofs.«116373_g1589137899740_cont_week2b_1182_8_alg».proof.Proof.FrameKI
import proofs.«116373_g1589137899740_cont_week2b_1182_8_alg».proof.Proof.KDense9Pay

set_option maxRecDepth 16384

noncomputable section

namespace Cert.KernelIdeal.KVal

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

/-- The read-out as a function of whole arrays: row (j 0) of the features times column (j 1) of the weights, plus entry
    (j 1) of the bias row. -/
abbrev readout9 (H : FVec Ideal S10000x128 .f32) (W : FVec Ideal S128x128 .f32) (B : FVec Ideal S1x128 .f32) :
    FVec Ideal S10000x128 .f32 :=
  fun j => ((∑ k : Fin 128, (H (ix2 (j 0) k) : EReal) * W (ix2 k (j 1))) + B (ix2 (0 : Fin 1) (j 1)) : EReal)

variable (V : (c : Dev nD) → (b : Ref sig .tc) → Buf (Elt Ideal) ((c : Thread nD τ).loc b))

theorem hz9 : (![0, 0] : Fin 2 → Nat) = fun _ => 0 := funext fun a => by fin_cases a <;> rfl

/-- The block indices of the four windows at every grid point: the row blocks of the features and of the result are
    the point's number, every other block index is 0. -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- Row p of point t's block of the features is row 400 t + p of the array. -/
theorem iblk9_0_apply (c : Dev nD) (t : Fin cfg9.N) (p : Fin 400) (k : Fin 128) (i : S10000x128.Idx)
    (h0 : (i 0).val = 400 * t.val + p.val) (h1 : (i 1).val = k.val) :
    (iblk9 V c 0 t : Vec Ideal S400x128 .f32) (ix2 p k) = (V c main_v53_1 : S10000x128.Idx → EReal) i := by
  obtain ⟨e0, e1, -⟩ := idx_facts9 t
  unfold iblk9
  rw [View.read_apply]
  show V c main_v53_1 _ = V c main_v53_1 _
  congr 1
  funext a
  apply Fin.ext
  match a with
  | ⟨0, _⟩ => show win9_0.index t 0 * 400 + 1 * p.val = (i 0).val; rw [e0, h0]; omega
  | ⟨1, _⟩ => show win9_0.index t 1 * 128 + 1 * k.val = (i 1).val; rw [e1, h1]; omega

/-- The weights' one block is the whole array. -/
theorem iblk9_1_apply (c : Dev nD) (t : Fin cfg9.N) (k : Fin 128) (q : Fin 128) (i : S128x128.Idx)
    (h0 : (i 0).val = k.val) (h1 : (i 1).val = q.val) :
    (iblk9 V c 1 t : Vec Ideal S128x128 .f32) (ix2 k q) = (V c main_v54 : S128x128.Idx → EReal) i := by
  obtain ⟨-, -, e0, e1, -⟩ := idx_facts9 t
  unfold iblk9
  rw [View.read_apply]
  show V c main_v54 _ = V c main_v54 _
  congr 1
  funext a
  apply Fin.ext
  match a with
  | ⟨0, _⟩ => show win9_1.index t 0 * 128 + 1 * k.val = (i 0).val; rw [e0, h0]; omega
  | ⟨1, _⟩ => show win9_1.index t 1 * 128 + 1 * q.val = (i 1).val; rw [e1, h1]; omega

/-- The bias row's one block is the whole array. -/
theorem iblk9_2_apply (c : Dev nD) (t : Fin cfg9.N) (q : Fin 128) (i : S1x128.Idx) (h1 : (i 1).val = q.val) :
    (iblk9 V c 2 t : Vec Ideal S1x128 .f32) (ix2 (0 : Fin 1) q) = (V c main_v56 : S1x128.Idx → EReal) i := by
  obtain ⟨-, -, -, -, e0, e1, -⟩ := idx_facts9 t
  have hi0 : (i 0).val < 1 := (i 0).isLt
  unfold iblk9
  rw [View.read_apply]
  show V c main_v56 _ = V c main_v56 _
  congr 1
  funext a
  apply Fin.ext
  match a with
  | ⟨0, _⟩ => show win9_2.index t 0 * 1 + 1 * 0 = (i 0).val; rw [e0]; omega
  | ⟨1, _⟩ => show win9_2.index t 1 * 128 + 1 * q.val = (i 1).val; rw [e1, h1]; omega

/-- What point t writes back is block t of the read-out of the whole arrays: entry (p, q) of the block is entry
    (400 t + p, q) of the array, and reads row 400 t + p of the features, column q of the weights and of the bias row. -/
theorem flushed9_3_eq (c : Dev nD) (t : Fin cfg9.N) :
    (dat9 V c).flushed 3 t
      = ((cfg9.win 3).blk t).view.read (Elt Ideal) (readout9 (V c main_v53_1) (V c main_v54) (V c main_v56)) := by
  show (cfg9.win 3).cut (grid9.coords t) ((dat9 V c).after 3 t) = _
  rw [after9_3]
  unfold out9_3
  rw [View.canon_unit_zero hz9]
  simp only [View.ld_unit_zero (S := S400x128) hz9, View.ld_unit_zero (S := S128x128) hz9,
    View.ld_unit_zero (S := S1x128) hz9]
  obtain ⟨-, -, -, -, -, -, e0, e1⟩ := idx_facts9 t
  have key : ∀ (p : Fin 400) (q : Fin 128),
      (k9_pay1 (F := Ideal) (iblk9 V c 0 t) (iblk9 V c 1 t) (iblk9 V c 2 t) (ix2 p q) : EReal)
        = readout9 (V c main_v53_1) (V c main_v54) (V c main_v56) (((cfg9.win 3).blk t).view.emb (ix2 p q)) := by
    intro p q
    refine (pay9_apply (iblk9 V c 0 t) (iblk9 V c 1 t) (iblk9 V c 2 t) p q).trans ?_
    refine congrArg₂ (· + ·) (Finset.sum_congr rfl fun k _ => congrArg₂ (· * ·) ?_ ?_) ?_
    · refine iblk9_0_apply V c t p k _ ?_ rfl
      show win9_3.index t 0 * 400 + 1 * p.val = 400 * t.val + p.val
      rw [e0]; omega
    · refine iblk9_1_apply V c t k q _ rfl ?_
      show win9_3.index t 1 * 128 + 1 * q.val = q.val
      rw [e1]; omega
    · refine iblk9_2_apply V c t q _ ?_
      show win9_3.index t 1 * 128 + 1 * q.val = q.val
      rw [e1]; omega
  funext j
  obtain ⟨p, q, rfl⟩ : ∃ (p : Fin 400) (q : Fin 128), j = ix2 p q := ⟨j 0, j 1, eq_ix2 j⟩
  exact key p q

/-- An index of the result array is in point t's block iff each coordinate is in the block's range on its axis. -/
theorem mem_blk9_3 (t : Fin cfg9.N) (i : S10000x128.Idx) :
    i ∈ ((cfg9.win 3).blk t).view.set ↔ ∀ a : Fin 2, win9_3.index t a * S400x128.size a ≤ (i a).val
      ∧ (i a).val < win9_3.index t a * S400x128.size a + S400x128.size a := by
  show i ∈ ((View.whole main_v57).slice (win9_3.rect t)).set ↔ _
  rw [View.set_slice_whole, Rect.mem_set_unit]
  exact Iff.rfl

/-- Row r of the result lies in the block of point r / 400: the 25 blocks fill the array. -/
theorem cover9_3_arr (i : S10000x128.Idx) :
    ∃ t : Fin cfg9.N, (cfg9.win 3).flush t = true ∧ i ∈ ((cfg9.win 3).blk t).view.set := by
  have hi0 : (i 0).val < 10000 := (i 0).isLt
  have hi1 : (i 1).val < 128 := (i 1).isLt
  have hN : grid9.N = 25 := N_9
  obtain ⟨t, ht⟩ : ∃ t : Fin cfg9.N, t.val = (i 0).val / 400 :=
    ⟨⟨(i 0).val / 400, by show _ < grid9.N; omega⟩, rfl⟩
  obtain ⟨-, -, -, -, -, -, e0, e1⟩ := idx_facts9 t
  refine ⟨t, flush9_3 t, ?_⟩
  rw [mem_blk9_3]
  intro a
  match a with
  | ⟨0, _⟩ =>
    show win9_3.index t 0 * 400 ≤ (i 0).val ∧ (i 0).val < win9_3.index t 0 * 400 + 400
    rw [e0, ht]; omega
  | ⟨1, _⟩ =>
    show win9_3.index t 1 * 128 ≤ (i 1).val ∧ (i 1).val < win9_3.index t 1 * 128 + 128
    rw [e1]; omega

/-- THE RESULT ARRAY after the region: the read-out of the features, the weights and the bias row the region found. -/
theorem final9_3 (c : Dev nD) :
    (dat9 V c).arrAt 3 cfg9.N = readout9 (V c main_v53_1) (V c main_v54) (V c main_v56) :=
  (dat9 V c).arrAt_eq_of_cover 3 (readout9 (V c main_v53_1) (V c main_v54) (V c main_v56))
    (fun t _ => flushed9_3_eq V c t) cover9_3_arr

/-- The same, index by index. -/
theorem final9_3_apply (c : Dev nD) (j : S10000x128.Idx) :
    ((dat9 V c).arrAt 3 cfg9.N : S10000x128.Idx → EReal) j
      = readout9 (V c main_v53_1) (V c main_v54) (V c main_v56) j :=
  congrFun (final9_3 V c) j

/-- The read-out at row r and column q. -/
theorem readout9_apply (H : FVec Ideal S10000x128 .f32) (W : FVec Ideal S128x128 .f32) (B : FVec Ideal S1x128 .f32)
    (r : Fin 10000) (q : Fin 128) :
    readout9 H W B (ix2 r q) = (∑ k : Fin 128, (H (ix2 r k) : EReal) * W (ix2 k q)) + B (ix2 (0 : Fin 1) q) := rfl

end Cert.KernelIdeal.KVal

end
-- ==== Proof.BernSpec.lean ====
/-
  The two polynomial forms of one spectral filter layer, over the reals, as matrix expressions.

  A layer takes a square matrix `L` (n × n), a feature matrix `h` (n × f) and five coefficients `t 0 … t 4`.

  * The BERNSTEIN form: with `B = 2·1 - L` applied as `B u = 2 • u - L * u`,
      relu ( (1/16·t 0) • B⁴h + (1/4·t 1) • L(B³h) + (3/8·t 2) • L²(B²h) + (1/4·t 3) • L³(Bh) + (1/16·t 4) • L⁴h ).
  * The MONOMIAL form: with the change-of-basis matrix `mono` (the Bernstein basis of degree 4 on [0,2] written in
    powers of λ), `c = mono · t`, and `L u` computed as `u + (L - 1) * u`,
      relu ( c 0 • h + c 1 • Lh + c 2 • L²h + c 3 • L³h + c 4 • L⁴h ).

  Both are `relu (p(L) h)` for the same polynomial `p(λ) = Σ_j t_j · C(4,j)/16 · (2-λ)^(4-j) · λ^j`: powers of one
  matrix commute, so expanding `(2-λ)^(4-j)` by the binomial theorem turns the first form into the second.
-/
import Mathlib.Data.Matrix.Mul
import Mathlib.LinearAlgebra.Matrix.Notation
import Mathlib.Data.Real.Basic
import Mathlib.Algebra.BigOperators.Fin
import Mathlib.Tactic.Ring
import Mathlib.Tactic.NoncommRing
import Mathlib.Tactic.NormNum
import Mathlib.Tactic.Abel
import Mathlib.Tactic.Module

noncomputable section

namespace Bern

open Matrix

variable {n f : Type} [Fintype n] [DecidableEq n] [Fintype f]

/-- Entrywise maximum with zero. -/
def relu {a b : Type} (A : Matrix a b ℝ) : Matrix a b ℝ := fun i j => max (A i j) 0

/-- One application of `2·1 - L`, as the reference computes it. -/
def bstep (L : Matrix n n ℝ) (u : Matrix n f ℝ) : Matrix n f ℝ := (2 : ℝ) • u - L * u

/-- One application of `L`, as the kernel computes it: `u + (L - 1) u`. -/
def kstep (L : Matrix n n ℝ) (u : Matrix n f ℝ) : Matrix n f ℝ := u + (L - 1) * u

/-- The Bernstein form before the final maximum. -/
def bernPre (L : Matrix n n ℝ) (h : Matrix n f ℝ) (t : Fin 5 → ℝ) : Matrix n f ℝ :=
  ((((((1 / 16 : ℝ) * t 0) • bstep L (bstep L (bstep L (bstep L h)))
    + ((1 / 4 : ℝ) * t 1) • (L * bstep L (bstep L (bstep L h))))
    + ((3 / 8 : ℝ) * t 2) • (L * (L * bstep L (bstep L h))))
    + ((1 / 4 : ℝ) * t 3) • (L * (L * (L * bstep L h))))
    + ((1 / 16 : ℝ) * t 4) • (L * (L * (L * (L * h)))))

/-- The Bernstein form of a layer. -/
def bernLayer (L : Matrix n n ℝ) (h : Matrix n f ℝ) (t : Fin 5 → ℝ) : Matrix n f ℝ := relu (bernPre L h t)

/-- The degree-4 Bernstein basis on [0,2] in powers of λ: column `j` holds the coefficients of
    `C(4,j)/16 · (2-λ)^(4-j) · λ^j`. -/
def mono : Matrix (Fin 5) (Fin 5) ℝ :=
  !![1, 0, 0, 0, 0;
     -2, 2, 0, 0, 0;
     3 / 2, -3, 3 / 2, 0, 0;
     -(1 / 2), 3 / 2, -(3 / 2), 1 / 2, 0;
     1 / 16, -(1 / 4), 3 / 8, -(1 / 4), 1 / 16]

/-- The monomial coefficients of the coefficients `t`: `mono · t`. -/
def coef (t : Fin 5 → ℝ) (k : Fin 5) : ℝ := ∑ j : Fin 5, mono k j * t j

/-- The monomial form before the final maximum. -/
def monoPre (L : Matrix n n ℝ) (h : Matrix n f ℝ) (t : Fin 5 → ℝ) : Matrix n f ℝ :=
  ((((coef t 0 • h + coef t 1 • kstep L h) + coef t 2 • kstep L (kstep L h))
    + coef t 3 • kstep L (kstep L (kstep L h))) + coef t 4 • kstep L (kstep L (kstep L (kstep L h))))

/-- The monomial form of a layer. -/
def monoLayer (L : Matrix n n ℝ) (h : Matrix n f ℝ) (t : Fin 5 → ℝ) : Matrix n f ℝ := relu (monoPre L h t)

end Bern

end
-- ==== Proof.LibDense.lean ====
/-
  The dense maps of a relational graph-convolution network, on the extended reals.

  A layer of the network sends a node-feature matrix x (one row per node) to
      x · W_root + b   and   x · W_rel[r]   for each relation r,
  and the read-out sends the pooled features to  pooled · W_lin + b_lin.  Entry (p, q) of a product x · w is the sum
  over k of x(p, k) · w(k, q); the bias b adds b(q) to every row; W_rel[r] is the r-th K x N slab of a 3 x K x N array.
  These are stated once here, over any sizes, as functions of whole arrays; nothing in them needs the entries to be
  finite (a sum of products is read the same way at the infinities).
-/
import Idealize.ShloMosaic.Lib.ValueIdx
import Idealize.ShloMosaic.Lib.Pipeline.Value
import Idealize.ShloMosaic.PureOps.Ideal

noncomputable section

namespace Cert.Rgcn

open Idealize.ShloMosaic Idealize.ShloMosaic.ValueIdx

/-- The matrix product x · w: entry (p, q) is the sum over k of x(p, k) · w(k, q). -/
def linear {M K N : Nat} (x : FVec Ideal ⟨2, ![M, K]⟩ .f32) (w : FVec Ideal ⟨2, ![K, N]⟩ .f32) :
    FVec Ideal ⟨2, ![M, N]⟩ .f32 :=
  fun j => (∑ k : Fin K, x (ix2 (j 0) k) * w (ix2 k (j 1)) : EReal)

/-- The affine map x · w + b: the product with b(q) added in column q of every row. -/
def affine {M K N : Nat} (x : FVec Ideal ⟨2, ![M, K]⟩ .f32) (w : FVec Ideal ⟨2, ![K, N]⟩ .f32)
    (b : FVec Ideal ⟨1, ![N]⟩ .f32) : FVec Ideal ⟨2, ![M, N]⟩ .f32 :=
  fun j => (linear x w j + b (ix1 (j 1)) : EReal)

/-- The r-th K x N slab of a 3 x K x N array of weights. -/
def slab {K N : Nat} (w3 : FVec Ideal ⟨3, ![3, K, N]⟩ .f32) (r : Fin 3) : FVec Ideal ⟨2, ![K, N]⟩ .f32 :=
  fun i => w3 (ix3 r (i 0) (i 1))

theorem linear_apply {M K N : Nat} (x : FVec Ideal ⟨2, ![M, K]⟩ .f32) (w : FVec Ideal ⟨2, ![K, N]⟩ .f32)
    (p : Fin M) (q : Fin N) : linear x w (ix2 p q) = ∑ k : Fin K, x (ix2 p k) * w (ix2 k q) := rfl

theorem affine_apply {M K N : Nat} (x : FVec Ideal ⟨2, ![M, K]⟩ .f32) (w : FVec Ideal ⟨2, ![K, N]⟩ .f32)
    (b : FVec Ideal ⟨1, ![N]⟩ .f32) (p : Fin M) (q : Fin N) :
    affine x w b (ix2 p q) = (∑ k : Fin K, x (ix2 p k) * w (ix2 k q)) + b (ix1 q) := rfl

theorem slab_apply {K N : Nat} (w3 : FVec Ideal ⟨3, ![3, K, N]⟩ .f32) (r : Fin 3) (k : Fin K) (q : Fin N) :
    slab w3 r (ix2 k q) = w3 (ix3 r k q) := rfl

/-- A length-n vector reshaped to one row [1, n] and repeated down the rows of an [a, n] block, read at (p, q),
    is its entry q. -/
theorem rowBlock_apply {α : Type} {a n : Nat} (b : (⟨1, ![n]⟩ : Shape).Idx → α)
    (h1 : (⟨1, ![n]⟩ : Shape).ShapeCasts ⟨2, ![1, n]⟩) (h2 : (⟨2, ![1, n]⟩ : Shape).Broadcasts ⟨2, ![a, n]⟩)
    (p : Fin a) (q : Fin n) :
    broadcastTo ⟨2, ![a, n]⟩ (shapeCast ⟨2, ![1, n]⟩ b h1) h2 (ix2 p q) = b (ix1 q) := by
  rw [broadcastTo_apply (shapeCast ⟨2, ![1, n]⟩ b h1) h2 (ix2 p q) (ix2 (0 : Fin 1) q) (fun ax => by
    match ax with
    | ⟨0, _⟩ => rfl
    | ⟨1, _⟩ =>
      show q.val = if n = 1 then 0 else q.val
      split
      · have := q.isLt; omega
      · rfl)]
  rw [shapeCast_addUnit_apply ![n] b h1 (ix2 (0 : Fin 1) q)]
  exact congrArg b (funext fun d => by match d with | ⟨0, _⟩ => rfl)

/-- Entry j of the affine map of a block of rows is entry i of the affine map of the whole arrays, whenever the block's
    row j reads the whole array's row i, the weights and the bias are read at the same columns. -/
theorem affine_block {M M' K N : Nat} (X : FVec Ideal ⟨2, ![M, K]⟩ .f32) (W : FVec Ideal ⟨2, ![K, N]⟩ .f32)
    (B : FVec Ideal ⟨1, ![N]⟩ .f32) (x' : FVec Ideal ⟨2, ![M', K]⟩ .f32) (w' : FVec Ideal ⟨2, ![K, N]⟩ .f32)
    (b' : FVec Ideal ⟨1, ![N]⟩ .f32) (j : (⟨2, ![M', N]⟩ : Shape).Idx) (i : (⟨2, ![M, N]⟩ : Shape).Idx)
    (hx : ∀ k : Fin K, x' (ix2 (j 0) k) = X (ix2 (i 0) k)) (hw : ∀ k : Fin K, w' (ix2 k (j 1)) = W (ix2 k (i 1)))
    (hb : b' (ix1 (j 1)) = B (ix1 (i 1))) : affine x' w' b' j = affine X W B i := by
  unfold affine linear
  rw [hb]
  exact congrArg (· + B (ix1 (i 1))) (Finset.sum_congr rfl fun k _ => by rw [hx k, hw k])

/-- The same for the product with the r-th slab of a stack of weight matrices. -/
theorem linear_slab_block {M M' K N : Nat} (X : FVec Ideal ⟨2, ![M, K]⟩ .f32) (W3 : FVec Ideal ⟨3, ![3, K, N]⟩ .f32)
    (x' : FVec Ideal ⟨2, ![M', K]⟩ .f32) (w3' : FVec Ideal ⟨3, ![3, K, N]⟩ .f32) (r : Fin 3)
    (j : (⟨2, ![M', N]⟩ : Shape).Idx) (i : (⟨2, ![M, N]⟩ : Shape).Idx)
    (hx : ∀ k : Fin K, x' (ix2 (j 0) k) = X (ix2 (i 0) k))
    (hw : ∀ k : Fin K, w3' (ix3 r k (j 1)) = W3 (ix3 r k (i 1))) :
    linear x' (slab w3' r) j = linear X (slab W3 r) i := by
  unfold linear slab
  exact Finset.sum_congr rfl fun k _ => by rw [hx k]; exact congrArg (X (ix2 (i 0) k) * ·) (hw k)

/-- Loading the 1 x K x N rectangle at offset (r, 0, 0) of a 3 x K x N block and dropping its unit axis gives the
    r-th slab. -/
theorem slabLoad_eq {K N : Nat} (w3 : Vec Ideal ⟨3, ![3, K, N]⟩ .f32) (r : Fin 3)
    (inb : ∀ a, (![r.val, 0, 0] : Fin 3 → Nat) a + (⟨3, ![1, K, N]⟩ : Shape).size a ≤ (⟨3, ![3, K, N]⟩ : Shape).size a)
    (h : (⟨3, ![1, K, N]⟩ : Shape).ShapeCasts ⟨2, ![K, N]⟩) :
    shapeCast ⟨2, ![K, N]⟩
      (View.ld (Val := Elt Ideal) (e' := .f32) w3
        (Rect.unit (s := ⟨3, ![3, K, N]⟩) ![r.val, 0, 0] (⟨3, ![1, K, N]⟩ : Shape).size inb)) h
      = slab w3 r := by
  funext i
  obtain ⟨k, q, rfl⟩ : ∃ (k : Fin K) (q : Fin N), i = ix2 k q := ⟨i 0, i 1, eq_ix2 i⟩
  rw [shapeCast_dropUnit_apply ![K, N] _ h (ix2 k q)]
  refine congrArg w3 (funext fun a => Fin.ext ?_)
  match a with
  | ⟨0, _⟩ => show r.val + 1 * 0 = r.val; omega
  | ⟨1, _⟩ => show 0 + 1 * k.val = k.val; omega
  | ⟨2, _⟩ => show 0 + 1 * q.val = q.val; omega

/-- Slicing rows r … r of the leading axis of a 3 x K x N array and reshaping away the unit axis gives the r-th slab. -/
theorem sliceSlab_eq {K N : Nat} (w3 : FVec Ideal ⟨3, ![3, K, N]⟩ .f32) (r : Fin 3)
    (hs : (⟨3, ![3, K, N]⟩ : Shape).Slices ![r.val, 0, 0] ⟨3, ![1, K, N]⟩)
    (hc : (⟨3, ![1, K, N]⟩ : Shape).ShapeCasts ⟨2, ![K, N]⟩) :
    shapeCast ⟨2, ![K, N]⟩ (extractStridedSlice ⟨3, ![1, K, N]⟩ ![r.val, 0, 0] w3 hs) hc = slab w3 r := by
  funext i
  obtain ⟨k, q, rfl⟩ : ∃ (k : Fin K) (q : Fin N), i = ix2 k q := ⟨i 0, i 1, eq_ix2 i⟩
  rw [shapeCast_dropUnit_apply ![K, N] _ hc (ix2 k q)]
  exact extractStridedSlice_apply ![r.val, 0, 0] w3 hs (Fin.cons ⟨0, Nat.one_pos⟩ (ix2 k q)) (ix3 r k q) (fun a => by
    match a with
    | ⟨0, _⟩ => show r.val = r.val + 0; omega
    | ⟨1, _⟩ => show k.val = 0 + k.val; omega
    | ⟨2, _⟩ => show q.val = 0 + q.val; omega)

end Cert.Rgcn

end
-- ==== Proof.BernNet.lean ====
/-
  The whole network over the reals, in both layer forms, and real matrices read as arrays of extended reals.

  The network is: a two-layer perceptron `h₀ = relu (x·W1 + b1)·W2 + b2`; two spectral filter layers
  `h₁ = layer L h₀ (θ row 0)`, `h₂ = layer L h₁ (θ row 1)`; and the read-out `h₂·W3 + b3`. With the Bernstein form
  of the layer it is the reference's function, with the monomial form the kernel's.

  An array of extended reals with real entries is the entrywise coercion `toE A` of a real matrix `A`; the bridges
  from the two programs to these real-level functions are stated through `toE`.
-/
import proofs.«116373_g1589137899740_cont_week2b_1182_8_alg».proof.Proof.BernSpec
import proofs.«116373_g1589137899740_cont_week2b_1182_8_alg».proof.Proof.LibDense

noncomputable section

namespace Bern

open Matrix Idealize.ShloMosaic Idealize.ShloMosaic.ValueIdx

/-- The row-constant matrix of a bias vector: entry (p, q) is `b q`. -/
def rowsOf {a : Type} {N : Nat} (b : Fin N → ℝ) : Matrix a (Fin N) ℝ := fun _ q => b q

/-- The perceptron `relu (x·W1 + b1)·W2 + b2`. -/
def mlp {n a b c : Nat} (x : Matrix (Fin n) (Fin a) ℝ) (W1 : Matrix (Fin a) (Fin b) ℝ) (b1 : Fin b → ℝ)
    (W2 : Matrix (Fin b) (Fin c) ℝ) (b2 : Fin c → ℝ) : Matrix (Fin n) (Fin c) ℝ :=
  relu (x * W1 + rowsOf b1) * W2 + rowsOf b2

/-- The network with Bernstein-form layers (the reference's function). -/
def netBern {n a b c d : Nat} (x : Matrix (Fin n) (Fin a) ℝ) (L : Matrix (Fin n) (Fin n) ℝ) (W1 : Matrix (Fin a) (Fin b) ℝ)
    (b1 : Fin b → ℝ) (W2 : Matrix (Fin b) (Fin c) ℝ) (b2 : Fin c → ℝ) (θ : Matrix (Fin 2) (Fin 5) ℝ)
    (W3 : Matrix (Fin c) (Fin d) ℝ) (b3 : Fin d → ℝ) : Matrix (Fin n) (Fin d) ℝ :=
  bernLayer L (bernLayer L (mlp x W1 b1 W2 b2) (θ 0)) (θ 1) * W3 + rowsOf b3

/-- The network with monomial-form layers (the kernel's function). -/
def netMono {n a b c d : Nat} (x : Matrix (Fin n) (Fin a) ℝ) (L : Matrix (Fin n) (Fin n) ℝ) (W1 : Matrix (Fin a) (Fin b) ℝ)
    (b1 : Fin b → ℝ) (W2 : Matrix (Fin b) (Fin c) ℝ) (b2 : Fin c → ℝ) (θ : Matrix (Fin 2) (Fin 5) ℝ)
    (W3 : Matrix (Fin c) (Fin d) ℝ) (b3 : Fin d → ℝ) : Matrix (Fin n) (Fin d) ℝ :=
  monoLayer L (monoLayer L (mlp x W1 b1 W2 b2) (θ 0)) (θ 1) * W3 + rowsOf b3

/-- A real matrix read as a rank-2 array of extended reals. -/
def toE {M N : Nat} (A : Matrix (Fin M) (Fin N) ℝ) : FVec Ideal ⟨2, ![M, N]⟩ .f32 :=
  fun j => ((A (j 0) (j 1) : ℝ) : EReal)

/-- A real vector read as a rank-1 array of extended reals. -/
def toE1 {N : Nat} (b : Fin N → ℝ) : FVec Ideal ⟨1, ![N]⟩ .f32 := fun j => ((b (j 0) : ℝ) : EReal)

/-- One application of `L` as the kernel computes it, on arrays of extended reals: entry (p, q) is
    `u(p, q) + Σ_k (L(p, k) - [p = k]) · u(k, q)`. -/
def kstepE {n f : Nat} (L : FVec Ideal ⟨2, ![n, n]⟩ .f32) (u : FVec Ideal ⟨2, ![n, f]⟩ .f32) : FVec Ideal ⟨2, ![n, f]⟩ .f32 :=
  fun j => (u j + ∑ k : Fin n, (L (ix2 (j 0) k) - (if (j 0).val = k.val then (1 : EReal) else 0)) * u (ix2 k (j 1)) : EReal)

theorem toE_apply {M N : Nat} (A : Matrix (Fin M) (Fin N) ℝ) (p : Fin M) (q : Fin N) :
    toE A (ix2 p q) = ((A p q : ℝ) : EReal) := rfl

theorem toE1_apply {N : Nat} (b : Fin N → ℝ) (q : Fin N) : toE1 b (ix1 q) = ((b q : ℝ) : EReal) := rfl

end Bern

end
-- ==== Proof.BernAlgebra.lean ====
/-
  The Bernstein form and the monomial form of one spectral filter layer are the same matrix.

  Write `v k` for `L` applied `k` times to `h` (so `v 0 = h`, `v 1 = L * h`, …, `v 4 = L * (L * (L * (L * h)))`).

  * `kstep_eq`: the update `u + (L - 1) * u` is `L * u`; multiplication distributes over the difference and
    `1 * u = u`, so the two copies of `u` cancel.
  * `monoPre_eq_bernPre`: both sides are real linear combinations of `v 0, …, v 4`.
      - On the monomial side each `kstep` is one multiplication by `L` (by `kstep_eq`), so the side is
        `Σ_k c k • v k` with `c = mono · t`; the five entries of `c` are written out in `coef_zero … coef_four`.
      - On the Bernstein side `2 • u - L * u` is applied up to four times and then `L` up to four times.  Left
        multiplication by `L` is linear (it passes through sums, differences and real multiples), so every
        nested term expands into the `v k`: applying `2 - L` a total of `m` times and `L` a total of `j` times
        gives `Σ_i C(m,i) 2^(m-i) (-1)^i • v (i+j)`, the binomial expansion of `(2-λ)^m λ^j` — legitimate
        because only powers of the single matrix `L` occur.
      Comparing the coefficient of each `v k` on the two sides is then an identity between polynomials of
      degree one in `t 0, …, t 4` with rational coefficients; it holds for `v 0, …, v 4` arbitrary.
  * `monoLayer_eq_bernLayer`: apply the entrywise maximum with zero to both sides of the previous identity.
-/
import proofs.«116373_g1589137899740_cont_week2b_1182_8_alg».proof.Proof.BernSpec

noncomputable section

namespace Bern

open Matrix

variable {n f : Type} [Fintype n] [DecidableEq n] [Fintype f]

/-- The update `u + (L - 1) * u` is just `L * u`. -/
theorem kstep_eq (L : Matrix n n ℝ) (u : Matrix n f ℝ) : kstep L u = L * u := by
  unfold kstep
  rw [Matrix.sub_mul, Matrix.one_mul]
  abel

/-- Row 0 of `mono · t`: the constant coefficient. -/
theorem coef_zero (t : Fin 5 → ℝ) : coef t 0 = t 0 := by
  simp [coef, mono, Fin.sum_univ_succ]

/-- Row 1 of `mono · t`: the coefficient of `λ`. -/
theorem coef_one (t : Fin 5 → ℝ) : coef t 1 = -2 * t 0 + 2 * t 1 := by
  simp [coef, mono, Fin.sum_univ_succ]

/-- Row 2 of `mono · t`: the coefficient of `λ²`. -/
theorem coef_two (t : Fin 5 → ℝ) : coef t 2 = 3 / 2 * t 0 - 3 * t 1 + 3 / 2 * t 2 := by
  simp [coef, mono, Fin.sum_univ_succ]
  ring

/-- Row 3 of `mono · t`: the coefficient of `λ³`. -/
theorem coef_three (t : Fin 5 → ℝ) :
    coef t 3 = -(1 / 2) * t 0 + 3 / 2 * t 1 - 3 / 2 * t 2 + 1 / 2 * t 3 := by
  simp [coef, mono, Fin.sum_univ_succ]
  ring

/-- Row 4 of `mono · t`: the coefficient of `λ⁴`. -/
theorem coef_four (t : Fin 5 → ℝ) :
    coef t 4 = 1 / 16 * t 0 - 1 / 4 * t 1 + 3 / 8 * t 2 - 1 / 4 * t 3 + 1 / 16 * t 4 := by
  simp [coef, mono, Fin.sum_univ_succ]
  ring

/-- Before the final maximum, the monomial form equals the Bernstein form. -/
theorem monoPre_eq_bernPre (L : Matrix n n ℝ) (h : Matrix n f ℝ) (t : Fin 5 → ℝ) :
    monoPre L h t = bernPre L h t := by
  unfold monoPre bernPre
  -- every `kstep` becomes a product by `L`; `L * ·` is pushed through `2 • u - L * u`; `mono · t` is written out
  simp only [kstep_eq, bstep, Matrix.mul_sub, Matrix.mul_smul, coef_zero, coef_one, coef_two,
    coef_three, coef_four]
  -- both sides are now combinations of `h` and its four successive products by `L`: compare coefficients
  generalize L * h = v1
  generalize L * v1 = v2
  generalize L * v2 = v3
  generalize L * v3 = v4
  module

/-- The monomial form of a layer equals its Bernstein form. -/
theorem monoLayer_eq_bernLayer (L : Matrix n n ℝ) (h : Matrix n f ℝ) (t : Fin 5 → ℝ) :
    monoLayer L h t = bernLayer L h t := by
  unfold monoLayer bernLayer
  rw [monoPre_eq_bernPre]

end Bern

end
-- ==== Proof.BernTransport.lean ====
/-
  Real matrices inside arrays of extended reals: the coercion commutes with every operation the network uses.

  `toE A` is the array whose entry (p, q) is the real number `A p q` read as an extended real.  The coercion
  ℝ → EReal preserves `0`, `1`, sums, differences and products of real numbers, and it is monotone, so it preserves
  the maximum of two reals.  Hence:

  * `coe_sum`: it preserves finite sums (induction on the index set, one `coe (x + y) = coe x + coe y` per step).
  * `linear_toE`, `affine_toE`: entry (p, q) of the array product is `Σ_k coe (A p k) · coe (B k q)`, which is the
    coercion of `Σ_k A p k · B k q = (A * B) p q`; the bias adds `coe (b q)` in column `q` of every row, the coercion
    of the row-constant matrix `rowsOf b`.
  * `toE_add`, `toE_sub`, `toE_smul`, `toE_relu`: the entrywise sum, difference, real multiple and maximum with
    zero of coerced matrices are the coerced sum, difference, multiple and `relu`.
  * `kstepE_toE`: entry (p, q) of the array update is `coe (U p q) + Σ_k (coe (L p k) - [p = k]) · coe (U k q)`;
    the indicator `[p = k]` (tested on the underlying numbers) is the coercion of entry (p, k) of the identity
    matrix, so the sum is the coercion of `((L - 1) * U) p q`, and the whole is the coercion of `kstep L U`.
  * `exists_toE`, `exists_toE1`: an array all of whose entries are real is `toE` (`toE1`) of the matrix (vector)
    of the real parts of its entries, because the real part of `coe r` is `r`.
  * `netMono_eq_netBern`: the two networks differ only in the form of their two filter layers, and the two forms
    of a layer are equal (`monoLayer_eq_bernLayer`).
-/
import Mathlib.Data.EReal.Operations
import proofs.«116373_g1589137899740_cont_week2b_1182_8_alg».proof.Proof.BernNet
import proofs.«116373_g1589137899740_cont_week2b_1182_8_alg».proof.Proof.BernAlgebra

noncomputable section

namespace Bern

open Matrix Idealize.ShloMosaic Idealize.ShloMosaic.ValueIdx Cert.Rgcn

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The array product of two coerced real matrices is the coerced matrix product. -/
theorem linear_toE {M K N : Nat} (A : Matrix (Fin M) (Fin K) ℝ) (B : Matrix (Fin K) (Fin N) ℝ) :
    linear (toE A) (toE B) = toE (A * B) := by
  funext j
  obtain ⟨p, q, rfl⟩ : ∃ (p : Fin M) (q : Fin N), j = ix2 p q := ⟨j 0, j 1, eq_ix2 j⟩
  rw [linear_apply, toE_apply, Matrix.mul_apply, coe_sum]
  refine Finset.sum_congr rfl fun k _ => ?_
  rw [toE_apply, toE_apply, EReal.coe_mul]

/-- The array product-plus-bias of coerced real data is the coerced real product plus the row-constant bias. -/
theorem affine_toE {M K N : Nat} (A : Matrix (Fin M) (Fin K) ℝ) (W : Matrix (Fin K) (Fin N) ℝ) (b : Fin N → ℝ) :
    affine (toE A) (toE W) (toE1 b) = toE (A * W + rowsOf b) := by
  funext j
  obtain ⟨p, q, rfl⟩ : ∃ (p : Fin M) (q : Fin N), j = ix2 p q := ⟨j 0, j 1, eq_ix2 j⟩
  have hlin := congrFun (linear_toE A W) (ix2 p q)
  rw [linear_apply, toE_apply] at hlin
  rw [affine_apply, hlin, toE1_apply, toE_apply, Matrix.add_apply, EReal.coe_add]
  rfl

/-- Entrywise sum of coerced matrices. -/
theorem toE_add {M N : Nat} (A B : Matrix (Fin M) (Fin N) ℝ) :
    (fun j => (toE A j + toE B j : EReal)) = toE (A + B) := by
  funext j
  obtain ⟨p, q, rfl⟩ : ∃ (p : Fin M) (q : Fin N), j = ix2 p q := ⟨j 0, j 1, eq_ix2 j⟩
  show (toE A (ix2 p q) + toE B (ix2 p q) : EReal) = toE (A + B) (ix2 p q)
  rw [toE_apply, toE_apply, toE_apply, Matrix.add_apply, EReal.coe_add]

/-- Entrywise difference of coerced matrices. -/
theorem toE_sub {M N : Nat} (A B : Matrix (Fin M) (Fin N) ℝ) :
    (fun j => (toE A j - toE B j : EReal)) = toE (A - B) := by
  funext j
  obtain ⟨p, q, rfl⟩ : ∃ (p : Fin M) (q : Fin N), j = ix2 p q := ⟨j 0, j 1, eq_ix2 j⟩
  show (toE A (ix2 p q) - toE B (ix2 p q) : EReal) = toE (A - B) (ix2 p q)
  rw [toE_apply, toE_apply, toE_apply, Matrix.sub_apply, EReal.coe_sub]

/-- Entrywise multiple of a coerced matrix by a coerced real. -/
theorem toE_smul {M N : Nat} (c : ℝ) (A : Matrix (Fin M) (Fin N) ℝ) :
    (fun j => ((c : EReal) * toE A j : EReal)) = toE (c • A) := by
  funext j
  obtain ⟨p, q, rfl⟩ : ∃ (p : Fin M) (q : Fin N), j = ix2 p q := ⟨j 0, j 1, eq_ix2 j⟩
  show ((c : EReal) * toE A (ix2 p q) : EReal) = toE (c • A) (ix2 p q)
  rw [toE_apply, toE_apply, Matrix.smul_apply, smul_eq_mul, EReal.coe_mul]

/-- Entrywise maximum with zero of a coerced matrix. -/
theorem toE_relu {M N : Nat} (A : Matrix (Fin M) (Fin N) ℝ) :
    (fun j => (max (toE A j) 0 : EReal)) = toE (relu A) := by
  funext j
  obtain ⟨p, q, rfl⟩ : ∃ (p : Fin M) (q : Fin N), j = ix2 p q := ⟨j 0, j 1, eq_ix2 j⟩
  show (max (toE A (ix2 p q)) 0 : EReal) = toE (relu A) (ix2 p q)
  rw [toE_apply, toE_apply]
  show max ((A p q : ℝ) : EReal) 0 = ((max (A p q) 0 : ℝ) : EReal)
  rw [EReal.coe_strictMono.monotone.map_max, EReal.coe_zero]

/-- The array form of `u + (L - 1) u` on coerced real data is the coerced real `kstep`. -/
theorem kstepE_toE {n f : Nat} (L : Matrix (Fin n) (Fin n) ℝ) (U : Matrix (Fin n) (Fin f) ℝ) :
    kstepE (toE L) (toE U) = toE (kstep L U) := by
  funext j
  obtain ⟨p, q, rfl⟩ : ∃ (p : Fin n) (q : Fin f), j = ix2 p q := ⟨j 0, j 1, eq_ix2 j⟩
  show (toE U (ix2 p q) + ∑ k : Fin n,
      (toE L (ix2 p k) - (if p.val = k.val then (1 : EReal) else 0)) * toE U (ix2 k q) : EReal)
    = toE (kstep L U) (ix2 p q)
  rw [toE_apply, toE_apply]
  unfold kstep
  rw [Matrix.add_apply, Matrix.mul_apply, EReal.coe_add, coe_sum]
  refine congrArg (((U p q : ℝ) : EReal) + ·) (Finset.sum_congr rfl fun k _ => ?_)
  rw [toE_apply, toE_apply, Matrix.sub_apply, Matrix.one_apply, EReal.coe_mul, EReal.coe_sub]
  by_cases hk : p = k
  · rw [if_pos (congrArg Fin.val hk), if_pos hk, EReal.coe_one]
  · rw [if_neg (fun h => hk (Fin.ext h)), if_neg hk, EReal.coe_zero]

/-- A rank-2 array whose entries are all real is the coercion of a real matrix. -/
theorem exists_toE {M N : Nat} (a : FVec Ideal ⟨2, ![M, N]⟩ .f32) (h : ∀ j, ∃ r : ℝ, a j = (r : EReal)) :
    ∃ A : Matrix (Fin M) (Fin N) ℝ, a = toE A := by
  refine ⟨Matrix.of fun p q => (a (ix2 p q)).toReal, funext fun j => ?_⟩
  obtain ⟨p, q, rfl⟩ : ∃ (p : Fin M) (q : Fin N), j = ix2 p q := ⟨j 0, j 1, eq_ix2 j⟩
  obtain ⟨r, hr⟩ := h (ix2 p q)
  show a (ix2 p q) = (((a (ix2 p q)).toReal : ℝ) : EReal)
  rw [hr, EReal.toReal_coe]

/-- A rank-1 array whose entries are all real is the coercion of a real vector. -/
theorem exists_toE1 {N : Nat} (a : FVec Ideal ⟨1, ![N]⟩ .f32) (h : ∀ j, ∃ r : ℝ, a j = (r : EReal)) :
    ∃ b : Fin N → ℝ, a = toE1 b := by
  refine ⟨fun q => (a (ix1 q)).toReal, funext fun j => ?_⟩
  obtain ⟨q, rfl⟩ : ∃ q : Fin N, j = ix1 q := ⟨j 0, eq_ix1 j⟩
  obtain ⟨r, hr⟩ := h (ix1 q)
  show a (ix1 q) = (((a (ix1 q)).toReal : ℝ) : EReal)
  rw [hr, EReal.toReal_coe]

/-- The network with monomial-form layers equals the network with Bernstein-form layers. -/
theorem netMono_eq_netBern {n a b c d : Nat} (x : Matrix (Fin n) (Fin a) ℝ) (L : Matrix (Fin n) (Fin n) ℝ)
    (W1 : Matrix (Fin a) (Fin b) ℝ) (b1 : Fin b → ℝ) (W2 : Matrix (Fin b) (Fin c) ℝ) (b2 : Fin c → ℝ)
    (θ : Matrix (Fin 2) (Fin 5) ℝ) (W3 : Matrix (Fin c) (Fin d) ℝ) (b3 : Fin d → ℝ) :
    netMono x L W1 b1 W2 b2 θ W3 b3 = netBern x L W1 b1 W2 b2 θ W3 b3 := by
  unfold netMono netBern
  rw [monoLayer_eq_bernLayer, monoLayer_eq_bernLayer]

end Bern

end
-- ==== Proof.BernRow.lean ====
/-
  Small real-level vocabulary for the kernel's host operations.

  * `toERow b`: a real vector read as a ONE-ROW array [1, N] of extended reals (the layout a bias or a coefficient tile
    has when a kernel region loads it).
  * `padCols W`, `padVec b`: a matrix / vector extended with zero columns / entries on the right.
  * `coefTable θ`: row l holds the monomial coefficients `coef (θ l)` of layer l: the 2 × 5 table (mono · θᵀ)ᵀ.
-/
import proofs.«116373_g1589137899740_cont_week2b_1182_8_alg».proof.Proof.BernNet

noncomputable section

namespace Bern

open Matrix Idealize.ShloMosaic Idealize.ShloMosaic.ValueIdx

/-- A real vector read as a one-row array of extended reals. -/
def toERow {N : Nat} (b : Fin N → ℝ) : FVec Ideal ⟨2, ![1, N]⟩ .f32 := fun j => ((b (j 1) : ℝ) : EReal)

theorem toERow_apply {N : Nat} (b : Fin N → ℝ) (q : Fin N) : toERow b (ix2 (0 : Fin 1) q) = ((b q : ℝ) : EReal) := rfl

/-- A matrix with zero columns appended on the right. -/
def padCols {a n N : Nat} (W : Matrix (Fin a) (Fin n) ℝ) : Matrix (Fin a) (Fin N) ℝ :=
  fun k q => if h : q.val < n then W k ⟨q.val, h⟩ else 0

/-- A vector with zero entries appended. -/
def padVec {n N : Nat} (b : Fin n → ℝ) : Fin N → ℝ := fun q => if h : q.val < n then b ⟨q.val, h⟩ else 0

/-- The table of monomial coefficients, one row per layer. -/
def coefTable (θ : Matrix (Fin 2) (Fin 5) ℝ) : Matrix (Fin 2) (Fin 5) ℝ := fun l k => coef (θ l) k

end Bern

end
-- ==== Proof.KPassSpec.lean ====
/-
  One propagation pass as whole-array functions on the extended reals.

  Given the stored matrix `E` (10000 × 10000), the features `u` and their copy `ub` (10000 × 128), the running sum
  `acc` and the coefficient row `ct` (1 × 128):
      passU E ub u        (p, q) = u(p, q) + Σ_k E(p, k) · ub(k, q)
      passAcc E ub u acc ct (p, q) = acc(p, q) + ct(0, q) · passU E ub u (p, q)
      passAccRelu … = max (passAcc …) 0.
-/
import Idealize.ShloMosaic.Lib.ValueIdx
import Idealize.ShloMosaic.PureOps.Ideal

noncomputable section

namespace Cert.KernelIdeal.KVal

open Idealize.ShloMosaic Idealize.ShloMosaic.ValueIdx

abbrev A10k : Type := (⟨2, ![10000, 10000]⟩ : Shape).Idx → EReal
abbrev A128 : Type := (⟨2, ![10000, 128]⟩ : Shape).Idx → EReal
abbrev Row128 : Type := (⟨2, ![1, 128]⟩ : Shape).Idx → EReal

/-- The new features: `u + E · ub`. -/
def passU (E : A10k) (ub u : A128) : A128 :=
  fun j => (u j + ∑ k : Fin 10000, E (ix2 (j 0) k) * ub (ix2 k (j 1)) : EReal)

/-- The new running sum: `acc + ct · (u + E · ub)`. -/
def passAcc (E : A10k) (ub u acc : A128) (ct : Row128) : A128 :=
  fun j => (acc j + ct (ix2 (0 : Fin 1) (j 1)) * passU E ub u j : EReal)

/-- The new running sum of a layer's last pass: the same, clamped below at 0. -/
def passAccRelu (E : A10k) (ub u acc : A128) (ct : Row128) : A128 :=
  fun j => (max (passAcc E ub u acc ct j) 0 : EReal)

end Cert.KernelIdeal.KVal

end
-- ==== Proof.KTransport.lean ====
/-
  The kernel regions' whole-array functions at real arguments.

  Each region leaves arrays that are sums and products of entries of the arrays it finds. When those are the
  coercions of real matrices, so are the results: a finite sum of products of reals is a real, and the coercion to
  the extended reals commutes with +, · and max. Stated here for one propagation pass (new features
  `U' + E · U`, new running sum `A + c · (U' + E · U)`, possibly clamped at 0), for the dense maps
  `H · W + b` with the bias given as one row, and for the two-layer perceptron.
-/
import proofs.«116373_g1589137899740_cont_week2b_1182_8_alg».proof.Proof.BernTransport
import proofs.«116373_g1589137899740_cont_week2b_1182_8_alg».proof.Proof.BernRow
import proofs.«116373_g1589137899740_cont_week2b_1182_8_alg».proof.Proof.KPassSpec

noncomputable section

namespace Cert.KernelIdeal.KVal

open Matrix Bern Idealize.ShloMosaic Idealize.ShloMosaic.ValueIdx

/-- A sum of products of real entries, in the extended reals. -/
theorem sum_mul_coe {K : Nat} (a b : Fin K → ℝ) : (∑ k : Fin K, ((a k : ℝ) : EReal) * ((b k : ℝ) : EReal)) = ((∑ k : Fin K, a k * b k : ℝ) : EReal) := by
  rw [coe_sum]
  exact Finset.sum_congr rfl fun k _ => (EReal.coe_mul _ _).symm

/-- The new features of a pass at real arguments: `U' + E · U`. -/
theorem passU_toE (E : Matrix (Fin 10000) (Fin 10000) ℝ) (U U' : Matrix (Fin 10000) (Fin 128) ℝ) :
    passU (toE E) (toE U) (toE U') = toE (U' + E * U) := by
  funext j
  obtain ⟨p, q, rfl⟩ : ∃ (p : Fin 10000) (q : Fin 128), j = ix2 p q := ⟨j 0, j 1, eq_ix2 j⟩
  show (((U' p q : ℝ) : EReal) + ∑ k : Fin 10000, ((E p k : ℝ) : EReal) * ((U k q : ℝ) : EReal)) = (((U' + E * U) p q : ℝ) : EReal)
  rw [sum_mul_coe, ← EReal.coe_add, Matrix.add_apply, Matrix.mul_apply]

/-- With the stored matrix `L - 1` and the features read twice, the new features are one application of `L`. -/
theorem passU_kstep (L : Matrix (Fin 10000) (Fin 10000) ℝ) (U : Matrix (Fin 10000) (Fin 128) ℝ) :
    passU (toE (L - 1)) (toE U) (toE U) = toE (kstep L U) := passU_toE (L - 1) U U

/-- The new running sum of a pass at real arguments. -/
theorem passAcc_toE (L : Matrix (Fin 10000) (Fin 10000) ℝ) (U A : Matrix (Fin 10000) (Fin 128) ℝ) (cv : ℝ) :
    passAcc (toE (L - 1)) (toE U) (toE U) (toE A) (toERow fun _ => cv) = toE (A + cv • kstep L U) := by
  funext j
  obtain ⟨p, q, rfl⟩ : ∃ (p : Fin 10000) (q : Fin 128), j = ix2 p q := ⟨j 0, j 1, eq_ix2 j⟩
  show (((A p q : ℝ) : EReal) + ((cv : ℝ) : EReal) * passU (toE (L - 1)) (toE U) (toE U) (ix2 p q)) = (((A + cv • kstep L U) p q : ℝ) : EReal)
  rw [passU_kstep, toE_apply, ← EReal.coe_mul, ← EReal.coe_add, Matrix.add_apply, Matrix.smul_apply, smul_eq_mul]

/-- The same, clamped below at 0. -/
theorem passAccRelu_toE (L : Matrix (Fin 10000) (Fin 10000) ℝ) (U A : Matrix (Fin 10000) (Fin 128) ℝ) (cv : ℝ) :
    passAccRelu (toE (L - 1)) (toE U) (toE U) (toE A) (toERow fun _ => cv) = toE (relu (A + cv • kstep L U)) := by
  unfold passAccRelu
  rw [passAcc_toE]
  exact toE_relu _

/-- The stored matrix: `L` with 1 subtracted on the diagonal. -/
theorem maskSub_toE (L : Matrix (Fin 10000) (Fin 10000) ℝ) :
    (fun j : (⟨2, ![10000, 10000]⟩ : Shape).Idx => (toE L j - (if (j 0).val = (j 1).val then (1 : EReal) else 0) : EReal)) = toE (L - 1) := by
  funext j
  obtain ⟨p, q, rfl⟩ : ∃ (p : Fin 10000) (q : Fin 10000), j = ix2 p q := ⟨j 0, j 1, eq_ix2 j⟩
  show (((L p q : ℝ) : EReal) - (if p.val = q.val then (1 : EReal) else 0)) = (((L - 1) p q : ℝ) : EReal)
  rw [Matrix.sub_apply, Matrix.one_apply, EReal.coe_sub]
  by_cases h : p = q
  · rw [if_pos (congrArg Fin.val h), if_pos h, EReal.coe_one]
  · rw [if_neg (fun e => h (Fin.ext e)), if_neg h, EReal.coe_zero]

/-- The first pass's running sum at real arguments. -/
theorem firstAcc_toE (L : Matrix (Fin 10000) (Fin 10000) ℝ) (H A : Matrix (Fin 10000) (Fin 128) ℝ) (cv : ℝ) :
    (fun j : (⟨2, ![10000, 128]⟩ : Shape).Idx => (toE A j + toERow (fun _ => cv) (ix2 (0 : Fin 1) (j 1)) * kstepE (toE L) (toE H) j : EReal))
      = toE (A + cv • kstep L H) := by
  funext j
  obtain ⟨p, q, rfl⟩ : ∃ (p : Fin 10000) (q : Fin 128), j = ix2 p q := ⟨j 0, j 1, eq_ix2 j⟩
  show (((A p q : ℝ) : EReal) + ((cv : ℝ) : EReal) * kstepE (toE L) (toE H) (ix2 p q)) = (((A + cv • kstep L H) p q : ℝ) : EReal)
  rw [kstepE_toE, toE_apply, ← EReal.coe_mul, ← EReal.coe_add, Matrix.add_apply, Matrix.smul_apply, smul_eq_mul]

/-- A product plus a bias given as one row, at real arguments. -/
theorem denseRow_toE {M K N : Nat} (H : Matrix (Fin M) (Fin K) ℝ) (W : Matrix (Fin K) (Fin N) ℝ) (b : Fin N → ℝ) :
    (fun j : (⟨2, ![M, N]⟩ : Shape).Idx => ((∑ k : Fin K, toE H (ix2 (j 0) k) * toE W (ix2 k (j 1))) + toERow b (ix2 (0 : Fin 1) (j 1)) : EReal))
      = toE (H * W + rowsOf b) := by
  funext j
  obtain ⟨p, q, rfl⟩ : ∃ (p : Fin M) (q : Fin N), j = ix2 p q := ⟨j 0, j 1, eq_ix2 j⟩
  show ((∑ k : Fin K, ((H p k : ℝ) : EReal) * ((W k q : ℝ) : EReal)) + ((b q : ℝ) : EReal)) = ((((H * W + rowsOf b : Matrix (Fin M) (Fin N) ℝ)) p q : ℝ) : EReal)
  rw [sum_mul_coe, ← EReal.coe_add, Matrix.add_apply, Matrix.mul_apply]
  rfl

end Cert.KernelIdeal.KVal

end
-- ==== Proof.KMlpTransport.lean ====
/-
  The perceptron, written entry by entry on arrays of extended reals, at real arguments.

  Entry (p, q) of `relu (x·W1 + b1)·W2 + b2` is
      Σ_k max (Σ_i x(p, i)·W1(i, k) + b1(k)) 0 · W2(k, q) + b2(q).
  When every array is the coercion of a real matrix (the biases read as one-row arrays), each step of this expression is
  the coercion of the same step over the reals: the coercion preserves products, sums and finite sums, and, being
  monotone, the maximum of two reals.  Working outwards — inner sum plus bias, maximum with zero, product with
  `W2(k, q)`, outer sum, plus bias — the whole entry is the coercion of entry (p, q) of the real perceptron `mlp`.
-/
import proofs.«116373_g1589137899740_cont_week2b_1182_8_alg».proof.Proof.BernTransport
import proofs.«116373_g1589137899740_cont_week2b_1182_8_alg».proof.Proof.BernRow

noncomputable section

namespace Cert.KernelIdeal.KVal

open Matrix Bern Idealize.ShloMosaic Idealize.ShloMosaic.ValueIdx

/-- The perceptron written entry by entry on coerced real arrays (biases as one-row arrays) is the coerced real
    perceptron. -/
theorem mlpRow_toE {M A B C : Nat} (x : Matrix (Fin M) (Fin A) ℝ) (W1 : Matrix (Fin A) (Fin B) ℝ) (b1 : Fin B → ℝ)
    (W2 : Matrix (Fin B) (Fin C) ℝ) (b2 : Fin C → ℝ) :
    (fun j : (⟨2, ![M, C]⟩ : Shape).Idx =>
      ((∑ k : Fin B, (max ((∑ i : Fin A, toE x (ix2 (j 0) i) * toE W1 (ix2 i k)) + toERow b1 (ix2 (0 : Fin 1) k)) 0)
        * toE W2 (ix2 k (j 1))) + toERow b2 (ix2 (0 : Fin 1) (j 1)) : EReal))
      = toE (mlp x W1 b1 W2 b2) := by
  funext j
  obtain ⟨p, q, rfl⟩ : ∃ (p : Fin M) (q : Fin C), j = ix2 p q := ⟨j 0, j 1, eq_ix2 j⟩
  show ((∑ k : Fin B, (max ((∑ i : Fin A, toE x (ix2 p i) * toE W1 (ix2 i k)) + toERow b1 (ix2 (0 : Fin 1) k)) 0)
      * toE W2 (ix2 k q)) + toERow b2 (ix2 (0 : Fin 1) q) : EReal) = toE (mlp x W1 b1 W2 b2) (ix2 p q)
  -- the first layer before its maximum, at column k: the coercion of entry (p, k) of x·W1 + b1
  have hin : ∀ k : Fin B,
      ((∑ i : Fin A, toE x (ix2 p i) * toE W1 (ix2 i k)) + toERow b1 (ix2 (0 : Fin 1) k) : EReal)
        = (((x * W1 + rowsOf b1 : Matrix (Fin M) (Fin B) ℝ) p k : ℝ) : EReal) := fun k => by
    rw [Matrix.add_apply, Matrix.mul_apply, EReal.coe_add, coe_sum, toERow_apply]
    refine congrArg (· + ((b1 k : ℝ) : EReal)) (Finset.sum_congr rfl fun i _ => ?_)
    rw [toE_apply, toE_apply, EReal.coe_mul]
  rw [toE_apply, toERow_apply]
  unfold mlp
  rw [Matrix.add_apply, Matrix.mul_apply, EReal.coe_add, coe_sum]
  refine congrArg (· + ((b2 q : ℝ) : EReal)) (Finset.sum_congr rfl fun k _ => ?_)
  rw [hin k, toE_apply, EReal.coe_mul]
  refine congrArg (· * ((W2 k q : ℝ) : EReal)) ?_
  -- the maximum of two coerced reals is the coerced maximum (the coercion is monotone)
  show max (((x * W1 + rowsOf b1 : Matrix (Fin M) (Fin B) ℝ) p k : ℝ) : EReal) 0 = ((max ((x * W1 + rowsOf b1 : Matrix (Fin M) (Fin B) ℝ) p k) 0 : ℝ) : EReal)
  rw [EReal.coe_strictMono.monotone.map_max, EReal.coe_zero]

end Cert.KernelIdeal.KVal

end
-- ==== Proof.KChainDense.lean ====
/-
  The two dense regions read at real arguments.

  Region 0 leaves the perceptron `relu (x·W1 + b1)·W2 + b2` of the arrays it finds (the biases laid out as rows);
  region 9 leaves `H·W + b` with the padded read-out weights and bias.
-/
import proofs.«116373_g1589137899740_cont_week2b_1182_8_alg».proof.Proof.FrameKI
import proofs.«116373_g1589137899740_cont_week2b_1182_8_alg».proof.Proof.KDense0
import proofs.«116373_g1589137899740_cont_week2b_1182_8_alg».proof.Proof.KDense9
import proofs.«116373_g1589137899740_cont_week2b_1182_8_alg».proof.Proof.KTransport
import proofs.«116373_g1589137899740_cont_week2b_1182_8_alg».proof.Proof.KMlpTransport

set_option maxRecDepth 16384

noncomputable section

namespace Cert.KernelIdeal.KVal

open Matrix Bern
open Cert.KernelIdeal Cert.KernelIdeal.Gen Cert.KernelIdeal.GenP
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Region 0 at real arguments: the perceptron. -/
theorem stage0 (x : Matrix (Fin 10000) (Fin 256) ℝ) (W1m : Matrix (Fin 256) (Fin 128) ℝ) (b1 : Fin 128 → ℝ)
    (W2m : Matrix (Fin 128) (Fin 128) ℝ) (b2 : Fin 128 → ℝ)
    (hx : (W1 m ρ c (Proc.devRef .tc main_arg0) : S10000x256.Idx → EReal) = toE x)
    (hw1 : (W1 m ρ c (Proc.devRef .tc main_arg2) : S256x128.Idx → EReal) = toE W1m)
    (hb1 : (W1 m ρ c (Proc.devRef .tc main_v3) : S1x128.Idx → EReal) = toERow b1)
    (hw2 : (W1 m ρ c (Proc.devRef .tc main_arg4) : S128x128.Idx → EReal) = toE W2m)
    (hb2 : (W1 m ρ c (Proc.devRef .tc main_v4) : S1x128.Idx → EReal) = toERow b2) :
    (W2 m ρ c (Proc.devRef .tc main_v5) : S10000x128.Idx → EReal) = toE (mlp x W1m b1 W2m b2) := by
  refine (W2_arr m ρ c 5).trans ?_
  rw [final0_5 (V1 m ρ) c]
  show mlp0 (W1 m ρ c (Proc.devRef .tc main_arg0)) (W1 m ρ c (Proc.devRef .tc main_arg2)) (W1 m ρ c (Proc.devRef .tc main_v3))
    (W1 m ρ c (Proc.devRef .tc main_arg4)) (W1 m ρ c (Proc.devRef .tc main_v4)) = _
  rw [hx, hw1, hb1, hw2, hb2]
  exact mlpRow_toE x W1m b1 W2m b2

/-- Region 9 at real arguments: the read-out with padded weights and bias. -/
theorem stage9 (H : Matrix (Fin 10000) (Fin 128) ℝ) (Wp : Matrix (Fin 128) (Fin 128) ℝ) (bp : Fin 128 → ℝ)
    (hH : (W23 m ρ c (Proc.devRef .tc main_v53_1) : S10000x128.Idx → EReal) = toE H)
    (hW : (W23 m ρ c (Proc.devRef .tc main_v54) : S128x128.Idx → EReal) = toE Wp)
    (hB : (W23 m ρ c (Proc.devRef .tc main_v56) : S1x128.Idx → EReal) = toERow bp) :
    (W24 m ρ c (Proc.devRef .tc main_v57) : S10000x128.Idx → EReal) = toE (H * Wp + rowsOf bp) := by
  refine (W24_arr m ρ c 3).trans ?_
  rw [final9_3 (V23 m ρ) c]
  show readout9 (W23 m ρ c (Proc.devRef .tc main_v53_1)) (W23 m ρ c (Proc.devRef .tc main_v54)) (W23 m ρ c (Proc.devRef .tc main_v56)) = _
  rw [hH, hW, hB]
  exact denseRow_toE H Wp bp

end Cert.KernelIdeal.KVal

end
-- ==== Proof.KFirstGeo.lean ====
/-
  The first propagation step: where its blocks sit in the arrays.

  The step runs on a grid of 125 points.  At point t its blocked windows — the operator L, the features u, the running
  sum acc, and the three outputs — hold rows 80 t … 80 t + 79 of their arrays (all columns); the narrowed features and
  the one-row coefficient are single blocks, their whole arrays.  So entry (p, k) of a blocked window's block at point t
  is entry (80 t + p, k) of its array, and an entry of a whole-array window's block is the same entry of its array.
-/
import proofs.«116373_g1589137899740_cont_week2b_1182_8_alg».proof.Proof.FrameKI
import Idealize.ShloMosaic.Lib.ValueIdx
import Idealize.ShloMosaic.Lib.Pipeline.Value
import Idealize.ShloMosaic.PureOps.Ideal

noncomputable section

namespace Cert.KernelIdeal.KVal

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The arrays the first propagation step reads, as the region finds them: the operator L, the narrowed features,
    the features u, the running sum acc, and the one-row coefficient. -/
abbrev L1 (c : Dev nD) : S10000x10000.Idx → EReal := V c (Pipeline.arrRef spec1 0)
abbrev Ub1 (c : Dev nD) : S10000x128.Idx → EReal := V c (Pipeline.arrRef spec1 1)
abbrev U1 (c : Dev nD) : S10000x128.Idx → EReal := V c (Pipeline.arrRef spec1 2)
abbrev A1 (c : Dev nD) : S10000x128.Idx → EReal := V c (Pipeline.arrRef spec1 3)
abbrev C1 (c : Dev nD) : S1x128.Idx → EReal := V c (Pipeline.arrRef spec1 4)

/-- The zero offsets of a store or load that fills its whole buffer. -/
theorem hz1 : (![0, 0] : Fin 2 → Nat) = fun _ => 0 := funext fun a => by fin_cases a <;> rfl

/-- The printed index maps, decided over the 125 grid points: point t has grid coordinate t; the blocked windows
    (the operator, u, acc and the three outputs) sit at block (t, 0), the whole-array windows at block (0, 0). -/
theorem idx_facts1 : ∀ t : Fin cfg1.N,
    ((grid1.coords t) 0).val = t.val
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- A grid point's number is below 125. -/
theorem point_lt1 (t : Fin cfg1.N) : t.val < 125 := lt_of_lt_of_eq t.isLt N_1

/-- Entry (p, k) of the operator's block at point t is the operator's entry (80 t + p, k). -/
theorem iblk1_0_apply (c : Dev nD) (t : Fin cfg1.N) (p : Fin 80) (k : Fin 10000) (r : Fin 10000)
    (hr : r.val = t.val * 80 + p.val) :
    (iblk1 V c 0 t : S80x10000.Idx → EReal) (ix2 p k)
      = L1 V c (ix2 r k) := by
  obtain ⟨-, e0, e1, -⟩ := idx_facts1 t
  unfold iblk1
  rw [View.read_apply]
  show L1 V c (((cfg1.win 0).blk t).view.emb (ix2 p k))
    = L1 V c (ix2 r k)
  refine congrArg (L1 V c) (funext fun a => Fin.ext ?_)
  match a with
  | ⟨0, _⟩ => show win1_0.index t (0 : Fin 2) * 80 + 1 * p.val = r.val; rw [e0, hr]; omega
  | ⟨1, _⟩ => show win1_0.index t (1 : Fin 2) * 10000 + 1 * k.val = k.val; rw [e1]; omega

/-! ## The other input blocks, read at an index -/

/-- The narrowed u is one block, the whole array: entry (k, q) of the block is entry (k, q) of the array. -/
theorem iblk1_1_apply (c : Dev nD) (t : Fin cfg1.N) (k : Fin 10000) (q : Fin 128) :
    (iblk1 V c 1 t : S10000x128.Idx → EReal) (ix2 k q)
      = Ub1 V c (ix2 k q) := by
  obtain ⟨-, -, -, e0, e1, -⟩ := idx_facts1 t
  unfold iblk1
  rw [View.read_apply]
  show Ub1 V c (((cfg1.win 1).blk t).view.emb (ix2 k q))
    = Ub1 V c (ix2 k q)
  refine congrArg (Ub1 V c) (funext fun a => Fin.ext ?_)
  match a with
  | ⟨0, _⟩ => show win1_1.index t (0 : Fin 2) * 10000 + 1 * k.val = k.val; rw [e0]; omega
  | ⟨1, _⟩ => show win1_1.index t (1 : Fin 2) * 128 + 1 * q.val = q.val; rw [e1]; omega

/-- Entry (p, q) of u's block at point t is u's entry (80 t + p, q). -/
theorem iblk1_2_apply (c : Dev nD) (t : Fin cfg1.N) (p : Fin 80) (q : Fin 128) (r : Fin 10000)
    (hr : r.val = t.val * 80 + p.val) :
    (iblk1 V c 2 t : S80x128.Idx → EReal) (ix2 p q)
      = U1 V c (ix2 r q) := by
  obtain ⟨-, -, -, -, -, e0, e1, -⟩ := idx_facts1 t
  unfold iblk1
  rw [View.read_apply]
  show U1 V c (((cfg1.win 2).blk t).view.emb (ix2 p q))
    = U1 V c (ix2 r q)
  refine congrArg (U1 V c) (funext fun a => Fin.ext ?_)
  match a with
  | ⟨0, _⟩ => show win1_2.index t (0 : Fin 2) * 80 + 1 * p.val = r.val; rw [e0, hr]; omega
  | ⟨1, _⟩ => show win1_2.index t (1 : Fin 2) * 128 + 1 * q.val = q.val; rw [e1]; omega

/-- Entry (p, q) of acc's block at point t is acc's entry (80 t + p, q). -/
theorem iblk1_3_apply (c : Dev nD) (t : Fin cfg1.N) (p : Fin 80) (q : Fin 128) (r : Fin 10000)
    (hr : r.val = t.val * 80 + p.val) :
    (iblk1 V c 3 t : S80x128.Idx → EReal) (ix2 p q)
      = A1 V c (ix2 r q) := by
  obtain ⟨-, -, -, -, -, -, -, e0, e1, -⟩ := idx_facts1 t
  unfold iblk1
  rw [View.read_apply]
  show A1 V c (((cfg1.win 3).blk t).view.emb (ix2 p q))
    = A1 V c (ix2 r q)
  refine congrArg (A1 V c) (funext fun a => Fin.ext ?_)
  match a with
  | ⟨0, _⟩ => show win1_3.index t (0 : Fin 2) * 80 + 1 * p.val = r.val; rw [e0, hr]; omega
  | ⟨1, _⟩ => show win1_3.index t (1 : Fin 2) * 128 + 1 * q.val = q.val; rw [e1]; omega

/-- The coefficient row is one block, the whole array. -/
theorem iblk1_4_apply (c : Dev nD) (t : Fin cfg1.N) (q : Fin 128) :
    (iblk1 V c 4 t : S1x128.Idx → EReal) (ix2 (0 : Fin 1) q)
      = C1 V c (ix2 (0 : Fin 1) q) := by
  obtain ⟨-, -, -, -, -, -, -, -, -, e0, e1, -⟩ := idx_facts1 t
  unfold iblk1
  rw [View.read_apply]
  show C1 V c (((cfg1.win 4).blk t).view.emb (ix2 (0 : Fin 1) q))
    = C1 V c (ix2 (0 : Fin 1) q)
  refine congrArg (C1 V c) (funext fun a => Fin.ext ?_)
  match a with
  | ⟨0, _⟩ => show win1_4.index t (0 : Fin 2) * 1 + 1 * (0 : Fin 1).val = (0 : Fin 1).val; rw [e0]; rfl
  | ⟨1, _⟩ => show win1_4.index t (1 : Fin 2) * 128 + 1 * q.val = q.val; rw [e1]; omega

/-- The sum over k of a row of a block of L - I at grid coordinate i0 against a column of the narrowed u is the sum
    over row r = 80 i0 + p of the whole arrays, when the block's row p is the array's row r. -/
theorem row_sum_congr1 (i0 : Nat) (x0 : S80x10000.Idx → EReal) (x1 : S10000x128.Idx → EReal)
    (Lm : S10000x10000.Idx → EReal) (Ub : S10000x128.Idx → EReal) (p : Fin 80) (q : Fin 128) (r : Fin 10000)
    (hr : r.val = i0 * 80 + p.val) (h0 : ∀ k : Fin 10000, x0 (ix2 p k) = Lm (ix2 r k))
    (h1 : ∀ k : Fin 10000, x1 (ix2 k q) = Ub (ix2 k q)) :
    (∑ k : Fin 10000, (x0 (ix2 p k) - (if i0 * 80 + p.val = k.val then (1 : EReal) else 0)) * x1 (ix2 k q))
      = ∑ k : Fin 10000, (Lm (ix2 r k) - (if r.val = k.val then (1 : EReal) else 0)) * Ub (ix2 k q) := by
  refine Finset.sum_congr rfl fun k _ => ?_
  rw [h0 k, h1 k, hr]

end Cert.KernelIdeal.KVal

end
-- ==== Proof.KFirstMask.lean ====
/-
  The identity mask of the first propagation step, read at an index.

  At grid coordinate t the step works on rows 80 t … 80 t + 79 of the 10000 x 10000 operator.  It builds, on 32-bit
  words, the row number  t * 80 + p  of entry (p, k) of its block and compares it with the column number k; the
  comparison's bit, widened to a word and converted to a float, is subtracted from the operator's entry.  All the numbers
  involved are below 2^31, so the word arithmetic is the arithmetic of natural numbers, and the converted bit is 1 on
  the diagonal  t * 80 + p = k  and 0 off it.
-/
import Idealize.ShloMosaic.Lib.ValueIdx
import Idealize.ShloMosaic.Lib.Pipeline.Value
import Idealize.ShloMosaic.PureOps.Ideal

namespace Cert.KernelIdeal.KVal

open Idealize.ShloMosaic Idealize.ShloMosaic.ValueIdx

/-- For t < 125, p < 80, k < 10000 the 32-bit words  t * 80 + p  and  k  are equal exactly when the numbers are:
    nothing wraps around, every quantity being below 2^31. -/
theorem word_diag_iff {t p k : Nat} (ht : t < 125) (hp : p < 80) (hk : k < 10000) :
    BitVec.ofNat 32 t * 80#32 + BitVec.ofNat 32 p = BitVec.ofNat 32 k ↔ t * 80 + p = k := by
  constructor
  · intro he
    have h := congrArg BitVec.toNat he
    rw [BitVec.toNat_add, BitVec.toNat_mul, BitVec.toNat_ofNat, BitVec.toNat_ofNat, BitVec.toNat_ofNat,
      BitVec.toNat_ofNat] at h
    norm_num at h
    omega
  · rintro rfl
    apply BitVec.eq_of_toNat_eq
    rw [BitVec.toNat_add, BitVec.toNat_mul, BitVec.toNat_ofNat, BitVec.toNat_ofNat, BitVec.toNat_ofNat,
      BitVec.toNat_ofNat]
    norm_num

/-- The comparison's bit, widened to a 32-bit word, read as a signed integer and converted to an extended real, is 1 on
    the diagonal and 0 off it. -/
theorem mask_word {t p k : Nat} (ht : t < 125) (hp : p < 80) (hk : k < 10000) :
    (((((IntOp.cmpi .eq (IntOp.addi (Scalar.muli (BitVec.ofNat 32 t) 80#32) (BitVec.ofNat 32 p)) (BitVec.ofNat 32 k)).setWidth 32).toInt : ℤ) : ℝ) : EReal)
      = if t * 80 + p = k then (1 : EReal) else 0 := by
  have hw := word_diag_iff ht hp hk
  by_cases h : t * 80 + p = k
  · rw [if_pos h]
    have e : IntOp.cmpi .eq (IntOp.addi (Scalar.muli (BitVec.ofNat 32 t) 80#32) (BitVec.ofNat 32 p)) (BitVec.ofNat 32 k) = 1#1 := by
      show BitVec.ofBool (BitVec.ofNat 32 t * 80#32 + BitVec.ofNat 32 p == BitVec.ofNat 32 k) = 1#1
      rw [beq_iff_eq.mpr (hw.mpr h)]
      rfl
    rw [e, show ((1#1 : BitVec 1).setWidth 32).toInt = 1 from by decide]
    norm_num
  · rw [if_neg h]
    have e : IntOp.cmpi .eq (IntOp.addi (Scalar.muli (BitVec.ofNat 32 t) 80#32) (BitVec.ofNat 32 p)) (BitVec.ofNat 32 k) = 0#1 := by
      show BitVec.ofBool (BitVec.ofNat 32 t * 80#32 + BitVec.ofNat 32 p == BitVec.ofNat 32 k) = 0#1
      rw [beq_eq_false_iff_ne.mpr (fun he => h (hw.mp he))]
      rfl
    rw [e, show ((0#1 : BitVec 1).setWidth 32).toInt = 0 from by decide]
    norm_num

end Cert.KernelIdeal.KVal
-- ==== Proof.KFirstPay.lean ====
/-
  The first propagation step's stored values, read at an index.

  At grid coordinate t the step holds rows 80 t … 80 t + 79 of the 10000 x 10000 operator L, all of the narrowed
  features u (10000 x 128), and rows 80 t … 80 t + 79 of u, of the running sum acc, and the one-row coefficient.  It
  stores three blocks:
    * the block of E = L - I: entry (p, k) is L's entry less 1 where  80 t + p = k;
    * the new u: entry (p, q) is the old entry plus the sum over k of E(p, k) * u(k, q);
    * the new acc: entry (p, q) is the old entry plus the coefficient's entry q times the new u entry.
  On the extended reals the narrowing to the 16-bit float type is the identity, and a product accumulated from the
  all-zero block is the plain sum of products.
-/
import proofs.«116373_g1589137899740_cont_week2b_1182_8_alg».proof.Proof.Gen.KernelIdeal.Skeleton
import proofs.«116373_g1589137899740_cont_week2b_1182_8_alg».proof.Proof.KFirstMask
import proofs.«116373_g1589137899740_cont_week2b_1182_8_alg».proof.Proof.LibPlainDot
import Idealize.ShloMosaic.Lib.ValueIdx
import Idealize.ShloMosaic.Lib.ValueLayout
import Idealize.ShloMosaic.Lib.Pipeline.Value
import Idealize.ShloMosaic.PureOps.Ideal

noncomputable section

namespace Cert.KernelIdeal.KVal

open Cert.KernelIdeal Cert.KernelIdeal.Gen Idealize.ShloMosaic Idealize.ShloMosaic.ValueIdx

/-- The grid coordinate of the first propagation step is below 125. -/
theorem coord_lt1 (i : grid1.Coords) : (i 0).val < 125 := (i 0).isLt

/-- ENTRY (p, k) OF THE BLOCK OF E = L - I at grid coordinate t: the operator's entry less 1 on the diagonal
    t * 80 + p = k  (the rounding to the narrower float type is the identity on the extended reals). -/
theorem k1_pay1_apply (i : grid1.Coords) (v5 : Vec Ideal S80x10000 .f32) (p : Fin 80) (k : Fin 10000) :
    (k1_pay1 (F := Ideal) i v5 : S80x10000.Idx → EReal) (ix2 p k)
      = (v5 (ix2 p k) : EReal) - (if (i 0).val * 80 + p.val = k.val then (1 : EReal) else 0) := by
  unfold k1_pay1
  show (v5 (ix2 p k) : EReal) - (((((IntOp.cmpi .eq (IntOp.addi (Scalar.muli (BitVec.ofNat 32 (i 0).val) 80#32) (iota .tc S80x10000 32 [0] _ (ix2 p k))) (iota .tc S80x10000 32 [1] _ (ix2 p k))).setWidth 32).toInt : ℤ) : ℝ) : EReal) = _
  rw [iota_single_apply, iota_single_apply]
  exact congrArg (fun z : EReal => (v5 (ix2 p k) : EReal) - z) (mask_word (coord_lt1 i) p.isLt k.isLt)

/-- ENTRY (p, q) OF THE NEW u BLOCK: the old entry plus row p of the block of E = L - I times column q of the
    narrowed u, the product started from the all-zero block. -/
theorem k1_pay2_apply (i : grid1.Coords) (v5 : Vec Ideal S80x10000 .f32) (v12 : Vec Ideal S80x128 .f32)
    (v14 : Vec Ideal S10000x128 .bf16) (p : Fin 80) (q : Fin 128) :
    (k1_pay2 (F := Ideal) i v5 v12 v14 : S80x128.Idx → EReal) (ix2 p q)
      = (v12 (ix2 p q) : EReal)
        + ∑ k : Fin 10000, ((v5 (ix2 p k) : EReal) - (if (i 0).val * 80 + p.val = k.val then (1 : EReal) else 0))
            * (v14 (ix2 k q) : EReal) := by
  unfold k1_pay2
  show (shapeCast S80x128 v12 _ (ix2 p q) : EReal)
      + FloatOps.matmul dot_S80x10000_S10000x128_S80x128_1_0_0_1_n_n none (k1_pay1 (F := Ideal) i v5)
          (shapeCast S10000x128 v14 _) (constant S80x128 .f32 0x00000000#32) (ix2 p q) = _
  rw [shapeCast_self, shapeCast_self]
  rw [PlainDot.matmul_zero_apply dot_S80x10000_S10000x128_S80x128_1_0_0_1_n_n rfl rfl rfl rfl rfl rfl rfl rfl none
    (k1_pay1 (F := Ideal) i v5) v14 p q]
  refine congrArg (fun z : EReal => (v12 (ix2 p q) : EReal) + z) (Finset.sum_congr rfl fun k _ => ?_)
  rw [k1_pay1_apply]

/-- ENTRY (p, q) OF THE NEW acc BLOCK: the old entry plus the coefficient's entry q times the new u entry. -/
theorem k1_pay3_apply (i : grid1.Coords) (v5 : Vec Ideal S80x10000 .f32) (v12 : Vec Ideal S80x128 .f32)
    (v14 : Vec Ideal S10000x128 .bf16) (v19 : Vec Ideal S80x128 .f32) (v21 : Vec Ideal S1x128 .f32)
    (p : Fin 80) (q : Fin 128) :
    (k1_pay3 (F := Ideal) i v5 v12 v14 v19 v21 : S80x128.Idx → EReal) (ix2 p q)
      = (v19 (ix2 p q) : EReal) + (v21 (ix2 (0 : Fin 1) q) : EReal)
          * ((v12 (ix2 p q) : EReal)
            + ∑ k : Fin 10000, ((v5 (ix2 p k) : EReal) - (if (i 0).val * 80 + p.val = k.val then (1 : EReal) else 0))
                * (v14 (ix2 k q) : EReal)) := by
  unfold k1_pay3
  show (shapeCast S80x128 v19 _ (ix2 p q) : EReal)
      + (broadcastTo S80x128 (shapeCast S1x128 v21 _) _ (ix2 p q) : EReal)
          * (k1_pay2 (F := Ideal) i v5 v12 v14 : S80x128.Idx → EReal) (ix2 p q) = _
  rw [shapeCast_self, shapeCast_self, broadcastTo_1b_ab_apply, k1_pay2_apply]

end Cert.KernelIdeal.KVal

end
-- ==== Proof.KFirstE.lean ====
/-
  The first propagation step's third output: E = L - I.

  Point t writes back rows 80 t … 80 t + 79 of the array; entry (p, k) of what it writes is L(80 t + p, k) less 1
  where 80 t + p = k.  The 125 blocks fill the array (row r is in the block of point r / 80), so the array ends holding
  L less the identity, index by index.
-/
import proofs.«116373_g1589137899740_cont_week2b_1182_8_alg».proof.Proof.FrameKI
import proofs.«116373_g1589137899740_cont_week2b_1182_8_alg».proof.Proof.KFirstGeo
import proofs.«116373_g1589137899740_cont_week2b_1182_8_alg».proof.Proof.KFirstPay
import Idealize.ShloMosaic.Lib.Pipeline.Value

noncomputable section

namespace Cert.KernelIdeal.KVal

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Output window 7: E = L - I -/

/-- Entry (p, k) of output window 7's block at point t sits at (80 t + p, k) of the array. -/
theorem emb1_7 (t : Fin cfg1.N) (p : Fin 80) (k : Fin 10000) (r : Fin 10000) (hr : r.val = t.val * 80 + p.val) :
    ((cfg1.win 7).blk t).view.emb (ix2 p k) = (ix2 r k : S10000x10000.Idx) := by
  obtain ⟨-, -, -, -, -, -, -, -, -, -, -, -, -, -, -, e0, e1⟩ := idx_facts1 t
  refine funext fun a => Fin.ext ?_
  match a with
  | ⟨0, _⟩ => show win1_7.index t (0 : Fin 2) * 80 + 1 * p.val = r.val; rw [e0, hr]; omega
  | ⟨1, _⟩ => show win1_7.index t (1 : Fin 2) * 10000 + 1 * k.val = k.val; rw [e1]; omega

/-- WHAT POINT t WRITES BACK to window 7 is block t of L - I: L's entries less 1 on the diagonal of the whole array. -/
theorem flushed1_7_eq (c : Dev nD) (t : Fin cfg1.N) :
    (dat1 (F := Ideal) V c).flushed 7 t = ((cfg1.win 7).blk t).view.read (Elt Ideal)
      (fun j : S10000x10000.Idx => L1 V c j
        - (if (j 0).val = (j 1).val then (1 : EReal) else 0)) := by
  show (cfg1.win 7).cut (grid1.coords t) ((dat1 V c).after 7 t) = _
  rw [after1_7]
  unfold out1_7
  rw [View.canon_unit_zero hz1]
  simp only [View.ld_unit_zero (S := S80x10000) hz1]
  obtain ⟨ec, -⟩ := idx_facts1 t
  have ht := point_lt1 t
  funext y
  obtain ⟨p, k, rfl⟩ : ∃ (p : Fin 80) (k : Fin 10000), y = ix2 p k := ⟨y 0, y 1, eq_ix2 y⟩
  show (k1_pay1 (F := Ideal) (grid1.coords t) (iblk1 V c 0 t) : S80x10000.Idx → EReal) (ix2 p k)
    = (fun j : S10000x10000.Idx => L1 V c j
        - (if (j 0).val = (j 1).val then (1 : EReal) else 0)) (((cfg1.win 7).blk t).view.emb (ix2 p k))
  rw [k1_pay1_apply (grid1.coords t) (iblk1 V c 0 t) p k,
    iblk1_0_apply V c t p k ⟨t.val * 80 + p.val, by omega⟩ rfl,
    emb1_7 t p k ⟨t.val * 80 + p.val, by omega⟩ rfl, ec]

/-- An index of the array is in point t's block of window 7 iff each coordinate is in the block's range on its axis. -/
theorem mem_blk1_7 (t : Fin cfg1.N) (i : S10000x10000.Idx) :
    i ∈ ((cfg1.win 7).blk t).view.set ↔ ∀ a : Fin 2, win1_7.index t a * S80x10000.size a ≤ (i a).val
      ∧ (i a).val < win1_7.index t a * S80x10000.size a + S80x10000.size a := by
  show i ∈ ((View.whole main_v14_2).slice (win1_7.rect t)).set ↔ _
  rw [View.set_slice_whole, Rect.mem_set_unit]
  exact Iff.rfl

/-- Every index of the array is in some point's block: row r is in the block of point r / 80. -/
theorem covered1_7 (i : S10000x10000.Idx) :
    ∃ t : Fin cfg1.N, (cfg1.win 7).flush t = true ∧ i ∈ ((cfg1.win 7).blk t).view.set := by
  have hi0 : (i 0).val < 10000 := (i 0).isLt
  have hi1 : (i 1).val < 10000 := (i 1).isLt
  have hN : cfg1.N = 125 := N_1
  have hlt : (i 0).val / 80 < cfg1.N := by rw [hN]; omega
  obtain ⟨-, -, -, -, -, -, -, -, -, -, -, -, -, -, -, e0, e1⟩ := idx_facts1 ⟨(i 0).val / 80, hlt⟩
  refine ⟨⟨(i 0).val / 80, hlt⟩, flush1_7 _, ?_⟩
  rw [mem_blk1_7]
  intro a
  match a with
  | ⟨0, _⟩ =>
    show win1_7.index ⟨(i 0).val / 80, hlt⟩ (0 : Fin 2) * 80 ≤ (i 0).val
      ∧ (i 0).val < win1_7.index ⟨(i 0).val / 80, hlt⟩ (0 : Fin 2) * 80 + 80
    rw [e0]; show (i 0).val / 80 * 80 ≤ (i 0).val ∧ (i 0).val < (i 0).val / 80 * 80 + 80; omega
  | ⟨1, _⟩ =>
    show win1_7.index ⟨(i 0).val / 80, hlt⟩ (1 : Fin 2) * 10000 ≤ (i 1).val
      ∧ (i 1).val < win1_7.index ⟨(i 0).val / 80, hlt⟩ (1 : Fin 2) * 10000 + 10000
    rw [e1]; omega

/-- THE ARRAY E after the first propagation step: L - I, index by index. -/
theorem final1_7 (c : Dev nD) : (dat1 (F := Ideal) V c).arrAt 7 cfg1.N
    = fun j : S10000x10000.Idx => L1 V c j
        - (if (j 0).val = (j 1).val then (1 : EReal) else 0) :=
  (dat1 V c).arrAt_eq_of_cover 7 _ (fun t _ => flushed1_7_eq V c t) covered1_7

end Cert.KernelIdeal.KVal

end
-- ==== Proof.KFirstU.lean ====
/-
  The first propagation step's first output: the new features u + (L - I) · u.

  Point t writes back rows 80 t … 80 t + 79; entry (p, q) of what it writes is u(r, q) plus the sum over k of
  (L(r, k) - [r = k]) · ub(k, q) with r = 80 t + p and ub the narrowed features.  The 125 blocks fill the array.
-/
import proofs.«116373_g1589137899740_cont_week2b_1182_8_alg».proof.Proof.FrameKI
import proofs.«116373_g1589137899740_cont_week2b_1182_8_alg».proof.Proof.KFirstGeo
import proofs.«116373_g1589137899740_cont_week2b_1182_8_alg».proof.Proof.KFirstPay
import Idealize.ShloMosaic.Lib.Pipeline.Value

noncomputable section

namespace Cert.KernelIdeal.KVal

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Output window 5: the new u -/

/-- The new u as one function of the arrays: u plus (L - I) times the narrowed u. -/
abbrev G1_5 (c : Dev nD) : S10000x128.Idx → EReal := fun j =>
  U1 V c j + ∑ k : Fin 10000, (L1 V c (ix2 (j 0) k) - (if (j 0).val = k.val then (1 : EReal) else 0)) * Ub1 V c (ix2 k (j 1))

/-- Entry (p, q) of output window 5's block at point t sits at (80 t + p, q) of the array. -/
theorem emb1_5 (t : Fin cfg1.N) (p : Fin 80) (q : Fin 128) (r : Fin 10000) (hr : r.val = t.val * 80 + p.val) :
    ((cfg1.win 5).blk t).view.emb (ix2 p q) = (ix2 r q : S10000x128.Idx) := by
  obtain ⟨-, -, -, -, -, -, -, -, -, -, -, e0, e1, -⟩ := idx_facts1 t
  refine funext fun a => Fin.ext ?_
  match a with
  | ⟨0, _⟩ => show win1_5.index t (0 : Fin 2) * 80 + 1 * p.val = r.val; rw [e0, hr]; omega
  | ⟨1, _⟩ => show win1_5.index t (1 : Fin 2) * 128 + 1 * q.val = q.val; rw [e1]; omega

/-- WHAT POINT t WRITES BACK to window 5 is block t of the new u. -/
theorem flushed1_5_eq (c : Dev nD) (t : Fin cfg1.N) :
    (dat1 (F := Ideal) V c).flushed 5 t = ((cfg1.win 5).blk t).view.read (Elt Ideal) (G1_5 V c) := by
  show (cfg1.win 5).cut (grid1.coords t) ((dat1 V c).after 5 t) = _
  rw [after1_5]
  unfold out1_5
  rw [View.canon_unit_zero hz1]
  simp only [View.ld_unit_zero (S := S80x10000) hz1, View.ld_unit_zero (S := S80x128) hz1,
    View.ld_unit_zero (S := S10000x128) hz1]
  have ht := point_lt1 t
  obtain ⟨ec, -⟩ := idx_facts1 t
  funext y
  obtain ⟨p, q, rfl⟩ : ∃ (p : Fin 80) (q : Fin 128), y = ix2 p q := ⟨y 0, y 1, eq_ix2 y⟩
  show (k1_pay2 (F := Ideal) (grid1.coords t) (iblk1 V c 0 t) (iblk1 V c 2 t) (iblk1 V c 1 t) : S80x128.Idx → EReal) (ix2 p q)
    = G1_5 V c (((cfg1.win 5).blk t).view.emb (ix2 p q))
  obtain ⟨r, hr⟩ : ∃ r : Fin 10000, r.val = t.val * 80 + p.val := ⟨⟨t.val * 80 + p.val, by omega⟩, rfl⟩
  rw [k1_pay2_apply (grid1.coords t) (iblk1 V c 0 t) (iblk1 V c 2 t) (iblk1 V c 1 t) p q, emb1_5 t p q r hr,
    iblk1_2_apply V c t p q r hr]
  exact congrArg (fun z : EReal => U1 V c (ix2 r q) + z)
    (row_sum_congr1 ((grid1.coords t) 0).val (iblk1 V c 0 t) (iblk1 V c 1 t) (L1 V c) (Ub1 V c) p q r (by rw [ec]; exact hr)
      (fun k => iblk1_0_apply V c t p k r hr) (fun k => iblk1_1_apply V c t k q))

/-- An index of the array is in point t's block of window 5 iff each coordinate is in the block's range on its axis. -/
theorem mem_blk1_5 (t : Fin cfg1.N) (i : S10000x128.Idx) :
    i ∈ ((cfg1.win 5).blk t).view.set ↔ ∀ a : Fin 2, win1_5.index t a * S80x128.size a ≤ (i a).val
      ∧ (i a).val < win1_5.index t a * S80x128.size a + S80x128.size a := by
  show i ∈ ((View.whole main_v14_0).slice (win1_5.rect t)).set ↔ _
  rw [View.set_slice_whole, Rect.mem_set_unit]
  exact Iff.rfl

/-- Every index of the array is in some point's block: row r is in the block of point r / 80. -/
theorem covered1_5 (i : S10000x128.Idx) :
    ∃ t : Fin cfg1.N, (cfg1.win 5).flush t = true ∧ i ∈ ((cfg1.win 5).blk t).view.set := by
  have hi0 : (i 0).val < 10000 := (i 0).isLt
  have hi1 : (i 1).val < 128 := (i 1).isLt
  have hN : cfg1.N = 125 := N_1
  have hlt : (i 0).val / 80 < cfg1.N := by rw [hN]; omega
  obtain ⟨-, -, -, -, -, -, -, -, -, -, -, e0, e1, -⟩ := idx_facts1 ⟨(i 0).val / 80, hlt⟩
  refine ⟨⟨(i 0).val / 80, hlt⟩, flush1_5 _, ?_⟩
  rw [mem_blk1_5]
  intro a
  match a with
  | ⟨0, _⟩ =>
    show win1_5.index ⟨(i 0).val / 80, hlt⟩ (0 : Fin 2) * 80 ≤ (i 0).val
      ∧ (i 0).val < win1_5.index ⟨(i 0).val / 80, hlt⟩ (0 : Fin 2) * 80 + 80
    rw [e0]; show (i 0).val / 80 * 80 ≤ (i 0).val ∧ (i 0).val < (i 0).val / 80 * 80 + 80; omega
  | ⟨1, _⟩ =>
    show win1_5.index ⟨(i 0).val / 80, hlt⟩ (1 : Fin 2) * 128 ≤ (i 1).val
      ∧ (i 1).val < win1_5.index ⟨(i 0).val / 80, hlt⟩ (1 : Fin 2) * 128 + 128
    rw [e1]; omega

/-- THE ARRAY u after the first propagation step: u + (L - I) · (narrowed u), index by index. -/
theorem final1_5 (c : Dev nD) : (dat1 (F := Ideal) V c).arrAt 5 cfg1.N
    = fun j : S10000x128.Idx => U1 V c j
        + ∑ k : Fin 10000, (L1 V c (ix2 (j 0) k) - (if (j 0).val = k.val then (1 : EReal) else 0)) * Ub1 V c (ix2 k (j 1)) :=
  (dat1 V c).arrAt_eq_of_cover 5 (G1_5 V c) (fun t _ => flushed1_5_eq V c t) covered1_5

end Cert.KernelIdeal.KVal

end
-- ==== Proof.KFirstAcc.lean ====
/-
  The first propagation step's second output: the new running sum acc + coefficient · (new features).

  Point t writes back rows 80 t … 80 t + 79; entry (p, q) of what it writes is acc(r, q) plus the coefficient's entry q
  times the new feature entry (r, q), r = 80 t + p.  The 125 blocks fill the array.
-/
import proofs.«116373_g1589137899740_cont_week2b_1182_8_alg».proof.Proof.FrameKI
import proofs.«116373_g1589137899740_cont_week2b_1182_8_alg».proof.Proof.KFirstGeo
import proofs.«116373_g1589137899740_cont_week2b_1182_8_alg».proof.Proof.KFirstPay
import Idealize.ShloMosaic.Lib.Pipeline.Value

noncomputable section

namespace Cert.KernelIdeal.KVal

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Output window 6: the new acc -/

/-- The new acc as one function of the arrays: acc plus the coefficient (by column) times the new u. -/
abbrev G1_6 (c : Dev nD) : S10000x128.Idx → EReal := fun j =>
  A1 V c j + C1 V c (ix2 (0 : Fin 1) (j 1)) * (U1 V c j
    + ∑ k : Fin 10000, (L1 V c (ix2 (j 0) k) - (if (j 0).val = k.val then (1 : EReal) else 0)) * Ub1 V c (ix2 k (j 1)))

/-- Entry (p, q) of output window 6's block at point t sits at (80 t + p, q) of the array. -/
theorem emb1_6 (t : Fin cfg1.N) (p : Fin 80) (q : Fin 128) (r : Fin 10000) (hr : r.val = t.val * 80 + p.val) :
    ((cfg1.win 6).blk t).view.emb (ix2 p q) = (ix2 r q : S10000x128.Idx) := by
  obtain ⟨-, -, -, -, -, -, -, -, -, -, -, -, -, e0, e1, -⟩ := idx_facts1 t
  refine funext fun a => Fin.ext ?_
  match a with
  | ⟨0, _⟩ => show win1_6.index t (0 : Fin 2) * 80 + 1 * p.val = r.val; rw [e0, hr]; omega
  | ⟨1, _⟩ => show win1_6.index t (1 : Fin 2) * 128 + 1 * q.val = q.val; rw [e1]; omega

/-- WHAT POINT t WRITES BACK to window 6 is block t of the new acc. -/
theorem flushed1_6_eq (c : Dev nD) (t : Fin cfg1.N) :
    (dat1 (F := Ideal) V c).flushed 6 t = ((cfg1.win 6).blk t).view.read (Elt Ideal) (G1_6 V c) := by
  show (cfg1.win 6).cut (grid1.coords t) ((dat1 V c).after 6 t) = _
  rw [after1_6]
  unfold out1_6
  rw [View.canon_unit_zero hz1]
  simp only [View.ld_unit_zero (S := S80x10000) hz1, View.ld_unit_zero (S := S80x128) hz1,
    View.ld_unit_zero (S := S10000x128) hz1, View.ld_unit_zero (S := S1x128) hz1]
  have ht := point_lt1 t
  obtain ⟨ec, -⟩ := idx_facts1 t
  funext y
  obtain ⟨p, q, rfl⟩ : ∃ (p : Fin 80) (q : Fin 128), y = ix2 p q := ⟨y 0, y 1, eq_ix2 y⟩
  show (k1_pay3 (F := Ideal) (grid1.coords t) (iblk1 V c 0 t) (iblk1 V c 2 t) (iblk1 V c 1 t) (iblk1 V c 3 t) (iblk1 V c 4 t) : S80x128.Idx → EReal) (ix2 p q)
    = G1_6 V c (((cfg1.win 6).blk t).view.emb (ix2 p q))
  obtain ⟨r, hr⟩ : ∃ r : Fin 10000, r.val = t.val * 80 + p.val := ⟨⟨t.val * 80 + p.val, by omega⟩, rfl⟩
  rw [k1_pay3_apply (grid1.coords t) (iblk1 V c 0 t) (iblk1 V c 2 t) (iblk1 V c 1 t) (iblk1 V c 3 t) (iblk1 V c 4 t) p q,
    emb1_6 t p q r hr, iblk1_2_apply V c t p q r hr, iblk1_3_apply V c t p q r hr, iblk1_4_apply V c t q]
  exact congrArg (fun z : EReal => A1 V c (ix2 r q) + C1 V c (ix2 (0 : Fin 1) q) * (U1 V c (ix2 r q) + z))
    (row_sum_congr1 ((grid1.coords t) 0).val (iblk1 V c 0 t) (iblk1 V c 1 t) (L1 V c) (Ub1 V c) p q r (by rw [ec]; exact hr)
      (fun k => iblk1_0_apply V c t p k r hr) (fun k => iblk1_1_apply V c t k q))

/-- An index of the array is in point t's block of window 6 iff each coordinate is in the block's range on its axis. -/
theorem mem_blk1_6 (t : Fin cfg1.N) (i : S10000x128.Idx) :
    i ∈ ((cfg1.win 6).blk t).view.set ↔ ∀ a : Fin 2, win1_6.index t a * S80x128.size a ≤ (i a).val
      ∧ (i a).val < win1_6.index t a * S80x128.size a + S80x128.size a := by
  show i ∈ ((View.whole main_v14_1).slice (win1_6.rect t)).set ↔ _
  rw [View.set_slice_whole, Rect.mem_set_unit]
  exact Iff.rfl

/-- Every index of the array is in some point's block: row r is in the block of point r / 80. -/
theorem covered1_6 (i : S10000x128.Idx) :
    ∃ t : Fin cfg1.N, (cfg1.win 6).flush t = true ∧ i ∈ ((cfg1.win 6).blk t).view.set := by
  have hi0 : (i 0).val < 10000 := (i 0).isLt
  have hi1 : (i 1).val < 128 := (i 1).isLt
  have hN : cfg1.N = 125 := N_1
  have hlt : (i 0).val / 80 < cfg1.N := by rw [hN]; omega
  obtain ⟨-, -, -, -, -, -, -, -, -, -, -, -, -, e0, e1, -⟩ := idx_facts1 ⟨(i 0).val / 80, hlt⟩
  refine ⟨⟨(i 0).val / 80, hlt⟩, flush1_6 _, ?_⟩
  rw [mem_blk1_6]
  intro a
  match a with
  | ⟨0, _⟩ =>
    show win1_6.index ⟨(i 0).val / 80, hlt⟩ (0 : Fin 2) * 80 ≤ (i 0).val
      ∧ (i 0).val < win1_6.index ⟨(i 0).val / 80, hlt⟩ (0 : Fin 2) * 80 + 80
    rw [e0]; show (i 0).val / 80 * 80 ≤ (i 0).val ∧ (i 0).val < (i 0).val / 80 * 80 + 80; omega
  | ⟨1, _⟩ =>
    show win1_6.index ⟨(i 0).val / 80, hlt⟩ (1 : Fin 2) * 128 ≤ (i 1).val
      ∧ (i 1).val < win1_6.index ⟨(i 0).val / 80, hlt⟩ (1 : Fin 2) * 128 + 128
    rw [e1]; omega

/-- THE ARRAY acc after the first propagation step: acc + coefficient * (the new u), index by index. -/
theorem final1_6 (c : Dev nD) : (dat1 (F := Ideal) V c).arrAt 6 cfg1.N
    = fun j : S10000x128.Idx => A1 V c j + C1 V c (ix2 (0 : Fin 1) (j 1)) * (U1 V c j
        + ∑ k : Fin 10000, (L1 V c (ix2 (j 0) k) - (if (j 0).val = k.val then (1 : EReal) else 0)) * Ub1 V c (ix2 k (j 1))) :=
  (dat1 V c).arrAt_eq_of_cover 6 (G1_6 V c) (fun t _ => flushed1_6_eq V c t) covered1_6

end Cert.KernelIdeal.KVal

end
-- ==== Proof.KFirstFinal.lean ====
/-
  The first propagation step, whole arrays: the three output arrays after the step as functions of the arrays it
  reads (`final1_7`: E = L - I; `final1_5`: the new features; `final1_6`: the new running sum).
-/
import proofs.«116373_g1589137899740_cont_week2b_1182_8_alg».proof.Proof.KFirstE
import proofs.«116373_g1589137899740_cont_week2b_1182_8_alg».proof.Proof.KFirstU
import proofs.«116373_g1589137899740_cont_week2b_1182_8_alg».proof.Proof.KFirstAcc
-- ==== Proof.KChainFirst.lean ====
/-
  Region 1 (the first propagation pass) read at real arguments: it stores `L - 1`, applies `L` once to the features
  (as `H + (L - 1)·H`) and adds the coefficient times the new features to the running sum.
-/
import proofs.«116373_g1589137899740_cont_week2b_1182_8_alg».proof.Proof.FrameKI
import proofs.«116373_g1589137899740_cont_week2b_1182_8_alg».proof.Proof.KFirstFinal
import proofs.«116373_g1589137899740_cont_week2b_1182_8_alg».proof.Proof.KTransport

set_option maxRecDepth 16384

noncomputable section

namespace Cert.KernelIdeal.KVal

open Matrix Bern
open Cert.KernelIdeal Cert.KernelIdeal.Gen Cert.KernelIdeal.GenP
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Region 1 at real arguments. -/
theorem stage1 (L : Matrix (Fin 10000) (Fin 10000) ℝ) (H A : Matrix (Fin 10000) (Fin 128) ℝ) (cv : ℝ)
    (hL : (W3 m ρ c (Proc.devRef .tc main_arg1) : S10000x10000.Idx → EReal) = toE L)
    (hub : (W3 m ρ c (Proc.devRef .tc main_v10) : S10000x128.Idx → EReal) = toE H)
    (hu : (W3 m ρ c (Proc.devRef .tc main_v5) : S10000x128.Idx → EReal) = toE H)
    (hacc : (W3 m ρ c (Proc.devRef .tc main_v9) : S10000x128.Idx → EReal) = toE A)
    (hct : (W3 m ρ c (Proc.devRef .tc main_v13) : S1x128.Idx → EReal) = toERow fun _ => cv) :
    (W4 m ρ c (Proc.devRef .tc main_v14_0) : S10000x128.Idx → EReal) = toE (kstep L H)
    ∧ (W4 m ρ c (Proc.devRef .tc main_v14_1) : S10000x128.Idx → EReal) = toE (A + cv • kstep L H)
    ∧ (W4 m ρ c (Proc.devRef .tc main_v14_2) : S10000x10000.Idx → EReal) = toE (L - 1) := by
  have eL : L1 (V3 m ρ) c = toE L := hL
  have eUb : Ub1 (V3 m ρ) c = toE H := hub
  have eU : U1 (V3 m ρ) c = toE H := hu
  have eA : A1 (V3 m ρ) c = toE A := hacc
  have eC : C1 (V3 m ρ) c = toERow fun _ => cv := hct
  refine ⟨?_, ?_, ?_⟩
  · refine (W4_arr m ρ c 5).trans ?_
    rw [final1_5 (V3 m ρ) c, eL, eUb, eU]
    exact kstepE_toE L H
  · refine (W4_arr m ρ c 6).trans ?_
    rw [final1_6 (V3 m ρ) c, eL, eUb, eU, eA, eC]
    exact firstAcc_toE L H A cv
  · refine (W4_arr m ρ c 7).trans ?_
    rw [final1_7 (V3 m ρ) c, eL]
    exact maskSub_toE L

end Cert.KernelIdeal.KVal

end
-- ==== Proof.KKept.lean ====
/-
  What the run carries unchanged from the first propagation region to the read-out.

  Four buffers are written once and then only read: the stored matrix `L - 1` (region 1 writes it, regions 2–8 read it
  through an input window), the table of monomial coefficients (the first host stretch writes it, the later stretches
  slice it), and the read-out's weights and bias (arguments, padded just before region 9). A region changes only its
  output arrays, so each of the four is at a region's exit what it was at its entry.
-/
import proofs.«116373_g1589137899740_cont_week2b_1182_8_alg».proof.Proof.FrameKI
import proofs.«116373_g1589137899740_cont_week2b_1182_8_alg».proof.Proof.BernRow

set_option maxRecDepth 16384

noncomputable section

namespace Cert.KernelIdeal.KVal

open Matrix Bern
open Cert.KernelIdeal Cert.KernelIdeal.Gen Cert.KernelIdeal.GenP
open Idealize.ShloMosaic Idealize.ShloMosaic.TcCoe Idealize.ShloMosaic.ValueIdx Idealize.SL.Sem

/-- The four carried buffers hold `L - 1`, the coefficient table, the read-out's weights and its bias. -/
def Kept (Wv : Valuation τ sig (Elt Ideal)) (L : Matrix (Fin 10000) (Fin 10000) ℝ) (C : Matrix (Fin 2) (Fin 5) ℝ)
    (W3 : Matrix (Fin 128) (Fin 40) ℝ) (b3 : Fin 40 → ℝ) : Prop :=
  (Wv (Proc.devRef .tc main_v14_2) : S10000x10000.Idx → EReal) = toE (L - 1)
  ∧ (Wv (Proc.devRef .tc main_v2) : S2x5.Idx → EReal) = toE C
  ∧ (Wv (Proc.devRef .tc main_arg7) : S128x40.Idx → EReal) = toE W3
  ∧ (Wv (Proc.devRef .tc main_arg8) : S40.Idx → EReal) = toE1 b3

variable (m : (ℓ : Loc nD τ sig) → Buf (Elt Ideal) ℓ) (ρ : Dev nD → PrngReg) (c : Dev nD)

/-- Region 2 reads the stored matrix through an input window and touches none of the other three. -/
theorem kept_region2 {L : Matrix (Fin 10000) (Fin 10000) ℝ} {C : Matrix (Fin 2) (Fin 5) ℝ} {W3 : Matrix (Fin 128) (Fin 40) ℝ} {b3 : Fin 40 → ℝ}
    (h : Kept (W5 m ρ c) L C W3 b3) : Kept (W6 m ρ c) L C W3 b3 :=
  ⟨((W6_arr m ρ c 0).trans (((dat2 (V5 m ρ) c).arrAt_in 0 rfl _).trans (A_eq2 (V5 m ρ) c 0))).trans h.1,
   (W6_of_ne m ρ c main_v2 (by decide)).trans h.2.1,
   (W6_of_ne m ρ c main_arg7 (by decide)).trans h.2.2.1,
   (W6_of_ne m ρ c main_arg8 (by decide)).trans h.2.2.2⟩

/-- Region 3 reads the stored matrix through an input window and touches none of the other three. -/
theorem kept_region3 {L : Matrix (Fin 10000) (Fin 10000) ℝ} {C : Matrix (Fin 2) (Fin 5) ℝ} {W3 : Matrix (Fin 128) (Fin 40) ℝ} {b3 : Fin 40 → ℝ}
    (h : Kept (W7 m ρ c) L C W3 b3) : Kept (W8 m ρ c) L C W3 b3 :=
  ⟨((W8_arr m ρ c 0).trans (((dat3 (V7 m ρ) c).arrAt_in 0 rfl _).trans (A_eq3 (V7 m ρ) c 0))).trans h.1,
   (W8_of_ne m ρ c main_v2 (by decide)).trans h.2.1,
   (W8_of_ne m ρ c main_arg7 (by decide)).trans h.2.2.1,
   (W8_of_ne m ρ c main_arg8 (by decide)).trans h.2.2.2⟩

/-- Region 4 reads the stored matrix through an input window and touches none of the other three. -/
theorem kept_region4 {L : Matrix (Fin 10000) (Fin 10000) ℝ} {C : Matrix (Fin 2) (Fin 5) ℝ} {W3 : Matrix (Fin 128) (Fin 40) ℝ} {b3 : Fin 40 → ℝ}
    (h : Kept (W9 m ρ c) L C W3 b3) : Kept (W10 m ρ c) L C W3 b3 :=
  ⟨((W10_arr m ρ c 0).trans (((dat4 (V9 m ρ) c).arrAt_in 0 rfl _).trans (A_eq4 (V9 m ρ) c 0))).trans h.1,
   (W10_of_ne m ρ c main_v2 (by decide)).trans h.2.1,
   (W10_of_ne m ρ c main_arg7 (by decide)).trans h.2.2.1,
   (W10_of_ne m ρ c main_arg8 (by decide)).trans h.2.2.2⟩

/-- Region 5 reads the stored matrix through an input window and touches none of the other three. -/
theorem kept_region5 {L : Matrix (Fin 10000) (Fin 10000) ℝ} {C : Matrix (Fin 2) (Fin 5) ℝ} {W3 : Matrix (Fin 128) (Fin 40) ℝ} {b3 : Fin 40 → ℝ}
    (h : Kept (W11 m ρ c) L C W3 b3) : Kept (W12 m ρ c) L C W3 b3 :=
  ⟨((W12_arr m ρ c 0).trans (((dat5 (V11 m ρ) c).arrAt_in 0 rfl _).trans (A_eq5 (V11 m ρ) c 0))).trans h.1,
   (W12_of_ne m ρ c main_v2 (by decide)).trans h.2.1,
   (W12_of_ne m ρ c main_arg7 (by decide)).trans h.2.2.1,
   (W12_of_ne m ρ c main_arg8 (by decide)).trans h.2.2.2⟩

/-- Region 6 reads the stored matrix through an input window and touches none of the other three. -/
theorem kept_region6 {L : Matrix (Fin 10000) (Fin 10000) ℝ} {C : Matrix (Fin 2) (Fin 5) ℝ} {W3 : Matrix (Fin 128) (Fin 40) ℝ} {b3 : Fin 40 → ℝ}
    (h : Kept (W13 m ρ c) L C W3 b3) : Kept (W14 m ρ c) L C W3 b3 :=
  ⟨((W14_arr m ρ c 0).trans (((dat6 (V13 m ρ) c).arrAt_in 0 rfl _).trans (A_eq6 (V13 m ρ) c 0))).trans h.1,
   (W14_of_ne m ρ c main_v2 (by decide)).trans h.2.1,
   (W14_of_ne m ρ c main_arg7 (by decide)).trans h.2.2.1,
   (W14_of_ne m ρ c main_arg8 (by decide)).trans h.2.2.2⟩

/-- Region 7 reads the stored matrix through an input window and touches none of the other three. -/
theorem kept_region7 {L : Matrix (Fin 10000) (Fin 10000) ℝ} {C : Matrix (Fin 2) (Fin 5) ℝ} {W3 : Matrix (Fin 128) (Fin 40) ℝ} {b3 : Fin 40 → ℝ}
    (h : Kept (W15 m ρ c) L C W3 b3) : Kept (W16 m ρ c) L C W3 b3 :=
  ⟨((W16_arr m ρ c 0).trans (((dat7 (V15 m ρ) c).arrAt_in 0 rfl _).trans (A_eq7 (V15 m ρ) c 0))).trans h.1,
   (W16_of_ne m ρ c main_v2 (by decide)).trans h.2.1,
   (W16_of_ne m ρ c main_arg7 (by decide)).trans h.2.2.1,
   (W16_of_ne m ρ c main_arg8 (by decide)).trans h.2.2.2⟩

/-- Region 8 reads the stored matrix through an input window and touches none of the other three. -/
theorem kept_region8 {L : Matrix (Fin 10000) (Fin 10000) ℝ} {C : Matrix (Fin 2) (Fin 5) ℝ} {W3 : Matrix (Fin 128) (Fin 40) ℝ} {b3 : Fin 40 → ℝ}
    (h : Kept (W17 m ρ c) L C W3 b3) : Kept (W18 m ρ c) L C W3 b3 :=
  ⟨((W18_arr m ρ c 0).trans (((dat8 (V17 m ρ) c).arrAt_in 0 rfl _).trans (A_eq8 (V17 m ρ) c 0))).trans h.1,
   (W18_of_ne m ρ c main_v2 (by decide)).trans h.2.1,
   (W18_of_ne m ρ c main_arg7 (by decide)).trans h.2.2.1,
   (W18_of_ne m ρ c main_arg8 (by decide)).trans h.2.2.2⟩

end Cert.KernelIdeal.KVal

end
-- ==== Proof.LibRowBroadcast.lean ====
/-
  A vector laid out as one row and then repeated down the rows, read at an index.

  The host broadcasts a length-n vector b first to a [1, n] array (along axis 1) and then to an [a, n] array
  (along both axes, the unit axis stretched). Entry (p, q) of the result is b (q), whatever the row p.
-/
import Idealize.ShloMosaic.Lib.Pipeline.Value
import Idealize.ShloMosaic.Lib.ValueIdx

namespace Idealize.ShloMosaic.RowBroadcast

open Idealize.ShloMosaic Idealize.ShloMosaic.ValueIdx

/-- A vector made one row and then every row of an [a, n] array, read at (p, q), is its entry q. -/
theorem rowsOf_apply {α : Type} {a n : Nat} (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 b) (ix2 p q) = b (ix1 q) := by
  rw [broadcastInDim_apply ![0, 1] h2 _ (ix2 p q) (ix2 (0 : Fin 1) q) (fun ax => by
    match ax with
    | ⟨0, _⟩ => rfl
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

end Idealize.ShloMosaic.RowBroadcast
-- ==== Proof.LibDenseForms.lean ====
/-
  The two ways a program writes the dense maps of LibDense.lean, each shown to be that map.

  On the matrix unit: the operands are narrowed to bf16 (no change on the extended reals) and the product is
  accumulated into an all-zero block, so entry (p, q) is 0 + the sum over k of x(p, k) · w(k, q); the bias, a length-N
  vector, is reshaped to one row and repeated down the rows before it is added. On the host: one dot_general of the
  whole arrays, and the bias broadcast along axis 1 and then down the rows. Both are the functions `linear` and
  `affine`, for any dimension numbers that describe an ordinary M x K by K x N product.
-/
import proofs.«116373_g1589137899740_cont_week2b_1182_8_alg».proof.Proof.LibDense
import proofs.«116373_g1589137899740_cont_week2b_1182_8_alg».proof.Proof.LibPlainDot
import proofs.«116373_g1589137899740_cont_week2b_1182_8_alg».proof.Proof.LibRowBroadcast

noncomputable section

namespace Cert.Rgcn

open Idealize.ShloMosaic Idealize.ShloMosaic.ValueIdx

section Forms

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hrc hln hrn hlb hrb hr hs in
/-- The matrix unit's product of the bf16-narrowed operands, accumulated from zero, is x · w. -/
theorem unitProduct_eq (prec : Option ContractPrecision) (hb : FTy.bits .bf16 < FTy.bits .f32)
    (x : FVec Ideal ⟨2, ![M, K]⟩ .f32) (w : FVec Ideal ⟨2, ![K, N]⟩ .f32) :
    FloatOps.matmul D prec (truncf .bf16 x hb) (truncf .bf16 w hb) (constant ⟨2, ![M, N]⟩ .f32 0x00000000#32)
      = linear x w := by
  funext j
  obtain ⟨p, q, rfl⟩ : ∃ (p : Fin M) (q : Fin N), j = ix2 p q := ⟨j 0, j 1, eq_ix2 j⟩
  exact PlainDot.matmul_zero_apply D hlc hrc hln hrn hlb hrb hr hs prec (truncf .bf16 x hb) (truncf .bf16 w hb) p q

include hlc hrc hln hrn hlb hrb hr hs in
/-- The same product with the bias row added: x · w + b. -/
theorem unitAffine_eq (prec : Option ContractPrecision) (hb : FTy.bits .bf16 < FTy.bits .f32)
    (x : FVec Ideal ⟨2, ![M, K]⟩ .f32) (w : FVec Ideal ⟨2, ![K, N]⟩ .f32) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩) :
    addf (FloatOps.matmul D prec (truncf .bf16 x hb) (truncf .bf16 w hb) (constant ⟨2, ![M, N]⟩ .f32 0x00000000#32))
        (broadcastTo ⟨2, ![M, N]⟩ (shapeCast ⟨2, ![1, N]⟩ b h1) h2)
      = affine x w b := by
  funext j
  obtain ⟨p, q, rfl⟩ : ∃ (p : Fin M) (q : Fin N), j = ix2 p q := ⟨j 0, j 1, eq_ix2 j⟩
  rw [addf_apply, unitProduct_eq D hlc hrc hln hrn hlb hrb hr hs prec hb x w, rowBlock_apply b h1 h2 p q]
  rfl

include hlc hrc hln hrn hlb hrb hr hs in
/-- The host's product of the whole arrays is x · w. -/
theorem hostProduct_eq (prec : Option ContractPrecision) (sched : HostSchedule)
    (x : FVec Ideal ⟨2, ![M, K]⟩ .f32) (w : FVec Ideal ⟨2, ![K, N]⟩ .f32) :
    FloatOps.dotGeneral D prec sched x w = linear x w := by
  funext j
  obtain ⟨p, q, rfl⟩ : ∃ (p : Fin M) (q : Fin N), j = ix2 p q := ⟨j 0, j 1, eq_ix2 j⟩
  exact PlainDot.dotGeneral_apply D hlc hrc hln hrn hlb hrb hr hs prec sched x w p q

include hlc hrc hln hrn hlb hrb hr hs in
/-- The host's product with the bias broadcast over the rows: x · w + b. -/
theorem hostAffine_eq (prec : Option ContractPrecision) (sched : HostSchedule)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (FloatOps.dotGeneral D prec sched x w)
        (broadcastInDim ⟨2, ![M, N]⟩ ![0, 1] h2 (broadcastInDim ⟨2, ![1, N]⟩ ![1] h1 b))
      = affine x w b := by
  funext j
  obtain ⟨p, q, rfl⟩ : ∃ (p : Fin M) (q : Fin N), j = ix2 p q := ⟨j 0, j 1, eq_ix2 j⟩
  rw [addf_apply, hostProduct_eq D hlc hrc hln hrn hlb hrb hr hs prec sched x w, RowBroadcast.rowsOf_apply b h1 h2 p q]
  rfl

end Forms

end Cert.Rgcn

end
-- ==== Proof.RefBridge.lean ====
/-
  The reference program's host operations on arrays whose entries are real numbers, as operations on real matrices.

  Every array the reference computes from real inputs has real entries, so it is `toE A` for a real matrix `A`, and
  each host operation acts on such arrays as the matching matrix operation acts on the matrices:

  * a `dot_general` with the dimension numbers of an ordinary product is the matrix product (`product_toE`), and with a
    bias vector spread over the rows and added it is `A * W + rowsOf b` (`affine_host_toE`);
  * the maximum with the zero scalar spread over the array is `relu` (`relu_host_toE`);
  * a scalar spread over the array and multiplied in is the scalar multiple (`scale_host_toE`), the entrywise sum is
    the sum (`addf_toE`), and `2·u - L u` is `bstep L u` (`bstep_host_toE`);
  * row `r` of the 2 × 5 coefficient array, sliced out and reshaped to a vector, is the vector `θ r`
    (`thetaRow_toE`), and a literal times entry `j` of that vector is the real product (`weight_apply`);
  * the five-term weighted sum of a filter layer followed by the maximum with zero is `relu` of the same weighted sum
    of matrices (`layer_host_toE`), which for the Bernstein weights and iterates is `bernLayer`.

  The float literals the program spells are read here as reals: 2, 1/16, 1/4 and 3/8.
-/
import Idealize.ShloMosaic.Lib.IdealHost
import proofs.«116373_g1589137899740_cont_week2b_1182_8_alg».proof.Proof.BernTransport
import proofs.«116373_g1589137899740_cont_week2b_1182_8_alg».proof.Proof.LibDenseForms

noncomputable section

namespace Cert.ReferenceIdeal.RefValue

open Matrix Idealize.ShloMosaic Idealize.ShloMosaic.ValueIdx Cert.Rgcn Bern

/-! ## The literals -/

/-- The pattern `0x40000000` (sign 0, exponent 128, fraction 0) is the real 2. -/
theorem ofBits_two : Ideal.ofBits .f32 0x40000000#32 = ((2 : ℝ) : EReal) := by
  simp [Ideal.ofBits, Ideal.ieee, -EReal.coe_mul]; norm_num

/-- The pattern `0x3D800000` (exponent 123, fraction 0) is the real 2⁻⁴ = 1/16. -/
theorem ofBits_sixteenth : Ideal.ofBits .f32 0x3D800000#32 = (((1 : ℝ) / 16 : ℝ) : EReal) := by
  simp [Ideal.ofBits, Ideal.ieee, -EReal.coe_mul]; norm_num

/-- The pattern `0x3E800000` (exponent 125, fraction 0) is the real 2⁻² = 1/4. -/
theorem ofBits_quarter : Ideal.ofBits .f32 0x3E800000#32 = (((1 : ℝ) / 4 : ℝ) : EReal) := by
  simp [Ideal.ofBits, Ideal.ieee, -EReal.coe_mul]; norm_num

/-- The pattern `0x3EC00000` (exponent 125, fraction 1/2) is the real 1.5 · 2⁻² = 3/8. -/
theorem ofBits_three_eighths : Ideal.ofBits .f32 0x3EC00000#32 = (((3 : ℝ) / 8 : ℝ) : EReal) := by
  simp [Ideal.ofBits, Ideal.ieee, -EReal.coe_mul]; norm_num

/-! ## Products -/

section Products
variable {M K N : Nat}

/-- The dimension numbers `D` describe the ordinary product of an M × K by a K × N matrix. -/
def IsProduct (D : DotDims ⟨2, ![M, K]⟩ ⟨2, ![K, N]⟩ ⟨2, ![M, N]⟩) : Prop :=
  ∀ (x : FVec Ideal ⟨2, ![M, K]⟩ .f32) (w : FVec Ideal ⟨2, ![K, N]⟩ .f32), Host.dotGeneral D none x w = linear x w

/-- Contracting axis 1 of the left operand against axis 0 of the right, with no batch axes, is the ordinary product. -/
theorem isProduct_of (D : DotDims ⟨2, ![M, K]⟩ ⟨2, ![K, N]⟩ ⟨2, ![M, N]⟩)
    (hlc : D.lhsContracting = [1]) (hrc : D.rhsContracting = [0])
    (hln : D.lhsNonContracting = [0]) (hrn : D.rhsNonContracting = [1])
    (hlb : D.lhsBatch = []) (hrb : D.rhsBatch = [])
    (hr : D.contr.rank = 1) (hs : D.contr.size ⟨0, by omega⟩ = K) : IsProduct D :=
  fun x w => hostProduct_eq D hlc hrc hln hrn hlb hrb hr hs none .single x w

/-- The host's product of two coerced real matrices is the coerced matrix product. -/
theorem product_toE {D : DotDims ⟨2, ![M, K]⟩ ⟨2, ![K, N]⟩ ⟨2, ![M, N]⟩} (hD : IsProduct D)
    (A : Matrix (Fin M) (Fin K) ℝ) (B : Matrix (Fin K) (Fin N) ℝ) :
    Host.dotGeneral D none (toE A) (toE B) = toE (A * B) :=
  (hD (toE A) (toE B)).trans (linear_toE A B)

/-- The host's product with a coerced bias vector spread over the rows and added is `A * W + rowsOf b`. -/
theorem affine_host_toE {D : DotDims ⟨2, ![M, K]⟩ ⟨2, ![K, N]⟩ ⟨2, ![M, N]⟩} (hD : IsProduct D)
    (h1 : (⟨1, ![N]⟩ : Shape).BroadcastsInDim ⟨2, ![1, N]⟩ ![1])
    (h2 : (⟨2, ![1, N]⟩ : Shape).BroadcastsInDim ⟨2, ![M, N]⟩ ![0, 1])
    (A : Matrix (Fin M) (Fin K) ℝ) (W : Matrix (Fin K) (Fin N) ℝ) (b : Fin N → ℝ) :
    addf (Host.dotGeneral D none (toE A) (toE W))
        (broadcastInDim ⟨2, ![M, N]⟩ ![0, 1] h2 (broadcastInDim ⟨2, ![1, N]⟩ ![1] h1 (toE1 b)))
      = toE (A * W + rowsOf b) := by
  rw [hD (toE A) (toE W), ← affine_toE A W b]
  funext j
  obtain ⟨p, q, rfl⟩ : ∃ (p : Fin M) (q : Fin N), j = ix2 p q := ⟨j 0, j 1, eq_ix2 j⟩
  rw [addf_apply, RowBroadcast.rowsOf_apply (toE1 b) h1 h2 p q]
  rfl

/-- The same with the left operand any array known to be a coerced matrix. -/
theorem readout_host_toE {D : DotDims ⟨2, ![M, K]⟩ ⟨2, ![K, N]⟩ ⟨2, ![M, N]⟩} (hD : IsProduct D)
    (h1 : (⟨1, ![N]⟩ : Shape).BroadcastsInDim ⟨2, ![1, N]⟩ ![1])
    (h2 : (⟨2, ![1, N]⟩ : Shape).BroadcastsInDim ⟨2, ![M, N]⟩ ![0, 1])
    (z : FVec Ideal ⟨2, ![M, K]⟩ .f32) (A : Matrix (Fin M) (Fin K) ℝ) (e : z = toE A)
    (W : Matrix (Fin K) (Fin N) ℝ) (b : Fin N → ℝ) :
    addf (Host.dotGeneral D none z (toE W))
        (broadcastInDim ⟨2, ![M, N]⟩ ![0, 1] h2 (broadcastInDim ⟨2, ![1, N]⟩ ![1] h1 (toE1 b)))
      = toE (A * W + rowsOf b) := by
  subst e
  exact affine_host_toE hD h1 h2 A W b

end Products

/-! ## Entrywise operations -/

section Entrywise
variable {M N : Nat}

/-- The maximum with the zero scalar spread over the array is `relu`. -/
theorem relu_host_toE (hz : (⟨0, ![]⟩ : Shape).BroadcastsInDim ⟨2, ![M, N]⟩ ![]) (A : Matrix (Fin M) (Fin N) ℝ) :
    maximumf (toE A) (broadcastInDim ⟨2, ![M, N]⟩ ![] hz (constant (F := Ideal) ⟨0, ![]⟩ .f32 0x00000000#32))
      = toE (relu A) := by
  rw [← toE_relu A]
  funext j
  rw [maximumf_apply, broadcastInDim_scalar_apply, constant_apply, Ideal.ofBits_zero_f32]

/-- A scalar with real value `c`, spread over the array and multiplied in, is the multiple by `c`. -/
theorem scale_host_toE (c : ℝ) (s : FVec Ideal ⟨0, ![]⟩ .f32) (hs : s ix0 = ((c : ℝ) : EReal))
    (hz : (⟨0, ![]⟩ : Shape).BroadcastsInDim ⟨2, ![M, N]⟩ ![]) (A : Matrix (Fin M) (Fin N) ℝ) :
    mulf (broadcastInDim ⟨2, ![M, N]⟩ ![] hz s) (toE A) = toE (c • A) := by
  rw [← toE_smul c A]
  funext j
  rw [mulf_apply, broadcastInDim_scalar_apply, hs]

/-- The entrywise sum of coerced matrices is the coerced sum. -/
theorem addf_toE (A B : Matrix (Fin M) (Fin N) ℝ) : addf (toE A) (toE B) = toE (A + B) := toE_add A B

/-- The entrywise difference of coerced matrices is the coerced difference. -/
theorem subf_toE (A B : Matrix (Fin M) (Fin N) ℝ) : subf (toE A) (toE B) = toE (A - B) := toE_sub A B

end Entrywise

/-! ## One step `2·u - L u` -/

/-- Twice an array less the product with `L` is `bstep L`. -/
theorem bstep_host_toE {n f : Nat} {D : DotDims ⟨2, ![n, n]⟩ ⟨2, ![n, f]⟩ ⟨2, ![n, f]⟩} (hD : IsProduct D)
    (hz : (⟨0, ![]⟩ : Shape).BroadcastsInDim ⟨2, ![n, f]⟩ ![])
    (Lm : Matrix (Fin n) (Fin n) ℝ) (U : Matrix (Fin n) (Fin f) ℝ) :
    subf (mulf (broadcastInDim ⟨2, ![n, f]⟩ ![] hz (constant (F := Ideal) ⟨0, ![]⟩ .f32 0x40000000#32)) (toE U))
        (Host.dotGeneral D none (toE Lm) (toE U))
      = toE (bstep Lm U) := by
  rw [scale_host_toE 2 _ ((constant_apply _ ix0).trans ofBits_two) hz U, product_toE hD Lm U, subf_toE]
  rfl

/-! ## The perceptron -/

/-- `relu (x·W1 + b1)·W2 + b2` as the host computes it. -/
theorem mlp_host_toE {n a b c : Nat}
    {D1 : DotDims ⟨2, ![n, a]⟩ ⟨2, ![a, b]⟩ ⟨2, ![n, b]⟩} (hD1 : IsProduct D1)
    {D2 : DotDims ⟨2, ![n, b]⟩ ⟨2, ![b, c]⟩ ⟨2, ![n, c]⟩} (hD2 : IsProduct D2)
    (hb1 : (⟨1, ![b]⟩ : Shape).BroadcastsInDim ⟨2, ![1, b]⟩ ![1])
    (hb2 : (⟨2, ![1, b]⟩ : Shape).BroadcastsInDim ⟨2, ![n, b]⟩ ![0, 1])
    (hc1 : (⟨1, ![c]⟩ : Shape).BroadcastsInDim ⟨2, ![1, c]⟩ ![1])
    (hc2 : (⟨2, ![1, c]⟩ : Shape).BroadcastsInDim ⟨2, ![n, c]⟩ ![0, 1])
    (hz : (⟨0, ![]⟩ : Shape).BroadcastsInDim ⟨2, ![n, b]⟩ ![])
    (x : Matrix (Fin n) (Fin a) ℝ) (W1 : Matrix (Fin a) (Fin b) ℝ) (b1 : Fin b → ℝ)
    (W2 : Matrix (Fin b) (Fin c) ℝ) (b2 : Fin c → ℝ) :
    addf (Host.dotGeneral D2 none
          (maximumf
            (addf (Host.dotGeneral D1 none (toE x) (toE W1))
              (broadcastInDim ⟨2, ![n, b]⟩ ![0, 1] hb2 (broadcastInDim ⟨2, ![1, b]⟩ ![1] hb1 (toE1 b1))))
            (broadcastInDim ⟨2, ![n, b]⟩ ![] hz (constant (F := Ideal) ⟨0, ![]⟩ .f32 0x00000000#32)))
          (toE W2))
        (broadcastInDim ⟨2, ![n, c]⟩ ![0, 1] hc2 (broadcastInDim ⟨2, ![1, c]⟩ ![1] hc1 (toE1 b2)))
      = toE (mlp x W1 b1 W2 b2) := by
  rw [affine_host_toE hD1 hb1 hb2, relu_host_toE hz, affine_host_toE hD2 hc1 hc2]
  rfl

/-! ## The coefficients -/

/-- Row `r` of the 2 × 5 coefficient array, sliced out and reshaped to a length-5 vector, is the vector `θ r`. -/
theorem thetaRow_toE (θ : Matrix (Fin 2) (Fin 5) ℝ) (r : Fin 2)
    (hs : (⟨2, ![2, 5]⟩ : Shape).Slices ![r.val, 0] ⟨2, ![1, 5]⟩)
    (hc : (⟨2, ![1, 5]⟩ : Shape).ShapeCasts ⟨1, ![5]⟩) :
    shapeCast ⟨1, ![5]⟩ (extractStridedSlice ⟨2, ![1, 5]⟩ ![r.val, 0] (toE θ) hs) hc = toE1 (θ r) := by
  funext i
  obtain ⟨k, rfl⟩ : ∃ k : Fin 5, i = ix1 k := ⟨i 0, eq_ix1 i⟩
  rw [shapeCast_dropUnit_apply ![5] _ hc (ix1 k)]
  exact extractStridedSlice_apply ![r.val, 0] (toE θ) hs (Fin.cons ⟨0, Nat.one_pos⟩ (ix1 k)) (ix2 r k) (fun a => by
    match a with
    | ⟨0, _⟩ => show r.val = r.val + 0; omega
    | ⟨1, _⟩ => show k.val = 0 + k.val; omega)

/-- A literal with real value `c` times entry `j` of a coerced length-5 vector (sliced out and reshaped to a scalar)
    is the real product `c · t j`. -/
theorem weight_apply (w : BitVec 32) (c : ℝ) (hw : Ideal.ofBits .f32 w = ((c : ℝ) : EReal)) (t : Fin 5 → ℝ) (j : Fin 5)
    (hs : (⟨1, ![5]⟩ : Shape).Slices ![j.val] ⟨1, ![1]⟩) (hc : (⟨1, ![1]⟩ : Shape).ShapeCasts ⟨0, ![]⟩) :
    mulf (constant (F := Ideal) ⟨0, ![]⟩ .f32 w)
        (shapeCast ⟨0, ![]⟩ (extractStridedSlice ⟨1, ![1]⟩ ![j.val] (toE1 t) hs) hc) ix0
      = ((c * t j : ℝ) : EReal) := by
  rw [mulf_apply, constant_apply, hw, shapeCast_dropUnit_apply ![] _ hc ix0, EReal.coe_mul]
  refine congrArg (((c : ℝ) : EReal) * ·) ?_
  exact extractStridedSlice_apply ![j.val] (toE1 t) hs (Fin.cons ⟨0, Nat.one_pos⟩ ix0) (ix1 j) (fun a => by
    match a with
    | ⟨0, _⟩ => show j.val = j.val + 0; omega)

/-! ## A filter layer -/

/-- The five-term weighted sum of a filter layer and the maximum with zero, on coerced matrices: the weights are
    scalars with real values `c0 … c4`; the iterates `U3`, `U2`, `U1`, `h` are any matrices. -/
theorem layer_host_toE {n f : Nat} {D : DotDims ⟨2, ![n, n]⟩ ⟨2, ![n, f]⟩ ⟨2, ![n, f]⟩} (hD : IsProduct D)
    (hz : (⟨0, ![]⟩ : Shape).BroadcastsInDim ⟨2, ![n, f]⟩ ![])
    (Lm : Matrix (Fin n) (Fin n) ℝ) (h U1 U2 U3 : Matrix (Fin n) (Fin f) ℝ)
    (w0 w1 w2 w3 w4 : FVec Ideal ⟨0, ![]⟩ .f32) (c0 c1 c2 c3 c4 : ℝ)
    (hw0 : w0 ix0 = ((c0 : ℝ) : EReal)) (hw1 : w1 ix0 = ((c1 : ℝ) : EReal)) (hw2 : w2 ix0 = ((c2 : ℝ) : EReal))
    (hw3 : w3 ix0 = ((c3 : ℝ) : EReal)) (hw4 : w4 ix0 = ((c4 : ℝ) : EReal)) :
    maximumf
        (addf (addf (addf (addf
          (mulf (broadcastInDim ⟨2, ![n, f]⟩ ![] hz w0)
            (subf (mulf (broadcastInDim ⟨2, ![n, f]⟩ ![] hz (constant (F := Ideal) ⟨0, ![]⟩ .f32 0x40000000#32)) (toE U3))
              (Host.dotGeneral D none (toE Lm) (toE U3))))
          (mulf (broadcastInDim ⟨2, ![n, f]⟩ ![] hz w1) (Host.dotGeneral D none (toE Lm) (toE U3))))
          (mulf (broadcastInDim ⟨2, ![n, f]⟩ ![] hz w2)
            (Host.dotGeneral D none (toE Lm) (Host.dotGeneral D none (toE Lm) (toE U2)))))
          (mulf (broadcastInDim ⟨2, ![n, f]⟩ ![] hz w3)
            (Host.dotGeneral D none (toE Lm) (Host.dotGeneral D none (toE Lm) (Host.dotGeneral D none (toE Lm) (toE U1))))))
          (mulf (broadcastInDim ⟨2, ![n, f]⟩ ![] hz w4)
            (Host.dotGeneral D none (toE Lm) (Host.dotGeneral D none (toE Lm)
              (Host.dotGeneral D none (toE Lm) (Host.dotGeneral D none (toE Lm) (toE h)))))))
        (broadcastInDim ⟨2, ![n, f]⟩ ![] hz (constant (F := Ideal) ⟨0, ![]⟩ .f32 0x00000000#32))
      = toE (relu (((((c0 • bstep Lm U3 + c1 • (Lm * U3)) + c2 • (Lm * (Lm * U2))) + c3 • (Lm * (Lm * (Lm * U1))))
          + c4 • (Lm * (Lm * (Lm * (Lm * h))))))) := by
  rw [bstep_host_toE hD hz Lm U3, product_toE hD Lm U3, product_toE hD Lm U2, product_toE hD Lm (Lm * U2),
    product_toE hD Lm U1, product_toE hD Lm (Lm * U1), product_toE hD Lm (Lm * (Lm * U1)),
    product_toE hD Lm h, product_toE hD Lm (Lm * h), product_toE hD Lm (Lm * (Lm * h)),
    product_toE hD Lm (Lm * (Lm * (Lm * h))),
    scale_host_toE c0 w0 hw0 hz, scale_host_toE c1 w1 hw1 hz, scale_host_toE c2 w2 hw2 hz,
    scale_host_toE c3 w3 hw3 hz, scale_host_toE c4 w4 hw4 hz,
    addf_toE, addf_toE, addf_toE, addf_toE, relu_host_toE hz]

/-- With the Bernstein weights and the iterates of `bstep`, the layer is `bernLayer`. -/
theorem bernLayer_host_toE {n f : Nat} {D : DotDims ⟨2, ![n, n]⟩ ⟨2, ![n, f]⟩ ⟨2, ![n, f]⟩} (hD : IsProduct D)
    (hz : (⟨0, ![]⟩ : Shape).BroadcastsInDim ⟨2, ![n, f]⟩ ![])
    (Lm : Matrix (Fin n) (Fin n) ℝ) (h : Matrix (Fin n) (Fin f) ℝ) (t : Fin 5 → ℝ)
    (w0 w1 w2 w3 w4 : FVec Ideal ⟨0, ![]⟩ .f32)
    (hw0 : w0 ix0 = (((1 / 16 : ℝ) * t 0 : ℝ) : EReal)) (hw1 : w1 ix0 = (((1 / 4 : ℝ) * t 1 : ℝ) : EReal))
    (hw2 : w2 ix0 = (((3 / 8 : ℝ) * t 2 : ℝ) : EReal)) (hw3 : w3 ix0 = (((1 / 4 : ℝ) * t 3 : ℝ) : EReal))
    (hw4 : w4 ix0 = (((1 / 16 : ℝ) * t 4 : ℝ) : EReal)) :
    maximumf
        (addf (addf (addf (addf
          (mulf (broadcastInDim ⟨2, ![n, f]⟩ ![] hz w0)
            (subf (mulf (broadcastInDim ⟨2, ![n, f]⟩ ![] hz (constant (F := Ideal) ⟨0, ![]⟩ .f32 0x40000000#32))
                (toE (bstep Lm (bstep Lm (bstep Lm h)))))
              (Host.dotGeneral D none (toE Lm) (toE (bstep Lm (bstep Lm (bstep Lm h)))))))
          (mulf (broadcastInDim ⟨2, ![n, f]⟩ ![] hz w1)
            (Host.dotGeneral D none (toE Lm) (toE (bstep Lm (bstep Lm (bstep Lm h)))))))
          (mulf (broadcastInDim ⟨2, ![n, f]⟩ ![] hz w2)
            (Host.dotGeneral D none (toE Lm) (Host.dotGeneral D none (toE Lm) (toE (bstep Lm (bstep Lm h)))))))
          (mulf (broadcastInDim ⟨2, ![n, f]⟩ ![] hz w3)
            (Host.dotGeneral D none (toE Lm) (Host.dotGeneral D none (toE Lm)
              (Host.dotGeneral D none (toE Lm) (toE (bstep Lm h)))))))
          (mulf (broadcastInDim ⟨2, ![n, f]⟩ ![] hz w4)
            (Host.dotGeneral D none (toE Lm) (Host.dotGeneral D none (toE Lm)
              (Host.dotGeneral D none (toE Lm) (Host.dotGeneral D none (toE Lm) (toE h)))))))
        (broadcastInDim ⟨2, ![n, f]⟩ ![] hz (constant (F := Ideal) ⟨0, ![]⟩ .f32 0x00000000#32))
      = toE (bernLayer Lm h t) :=
  layer_host_toE hD hz Lm h (bstep Lm h) (bstep Lm (bstep Lm h)) (bstep Lm (bstep Lm (bstep Lm h)))
    w0 w1 w2 w3 w4 _ _ _ _ _ hw0 hw1 hw2 hw3 hw4

end Cert.ReferenceIdeal.RefValue

end
-- ==== Proof.KHost1.lean ====
/-
  The kernel program's host operations between its regions, read on real data: stretches 1 to 8.

  Between two regions the host prepares the next region's operands from the table of monomial coefficients `C`
  (2 × 5, one row per layer) and the current feature matrix:

  * one coefficient `C l k` is sliced out of the table as a 1 × 1 array, reshaped to a scalar, and spread either
    over a whole 10000 × 128 array, to be multiplied into the features (`C l 0 • H`, the first term of the layer's
    sum), or over one row of 128 columns (the constant row `C l k`, the weight of the region's new term);
  * the features are narrowed to bf16 for the matrix unit: on extended reals a change of format is the identity.

  Stretches 1 and 5 open layers 0 and 1 (a product, a narrowed copy and a row); stretches 2, 3, 4 and 6, 7, 8 sit
  between the later regions of a layer (a narrowed copy and a row). Each lemma is over ANY contents `Wv` before the
  stretch, given as hypotheses what the buffers read hold; `hostOpsN_kept` says that a buffer the stretch does not
  write keeps its contents.
-/
import Idealize.ShloMosaic.Lib.IdealHost
import Idealize.ShloMosaic.Lib.StableHlo.Run
import proofs.«116373_g1589137899740_cont_week2b_1182_8_alg».proof.Proof.Gen.KernelIdeal.Launch
import proofs.«116373_g1589137899740_cont_week2b_1182_8_alg».proof.Proof.BernRow
import proofs.«116373_g1589137899740_cont_week2b_1182_8_alg».proof.Proof.BernTransport
import proofs.«116373_g1589137899740_cont_week2b_1182_8_alg».proof.Proof.RefBridge

noncomputable section

namespace Cert.KernelIdeal.KHost

open Matrix Idealize.ShloMosaic Idealize.ShloMosaic.ValueIdx Idealize.ShloMosaic.StableHlo Bern
open Cert.KernelIdeal Cert.KernelIdeal.Gen
open Cert.ReferenceIdeal.RefValue (scale_host_toE)

/-! ## Reading one coefficient, spreading a scalar over a row, which buffers a stretch writes -/

/-- Entry (l, k) of a coerced 2 × 5 matrix, sliced out as a 1 × 1 array and reshaped to a scalar. -/
theorem coefScalar_apply (C : Matrix (Fin 2) (Fin 5) ℝ) (l : Fin 2) (k : Fin 5)
    (hs : (⟨2, ![2, 5]⟩ : Shape).Slices ![l.val, k.val] ⟨2, ![1, 1]⟩)
    (hc : (⟨2, ![1, 1]⟩ : Shape).ShapeCasts ⟨0, ![]⟩) :
    shapeCast ⟨0, ![]⟩ (extractStridedSlice ⟨2, ![1, 1]⟩ ![l.val, k.val] (toE C) hs) hc ix0 = ((C l k : ℝ) : EReal) := by
  rw [shapeCast_apply _ hc ix0 (ix2 (0 : Fin 1) (0 : Fin 1)) (by
    rw [Shape.rowMajor_val_two]
    show 0 * 1 + 0 = (Shape.rowMajorPi _ _).val
    rw [Shape.rowMajorPi_zero])]
  exact extractStridedSlice_apply ![l.val, k.val] (toE C) hs (ix2 (0 : Fin 1) (0 : Fin 1)) (ix2 l k) (fun a => by
    match a with
    | ⟨0, _⟩ => show l.val = l.val + 0; omega
    | ⟨1, _⟩ => show k.val = k.val + 0; omega)

/-- A scalar with real value `c` spread over one row of length N is the constant row `c`. -/
theorem scalarRow_eq {N : Nat} (c : ℝ) (s : FVec Ideal ⟨0, ![]⟩ .f32) (hs : s ix0 = ((c : ℝ) : EReal))
    (hb : (⟨0, ![]⟩ : Shape).BroadcastsInDim ⟨2, ![1, N]⟩ ![]) :
    broadcastInDim ⟨2, ![1, N]⟩ ![] hb s = toERow (fun _ => c) := by
  funext j
  rw [broadcastInDim_scalar_apply, hs]
  rfl

/-- Every operation of the literal list `ops` writes a buffer of the literal list the goal names: each operation writes
    its one result buffer, and that buffer is found in the list. -/
macro "stretch_writes" ops:ident : tactic =>
  `(tactic| (simp only [$ops:ident, List.Forall, nullary_writes, unary_writes, binary_writes, reshape_writes,
               Finset.singleton_subset_iff, List.mem_toFinset]
             repeat' apply And.intro
             all_goals exact List.mem_map_of_mem (by decide)))

/-! ## Stretch 1: the first coefficient of layer 0 times the features, their narrowed copy, the second coefficient as a row -/

section Stretch1
variable (Wv : Valuation τ sig (Elt Ideal))

/-- The buffers stretch 1 writes. -/
abbrev written1 : List (Ref sig .tc) := [main_v6, main_v7, main_v8, main_v9, main_v10, main_v11, main_v12, main_v13]

/-- A buffer stretch 1 does not write keeps its contents. -/
theorem hostOps1_kept (b : Ref sig .tc) (hb : b ∉ written1) :
    after (hostOps1 (F := Ideal)) Wv (Proc.devRef .tc b) = Wv (Proc.devRef .tc b) :=
  after_of_writes_sub (W := written1) _ Wv (by stretch_writes hostOps1) hb

/-- The product buffer holds coefficient (0, 0) times the features. -/
theorem hostOps1_v9 (C : Matrix (Fin 2) (Fin 5) ℝ) (H : Matrix (Fin 10000) (Fin 128) ℝ)
    (hC : Wv (Proc.devRef .tc main_v2) = toE C) (hH : Wv (Proc.devRef .tc main_v5) = toE H) :
    after (hostOps1 (F := Ideal)) Wv (Proc.devRef .tc main_v9) = toE (C 0 0 • H) := by
  have e : after (hostOps1 (F := Ideal)) Wv (Proc.devRef .tc main_v9)
      = (mulf (broadcastInDim S10000x128 ![] bcast_S_S10000x128
          (shapeCast S_ (extractStridedSlice S1x1 ![0, 0] (Wv (Proc.devRef .tc main_v2)) slices_S2x5_S1x1_0_0) shapeCasts_S1x1_S_))
          (Wv (Proc.devRef .tc main_v5)) : FVec Ideal S10000x128 .f32) := by
    after_results <;> rfl
  rw [e, hC, hH]
  exact scale_host_toE (C 0 0) _ (coefScalar_apply C 0 0 _ _) _ H

/-- The narrowed copy of the features holds the features (narrowing is the identity on extended reals). -/
theorem hostOps1_v10 (H : Matrix (Fin 10000) (Fin 128) ℝ) (hH : Wv (Proc.devRef .tc main_v5) = toE H) :
    after (hostOps1 (F := Ideal)) Wv (Proc.devRef .tc main_v10) = toE H := by
  have e : after (hostOps1 (F := Ideal)) Wv (Proc.devRef .tc main_v10)
      = (truncf .bf16 (Wv (Proc.devRef .tc main_v5) : FVec Ideal S10000x128 .f32) bitsLt_bf16_f32 : FVec Ideal S10000x128 .bf16) := by
    after_results <;> rfl
  rw [e, hH]
  rfl

/-- The row buffer holds coefficient (0, 1) in every column. -/
theorem hostOps1_v13 (C : Matrix (Fin 2) (Fin 5) ℝ) (hC : Wv (Proc.devRef .tc main_v2) = toE C) :
    after (hostOps1 (F := Ideal)) Wv (Proc.devRef .tc main_v13) = toERow (fun _ => C 0 1) := by
  have e : after (hostOps1 (F := Ideal)) Wv (Proc.devRef .tc main_v13)
      = broadcastInDim S1x128 ![] bcast_S_S1x128
          (shapeCast S_ (extractStridedSlice S1x1 ![0, 1] (Wv (Proc.devRef .tc main_v2)) slices_S2x5_S1x1_0_1) shapeCasts_S1x1_S_) := by
    after_results <;> rfl
  rw [e, hC]
  exact scalarRow_eq (C 0 1) _ (coefScalar_apply C 0 1 _ _) _

end Stretch1

/-! ## Stretch 2: the narrowed copy of the current features, and coefficient (0, 2) as a row -/

section Stretch2
variable (Wv : Valuation τ sig (Elt Ideal))

/-- The buffers stretch 2 writes. -/
abbrev written2 : List (Ref sig .tc) := [main_v15, main_v16, main_v17, main_v18]

/-- A buffer stretch 2 does not write keeps its contents. -/
theorem hostOps2_kept (b : Ref sig .tc) (hb : b ∉ written2) :
    after (hostOps2 (F := Ideal)) Wv (Proc.devRef .tc b) = Wv (Proc.devRef .tc b) :=
  after_of_writes_sub (W := written2) _ Wv (by stretch_writes hostOps2) hb

/-- The narrowed copy of the features holds the features (narrowing is the identity on extended reals). -/
theorem hostOps2_v15 (U : Matrix (Fin 10000) (Fin 128) ℝ) (hU : Wv (Proc.devRef .tc main_v14_0) = toE U) :
    after (hostOps2 (F := Ideal)) Wv (Proc.devRef .tc main_v15) = toE U := by
  have e : after (hostOps2 (F := Ideal)) Wv (Proc.devRef .tc main_v15)
      = (truncf .bf16 (Wv (Proc.devRef .tc main_v14_0) : FVec Ideal S10000x128 .f32) bitsLt_bf16_f32 : FVec Ideal S10000x128 .bf16) := by
    after_results <;> rfl
  rw [e, hU]
  rfl

/-- The row buffer holds coefficient (0, 2) in every column. -/
theorem hostOps2_v18 (C : Matrix (Fin 2) (Fin 5) ℝ) (hC : Wv (Proc.devRef .tc main_v2) = toE C) :
    after (hostOps2 (F := Ideal)) Wv (Proc.devRef .tc main_v18) = toERow (fun _ => C 0 2) := by
  have e : after (hostOps2 (F := Ideal)) Wv (Proc.devRef .tc main_v18)
      = broadcastInDim S1x128 ![] bcast_S_S1x128
          (shapeCast S_ (extractStridedSlice S1x1 ![0, 2] (Wv (Proc.devRef .tc main_v2)) slices_S2x5_S1x1_0_2) shapeCasts_S1x1_S_) := by
    after_results <;> rfl
  rw [e, hC]
  exact scalarRow_eq (C 0 2) _ (coefScalar_apply C 0 2 _ _) _

end Stretch2

/-! ## Stretch 3: the narrowed copy of the current features, and coefficient (0, 3) as a row -/

section Stretch3
variable (Wv : Valuation τ sig (Elt Ideal))

/-- The buffers stretch 3 writes. -/
abbrev written3 : List (Ref sig .tc) := [main_v20, main_v21, main_v22, main_v23]

/-- A buffer stretch 3 does not write keeps its contents. -/
theorem hostOps3_kept (b : Ref sig .tc) (hb : b ∉ written3) :
    after (hostOps3 (F := Ideal)) Wv (Proc.devRef .tc b) = Wv (Proc.devRef .tc b) :=
  after_of_writes_sub (W := written3) _ Wv (by stretch_writes hostOps3) hb

/-- The narrowed copy of the features holds the features (narrowing is the identity on extended reals). -/
theorem hostOps3_v20 (U : Matrix (Fin 10000) (Fin 128) ℝ) (hU : Wv (Proc.devRef .tc main_v19_0) = toE U) :
    after (hostOps3 (F := Ideal)) Wv (Proc.devRef .tc main_v20) = toE U := by
  have e : after (hostOps3 (F := Ideal)) Wv (Proc.devRef .tc main_v20)
      = (truncf .bf16 (Wv (Proc.devRef .tc main_v19_0) : FVec Ideal S10000x128 .f32) bitsLt_bf16_f32 : FVec Ideal S10000x128 .bf16) := by
    after_results <;> rfl
  rw [e, hU]
  rfl

/-- The row buffer holds coefficient (0, 3) in every column. -/
theorem hostOps3_v23 (C : Matrix (Fin 2) (Fin 5) ℝ) (hC : Wv (Proc.devRef .tc main_v2) = toE C) :
    after (hostOps3 (F := Ideal)) Wv (Proc.devRef .tc main_v23) = toERow (fun _ => C 0 3) := by
  have e : after (hostOps3 (F := Ideal)) Wv (Proc.devRef .tc main_v23)
      = broadcastInDim S1x128 ![] bcast_S_S1x128
          (shapeCast S_ (extractStridedSlice S1x1 ![0, 3] (Wv (Proc.devRef .tc main_v2)) slices_S2x5_S1x1_0_3) shapeCasts_S1x1_S_) := by
    after_results <;> rfl
  rw [e, hC]
  exact scalarRow_eq (C 0 3) _ (coefScalar_apply C 0 3 _ _) _

end Stretch3

/-! ## Stretch 4: the narrowed copy of the current features, and coefficient (0, 4) as a row -/

section Stretch4
variable (Wv : Valuation τ sig (Elt Ideal))

/-- The buffers stretch 4 writes. -/
abbrev written4 : List (Ref sig .tc) := [main_v25, main_v26, main_v27, main_v28]

/-- A buffer stretch 4 does not write keeps its contents. -/
theorem hostOps4_kept (b : Ref sig .tc) (hb : b ∉ written4) :
    after (hostOps4 (F := Ideal)) Wv (Proc.devRef .tc b) = Wv (Proc.devRef .tc b) :=
  after_of_writes_sub (W := written4) _ Wv (by stretch_writes hostOps4) hb

/-- The narrowed copy of the features holds the features (narrowing is the identity on extended reals). -/
theorem hostOps4_v25 (U : Matrix (Fin 10000) (Fin 128) ℝ) (hU : Wv (Proc.devRef .tc main_v24_0) = toE U) :
    after (hostOps4 (F := Ideal)) Wv (Proc.devRef .tc main_v25) = toE U := by
  have e : after (hostOps4 (F := Ideal)) Wv (Proc.devRef .tc main_v25)
      = (truncf .bf16 (Wv (Proc.devRef .tc main_v24_0) : FVec Ideal S10000x128 .f32) bitsLt_bf16_f32 : FVec Ideal S10000x128 .bf16) := by
    after_results <;> rfl
  rw [e, hU]
  rfl

/-- The row buffer holds coefficient (0, 4) in every column. -/
theorem hostOps4_v28 (C : Matrix (Fin 2) (Fin 5) ℝ) (hC : Wv (Proc.devRef .tc main_v2) = toE C) :
    after (hostOps4 (F := Ideal)) Wv (Proc.devRef .tc main_v28) = toERow (fun _ => C 0 4) := by
  have e : after (hostOps4 (F := Ideal)) Wv (Proc.devRef .tc main_v28)
      = broadcastInDim S1x128 ![] bcast_S_S1x128
          (shapeCast S_ (extractStridedSlice S1x1 ![0, 4] (Wv (Proc.devRef .tc main_v2)) slices_S2x5_S1x1_0_4) shapeCasts_S1x1_S_) := by
    after_results <;> rfl
  rw [e, hC]
  exact scalarRow_eq (C 0 4) _ (coefScalar_apply C 0 4 _ _) _

end Stretch4

/-! ## Stretch 5: the first coefficient of layer 1 times the features, their narrowed copy, the second coefficient as a row -/

section Stretch5
variable (Wv : Valuation τ sig (Elt Ideal))

/-- The buffers stretch 5 writes. -/
abbrev written5 : List (Ref sig .tc) := [main_v30, main_v31, main_v32, main_v33, main_v34, main_v35, main_v36, main_v37]

/-- A buffer stretch 5 does not write keeps its contents. -/
theorem hostOps5_kept (b : Ref sig .tc) (hb : b ∉ written5) :
    after (hostOps5 (F := Ideal)) Wv (Proc.devRef .tc b) = Wv (Proc.devRef .tc b) :=
  after_of_writes_sub (W := written5) _ Wv (by stretch_writes hostOps5) hb

/-- The product buffer holds coefficient (1, 0) times the features. -/
theorem hostOps5_v33 (C : Matrix (Fin 2) (Fin 5) ℝ) (H : Matrix (Fin 10000) (Fin 128) ℝ)
    (hC : Wv (Proc.devRef .tc main_v2) = toE C) (hH : Wv (Proc.devRef .tc main_v29_1) = toE H) :
    after (hostOps5 (F := Ideal)) Wv (Proc.devRef .tc main_v33) = toE (C 1 0 • H) := by
  have e : after (hostOps5 (F := Ideal)) Wv (Proc.devRef .tc main_v33)
      = (mulf (broadcastInDim S10000x128 ![] bcast_S_S10000x128
          (shapeCast S_ (extractStridedSlice S1x1 ![1, 0] (Wv (Proc.devRef .tc main_v2)) slices_S2x5_S1x1_1_0) shapeCasts_S1x1_S_))
          (Wv (Proc.devRef .tc main_v29_1)) : FVec Ideal S10000x128 .f32) := by
    after_results <;> rfl
  rw [e, hC, hH]
  exact scale_host_toE (C 1 0) _ (coefScalar_apply C 1 0 _ _) _ H

/-- The narrowed copy of the features holds the features (narrowing is the identity on extended reals). -/
theorem hostOps5_v34 (H : Matrix (Fin 10000) (Fin 128) ℝ) (hH : Wv (Proc.devRef .tc main_v29_1) = toE H) :
    after (hostOps5 (F := Ideal)) Wv (Proc.devRef .tc main_v34) = toE H := by
  have e : after (hostOps5 (F := Ideal)) Wv (Proc.devRef .tc main_v34)
      = (truncf .bf16 (Wv (Proc.devRef .tc main_v29_1) : FVec Ideal S10000x128 .f32) bitsLt_bf16_f32 : FVec Ideal S10000x128 .bf16) := by
    after_results <;> rfl
  rw [e, hH]
  rfl

/-- The row buffer holds coefficient (1, 1) in every column. -/
theorem hostOps5_v37 (C : Matrix (Fin 2) (Fin 5) ℝ) (hC : Wv (Proc.devRef .tc main_v2) = toE C) :
    after (hostOps5 (F := Ideal)) Wv (Proc.devRef .tc main_v37) = toERow (fun _ => C 1 1) := by
  have e : after (hostOps5 (F := Ideal)) Wv (Proc.devRef .tc main_v37)
      = broadcastInDim S1x128 ![] bcast_S_S1x128
          (shapeCast S_ (extractStridedSlice S1x1 ![1, 1] (Wv (Proc.devRef .tc main_v2)) slices_S2x5_S1x1_1_1) shapeCasts_S1x1_S_) := by
    after_results <;> rfl
  rw [e, hC]
  exact scalarRow_eq (C 1 1) _ (coefScalar_apply C 1 1 _ _) _

end Stretch5

/-! ## Stretch 6: the narrowed copy of the current features, and coefficient (1, 2) as a row -/

section Stretch6
variable (Wv : Valuation τ sig (Elt Ideal))

/-- The buffers stretch 6 writes. -/
abbrev written6 : List (Ref sig .tc) := [main_v39, main_v40, main_v41, main_v42]

/-- A buffer stretch 6 does not write keeps its contents. -/
theorem hostOps6_kept (b : Ref sig .tc) (hb : b ∉ written6) :
    after (hostOps6 (F := Ideal)) Wv (Proc.devRef .tc b) = Wv (Proc.devRef .tc b) :=
  after_of_writes_sub (W := written6) _ Wv (by stretch_writes hostOps6) hb

/-- The narrowed copy of the features holds the features (narrowing is the identity on extended reals). -/
theorem hostOps6_v39 (U : Matrix (Fin 10000) (Fin 128) ℝ) (hU : Wv (Proc.devRef .tc main_v38_0) = toE U) :
    after (hostOps6 (F := Ideal)) Wv (Proc.devRef .tc main_v39) = toE U := by
  have e : after (hostOps6 (F := Ideal)) Wv (Proc.devRef .tc main_v39)
      = (truncf .bf16 (Wv (Proc.devRef .tc main_v38_0) : FVec Ideal S10000x128 .f32) bitsLt_bf16_f32 : FVec Ideal S10000x128 .bf16) := by
    after_results <;> rfl
  rw [e, hU]
  rfl

/-- The row buffer holds coefficient (1, 2) in every column. -/
theorem hostOps6_v42 (C : Matrix (Fin 2) (Fin 5) ℝ) (hC : Wv (Proc.devRef .tc main_v2) = toE C) :
    after (hostOps6 (F := Ideal)) Wv (Proc.devRef .tc main_v42) = toERow (fun _ => C 1 2) := by
  have e : after (hostOps6 (F := Ideal)) Wv (Proc.devRef .tc main_v42)
      = broadcastInDim S1x128 ![] bcast_S_S1x128
          (shapeCast S_ (extractStridedSlice S1x1 ![1, 2] (Wv (Proc.devRef .tc main_v2)) slices_S2x5_S1x1_1_2) shapeCasts_S1x1_S_) := by
    after_results <;> rfl
  rw [e, hC]
  exact scalarRow_eq (C 1 2) _ (coefScalar_apply C 1 2 _ _) _

end Stretch6

/-! ## Stretch 7: the narrowed copy of the current features, and coefficient (1, 3) as a row -/

section Stretch7
variable (Wv : Valuation τ sig (Elt Ideal))

/-- The buffers stretch 7 writes. -/
abbrev written7 : List (Ref sig .tc) := [main_v44, main_v45, main_v46, main_v47]

/-- A buffer stretch 7 does not write keeps its contents. -/
theorem hostOps7_kept (b : Ref sig .tc) (hb : b ∉ written7) :
    after (hostOps7 (F := Ideal)) Wv (Proc.devRef .tc b) = Wv (Proc.devRef .tc b) :=
  after_of_writes_sub (W := written7) _ Wv (by stretch_writes hostOps7) hb

/-- The narrowed copy of the features holds the features (narrowing is the identity on extended reals). -/
theorem hostOps7_v44 (U : Matrix (Fin 10000) (Fin 128) ℝ) (hU : Wv (Proc.devRef .tc main_v43_0) = toE U) :
    after (hostOps7 (F := Ideal)) Wv (Proc.devRef .tc main_v44) = toE U := by
  have e : after (hostOps7 (F := Ideal)) Wv (Proc.devRef .tc main_v44)
      = (truncf .bf16 (Wv (Proc.devRef .tc main_v43_0) : FVec Ideal S10000x128 .f32) bitsLt_bf16_f32 : FVec Ideal S10000x128 .bf16) := by
    after_results <;> rfl
  rw [e, hU]
  rfl

/-- The row buffer holds coefficient (1, 3) in every column. -/
theorem hostOps7_v47 (C : Matrix (Fin 2) (Fin 5) ℝ) (hC : Wv (Proc.devRef .tc main_v2) = toE C) :
    after (hostOps7 (F := Ideal)) Wv (Proc.devRef .tc main_v47) = toERow (fun _ => C 1 3) := by
  have e : after (hostOps7 (F := Ideal)) Wv (Proc.devRef .tc main_v47)
      = broadcastInDim S1x128 ![] bcast_S_S1x128
          (shapeCast S_ (extractStridedSlice S1x1 ![1, 3] (Wv (Proc.devRef .tc main_v2)) slices_S2x5_S1x1_1_3) shapeCasts_S1x1_S_) := by
    after_results <;> rfl
  rw [e, hC]
  exact scalarRow_eq (C 1 3) _ (coefScalar_apply C 1 3 _ _) _

end Stretch7

/-! ## Stretch 8: the narrowed copy of the current features, and coefficient (1, 4) as a row -/

section Stretch8
variable (Wv : Valuation τ sig (Elt Ideal))

/-- The buffers stretch 8 writes. -/
abbrev written8 : List (Ref sig .tc) := [main_v49, main_v50, main_v51, main_v52]

/-- A buffer stretch 8 does not write keeps its contents. -/
theorem hostOps8_kept (b : Ref sig .tc) (hb : b ∉ written8) :
    after (hostOps8 (F := Ideal)) Wv (Proc.devRef .tc b) = Wv (Proc.devRef .tc b) :=
  after_of_writes_sub (W := written8) _ Wv (by stretch_writes hostOps8) hb

/-- The narrowed copy of the features holds the features (narrowing is the identity on extended reals). -/
theorem hostOps8_v49 (U : Matrix (Fin 10000) (Fin 128) ℝ) (hU : Wv (Proc.devRef .tc main_v48_0) = toE U) :
    after (hostOps8 (F := Ideal)) Wv (Proc.devRef .tc main_v49) = toE U := by
  have e : after (hostOps8 (F := Ideal)) Wv (Proc.devRef .tc main_v49)
      = (truncf .bf16 (Wv (Proc.devRef .tc main_v48_0) : FVec Ideal S10000x128 .f32) bitsLt_bf16_f32 : FVec Ideal S10000x128 .bf16) := by
    after_results <;> rfl
  rw [e, hU]
  rfl

/-- The row buffer holds coefficient (1, 4) in every column. -/
theorem hostOps8_v52 (C : Matrix (Fin 2) (Fin 5) ℝ) (hC : Wv (Proc.devRef .tc main_v2) = toE C) :
    after (hostOps8 (F := Ideal)) Wv (Proc.devRef .tc main_v52) = toERow (fun _ => C 1 4) := by
  have e : after (hostOps8 (F := Ideal)) Wv (Proc.devRef .tc main_v52)
      = broadcastInDim S1x128 ![] bcast_S_S1x128
          (shapeCast S_ (extractStridedSlice S1x1 ![1, 4] (Wv (Proc.devRef .tc main_v2)) slices_S2x5_S1x1_1_4) shapeCasts_S1x1_S_) := by
    after_results <;> rfl
  rw [e, hC]
  exact scalarRow_eq (C 1 4) _ (coefScalar_apply C 1 4 _ _) _

end Stretch8

end Cert.KernelIdeal.KHost

end
-- ==== Proof.KKeptHost.lean ====
/-
  The host stretches between the propagation regions write only the narrowed copy of the features and one
  coefficient row (and, at a layer's start, the scaled running sum): the stored matrix, the coefficient table and the
  read-out's weights and bias pass through them unchanged.
-/
import proofs.«116373_g1589137899740_cont_week2b_1182_8_alg».proof.Proof.KKept
import proofs.«116373_g1589137899740_cont_week2b_1182_8_alg».proof.Proof.KHost1

set_option maxRecDepth 16384

noncomputable section

namespace Cert.KernelIdeal.KVal

open Matrix Bern
open Cert.KernelIdeal Cert.KernelIdeal.Gen Cert.KernelIdeal.GenP
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The host stretch before region 2 writes none of the four. -/
theorem kept_host2 {L : Matrix (Fin 10000) (Fin 10000) ℝ} {C : Matrix (Fin 2) (Fin 5) ℝ} {W3 : Matrix (Fin 128) (Fin 40) ℝ} {b3 : Fin 40 → ℝ}
    (h : Kept (W4 m ρ c) L C W3 b3) : Kept (W5 m ρ c) L C W3 b3 :=
  ⟨(KHost.hostOps2_kept (W4 m ρ c) main_v14_2 (by decide)).trans h.1,
   (KHost.hostOps2_kept (W4 m ρ c) main_v2 (by decide)).trans h.2.1,
   (KHost.hostOps2_kept (W4 m ρ c) main_arg7 (by decide)).trans h.2.2.1,
   (KHost.hostOps2_kept (W4 m ρ c) main_arg8 (by decide)).trans h.2.2.2⟩

/-- The host stretch before region 3 writes none of the four. -/
theorem kept_host3 {L : Matrix (Fin 10000) (Fin 10000) ℝ} {C : Matrix (Fin 2) (Fin 5) ℝ} {W3 : Matrix (Fin 128) (Fin 40) ℝ} {b3 : Fin 40 → ℝ}
    (h : Kept (W6 m ρ c) L C W3 b3) : Kept (W7 m ρ c) L C W3 b3 :=
  ⟨(KHost.hostOps3_kept (W6 m ρ c) main_v14_2 (by decide)).trans h.1,
   (KHost.hostOps3_kept (W6 m ρ c) main_v2 (by decide)).trans h.2.1,
   (KHost.hostOps3_kept (W6 m ρ c) main_arg7 (by decide)).trans h.2.2.1,
   (KHost.hostOps3_kept (W6 m ρ c) main_arg8 (by decide)).trans h.2.2.2⟩

/-- The host stretch before region 4 writes none of the four. -/
theorem kept_host4 {L : Matrix (Fin 10000) (Fin 10000) ℝ} {C : Matrix (Fin 2) (Fin 5) ℝ} {W3 : Matrix (Fin 128) (Fin 40) ℝ} {b3 : Fin 40 → ℝ}
    (h : Kept (W8 m ρ c) L C W3 b3) : Kept (W9 m ρ c) L C W3 b3 :=
  ⟨(KHost.hostOps4_kept (W8 m ρ c) main_v14_2 (by decide)).trans h.1,
   (KHost.hostOps4_kept (W8 m ρ c) main_v2 (by decide)).trans h.2.1,
   (KHost.hostOps4_kept (W8 m ρ c) main_arg7 (by decide)).trans h.2.2.1,
   (KHost.hostOps4_kept (W8 m ρ c) main_arg8 (by decide)).trans h.2.2.2⟩

/-- The host stretch before region 5 writes none of the four. -/
theorem kept_host5 {L : Matrix (Fin 10000) (Fin 10000) ℝ} {C : Matrix (Fin 2) (Fin 5) ℝ} {W3 : Matrix (Fin 128) (Fin 40) ℝ} {b3 : Fin 40 → ℝ}
    (h : Kept (W10 m ρ c) L C W3 b3) : Kept (W11 m ρ c) L C W3 b3 :=
  ⟨(KHost.hostOps5_kept (W10 m ρ c) main_v14_2 (by decide)).trans h.1,
   (KHost.hostOps5_kept (W10 m ρ c) main_v2 (by decide)).trans h.2.1,
   (KHost.hostOps5_kept (W10 m ρ c) main_arg7 (by decide)).trans h.2.2.1,
   (KHost.hostOps5_kept (W10 m ρ c) main_arg8 (by decide)).trans h.2.2.2⟩

/-- The host stretch before region 6 writes none of the four. -/
theorem kept_host6 {L : Matrix (Fin 10000) (Fin 10000) ℝ} {C : Matrix (Fin 2) (Fin 5) ℝ} {W3 : Matrix (Fin 128) (Fin 40) ℝ} {b3 : Fin 40 → ℝ}
    (h : Kept (W12 m ρ c) L C W3 b3) : Kept (W13 m ρ c) L C W3 b3 :=
  ⟨(KHost.hostOps6_kept (W12 m ρ c) main_v14_2 (by decide)).trans h.1,
   (KHost.hostOps6_kept (W12 m ρ c) main_v2 (by decide)).trans h.2.1,
   (KHost.hostOps6_kept (W12 m ρ c) main_arg7 (by decide)).trans h.2.2.1,
   (KHost.hostOps6_kept (W12 m ρ c) main_arg8 (by decide)).trans h.2.2.2⟩

/-- The host stretch before region 7 writes none of the four. -/
theorem kept_host7 {L : Matrix (Fin 10000) (Fin 10000) ℝ} {C : Matrix (Fin 2) (Fin 5) ℝ} {W3 : Matrix (Fin 128) (Fin 40) ℝ} {b3 : Fin 40 → ℝ}
    (h : Kept (W14 m ρ c) L C W3 b3) : Kept (W15 m ρ c) L C W3 b3 :=
  ⟨(KHost.hostOps7_kept (W14 m ρ c) main_v14_2 (by decide)).trans h.1,
   (KHost.hostOps7_kept (W14 m ρ c) main_v2 (by decide)).trans h.2.1,
   (KHost.hostOps7_kept (W14 m ρ c) main_arg7 (by decide)).trans h.2.2.1,
   (KHost.hostOps7_kept (W14 m ρ c) main_arg8 (by decide)).trans h.2.2.2⟩

/-- The host stretch before region 8 writes none of the four. -/
theorem kept_host8 {L : Matrix (Fin 10000) (Fin 10000) ℝ} {C : Matrix (Fin 2) (Fin 5) ℝ} {W3 : Matrix (Fin 128) (Fin 40) ℝ} {b3 : Fin 40 → ℝ}
    (h : Kept (W16 m ρ c) L C W3 b3) : Kept (W17 m ρ c) L C W3 b3 :=
  ⟨(KHost.hostOps8_kept (W16 m ρ c) main_v14_2 (by decide)).trans h.1,
   (KHost.hostOps8_kept (W16 m ρ c) main_v2 (by decide)).trans h.2.1,
   (KHost.hostOps8_kept (W16 m ρ c) main_arg7 (by decide)).trans h.2.2.1,
   (KHost.hostOps8_kept (W16 m ρ c) main_arg8 (by decide)).trans h.2.2.2⟩

end Cert.KernelIdeal.KVal

end
-- ==== Proof.KHost0.lean ====
/-
  The kernel program's host operations before its first region, read on real data: stretch 0.

  The host first turns the Bernstein coefficients θ (2 × 5, one row per layer) into monomial coefficients: a literal
  5 × 5 table — the degree-4 Bernstein basis on [0, 2] written in powers of λ, the matrix `mono` — is multiplied
  into θᵀ and the product transposed back, so row l of the result is `mono · θ l`, the vector `coef (θ l)`. It also
  reshapes the two bias vectors of the perceptron to one row each.

  * `litTable_apply`, `litTable_eq`: the 25 literal patterns are the 25 entries of `mono`, each read as a real.
  * `transpose_toE`, `reshapeRow_toE`: a transpose and a reshape to one row, on coerced data.
  * `coefTable_eq`: `(mono · θᵀ)ᵀ = coefTable θ`, entry by entry the same sum.
  * `hostOps0_v2`, `hostOps0_v3`, `hostOps0_v4`, `hostOps0_kept`: the stretch over any contents before it.
-/
import Idealize.ShloMosaic.Lib.IdealHost
import Idealize.ShloMosaic.Lib.StableHlo.Run
import proofs.«116373_g1589137899740_cont_week2b_1182_8_alg».proof.Proof.KHost1

noncomputable section

namespace Cert.KernelIdeal.KHost

open Matrix Idealize.ShloMosaic Idealize.ShloMosaic.ValueIdx Idealize.ShloMosaic.StableHlo Bern
open Cert.KernelIdeal Cert.KernelIdeal.Gen
open Cert.ReferenceIdeal.RefValue (IsProduct isProduct_of product_toE)

/-! ## The literal table of stretch 0 -/

/-- The pattern `0x3F800000` is the real 1. -/
theorem tbl_one : Ideal.ofBits .f32 0x3F800000#32 = ((1 : ℝ) : EReal) := by
  simp [Ideal.ofBits, Ideal.ieee, -EReal.coe_mul, -EReal.coe_neg]; norm_num

/-- The all-zero pattern is the real 0. -/
theorem tbl_zero : Ideal.ofBits .f32 0x00000000#32 = ((0 : ℝ) : EReal) := by
  rw [Ideal.ofBits_zero_f32, EReal.coe_zero]

/-- The pattern `0xC0000000` is the real -2. -/
theorem tbl_neg_two : Ideal.ofBits .f32 0xC0000000#32 = ((-2 : ℝ) : EReal) := by
  simp [Ideal.ofBits, Ideal.ieee, -EReal.coe_mul, -EReal.coe_neg]; norm_num

/-- The pattern `0x40000000` is the real 2. -/
theorem tbl_two : Ideal.ofBits .f32 0x40000000#32 = ((2 : ℝ) : EReal) := by
  simp [Ideal.ofBits, Ideal.ieee, -EReal.coe_mul, -EReal.coe_neg]; norm_num

/-- The pattern `0x3FC00000` is the real 3 / 2. -/
theorem tbl_three_halves : Ideal.ofBits .f32 0x3FC00000#32 = ((3 / 2 : ℝ) : EReal) := by
  simp [Ideal.ofBits, Ideal.ieee, -EReal.coe_mul, -EReal.coe_neg]; norm_num

/-- The pattern `0xC0400000` is the real -3. -/
theorem tbl_neg_three : Ideal.ofBits .f32 0xC0400000#32 = ((-3 : ℝ) : EReal) := by
  simp [Ideal.ofBits, Ideal.ieee, -EReal.coe_mul, -EReal.coe_neg]; norm_num

/-- The pattern `0xBF000000` is the real -(1 / 2). -/
theorem tbl_neg_half : Ideal.ofBits .f32 0xBF000000#32 = ((-(1 / 2) : ℝ) : EReal) := by
  simp [Ideal.ofBits, Ideal.ieee, -EReal.coe_mul, -EReal.coe_neg]; norm_num

/-- The pattern `0xBFC00000` is the real -(3 / 2). -/
theorem tbl_neg_three_halves : Ideal.ofBits .f32 0xBFC00000#32 = ((-(3 / 2) : ℝ) : EReal) := by
  simp [Ideal.ofBits, Ideal.ieee, -EReal.coe_mul, -EReal.coe_neg]; norm_num

/-- The pattern `0x3F000000` is the real 1 / 2. -/
theorem tbl_half : Ideal.ofBits .f32 0x3F000000#32 = ((1 / 2 : ℝ) : EReal) := by
  simp [Ideal.ofBits, Ideal.ieee, -EReal.coe_mul, -EReal.coe_neg]; norm_num

/-- The pattern `0x3D800000` is the real 1 / 16. -/
theorem tbl_sixteenth : Ideal.ofBits .f32 0x3D800000#32 = ((1 / 16 : ℝ) : EReal) := by
  simp [Ideal.ofBits, Ideal.ieee, -EReal.coe_mul, -EReal.coe_neg]; norm_num

/-- The pattern `0xBE800000` is the real -(1 / 4). -/
theorem tbl_neg_quarter : Ideal.ofBits .f32 0xBE800000#32 = ((-(1 / 4) : ℝ) : EReal) := by
  simp [Ideal.ofBits, Ideal.ieee, -EReal.coe_mul, -EReal.coe_neg]; norm_num

/-- The pattern `0x3EC00000` is the real 3 / 8. -/
theorem tbl_three_eighths : Ideal.ofBits .f32 0x3EC00000#32 = ((3 / 8 : ℝ) : EReal) := by
  simp [Ideal.ofBits, Ideal.ieee, -EReal.coe_mul, -EReal.coe_neg]; norm_num

/-- Entry (r, s) of the literal 5 × 5 table is entry (r, s) of `mono`, the degree-4 Bernstein basis on [0, 2] written in
    powers: the table lists its 25 patterns row by row, position 5·r + s holding entry (r, s). -/
theorem litTable_apply (r s : Fin 5) :
    FloatOps.ofBits (F := Ideal) .f32 (lit0 (S5x5.rowMajor (ix2 r s))) = ((mono r s : ℝ) : EReal) := by
  rw [show S5x5.rowMajor (ix2 r s)
      = (⟨r.val * 5 + s.val, by have := r.isLt; have := s.isLt; omega⟩ : Fin 25) from
    Fin.ext (by rw [Shape.rowMajor_val_two]; rfl)]
  fin_cases r <;> fin_cases s
  · exact tbl_one
  · exact tbl_zero
  · exact tbl_zero
  · exact tbl_zero
  · exact tbl_zero
  · exact tbl_neg_two
  · exact tbl_two
  · exact tbl_zero
  · exact tbl_zero
  · exact tbl_zero
  · exact tbl_three_halves
  · exact tbl_neg_three
  · exact tbl_three_halves
  · exact tbl_zero
  · exact tbl_zero
  · exact tbl_neg_half
  · exact tbl_three_halves
  · exact tbl_neg_three_halves
  · exact tbl_half
  · exact tbl_zero
  · exact tbl_sixteenth
  · exact tbl_neg_quarter
  · exact tbl_three_eighths
  · exact tbl_neg_quarter
  · exact tbl_sixteenth

/-- The literal table is the coerced matrix `mono`. -/
theorem litTable_eq :
    (fun i => FloatOps.ofBits (F := Ideal) .f32 (lit0 (S5x5.rowMajor i)) : FVec Ideal S5x5 .f32) = toE mono := by
  funext i
  obtain ⟨r, s, rfl⟩ : ∃ (r s : Fin 5), i = ix2 r s := ⟨i 0, i 1, eq_ix2 i⟩
  exact litTable_apply r s

/-! ## Transposes and the reshape of a vector to one row -/

/-- The transpose of a coerced matrix is the coerced transpose. -/
theorem transpose_toE {M N : Nat} (A : Matrix (Fin M) (Fin N) ℝ)
    (h : (⟨2, ![M, N]⟩ : Shape).Transposes [1, 0] ⟨2, ![N, M]⟩) :
    transpose ⟨2, ![N, M]⟩ [1, 0] (toE A) h = toE Aᵀ := by
  funext j
  obtain ⟨p, q, rfl⟩ : ∃ (p : Fin N) (q : Fin M), j = ix2 p q := ⟨j 0, j 1, eq_ix2 j⟩
  exact transpose_apply [1, 0] (toE A) h (ix2 p q) (ix2 q p) (fun b => by
    match b with
    | ⟨0, _⟩ => rfl
    | ⟨1, _⟩ => rfl)

/-- A coerced vector reshaped to one row is the coerced row. -/
theorem reshapeRow_toE {N : Nat} (b : Fin N → ℝ) (h : (⟨1, ![N]⟩ : Shape).ShapeCasts ⟨2, ![1, N]⟩) :
    shapeCast ⟨2, ![1, N]⟩ (toE1 b) h = toERow b := by
  funext j
  rw [shapeCast_addUnit_apply ![N] _ h j]
  rfl

/-- The table of monomial coefficients is `(mono · θᵀ)ᵀ`: entry (l, k) of both is `Σ_j mono k j · θ l j`. -/
theorem coefTable_eq (θ : Matrix (Fin 2) (Fin 5) ℝ) : (mono * θᵀ)ᵀ = coefTable θ := by
  ext l k
  simp only [coefTable, coef, Matrix.transpose_apply, Matrix.mul_apply]

/-- The table's product with the transposed coefficients is an ordinary 5 × 5 by 5 × 2 product. -/
theorem isProduct_table : IsProduct dot_S5x5_S5x2_S5x2_1_0_0_1_n_n :=
  isProduct_of _ rfl rfl rfl rfl rfl rfl rfl rfl

/-! ## Stretch 0: the table of monomial coefficients, and the two biases as rows -/

section Stretch0
variable (Wv : Valuation τ sig (Elt Ideal))

/-- The buffers stretch 0 writes. -/
abbrev written0 : List (Ref sig .tc) := [main_cst, main_v0, main_v1, main_v2, main_v3, main_v4]

/-- A buffer stretch 0 does not write keeps its contents. -/
theorem hostOps0_kept (b : Ref sig .tc) (hb : b ∉ written0) :
    after (hostOps0 (F := Ideal)) Wv (Proc.devRef .tc b) = Wv (Proc.devRef .tc b) :=
  after_of_writes_sub (W := written0) _ Wv (by stretch_writes hostOps0) hb

/-- The coefficient buffer holds the table of monomial coefficients of the two layers. -/
theorem hostOps0_v2 (θ : Matrix (Fin 2) (Fin 5) ℝ) (h6 : Wv (Proc.devRef .tc main_arg6) = toE θ) :
    after (hostOps0 (F := Ideal)) Wv (Proc.devRef .tc main_v2) = toE (coefTable θ) := by
  have e : after (hostOps0 (F := Ideal)) Wv (Proc.devRef .tc main_v2)
      = transpose S2x5 [1, 0]
          (Host.dotGeneral (φ₁ := .f32) (φ₂ := .f32) dot_S5x5_S5x2_S5x2_1_0_0_1_n_n none
            (fun i => FloatOps.ofBits (F := Ideal) .f32 (lit0 (S5x5.rowMajor i)))
            (transpose (s := S2x5) (α := Ideal .f32) S5x2 [1, 0] (Wv (Proc.devRef .tc main_arg6)) transposes_S2x5_S5x2_1_0))
          transposes_S5x2_S2x5_1_0 := by
    after_results <;> rfl
  rw [e, h6, litTable_eq]
  refine Eq.trans ?_ (congrArg toE (coefTable_eq θ))
  refine Eq.trans ?_ (transpose_toE (mono * θᵀ) transposes_S5x2_S2x5_1_0)
  refine congrArg (fun z => transpose S2x5 [1, 0] z transposes_S5x2_S2x5_1_0) ?_
  exact (congrArg (Host.dotGeneral dot_S5x5_S5x2_S5x2_1_0_0_1_n_n none (toE mono))
    (transpose_toE θ transposes_S2x5_S5x2_1_0)).trans (product_toE isProduct_table mono θᵀ)

/-- The first bias as one row. -/
theorem hostOps0_v3 (b1 : Fin 128 → ℝ) (h3 : Wv (Proc.devRef .tc main_arg3) = toE1 b1) :
    after (hostOps0 (F := Ideal)) Wv (Proc.devRef .tc main_v3) = toERow b1 := by
  have e : after (hostOps0 (F := Ideal)) Wv (Proc.devRef .tc main_v3)
      = shapeCast S1x128 (Wv (Proc.devRef .tc main_arg3)) shapeCasts_S128_S1x128 := by
    after_results <;> rfl
  rw [e, h3]
  exact reshapeRow_toE b1 _

/-- The second bias as one row. -/
theorem hostOps0_v4 (b2 : Fin 128 → ℝ) (h5 : Wv (Proc.devRef .tc main_arg5) = toE1 b2) :
    after (hostOps0 (F := Ideal)) Wv (Proc.devRef .tc main_v4) = toERow b2 := by
  have e : after (hostOps0 (F := Ideal)) Wv (Proc.devRef .tc main_v4)
      = shapeCast S1x128 (Wv (Proc.devRef .tc main_arg5)) shapeCasts_S128_S1x128 := by
    after_results <;> rfl
  rw [e, h5]
  exact reshapeRow_toE b2 _

end Stretch0

end Cert.KernelIdeal.KHost

end
-- ==== Proof.KHost9.lean ====
/-
  The kernel program's host operations around its last region, read on real data: the stretches before region 9 and
  stretch 10.

  The read-out `h · W3 + b3` has 40 columns; the last region computes it 128 columns wide. Before it the host pads
  the weights W3 with 88 zero columns and the bias b3 with 88 zero entries (the padding value is the integer 0
  converted to a float, 0), and reshapes the padded bias to one row; after it the host keeps the first 40 columns.

  * `padCols_host_toE`, `padVec_host_toE`: a `pad` on the high side of the last axis with a zero scalar, on coerced
    data, is `padCols` / `padVec`: inside the operand it reads the operand, outside the padding value.
  * `sliceCols_toE`, `mul_padCols_add_cols`: the first n columns of `H · padCols W + rowsOf (padVec b)` are
    `H · W + rowsOf b`, because column q < n of `padCols W` is column q of `W` and entry q of `padVec b` is `b q`.
  * `pre9_v54`, `pre9_v56`, `pre9_kept`, `hostOps10_v58`, `hostOps10_kept`: the stretches over any contents before them.
-/
import Idealize.ShloMosaic.Lib.IdealHost
import Idealize.ShloMosaic.Lib.KernelVsHost
import Idealize.ShloMosaic.Lib.StableHlo.Run
import proofs.«116373_g1589137899740_cont_week2b_1182_8_alg».proof.Proof.KHost0

noncomputable section

namespace Cert.KernelIdeal.KHost

open Matrix Idealize.ShloMosaic Idealize.ShloMosaic.ValueIdx Idealize.ShloMosaic.StableHlo Bern
open Cert.KernelIdeal Cert.KernelIdeal.Gen
open Cert.ReferenceIdeal.RefValue (IsProduct isProduct_of product_toE)

/-! ## Padding with zeros, and cutting the padding off -/

/-- The padding value: the integer 0 converted to a float is 0. -/
theorem padValue_apply (i : (⟨0, ![]⟩ : Shape).Idx) :
    (sitofp (F := Ideal) .f32 (constantI ⟨0, ![]⟩ 32 0#32) : FVec Ideal ⟨0, ![]⟩ .f32) i = 0 := by
  show ((((0#32 : BitVec 32).toInt : ℤ) : ℝ) : EReal) = 0
  simp

/-- A coerced matrix padded on the right with `e` columns of a zero scalar is the coerced zero-padded matrix. -/
theorem padCols_host_toE {a n e N : Nat} (W : Matrix (Fin a) (Fin n) ℝ) (z : FVec Ideal ⟨0, ![]⟩ .f32) (hz : ∀ i, z i = 0)
    (hp : (⟨2, ![a, n]⟩ : Shape).Pads ![0, 0] ![0, e] ![0, 0] ⟨2, ![a, N]⟩) (hu : 0 < (⟨0, ![]⟩ : Shape).numel) :
    pad ⟨2, ![a, N]⟩ ![0, 0] ![0, e] ![0, 0] (toE W) z hp hu = toE (padCols W : Matrix (Fin a) (Fin N) ℝ) := by
  funext j
  obtain ⟨p, q, rfl⟩ : ∃ (p : Fin a) (q : Fin N), j = ix2 p q := ⟨j 0, j 1, eq_ix2 j⟩
  by_cases hq : q.val < n
  · rw [pad_apply_of_inside ![0, 0] ![0, e] ![0, 0] (toE W) z hp hu (ix2 p q) (ix2 p ⟨q.val, hq⟩) (fun ax => by
      match ax with
      | ⟨0, _⟩ => show p.val = 0 + p.val * (0 + 1); omega
      | ⟨1, _⟩ => show q.val = 0 + q.val * (0 + 1); omega)]
    show ((W p ⟨q.val, hq⟩ : ℝ) : EReal) = ((padCols W p q : ℝ) : EReal)
    unfold padCols
    rw [dif_pos hq]
  · rw [pad_apply_of_not_inside ![0, 0] ![0, e] ![0, 0] (toE W) z hp hu (ix2 p q) (1 : Fin 2) (by
      show ¬(0 ≤ q.val ∧ (q.val - 0) % (0 + 1) = 0 ∧ (q.val - 0) / (0 + 1) < n)
      omega), hz]
    show (0 : EReal) = ((padCols W p q : ℝ) : EReal)
    unfold padCols
    rw [dif_neg hq, EReal.coe_zero]

/-- A coerced vector padded with `e` entries of a zero scalar is the coerced zero-padded vector. -/
theorem padVec_host_toE {n e N : Nat} (b : Fin n → ℝ) (z : FVec Ideal ⟨0, ![]⟩ .f32) (hz : ∀ i, z i = 0)
    (hp : (⟨1, ![n]⟩ : Shape).Pads ![0] ![e] ![0] ⟨1, ![N]⟩) (hu : 0 < (⟨0, ![]⟩ : Shape).numel) :
    pad ⟨1, ![N]⟩ ![0] ![e] ![0] (toE1 b) z hp hu = toE1 (padVec b : Fin N → ℝ) := by
  funext j
  obtain ⟨q, rfl⟩ : ∃ q : Fin N, j = ix1 q := ⟨j 0, eq_ix1 j⟩
  by_cases hq : q.val < n
  · rw [pad_apply_of_inside ![0] ![e] ![0] (toE1 b) z hp hu (ix1 q) (ix1 ⟨q.val, hq⟩) (fun ax => by
      match ax with
      | ⟨0, _⟩ => show q.val = 0 + q.val * (0 + 1); omega)]
    show ((b ⟨q.val, hq⟩ : ℝ) : EReal) = ((padVec b q : ℝ) : EReal)
    unfold padVec
    rw [dif_pos hq]
  · rw [pad_apply_of_not_inside ![0] ![e] ![0] (toE1 b) z hp hu (ix1 q) (0 : Fin 1) (by
      show ¬(0 ≤ q.val ∧ (q.val - 0) % (0 + 1) = 0 ∧ (q.val - 0) / (0 + 1) < n)
      omega), hz]
    show (0 : EReal) = ((padVec b q : ℝ) : EReal)
    unfold padVec
    rw [dif_neg hq, EReal.coe_zero]

/-- The first `n` columns of a coerced matrix are the coerced matrix of those columns. -/
theorem sliceCols_toE {m n N : Nat} (A : Matrix (Fin m) (Fin N) ℝ) (hn : n ≤ N)
    (hs : (⟨2, ![m, N]⟩ : Shape).Slices ![0, 0] ⟨2, ![m, n]⟩) :
    extractStridedSlice ⟨2, ![m, n]⟩ ![0, 0] (toE A) hs = toE (fun p q => A p (Fin.castLE hn q)) := by
  funext j
  obtain ⟨p, q, rfl⟩ : ∃ (p : Fin m) (q : Fin n), j = ix2 p q := ⟨j 0, j 1, eq_ix2 j⟩
  exact extractStridedSlice_apply ![0, 0] (toE A) hs (ix2 p q) (ix2 p (Fin.castLE hn q)) (fun ax => by
    match ax with
    | ⟨0, _⟩ => show p.val = 0 + p.val; omega
    | ⟨1, _⟩ => show q.val = 0 + q.val; omega)

/-- In its first `n` columns the product with the zero-padded weights plus the zero-padded bias is the product with
    the weights plus the bias: column `q < n` of the padded matrix is column `q` of the matrix. -/
theorem mul_padCols_add_cols {m k n N : Nat} (H : Matrix (Fin m) (Fin k) ℝ) (W : Matrix (Fin k) (Fin n) ℝ) (b : Fin n → ℝ)
    (hn : n ≤ N) :
    (fun p q => (H * (padCols W : Matrix (Fin k) (Fin N) ℝ) + rowsOf (padVec b : Fin N → ℝ) :
        Matrix (Fin m) (Fin N) ℝ) p (Fin.castLE hn q))
      = H * W + rowsOf b := by
  funext p q
  have hq : (Fin.castLE hn q).val < n := q.isLt
  show (H * (padCols W : Matrix (Fin k) (Fin N) ℝ)) p (Fin.castLE hn q) + (padVec b : Fin N → ℝ) (Fin.castLE hn q)
    = (H * W) p q + b q
  rw [Matrix.mul_apply, Matrix.mul_apply]
  unfold padCols padVec
  simp only [dif_pos hq]
  rfl

/-! ## The stretches before region 9: the read-out weights and bias padded to 128 columns -/

section Pre9
variable (Wv : Valuation τ sig (Elt Ideal))

/-- The contents after the five stretches before region 9. -/
abbrev pre9 : Valuation τ sig (Elt Ideal) :=
  after (hostOps9_4 (F := Ideal)) (after (hostOps9_3 (F := Ideal)) (after (hostOps9_2 (F := Ideal))
    (after (hostOps9_1 (F := Ideal)) (after (hostOps9 (F := Ideal)) Wv))))

/-- The buffers the five stretches write. -/
abbrev written9 : List (Ref sig .tc) :=
  [main_c, main_call0_v0, main_v54, main_c_0, main_call1_v0, main_v55, main_v56]

/-- A buffer the five stretches do not write keeps its contents. -/
theorem pre9_kept (b : Ref sig .tc) (hb : b ∉ written9) : pre9 Wv (Proc.devRef .tc b) = Wv (Proc.devRef .tc b) := by
  unfold pre9
  rw [after_of_writes_sub (W := written9) _ _ (by stretch_writes hostOps9_4) hb,
    after_of_writes_sub (W := written9) _ _ (by stretch_writes hostOps9_3) hb,
    after_of_writes_sub (W := written9) _ _ (by stretch_writes hostOps9_2) hb,
    after_of_writes_sub (W := written9) _ _ (by stretch_writes hostOps9_1) hb,
    after_of_writes_sub (W := written9) _ _ (by stretch_writes hostOps9) hb]

/-- The last layer's output is kept. -/
theorem pre9_kept_v53_1 : pre9 Wv (Proc.devRef .tc main_v53_1) = Wv (Proc.devRef .tc main_v53_1) :=
  pre9_kept Wv main_v53_1 (by decide)

/-- The padded weights: the read-out matrix with 88 zero columns appended. -/
theorem pre9_v54 (W3 : Matrix (Fin 128) (Fin 40) ℝ) (h7 : Wv (Proc.devRef .tc main_arg7) = toE W3) :
    pre9 Wv (Proc.devRef .tc main_v54) = toE (padCols W3 : Matrix (Fin 128) (Fin 128) ℝ) := by
  have e : pre9 Wv (Proc.devRef .tc main_v54)
      = pad (s := S128x40) (α := Ideal .f32) S128x128 ![0, 0] ![0, 88] ![0, 0] (Wv (Proc.devRef .tc main_arg7))
          (sitofp (F := Ideal) .f32 (constantI S_ 32 0#32) : FVec Ideal S_ .f32) pads_S128x40_S128x128_000_0880 h_S_ := by
    unfold pre9
    after_results <;> rfl
  rw [e, h7]
  exact padCols_host_toE W3 _ padValue_apply _ _

/-- The padded bias as one row: the read-out bias with 88 zero entries appended. -/
theorem pre9_v56 (b3 : Fin 40 → ℝ) (h8 : Wv (Proc.devRef .tc main_arg8) = toE1 b3) :
    pre9 Wv (Proc.devRef .tc main_v56) = toERow (padVec b3 : Fin 128 → ℝ) := by
  have e : pre9 Wv (Proc.devRef .tc main_v56)
      = shapeCast S1x128
          (pad (s := S40) (α := Ideal .f32) S128 ![0] ![88] ![0] (Wv (Proc.devRef .tc main_arg8))
            (sitofp (F := Ideal) .f32 (constantI S_ 32 0#32) : FVec Ideal S_ .f32) pads_S40_S128_0880 h_S_)
          shapeCasts_S128_S1x128 := by
    unfold pre9
    after_results <;> rfl
  rw [e, h8, padVec_host_toE b3 _ padValue_apply _ _]
  exact reshapeRow_toE _ _

end Pre9

/-! ## Stretch 10: the first 40 columns of the last region's output -/

section Stretch10
variable (Wv : Valuation τ sig (Elt Ideal))

/-- The buffers stretch 10 writes. -/
abbrev written10 : List (Ref sig .tc) := [main_v58]

/-- A buffer stretch 10 does not write keeps its contents. -/
theorem hostOps10_kept (b : Ref sig .tc) (hb : b ∉ written10) :
    after (hostOps10 (F := Ideal)) Wv (Proc.devRef .tc b) = Wv (Proc.devRef .tc b) :=
  after_of_writes_sub (W := written10) _ Wv (by stretch_writes hostOps10) hb

/-- Cutting the 88 padding columns off the padded read-out leaves the read-out. -/
theorem hostOps10_v58 (H : Matrix (Fin 10000) (Fin 128) ℝ) (W3 : Matrix (Fin 128) (Fin 40) ℝ) (b3 : Fin 40 → ℝ)
    (h : Wv (Proc.devRef .tc main_v57)
      = toE (H * (padCols W3 : Matrix (Fin 128) (Fin 128) ℝ) + rowsOf (padVec b3 : Fin 128 → ℝ))) :
    after (hostOps10 (F := Ideal)) Wv (Proc.devRef .tc main_v58) = toE (H * W3 + rowsOf b3) := by
  have e : after (hostOps10 (F := Ideal)) Wv (Proc.devRef .tc main_v58)
      = extractStridedSlice (s := S10000x128) (α := Ideal .f32) S10000x40 ![0, 0] (Wv (Proc.devRef .tc main_v57))
          slices_S10000x128_S10000x40_0_0 := by
    after_results <;> rfl
  rw [e, h, sliceCols_toE _ (by decide : 40 ≤ 128) _]
  exact congrArg toE (mul_padCols_add_cols H W3 b3 _)

end Stretch10

end Cert.KernelIdeal.KHost

end
-- ==== Proof.KChainEnds.lean ====
/-
  The head and the tail of the kernel's run at real arguments.

  Head: the first host stretch lays out the coefficient table `C = (mono · θᵀ)ᵀ` and the two biases as rows; region 0
  computes the perceptron `H₀`; the next stretch starts the running sum at `C 0 0 · H₀`; region 1 stores `L - 1`,
  applies `L` once and adds `C 0 1 · L H₀`.
  Tail: the read-out's weights and bias are padded with zeros to 128 columns, region 9 computes `H·W + b` with the
  padded ones, and the last host operation keeps the first 40 columns, where the padding plays no part.
-/
import proofs.«116373_g1589137899740_cont_week2b_1182_8_alg».proof.Proof.KChainDense
import proofs.«116373_g1589137899740_cont_week2b_1182_8_alg».proof.Proof.KChainFirst
import proofs.«116373_g1589137899740_cont_week2b_1182_8_alg».proof.Proof.KKeptHost
import proofs.«116373_g1589137899740_cont_week2b_1182_8_alg».proof.Proof.KHost0
import proofs.«116373_g1589137899740_cont_week2b_1182_8_alg».proof.Proof.KHost9

set_option maxRecDepth 16384

noncomputable section

namespace Cert.KernelIdeal.KVal

open Matrix Bern
open Cert.KernelIdeal Cert.KernelIdeal.Gen Cert.KernelIdeal.GenP
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- From the launch memory to region 1's exit. -/
theorem head (x : Matrix (Fin 10000) (Fin 256) ℝ) (L : Matrix (Fin 10000) (Fin 10000) ℝ) (W1m : Matrix (Fin 256) (Fin 128) ℝ)
    (b1 : Fin 128 → ℝ) (W2m : Matrix (Fin 128) (Fin 128) ℝ) (b2 : Fin 128 → ℝ) (θ : Matrix (Fin 2) (Fin 5) ℝ)
    (Wo : Matrix (Fin 128) (Fin 40) ℝ) (b3 : Fin 40 → ℝ)
    (h0 : (m ((c.tc : Thread nD τ).loc main_arg0) : S10000x256.Idx → EReal) = toE x)
    (h1 : (m ((c.tc : Thread nD τ).loc main_arg1) : S10000x10000.Idx → EReal) = toE L)
    (h2 : (m ((c.tc : Thread nD τ).loc main_arg2) : S256x128.Idx → EReal) = toE W1m)
    (h3 : (m ((c.tc : Thread nD τ).loc main_arg3) : S128.Idx → EReal) = toE1 b1)
    (h4 : (m ((c.tc : Thread nD τ).loc main_arg4) : S128x128.Idx → EReal) = toE W2m)
    (h5 : (m ((c.tc : Thread nD τ).loc main_arg5) : S128.Idx → EReal) = toE1 b2)
    (h6 : (m ((c.tc : Thread nD τ).loc main_arg6) : S2x5.Idx → EReal) = toE θ)
    (h7 : (m ((c.tc : Thread nD τ).loc main_arg7) : S128x40.Idx → EReal) = toE Wo)
    (h8 : (m ((c.tc : Thread nD τ).loc main_arg8) : S40.Idx → EReal) = toE1 b3) :
    Kept (W4 m ρ c) L (coefTable θ) Wo b3
    ∧ (W4 m ρ c (Proc.devRef .tc main_v14_0) : S10000x128.Idx → EReal) = toE (kstep L (mlp x W1m b1 W2m b2))
    ∧ (W4 m ρ c (Proc.devRef .tc main_v14_1) : S10000x128.Idx → EReal) = toE (coefTable θ 0 0 • mlp x W1m b1 W2m b2 + coefTable θ 0 1 • kstep L (mlp x W1m b1 W2m b2)) := by
  -- the first boundary is the launch memory
  have w0_0 : (W0 m ρ c (Proc.devRef .tc main_arg0) : S10000x256.Idx → EReal) = toE x := h0
  have w0_1 : (W0 m ρ c (Proc.devRef .tc main_arg1) : S10000x10000.Idx → EReal) = toE L := h1
  have w0_2 : (W0 m ρ c (Proc.devRef .tc main_arg2) : S256x128.Idx → EReal) = toE W1m := h2
  have w0_3 : (W0 m ρ c (Proc.devRef .tc main_arg3) : S128.Idx → EReal) = toE1 b1 := h3
  have w0_4 : (W0 m ρ c (Proc.devRef .tc main_arg4) : S128x128.Idx → EReal) = toE W2m := h4
  have w0_5 : (W0 m ρ c (Proc.devRef .tc main_arg5) : S128.Idx → EReal) = toE1 b2 := h5
  have w0_6 : (W0 m ρ c (Proc.devRef .tc main_arg6) : S2x5.Idx → EReal) = toE θ := h6
  have w0_7 : (W0 m ρ c (Proc.devRef .tc main_arg7) : S128x40.Idx → EReal) = toE Wo := h7
  have w0_8 : (W0 m ρ c (Proc.devRef .tc main_arg8) : S40.Idx → EReal) = toE1 b3 := h8
  -- the first host stretch: the coefficient table and the biases as rows
  have s1_v2 : (W1 m ρ c (Proc.devRef .tc main_v2) : S2x5.Idx → EReal) = toE (coefTable θ) := KHost.hostOps0_v2 (W0 m ρ c) θ w0_6
  have s1_v3 : (W1 m ρ c (Proc.devRef .tc main_v3) : S1x128.Idx → EReal) = toERow b1 := KHost.hostOps0_v3 (W0 m ρ c) b1 w0_3
  have s1_v4 : (W1 m ρ c (Proc.devRef .tc main_v4) : S1x128.Idx → EReal) = toERow b2 := KHost.hostOps0_v4 (W0 m ρ c) b2 w0_5
  have s1_0 : (W1 m ρ c (Proc.devRef .tc main_arg0) : S10000x256.Idx → EReal) = toE x := (KHost.hostOps0_kept (W0 m ρ c) main_arg0 (by decide)).trans w0_0
  have s1_1 : (W1 m ρ c (Proc.devRef .tc main_arg1) : S10000x10000.Idx → EReal) = toE L := (KHost.hostOps0_kept (W0 m ρ c) main_arg1 (by decide)).trans w0_1
  have s1_2 : (W1 m ρ c (Proc.devRef .tc main_arg2) : S256x128.Idx → EReal) = toE W1m := (KHost.hostOps0_kept (W0 m ρ c) main_arg2 (by decide)).trans w0_2
  have s1_4 : (W1 m ρ c (Proc.devRef .tc main_arg4) : S128x128.Idx → EReal) = toE W2m := (KHost.hostOps0_kept (W0 m ρ c) main_arg4 (by decide)).trans w0_4
  have s1_7 : (W1 m ρ c (Proc.devRef .tc main_arg7) : S128x40.Idx → EReal) = toE Wo := (KHost.hostOps0_kept (W0 m ρ c) main_arg7 (by decide)).trans w0_7
  have s1_8 : (W1 m ρ c (Proc.devRef .tc main_arg8) : S40.Idx → EReal) = toE1 b3 := (KHost.hostOps0_kept (W0 m ρ c) main_arg8 (by decide)).trans w0_8
  -- region 0: the perceptron
  have s2_v5 : (W2 m ρ c (Proc.devRef .tc main_v5) : S10000x128.Idx → EReal) = toE (mlp x W1m b1 W2m b2) := stage0 m ρ c x W1m b1 W2m b2 s1_0 s1_2 s1_v3 s1_4 s1_v4
  have s2_v2 : (W2 m ρ c (Proc.devRef .tc main_v2) : S2x5.Idx → EReal) = toE (coefTable θ) := (W2_of_ne m ρ c main_v2 (by decide)).trans s1_v2
  have s2_1 : (W2 m ρ c (Proc.devRef .tc main_arg1) : S10000x10000.Idx → EReal) = toE L := (W2_of_ne m ρ c main_arg1 (by decide)).trans s1_1
  have s2_7 : (W2 m ρ c (Proc.devRef .tc main_arg7) : S128x40.Idx → EReal) = toE Wo := (W2_of_ne m ρ c main_arg7 (by decide)).trans s1_7
  have s2_8 : (W2 m ρ c (Proc.devRef .tc main_arg8) : S40.Idx → EReal) = toE1 b3 := (W2_of_ne m ρ c main_arg8 (by decide)).trans s1_8
  -- the stretch before region 1: the running sum started, the features narrowed, the coefficient C 0 1 as a row
  have s3_v9 : (W3 m ρ c (Proc.devRef .tc main_v9) : S10000x128.Idx → EReal) = toE (coefTable θ 0 0 • mlp x W1m b1 W2m b2) := KHost.hostOps1_v9 (W2 m ρ c) (coefTable θ) (mlp x W1m b1 W2m b2) s2_v2 s2_v5
  have s3_v10 : (W3 m ρ c (Proc.devRef .tc main_v10) : S10000x128.Idx → EReal) = toE (mlp x W1m b1 W2m b2) := KHost.hostOps1_v10 (W2 m ρ c) (mlp x W1m b1 W2m b2) s2_v5
  have s3_v13 : (W3 m ρ c (Proc.devRef .tc main_v13) : S1x128.Idx → EReal) = toERow fun _ => coefTable θ 0 1 := KHost.hostOps1_v13 (W2 m ρ c) (coefTable θ) s2_v2
  have s3_v5 : (W3 m ρ c (Proc.devRef .tc main_v5) : S10000x128.Idx → EReal) = toE (mlp x W1m b1 W2m b2) := (KHost.hostOps1_kept (W2 m ρ c) main_v5 (by decide)).trans s2_v5
  have s3_1 : (W3 m ρ c (Proc.devRef .tc main_arg1) : S10000x10000.Idx → EReal) = toE L := (KHost.hostOps1_kept (W2 m ρ c) main_arg1 (by decide)).trans s2_1
  have s3_v2 : (W3 m ρ c (Proc.devRef .tc main_v2) : S2x5.Idx → EReal) = toE (coefTable θ) := (KHost.hostOps1_kept (W2 m ρ c) main_v2 (by decide)).trans s2_v2
  have s3_7 : (W3 m ρ c (Proc.devRef .tc main_arg7) : S128x40.Idx → EReal) = toE Wo := (KHost.hostOps1_kept (W2 m ρ c) main_arg7 (by decide)).trans s2_7
  have s3_8 : (W3 m ρ c (Proc.devRef .tc main_arg8) : S40.Idx → EReal) = toE1 b3 := (KHost.hostOps1_kept (W2 m ρ c) main_arg8 (by decide)).trans s2_8
  -- region 1: the first pass
  obtain ⟨u4, a4, e4⟩ := stage1 m ρ c L (mlp x W1m b1 W2m b2) (coefTable θ 0 0 • mlp x W1m b1 W2m b2) (coefTable θ 0 1) s3_1 s3_v10 s3_v5 s3_v9 s3_v13
  have s4_v2 : (W4 m ρ c (Proc.devRef .tc main_v2) : S2x5.Idx → EReal) = toE (coefTable θ) := (W4_of_ne m ρ c main_v2 (by decide)).trans s3_v2
  have s4_7 : (W4 m ρ c (Proc.devRef .tc main_arg7) : S128x40.Idx → EReal) = toE Wo := (W4_of_ne m ρ c main_arg7 (by decide)).trans s3_7
  have s4_8 : (W4 m ρ c (Proc.devRef .tc main_arg8) : S40.Idx → EReal) = toE1 b3 := (W4_of_ne m ρ c main_arg8 (by decide)).trans s3_8
  exact ⟨⟨e4, s4_v2, s4_7, s4_8⟩, u4, a4⟩

/-- From region 8's exit to the result. -/
theorem tail (L : Matrix (Fin 10000) (Fin 10000) ℝ) (C : Matrix (Fin 2) (Fin 5) ℝ) (W3 : Matrix (Fin 128) (Fin 40) ℝ) (b3 : Fin 40 → ℝ)
    (H : Matrix (Fin 10000) (Fin 128) ℝ)
    (h18 : (W18 m ρ c (Proc.devRef .tc main_v53_1) : S10000x128.Idx → EReal) = toE H) (k18 : Kept (W18 m ρ c) L C W3 b3) :
    (W25 m ρ c (Proc.devRef .tc main_v58) : S10000x40.Idx → EReal) = toE (H * W3 + rowsOf b3) := by
  have s23_w : (W23 m ρ c (Proc.devRef .tc main_v54) : S128x128.Idx → EReal) = toE (padCols W3 : Matrix (Fin 128) (Fin 128) ℝ) := KHost.pre9_v54 (W18 m ρ c) W3 k18.2.2.1
  have s23_b : (W23 m ρ c (Proc.devRef .tc main_v56) : S1x128.Idx → EReal) = toERow (padVec b3 : Fin 128 → ℝ) := KHost.pre9_v56 (W18 m ρ c) b3 k18.2.2.2
  have s23_h : (W23 m ρ c (Proc.devRef .tc main_v53_1) : S10000x128.Idx → EReal) = toE H := (KHost.pre9_kept_v53_1 (W18 m ρ c)).trans h18
  have s24 : (W24 m ρ c (Proc.devRef .tc main_v57) : S10000x128.Idx → EReal) = toE (H * (padCols W3 : Matrix (Fin 128) (Fin 128) ℝ) + rowsOf (padVec b3 : Fin 128 → ℝ)) :=
    stage9 m ρ c H (padCols W3) (padVec b3) s23_h s23_w s23_b
  exact KHost.hostOps10_v58 (W24 m ρ c) H W3 b3 s24

end Cert.KernelIdeal.KVal

end
-- ==== Proof.KRowTile.lean ====
/-
  One row repeated down the rows of a block, read at an index: entry (p, q) of the [a, n] block made from a
  [1, n] row is the row's entry (0, q), whatever p.
-/
import Idealize.ShloMosaic.Lib.ValueIdx
import Idealize.ShloMosaic.Lib.Pipeline.Value
import Idealize.ShloMosaic.PureOps.Ideal

namespace Cert.KernelIdeal.KVal

open Idealize.ShloMosaic Idealize.ShloMosaic.ValueIdx

/-- A [1, n] row stretched to [a, n], at (p, q), is the row at (0, q). -/
theorem rowTile_apply {α : Type} {a n : Nat} (x : (⟨2, ![1, n]⟩ : Shape).Idx → α)
    (h2 : (⟨2, ![1, n]⟩ : Shape).Broadcasts ⟨2, ![a, n]⟩) (p : Fin a) (q : Fin n) :
    broadcastTo ⟨2, ![a, n]⟩ x h2 (ix2 p q) = x (ix2 (0 : Fin 1) q) :=
  broadcastTo_apply x h2 (ix2 p q) (ix2 (0 : Fin 1) q) (fun ax => by
    match ax with
    | ⟨0, _⟩ => rfl
    | ⟨1, _⟩ =>
      show q.val = if n = 1 then 0 else q.val
      split
      · have := q.isLt; omega
      · rfl)

end Cert.KernelIdeal.KVal
-- ==== Proof.KProp2Pay.lean ====
/-
  What one propagation pass computes on a block of 1000 rows, entry by entry (region 2).

  The body loads a block `u` of 1000 rows of the current features, the matching 1000 rows `e` of the stored
  matrix E = L - 1, the whole feature array `ub` (10000 rows), a block `acc` of the running sum and the layer's
  coefficient as one row `ct`. It stores
      new_u(p, q)   = u(p, q) + Σ_k e(p, k) · ub(k, q)
      new_acc(p, q) = acc(p, q) + ct(0, q) · new_u(p, q).
  The product is accumulated from an all-zero block, so its entry is the plain sum over k.
-/
import proofs.«116373_g1589137899740_cont_week2b_1182_8_alg».proof.Proof.Gen.KernelIdeal.Skeleton
import proofs.«116373_g1589137899740_cont_week2b_1182_8_alg».proof.Proof.LibPlainDot
import proofs.«116373_g1589137899740_cont_week2b_1182_8_alg».proof.Proof.KRowTile

noncomputable section

namespace Cert.KernelIdeal.KVal

open Cert.KernelIdeal Cert.KernelIdeal.Gen Idealize.ShloMosaic Idealize.ShloMosaic.ValueIdx

/-- The new features of a block, at entry (p, q). -/
theorem k2_pay1_apply (v0 : Vec Ideal S1000x128 .f32) (v2 : Vec Ideal S1000x10000 .bf16) (v4 : Vec Ideal S10000x128 .bf16)
    (p : Fin 1000) (q : Fin 128) :
    k2_pay1 (F := Ideal) v0 v2 v4 (ix2 p q) = (v0 (ix2 p q) + ∑ k : Fin 10000, v2 (ix2 p k) * v4 (ix2 k q) : EReal) := by
  have e : k2_pay1 (F := Ideal) v0 v2 v4
      = addf v0 (matmul (φ₁ := .bf16) (φ₂ := .bf16) dot_S1000x10000_S10000x128_S1000x128_1_0_0_1_n_n none v2 v4 (constant S1000x128 .f32 0x00000000#32)) := by
    unfold k2_pay1
    simp only [shapeCast_self]
  rw [e, addf_apply]
  exact congrArg (v0 (ix2 p q) + ·)
    (PlainDot.matmul_zero_apply (φ₁ := .bf16) (φ₂ := .bf16) dot_S1000x10000_S10000x128_S1000x128_1_0_0_1_n_n rfl rfl rfl rfl rfl rfl rfl rfl none v2 v4 p q)

/-- The new running sum of a block, at entry (p, q). -/
theorem k2_pay2_apply (v0 : Vec Ideal S1000x128 .f32) (v2 : Vec Ideal S1000x10000 .bf16) (v4 : Vec Ideal S10000x128 .bf16)
    (v9 : Vec Ideal S1000x128 .f32) (v11 : Vec Ideal S1x128 .f32) (p : Fin 1000) (q : Fin 128) :
    k2_pay2 (F := Ideal) v0 v2 v4 v9 v11 (ix2 p q)
      = (v9 (ix2 p q) + v11 (ix2 (0 : Fin 1) q) * (v0 (ix2 p q) + ∑ k : Fin 10000, v2 (ix2 p k) * v4 (ix2 k q)) : EReal) := by
  have e : k2_pay2 (F := Ideal) v0 v2 v4 v9 v11
      = addf v9 (mulf (broadcastTo S1000x128 v11 broadcasts_S1x128_S1000x128) (k2_pay1 v0 v2 v4)) := by
    unfold k2_pay2
    simp only [shapeCast_self]
  rw [e, addf_apply, mulf_apply, k2_pay1_apply, rowTile_apply]

end Cert.KernelIdeal.KVal

end
-- ==== Proof.KProp2Final.lean ====
/-
  Region 2 (a propagation pass over 10 blocks of 1000 rows): what its two output arrays hold after the region,
  as whole-array functions of the arrays the region finds.

  Point t of the grid loads rows 1000·t … 1000·t + 999 of the stored matrix, of the features and of the running
  sum, and the whole copy of the features and the coefficient row; it writes back rows 1000·t … 1000·t + 999 of
  the new features and of the new running sum. Row r of an output is therefore written by point r / 1000, and the
  ten blocks fill the array.
-/
import proofs.«116373_g1589137899740_cont_week2b_1182_8_alg».proof.Proof.FrameKI
import proofs.«116373_g1589137899740_cont_week2b_1182_8_alg».proof.Proof.KProp2Pay
import proofs.«116373_g1589137899740_cont_week2b_1182_8_alg».proof.Proof.KPassSpec

set_option maxRecDepth 16384

noncomputable section

namespace Cert.KernelIdeal.KVal

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the row-blocked windows sit at block (t, 0), the whole ones at (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Rows 1000·t … of the stored matrix. -/
theorem iblk2_0_apply (c : Dev nD) (t : Fin cfg2.N) (x : S1000x10000.Idx) (i : S10000x10000.Idx)
    (h0 : (i 0).val = t.val * 1000 + (x 0).val) (h1 : (i 1).val = (x 1).val) :
    (iblk2 V c 0 t : Vec Ideal S1000x10000 .bf16) x = (V c main_v14_2 : S10000x10000.Idx → EReal) i := by
  obtain ⟨e0, e1, -⟩ := idx_facts2 t
  unfold iblk2
  rw [View.read_apply]
  show V c main_v14_2 _ = V c main_v14_2 _
  congr 1
  funext a
  apply Fin.ext
  match a with
  | ⟨0, _⟩ => show win2_0.index t (0 : Fin 2) * 1000 + 1 * (x 0).val = (i 0).val; rw [e0, h0]; omega
  | ⟨1, _⟩ => show win2_0.index t (1 : Fin 2) * 10000 + 1 * (x 1).val = (i 1).val; rw [e1, h1]; omega

/-- The whole copy of the features. -/
theorem iblk2_1_apply (c : Dev nD) (t : Fin cfg2.N) (x : S10000x128.Idx) :
    (iblk2 V c 1 t : Vec Ideal S10000x128 .bf16) x = (V c main_v15 : S10000x128.Idx → EReal) x := by
  obtain ⟨-, -, e0, e1, -⟩ := idx_facts2 t
  unfold iblk2
  rw [View.read_apply]
  show V c main_v15 _ = V c main_v15 _
  congr 1
  funext a
  apply Fin.ext
  match a with
  | ⟨0, _⟩ => show win2_1.index t (0 : Fin 2) * 10000 + 1 * (x 0).val = (x 0).val; rw [e0]; omega
  | ⟨1, _⟩ => show win2_1.index t (1 : Fin 2) * 128 + 1 * (x 1).val = (x 1).val; rw [e1]; omega

/-- Rows 1000·t … of the features. -/
theorem iblk2_2_apply (c : Dev nD) (t : Fin cfg2.N) (x : S1000x128.Idx) (i : S10000x128.Idx)
    (h0 : (i 0).val = t.val * 1000 + (x 0).val) (h1 : (i 1).val = (x 1).val) :
    (iblk2 V c 2 t : Vec Ideal S1000x128 .f32) x = (V c main_v14_0 : S10000x128.Idx → EReal) i := by
  obtain ⟨-, -, -, -, e0, e1, -⟩ := idx_facts2 t
  unfold iblk2
  rw [View.read_apply]
  show V c main_v14_0 _ = V c main_v14_0 _
  congr 1
  funext a
  apply Fin.ext
  match a with
  | ⟨0, _⟩ => show win2_2.index t (0 : Fin 2) * 1000 + 1 * (x 0).val = (i 0).val; rw [e0, h0]; omega
  | ⟨1, _⟩ => show win2_2.index t (1 : Fin 2) * 128 + 1 * (x 1).val = (i 1).val; rw [e1, h1]; omega

/-- Rows 1000·t … of the running sum. -/
theorem iblk2_3_apply (c : Dev nD) (t : Fin cfg2.N) (x : S1000x128.Idx) (i : S10000x128.Idx)
    (h0 : (i 0).val = t.val * 1000 + (x 0).val) (h1 : (i 1).val = (x 1).val) :
    (iblk2 V c 3 t : Vec Ideal S1000x128 .f32) x = (V c main_v14_1 : S10000x128.Idx → EReal) i := by
  obtain ⟨-, -, -, -, -, -, e0, e1, -⟩ := idx_facts2 t
  unfold iblk2
  rw [View.read_apply]
  show V c main_v14_1 _ = V c main_v14_1 _
  congr 1
  funext a
  apply Fin.ext
  match a with
  | ⟨0, _⟩ => show win2_3.index t (0 : Fin 2) * 1000 + 1 * (x 0).val = (i 0).val; rw [e0, h0]; omega
  | ⟨1, _⟩ => show win2_3.index t (1 : Fin 2) * 128 + 1 * (x 1).val = (i 1).val; rw [e1, h1]; omega

/-- The coefficient row, whole. -/
theorem iblk2_4_apply (c : Dev nD) (t : Fin cfg2.N) (x : S1x128.Idx) :
    (iblk2 V c 4 t : Vec Ideal S1x128 .f32) x = (V c main_v18 : S1x128.Idx → EReal) x := by
  obtain ⟨-, -, -, -, -, -, -, -, e0, e1, -⟩ := idx_facts2 t
  unfold iblk2
  rw [View.read_apply]
  show V c main_v18 _ = V c main_v18 _
  congr 1
  funext a
  apply Fin.ext
  match a with
  | ⟨0, _⟩ => show win2_4.index t (0 : Fin 2) * 1 + 1 * (x 0).val = (x 0).val; rw [e0]; omega
  | ⟨1, _⟩ => show win2_4.index t (1 : Fin 2) * 128 + 1 * (x 1).val = (x 1).val; rw [e1]; omega

/-- The body's new features at point t, block entry y: row 1000·t + (row of y) of the whole-array function. -/
theorem blockU2 (c : Dev nD) (t : Fin cfg2.N) (y : S1000x128.Idx) (i : S10000x128.Idx)
    (h0 : (i 0).val = t.val * 1000 + (y 0).val) (h1 : (i 1).val = (y 1).val) :
    k2_pay1 (F := Ideal) (iblk2 V c 2 t) (iblk2 V c 0 t) (iblk2 V c 1 t) y
      = passU (V c main_v14_2) (V c main_v15) (V c main_v14_0) i := by
  obtain ⟨p, q, rfl⟩ : ∃ (p : Fin 1000) (q : Fin 128), y = ix2 p q := ⟨y 0, y 1, eq_ix2 y⟩
  refine (k2_pay1_apply (iblk2 V c 2 t) (iblk2 V c 0 t) (iblk2 V c 1 t) p q).trans ?_
  unfold passU
  refine congrArg₂ (fun a b : EReal => a + b) (iblk2_2_apply V c t (ix2 p q) i h0 h1) (Finset.sum_congr rfl fun k _ => ?_)
  exact congrArg₂ (fun a b : EReal => a * b) (iblk2_0_apply V c t (ix2 p k) (ix2 (i 0) k) h0 rfl)
    ((iblk2_1_apply V c t (ix2 k q)).trans (congrArg (V c main_v15 : S10000x128.Idx → EReal)
      (funext fun a => Fin.ext (by match a with | ⟨0, _⟩ => rfl | ⟨1, _⟩ => exact h1.symm))))

/-- The body's new running sum at point t, block entry y. -/
theorem blockAcc2 (c : Dev nD) (t : Fin cfg2.N) (y : S1000x128.Idx) (i : S10000x128.Idx)
    (h0 : (i 0).val = t.val * 1000 + (y 0).val) (h1 : (i 1).val = (y 1).val) :
    k2_pay2 (F := Ideal) (iblk2 V c 2 t) (iblk2 V c 0 t) (iblk2 V c 1 t) (iblk2 V c 3 t) (iblk2 V c 4 t) y
      = passAcc (V c main_v14_2) (V c main_v15) (V c main_v14_0) (V c main_v14_1) (V c main_v18) i := by
  have hu := blockU2 V c t y i h0 h1
  obtain ⟨p, q, rfl⟩ : ∃ (p : Fin 1000) (q : Fin 128), y = ix2 p q := ⟨y 0, y 1, eq_ix2 y⟩
  refine (k2_pay2_apply (iblk2 V c 2 t) (iblk2 V c 0 t) (iblk2 V c 1 t) (iblk2 V c 3 t) (iblk2 V c 4 t) p q).trans ?_
  have hu' := (k2_pay1_apply (iblk2 V c 2 t) (iblk2 V c 0 t) (iblk2 V c 1 t) p q).symm.trans hu
  have hq : (ix2 (0 : Fin 1) q : S1x128.Idx) = ix2 (0 : Fin 1) (i 1) := funext fun a => Fin.ext (by match a with | ⟨0, _⟩ => rfl | ⟨1, _⟩ => exact h1.symm)
  rw [hu', iblk2_3_apply V c t (ix2 p q) i h0 h1, iblk2_4_apply V c t (ix2 (0 : Fin 1) q), hq]
  rfl

/-- What point t writes back to the features' array is block t of the whole-array function. -/
theorem flushed2_5_eq (c : Dev nD) (t : Fin cfg2.N) :
    (dat2 (F := Ideal) V c).flushed 5 t
      = ((cfg2.win 5).blk t).view.read (Elt Ideal) (passU (V c main_v14_2) (V c main_v15) (V c main_v14_0)) := by
  show (cfg2.win 5).cut (grid2.coords t) ((dat2 V c).after 5 t) = _
  rw [after2_5]
  unfold out2_5
  rw [View.canon_unit_zero hz2]
  simp only [View.ld_unit_zero (S := S1000x128) hz2, View.ld_unit_zero (S := S1000x10000) hz2, View.ld_unit_zero (S := S10000x128) hz2]
  obtain ⟨-, -, -, -, -, -, -, -, -, -, e0, e1, -⟩ := idx_facts2 t
  funext j
  exact blockU2 V c t j (((cfg2.win 5).blk t).view.emb j)
    (show win2_5.index t (0 : Fin 2) * 1000 + 1 * (j 0).val = t.val * 1000 + (j 0).val by rw [e0]; omega)
    (show win2_5.index t (1 : Fin 2) * 128 + 1 * (j 1).val = (j 1).val by rw [e1]; omega)

/-- What point t writes back to the running sum's array is block t of the whole-array function. -/
theorem flushed2_6_eq (c : Dev nD) (t : Fin cfg2.N) :
    (dat2 (F := Ideal) V c).flushed 6 t
      = ((cfg2.win 6).blk t).view.read (Elt Ideal) (passAcc (V c main_v14_2) (V c main_v15) (V c main_v14_0) (V c main_v14_1) (V c main_v18)) := by
  show (cfg2.win 6).cut (grid2.coords t) ((dat2 V c).after 6 t) = _
  rw [after2_6]
  unfold out2_6
  rw [View.canon_unit_zero hz2]
  simp only [View.ld_unit_zero (S := S1000x128) hz2, View.ld_unit_zero (S := S1000x10000) hz2, View.ld_unit_zero (S := S10000x128) hz2, View.ld_unit_zero (S := S1x128) hz2]
  obtain ⟨-, -, -, -, -, -, -, -, -, -, -, -, e0, e1⟩ := idx_facts2 t
  funext j
  exact blockAcc2 V c t j (((cfg2.win 6).blk t).view.emb j)
    (show win2_6.index t (0 : Fin 2) * 1000 + 1 * (j 0).val = t.val * 1000 + (j 0).val by rw [e0]; omega)
    (show win2_6.index t (1 : Fin 2) * 128 + 1 * (j 1).val = (j 1).val by rw [e1]; omega)

/-- An index of the features' array is in point t's block iff its row is among rows 1000·t … 1000·t + 999. -/
theorem mem_blk2_5 (t : Fin cfg2.N) (i : S10000x128.Idx) :
    i ∈ ((cfg2.win 5).blk t).view.set ↔ ∀ a : Fin 2, win2_5.index t a * S1000x128.size a ≤ (i a).val ∧ (i a).val < win2_5.index t a * S1000x128.size a + S1000x128.size a := by
  show i ∈ ((View.whole main_v19_0).slice (win2_5.rect t)).set ↔ _
  rw [View.set_slice_whole, Rect.mem_set_unit]
  exact Iff.rfl

theorem mem_blk2_6 (t : Fin cfg2.N) (i : S10000x128.Idx) :
    i ∈ ((cfg2.win 6).blk t).view.set ↔ ∀ a : Fin 2, win2_6.index t a * S1000x128.size a ≤ (i a).val ∧ (i a).val < win2_6.index t a * S1000x128.size a + S1000x128.size a := by
  show i ∈ ((View.whole main_v19_1).slice (win2_6.rect t)).set ↔ _
  rw [View.set_slice_whole, Rect.mem_set_unit]
  exact Iff.rfl

/-- Row r is written by point r / 1000. -/
theorem cover2_5 (i : S10000x128.Idx) : ∃ t : Fin cfg2.N, (cfg2.win 5).flush t = true ∧ i ∈ ((cfg2.win 5).blk t).view.set := by
  have hi0 : (i 0).val < 10000 := (i 0).isLt
  have hi1 : (i 1).val < 128 := (i 1).isLt
  have hN : cfg2.N = 10 := N_2
  let t : Fin cfg2.N := ⟨(i 0).val / 1000, by rw [hN]; omega⟩
  obtain ⟨-, -, -, -, -, -, -, -, -, -, e0, e1, -⟩ := idx_facts2 t
  refine ⟨t, flush2_5 t, ?_⟩
  rw [mem_blk2_5]
  intro a
  have ht : t.val = (i 0).val / 1000 := rfl
  match a with
  | ⟨0, _⟩ => show win2_5.index t (0 : Fin 2) * 1000 ≤ (i 0).val ∧ (i 0).val < win2_5.index t (0 : Fin 2) * 1000 + 1000; rw [e0, ht]; omega
  | ⟨1, _⟩ => show win2_5.index t (1 : Fin 2) * 128 ≤ (i 1).val ∧ (i 1).val < win2_5.index t (1 : Fin 2) * 128 + 128; rw [e1]; omega

theorem cover2_6 (i : S10000x128.Idx) : ∃ t : Fin cfg2.N, (cfg2.win 6).flush t = true ∧ i ∈ ((cfg2.win 6).blk t).view.set := by
  have hi0 : (i 0).val < 10000 := (i 0).isLt
  have hi1 : (i 1).val < 128 := (i 1).isLt
  have hN : cfg2.N = 10 := N_2
  let t : Fin cfg2.N := ⟨(i 0).val / 1000, by rw [hN]; omega⟩
  obtain ⟨-, -, -, -, -, -, -, -, -, -, -, -, e0, e1⟩ := idx_facts2 t
  refine ⟨t, flush2_6 t, ?_⟩
  rw [mem_blk2_6]
  intro a
  have ht : t.val = (i 0).val / 1000 := rfl
  match a with
  | ⟨0, _⟩ => show win2_6.index t (0 : Fin 2) * 1000 ≤ (i 0).val ∧ (i 0).val < win2_6.index t (0 : Fin 2) * 1000 + 1000; rw [e0, ht]; omega
  | ⟨1, _⟩ => show win2_6.index t (1 : Fin 2) * 128 ≤ (i 1).val ∧ (i 1).val < win2_6.index t (1 : Fin 2) * 128 + 128; rw [e1]; omega

/-- The features' array after region 2. -/
theorem final2_5 (c : Dev nD) :
    (dat2 (F := Ideal) V c).arrAt 5 cfg2.N = passU (V c main_v14_2) (V c main_v15) (V c main_v14_0) :=
  (dat2 (F := Ideal) V c).arrAt_eq_of_cover 5 _ (fun t _ => flushed2_5_eq V c t) (cover2_5)

/-- The running sum's array after region 2. -/
theorem final2_6 (c : Dev nD) :
    (dat2 (F := Ideal) V c).arrAt 6 cfg2.N = passAcc (V c main_v14_2) (V c main_v15) (V c main_v14_0) (V c main_v14_1) (V c main_v18) :=
  (dat2 (F := Ideal) V c).arrAt_eq_of_cover 6 _ (fun t _ => flushed2_6_eq V c t) (cover2_6)

end Cert.KernelIdeal.KVal

end
-- ==== Proof.KProp3Pay.lean ====
/-
  What one propagation pass computes on a block of 1000 rows, entry by entry (region 3).

  The body loads a block `u` of 1000 rows of the current features, the matching 1000 rows `e` of the stored
  matrix E = L - 1, the whole feature array `ub` (10000 rows), a block `acc` of the running sum and the layer's
  coefficient as one row `ct`. It stores
      new_u(p, q)   = u(p, q) + Σ_k e(p, k) · ub(k, q)
      new_acc(p, q) = acc(p, q) + ct(0, q) · new_u(p, q).
  The product is accumulated from an all-zero block, so its entry is the plain sum over k.
-/
import proofs.«116373_g1589137899740_cont_week2b_1182_8_alg».proof.Proof.Gen.KernelIdeal.Skeleton
import proofs.«116373_g1589137899740_cont_week2b_1182_8_alg».proof.Proof.LibPlainDot
import proofs.«116373_g1589137899740_cont_week2b_1182_8_alg».proof.Proof.KRowTile

noncomputable section

namespace Cert.KernelIdeal.KVal

open Cert.KernelIdeal Cert.KernelIdeal.Gen Idealize.ShloMosaic Idealize.ShloMosaic.ValueIdx

/-- The new features of a block, at entry (p, q). -/
theorem k3_pay1_apply (v0 : Vec Ideal S1000x128 .f32) (v2 : Vec Ideal S1000x10000 .bf16) (v4 : Vec Ideal S10000x128 .bf16)
    (p : Fin 1000) (q : Fin 128) :
    k3_pay1 (F := Ideal) v0 v2 v4 (ix2 p q) = (v0 (ix2 p q) + ∑ k : Fin 10000, v2 (ix2 p k) * v4 (ix2 k q) : EReal) := by
  have e : k3_pay1 (F := Ideal) v0 v2 v4
      = addf v0 (matmul (φ₁ := .bf16) (φ₂ := .bf16) dot_S1000x10000_S10000x128_S1000x128_1_0_0_1_n_n none v2 v4 (constant S1000x128 .f32 0x00000000#32)) := by
    unfold k3_pay1
    simp only [shapeCast_self]
  rw [e, addf_apply]
  exact congrArg (v0 (ix2 p q) + ·)
    (PlainDot.matmul_zero_apply (φ₁ := .bf16) (φ₂ := .bf16) dot_S1000x10000_S10000x128_S1000x128_1_0_0_1_n_n rfl rfl rfl rfl rfl rfl rfl rfl none v2 v4 p q)

/-- The new running sum of a block, at entry (p, q). -/
theorem k3_pay2_apply (v0 : Vec Ideal S1000x128 .f32) (v2 : Vec Ideal S1000x10000 .bf16) (v4 : Vec Ideal S10000x128 .bf16)
    (v9 : Vec Ideal S1000x128 .f32) (v11 : Vec Ideal S1x128 .f32) (p : Fin 1000) (q : Fin 128) :
    k3_pay2 (F := Ideal) v0 v2 v4 v9 v11 (ix2 p q)
      = (v9 (ix2 p q) + v11 (ix2 (0 : Fin 1) q) * (v0 (ix2 p q) + ∑ k : Fin 10000, v2 (ix2 p k) * v4 (ix2 k q)) : EReal) := by
  have e : k3_pay2 (F := Ideal) v0 v2 v4 v9 v11
      = addf v9 (mulf (broadcastTo S1000x128 v11 broadcasts_S1x128_S1000x128) (k3_pay1 v0 v2 v4)) := by
    unfold k3_pay2
    simp only [shapeCast_self]
  rw [e, addf_apply, mulf_apply, k3_pay1_apply, rowTile_apply]

end Cert.KernelIdeal.KVal

end
-- ==== Proof.KProp3Final.lean ====
/-
  Region 3 (a propagation pass over 10 blocks of 1000 rows): what its two output arrays hold after the region,
  as whole-array functions of the arrays the region finds.

  Point t of the grid loads rows 1000·t … 1000·t + 999 of the stored matrix, of the features and of the running
  sum, and the whole copy of the features and the coefficient row; it writes back rows 1000·t … 1000·t + 999 of
  the new features and of the new running sum. Row r of an output is therefore written by point r / 1000, and the
  ten blocks fill the array.
-/
import proofs.«116373_g1589137899740_cont_week2b_1182_8_alg».proof.Proof.FrameKI
import proofs.«116373_g1589137899740_cont_week2b_1182_8_alg».proof.Proof.KProp3Pay
import proofs.«116373_g1589137899740_cont_week2b_1182_8_alg».proof.Proof.KPassSpec

set_option maxRecDepth 16384

noncomputable section

namespace Cert.KernelIdeal.KVal

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: the row-blocked windows sit at block (t, 0), the whole ones at (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Rows 1000·t … of the stored matrix. -/
theorem iblk3_0_apply (c : Dev nD) (t : Fin cfg3.N) (x : S1000x10000.Idx) (i : S10000x10000.Idx)
    (h0 : (i 0).val = t.val * 1000 + (x 0).val) (h1 : (i 1).val = (x 1).val) :
    (iblk3 V c 0 t : Vec Ideal S1000x10000 .bf16) x = (V c main_v14_2 : S10000x10000.Idx → EReal) i := by
  obtain ⟨e0, e1, -⟩ := idx_facts3 t
  unfold iblk3
  rw [View.read_apply]
  show V c main_v14_2 _ = V c main_v14_2 _
  congr 1
  funext a
  apply Fin.ext
  match a with
  | ⟨0, _⟩ => show win3_0.index t (0 : Fin 2) * 1000 + 1 * (x 0).val = (i 0).val; rw [e0, h0]; omega
  | ⟨1, _⟩ => show win3_0.index t (1 : Fin 2) * 10000 + 1 * (x 1).val = (i 1).val; rw [e1, h1]; omega

/-- The whole copy of the features. -/
theorem iblk3_1_apply (c : Dev nD) (t : Fin cfg3.N) (x : S10000x128.Idx) :
    (iblk3 V c 1 t : Vec Ideal S10000x128 .bf16) x = (V c main_v20 : S10000x128.Idx → EReal) x := by
  obtain ⟨-, -, e0, e1, -⟩ := idx_facts3 t
  unfold iblk3
  rw [View.read_apply]
  show V c main_v20 _ = V c main_v20 _
  congr 1
  funext a
  apply Fin.ext
  match a with
  | ⟨0, _⟩ => show win3_1.index t (0 : Fin 2) * 10000 + 1 * (x 0).val = (x 0).val; rw [e0]; omega
  | ⟨1, _⟩ => show win3_1.index t (1 : Fin 2) * 128 + 1 * (x 1).val = (x 1).val; rw [e1]; omega

/-- Rows 1000·t … of the features. -/
theorem iblk3_2_apply (c : Dev nD) (t : Fin cfg3.N) (x : S1000x128.Idx) (i : S10000x128.Idx)
    (h0 : (i 0).val = t.val * 1000 + (x 0).val) (h1 : (i 1).val = (x 1).val) :
    (iblk3 V c 2 t : Vec Ideal S1000x128 .f32) x = (V c main_v19_0 : S10000x128.Idx → EReal) i := by
  obtain ⟨-, -, -, -, e0, e1, -⟩ := idx_facts3 t
  unfold iblk3
  rw [View.read_apply]
  show V c main_v19_0 _ = V c main_v19_0 _
  congr 1
  funext a
  apply Fin.ext
  match a with
  | ⟨0, _⟩ => show win3_2.index t (0 : Fin 2) * 1000 + 1 * (x 0).val = (i 0).val; rw [e0, h0]; omega
  | ⟨1, _⟩ => show win3_2.index t (1 : Fin 2) * 128 + 1 * (x 1).val = (i 1).val; rw [e1, h1]; omega

/-- Rows 1000·t … of the running sum. -/
theorem iblk3_3_apply (c : Dev nD) (t : Fin cfg3.N) (x : S1000x128.Idx) (i : S10000x128.Idx)
    (h0 : (i 0).val = t.val * 1000 + (x 0).val) (h1 : (i 1).val = (x 1).val) :
    (iblk3 V c 3 t : Vec Ideal S1000x128 .f32) x = (V c main_v19_1 : S10000x128.Idx → EReal) i := by
  obtain ⟨-, -, -, -, -, -, e0, e1, -⟩ := idx_facts3 t
  unfold iblk3
  rw [View.read_apply]
  show V c main_v19_1 _ = V c main_v19_1 _
  congr 1
  funext a
  apply Fin.ext
  match a with
  | ⟨0, _⟩ => show win3_3.index t (0 : Fin 2) * 1000 + 1 * (x 0).val = (i 0).val; rw [e0, h0]; omega
  | ⟨1, _⟩ => show win3_3.index t (1 : Fin 2) * 128 + 1 * (x 1).val = (i 1).val; rw [e1, h1]; omega

/-- The coefficient row, whole. -/
theorem iblk3_4_apply (c : Dev nD) (t : Fin cfg3.N) (x : S1x128.Idx) :
    (iblk3 V c 4 t : Vec Ideal S1x128 .f32) x = (V c main_v23 : S1x128.Idx → EReal) x := by
  obtain ⟨-, -, -, -, -, -, -, -, e0, e1, -⟩ := idx_facts3 t
  unfold iblk3
  rw [View.read_apply]
  show V c main_v23 _ = V c main_v23 _
  congr 1
  funext a
  apply Fin.ext
  match a with
  | ⟨0, _⟩ => show win3_4.index t (0 : Fin 2) * 1 + 1 * (x 0).val = (x 0).val; rw [e0]; omega
  | ⟨1, _⟩ => show win3_4.index t (1 : Fin 2) * 128 + 1 * (x 1).val = (x 1).val; rw [e1]; omega

/-- The body's new features at point t, block entry y: row 1000·t + (row of y) of the whole-array function. -/
theorem blockU3 (c : Dev nD) (t : Fin cfg3.N) (y : S1000x128.Idx) (i : S10000x128.Idx)
    (h0 : (i 0).val = t.val * 1000 + (y 0).val) (h1 : (i 1).val = (y 1).val) :
    k3_pay1 (F := Ideal) (iblk3 V c 2 t) (iblk3 V c 0 t) (iblk3 V c 1 t) y
      = passU (V c main_v14_2) (V c main_v20) (V c main_v19_0) i := by
  obtain ⟨p, q, rfl⟩ : ∃ (p : Fin 1000) (q : Fin 128), y = ix2 p q := ⟨y 0, y 1, eq_ix2 y⟩
  refine (k3_pay1_apply (iblk3 V c 2 t) (iblk3 V c 0 t) (iblk3 V c 1 t) p q).trans ?_
  unfold passU
  refine congrArg₂ (fun a b : EReal => a + b) (iblk3_2_apply V c t (ix2 p q) i h0 h1) (Finset.sum_congr rfl fun k _ => ?_)
  exact congrArg₂ (fun a b : EReal => a * b) (iblk3_0_apply V c t (ix2 p k) (ix2 (i 0) k) h0 rfl)
    ((iblk3_1_apply V c t (ix2 k q)).trans (congrArg (V c main_v20 : S10000x128.Idx → EReal)
      (funext fun a => Fin.ext (by match a with | ⟨0, _⟩ => rfl | ⟨1, _⟩ => exact h1.symm))))

/-- The body's new running sum at point t, block entry y. -/
theorem blockAcc3 (c : Dev nD) (t : Fin cfg3.N) (y : S1000x128.Idx) (i : S10000x128.Idx)
    (h0 : (i 0).val = t.val * 1000 + (y 0).val) (h1 : (i 1).val = (y 1).val) :
    k3_pay2 (F := Ideal) (iblk3 V c 2 t) (iblk3 V c 0 t) (iblk3 V c 1 t) (iblk3 V c 3 t) (iblk3 V c 4 t) y
      = passAcc (V c main_v14_2) (V c main_v20) (V c main_v19_0) (V c main_v19_1) (V c main_v23) i := by
  have hu := blockU3 V c t y i h0 h1
  obtain ⟨p, q, rfl⟩ : ∃ (p : Fin 1000) (q : Fin 128), y = ix2 p q := ⟨y 0, y 1, eq_ix2 y⟩
  refine (k3_pay2_apply (iblk3 V c 2 t) (iblk3 V c 0 t) (iblk3 V c 1 t) (iblk3 V c 3 t) (iblk3 V c 4 t) p q).trans ?_
  have hu' := (k3_pay1_apply (iblk3 V c 2 t) (iblk3 V c 0 t) (iblk3 V c 1 t) p q).symm.trans hu
  have hq : (ix2 (0 : Fin 1) q : S1x128.Idx) = ix2 (0 : Fin 1) (i 1) := funext fun a => Fin.ext (by match a with | ⟨0, _⟩ => rfl | ⟨1, _⟩ => exact h1.symm)
  rw [hu', iblk3_3_apply V c t (ix2 p q) i h0 h1, iblk3_4_apply V c t (ix2 (0 : Fin 1) q), hq]
  rfl

/-- What point t writes back to the features' array is block t of the whole-array function. -/
theorem flushed3_5_eq (c : Dev nD) (t : Fin cfg3.N) :
    (dat3 (F := Ideal) V c).flushed 5 t
      = ((cfg3.win 5).blk t).view.read (Elt Ideal) (passU (V c main_v14_2) (V c main_v20) (V c main_v19_0)) := by
  show (cfg3.win 5).cut (grid3.coords t) ((dat3 V c).after 5 t) = _
  rw [after3_5]
  unfold out3_5
  rw [View.canon_unit_zero hz3]
  simp only [View.ld_unit_zero (S := S1000x128) hz3, View.ld_unit_zero (S := S1000x10000) hz3, View.ld_unit_zero (S := S10000x128) hz3]
  obtain ⟨-, -, -, -, -, -, -, -, -, -, e0, e1, -⟩ := idx_facts3 t
  funext j
  exact blockU3 V c t j (((cfg3.win 5).blk t).view.emb j)
    (show win3_5.index t (0 : Fin 2) * 1000 + 1 * (j 0).val = t.val * 1000 + (j 0).val by rw [e0]; omega)
    (show win3_5.index t (1 : Fin 2) * 128 + 1 * (j 1).val = (j 1).val by rw [e1]; omega)

/-- What point t writes back to the running sum's array is block t of the whole-array function. -/
theorem flushed3_6_eq (c : Dev nD) (t : Fin cfg3.N) :
    (dat3 (F := Ideal) V c).flushed 6 t
      = ((cfg3.win 6).blk t).view.read (Elt Ideal) (passAcc (V c main_v14_2) (V c main_v20) (V c main_v19_0) (V c main_v19_1) (V c main_v23)) := by
  show (cfg3.win 6).cut (grid3.coords t) ((dat3 V c).after 6 t) = _
  rw [after3_6]
  unfold out3_6
  rw [View.canon_unit_zero hz3]
  simp only [View.ld_unit_zero (S := S1000x128) hz3, View.ld_unit_zero (S := S1000x10000) hz3, View.ld_unit_zero (S := S10000x128) hz3, View.ld_unit_zero (S := S1x128) hz3]
  obtain ⟨-, -, -, -, -, -, -, -, -, -, -, -, e0, e1⟩ := idx_facts3 t
  funext j
  exact blockAcc3 V c t j (((cfg3.win 6).blk t).view.emb j)
    (show win3_6.index t (0 : Fin 2) * 1000 + 1 * (j 0).val = t.val * 1000 + (j 0).val by rw [e0]; omega)
    (show win3_6.index t (1 : Fin 2) * 128 + 1 * (j 1).val = (j 1).val by rw [e1]; omega)

/-- An index of the features' array is in point t's block iff its row is among rows 1000·t … 1000·t + 999. -/
theorem mem_blk3_5 (t : Fin cfg3.N) (i : S10000x128.Idx) :
    i ∈ ((cfg3.win 5).blk t).view.set ↔ ∀ a : Fin 2, win3_5.index t a * S1000x128.size a ≤ (i a).val ∧ (i a).val < win3_5.index t a * S1000x128.size a + S1000x128.size a := by
  show i ∈ ((View.whole main_v24_0).slice (win3_5.rect t)).set ↔ _
  rw [View.set_slice_whole, Rect.mem_set_unit]
  exact Iff.rfl

theorem mem_blk3_6 (t : Fin cfg3.N) (i : S10000x128.Idx) :
    i ∈ ((cfg3.win 6).blk t).view.set ↔ ∀ a : Fin 2, win3_6.index t a * S1000x128.size a ≤ (i a).val ∧ (i a).val < win3_6.index t a * S1000x128.size a + S1000x128.size a := by
  show i ∈ ((View.whole main_v24_1).slice (win3_6.rect t)).set ↔ _
  rw [View.set_slice_whole, Rect.mem_set_unit]
  exact Iff.rfl

/-- Row r is written by point r / 1000. -/
theorem cover3_5 (i : S10000x128.Idx) : ∃ t : Fin cfg3.N, (cfg3.win 5).flush t = true ∧ i ∈ ((cfg3.win 5).blk t).view.set := by
  have hi0 : (i 0).val < 10000 := (i 0).isLt
  have hi1 : (i 1).val < 128 := (i 1).isLt
  have hN : cfg3.N = 10 := N_3
  let t : Fin cfg3.N := ⟨(i 0).val / 1000, by rw [hN]; omega⟩
  obtain ⟨-, -, -, -, -, -, -, -, -, -, e0, e1, -⟩ := idx_facts3 t
  refine ⟨t, flush3_5 t, ?_⟩
  rw [mem_blk3_5]
  intro a
  have ht : t.val = (i 0).val / 1000 := rfl
  match a with
  | ⟨0, _⟩ => show win3_5.index t (0 : Fin 2) * 1000 ≤ (i 0).val ∧ (i 0).val < win3_5.index t (0 : Fin 2) * 1000 + 1000; rw [e0, ht]; omega
  | ⟨1, _⟩ => show win3_5.index t (1 : Fin 2) * 128 ≤ (i 1).val ∧ (i 1).val < win3_5.index t (1 : Fin 2) * 128 + 128; rw [e1]; omega

theorem cover3_6 (i : S10000x128.Idx) : ∃ t : Fin cfg3.N, (cfg3.win 6).flush t = true ∧ i ∈ ((cfg3.win 6).blk t).view.set := by
  have hi0 : (i 0).val < 10000 := (i 0).isLt
  have hi1 : (i 1).val < 128 := (i 1).isLt
  have hN : cfg3.N = 10 := N_3
  let t : Fin cfg3.N := ⟨(i 0).val / 1000, by rw [hN]; omega⟩
  obtain ⟨-, -, -, -, -, -, -, -, -, -, -, -, e0, e1⟩ := idx_facts3 t
  refine ⟨t, flush3_6 t, ?_⟩
  rw [mem_blk3_6]
  intro a
  have ht : t.val = (i 0).val / 1000 := rfl
  match a with
  | ⟨0, _⟩ => show win3_6.index t (0 : Fin 2) * 1000 ≤ (i 0).val ∧ (i 0).val < win3_6.index t (0 : Fin 2) * 1000 + 1000; rw [e0, ht]; omega
  | ⟨1, _⟩ => show win3_6.index t (1 : Fin 2) * 128 ≤ (i 1).val ∧ (i 1).val < win3_6.index t (1 : Fin 2) * 128 + 128; rw [e1]; omega

/-- The features' array after region 3. -/
theorem final3_5 (c : Dev nD) :
    (dat3 (F := Ideal) V c).arrAt 5 cfg3.N = passU (V c main_v14_2) (V c main_v20) (V c main_v19_0) :=
  (dat3 (F := Ideal) V c).arrAt_eq_of_cover 5 _ (fun t _ => flushed3_5_eq V c t) (cover3_5)

/-- The running sum's array after region 3. -/
theorem final3_6 (c : Dev nD) :
    (dat3 (F := Ideal) V c).arrAt 6 cfg3.N = passAcc (V c main_v14_2) (V c main_v20) (V c main_v19_0) (V c main_v19_1) (V c main_v23) :=
  (dat3 (F := Ideal) V c).arrAt_eq_of_cover 6 _ (fun t _ => flushed3_6_eq V c t) (cover3_6)

end Cert.KernelIdeal.KVal

end
-- ==== Proof.KProp4Pay.lean ====
/-
  What one propagation pass computes on a block of 1000 rows, entry by entry (region 4).

  The body loads a block `u` of 1000 rows of the current features, the matching 1000 rows `e` of the stored
  matrix E = L - 1, the whole feature array `ub` (10000 rows), a block `acc` of the running sum and the layer's
  coefficient as one row `ct`. It stores
      new_u(p, q)   = u(p, q) + Σ_k e(p, k) · ub(k, q)
      new_acc(p, q) = max (acc(p, q) + ct(0, q) · new_u(p, q)) 0.
  The product is accumulated from an all-zero block, so its entry is the plain sum over k.
-/
import proofs.«116373_g1589137899740_cont_week2b_1182_8_alg».proof.Proof.Gen.KernelIdeal.Skeleton
import proofs.«116373_g1589137899740_cont_week2b_1182_8_alg».proof.Proof.LibPlainDot
import proofs.«116373_g1589137899740_cont_week2b_1182_8_alg».proof.Proof.KRowTile

noncomputable section

namespace Cert.KernelIdeal.KVal

open Cert.KernelIdeal Cert.KernelIdeal.Gen Idealize.ShloMosaic Idealize.ShloMosaic.ValueIdx

/-- The new features of a block, at entry (p, q). -/
theorem k4_pay1_apply (v0 : Vec Ideal S1000x128 .f32) (v2 : Vec Ideal S1000x10000 .bf16) (v4 : Vec Ideal S10000x128 .bf16)
    (p : Fin 1000) (q : Fin 128) :
    k4_pay1 (F := Ideal) v0 v2 v4 (ix2 p q) = (v0 (ix2 p q) + ∑ k : Fin 10000, v2 (ix2 p k) * v4 (ix2 k q) : EReal) := by
  have e : k4_pay1 (F := Ideal) v0 v2 v4
      = addf v0 (matmul (φ₁ := .bf16) (φ₂ := .bf16) dot_S1000x10000_S10000x128_S1000x128_1_0_0_1_n_n none v2 v4 (constant S1000x128 .f32 0x00000000#32)) := by
    unfold k4_pay1
    simp only [shapeCast_self]
  rw [e, addf_apply]
  exact congrArg (v0 (ix2 p q) + ·)
    (PlainDot.matmul_zero_apply (φ₁ := .bf16) (φ₂ := .bf16) dot_S1000x10000_S10000x128_S1000x128_1_0_0_1_n_n rfl rfl rfl rfl rfl rfl rfl rfl none v2 v4 p q)

/-- The new running sum of a block, at entry (p, q). -/
theorem k4_pay2_apply (v0 : Vec Ideal S1000x128 .f32) (v2 : Vec Ideal S1000x10000 .bf16) (v4 : Vec Ideal S10000x128 .bf16)
    (v9 : Vec Ideal S1000x128 .f32) (v11 : Vec Ideal S1x128 .f32) (p : Fin 1000) (q : Fin 128) :
    k4_pay2 (F := Ideal) v0 v2 v4 v9 v11 (ix2 p q)
      = (max (v9 (ix2 p q) + v11 (ix2 (0 : Fin 1) q) * (v0 (ix2 p q) + ∑ k : Fin 10000, v2 (ix2 p k) * v4 (ix2 k q))) 0 : EReal) := by
  have e : k4_pay2 (F := Ideal) v0 v2 v4 v9 v11
      = maximumf (addf v9 (mulf (broadcastTo S1000x128 v11 broadcasts_S1x128_S1000x128) (k4_pay1 v0 v2 v4))) (broadcast S1000x128 (Scalar.ofBits (F := Ideal) .f32 0x00000000#32)) := by
    unfold k4_pay2
    simp only [shapeCast_self]
  rw [e, maximumf_apply, addf_apply, mulf_apply, k4_pay1_apply, rowTile_apply]
  rw [broadcast_apply]
  exact congrArg (max _) Ideal.ofBits_zero_f32

end Cert.KernelIdeal.KVal

end
-- ==== Proof.KProp4Final.lean ====
/-
  Region 4 (a propagation pass over 10 blocks of 1000 rows): what its two output arrays hold after the region,
  as whole-array functions of the arrays the region finds.

  Point t of the grid loads rows 1000·t … 1000·t + 999 of the stored matrix, of the features and of the running
  sum, and the whole copy of the features and the coefficient row; it writes back rows 1000·t … 1000·t + 999 of
  the new features and of the new running sum. Row r of an output is therefore written by point r / 1000, and the
  ten blocks fill the array.
-/
import proofs.«116373_g1589137899740_cont_week2b_1182_8_alg».proof.Proof.FrameKI
import proofs.«116373_g1589137899740_cont_week2b_1182_8_alg».proof.Proof.KProp4Pay
import proofs.«116373_g1589137899740_cont_week2b_1182_8_alg».proof.Proof.KPassSpec

set_option maxRecDepth 16384

noncomputable section

namespace Cert.KernelIdeal.KVal

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: the row-blocked windows sit at block (t, 0), the whole ones at (0, 0). -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-- Rows 1000·t … of the stored matrix. -/
theorem iblk4_0_apply (c : Dev nD) (t : Fin cfg4.N) (x : S1000x10000.Idx) (i : S10000x10000.Idx)
    (h0 : (i 0).val = t.val * 1000 + (x 0).val) (h1 : (i 1).val = (x 1).val) :
    (iblk4 V c 0 t : Vec Ideal S1000x10000 .bf16) x = (V c main_v14_2 : S10000x10000.Idx → EReal) i := by
  obtain ⟨e0, e1, -⟩ := idx_facts4 t
  unfold iblk4
  rw [View.read_apply]
  show V c main_v14_2 _ = V c main_v14_2 _
  congr 1
  funext a
  apply Fin.ext
  match a with
  | ⟨0, _⟩ => show win4_0.index t (0 : Fin 2) * 1000 + 1 * (x 0).val = (i 0).val; rw [e0, h0]; omega
  | ⟨1, _⟩ => show win4_0.index t (1 : Fin 2) * 10000 + 1 * (x 1).val = (i 1).val; rw [e1, h1]; omega

/-- The whole copy of the features. -/
theorem iblk4_1_apply (c : Dev nD) (t : Fin cfg4.N) (x : S10000x128.Idx) :
    (iblk4 V c 1 t : Vec Ideal S10000x128 .bf16) x = (V c main_v25 : S10000x128.Idx → EReal) x := by
  obtain ⟨-, -, e0, e1, -⟩ := idx_facts4 t
  unfold iblk4
  rw [View.read_apply]
  show V c main_v25 _ = V c main_v25 _
  congr 1
  funext a
  apply Fin.ext
  match a with
  | ⟨0, _⟩ => show win4_1.index t (0 : Fin 2) * 10000 + 1 * (x 0).val = (x 0).val; rw [e0]; omega
  | ⟨1, _⟩ => show win4_1.index t (1 : Fin 2) * 128 + 1 * (x 1).val = (x 1).val; rw [e1]; omega

/-- Rows 1000·t … of the features. -/
theorem iblk4_2_apply (c : Dev nD) (t : Fin cfg4.N) (x : S1000x128.Idx) (i : S10000x128.Idx)
    (h0 : (i 0).val = t.val * 1000 + (x 0).val) (h1 : (i 1).val = (x 1).val) :
    (iblk4 V c 2 t : Vec Ideal S1000x128 .f32) x = (V c main_v24_0 : S10000x128.Idx → EReal) i := by
  obtain ⟨-, -, -, -, e0, e1, -⟩ := idx_facts4 t
  unfold iblk4
  rw [View.read_apply]
  show V c main_v24_0 _ = V c main_v24_0 _
  congr 1
  funext a
  apply Fin.ext
  match a with
  | ⟨0, _⟩ => show win4_2.index t (0 : Fin 2) * 1000 + 1 * (x 0).val = (i 0).val; rw [e0, h0]; omega
  | ⟨1, _⟩ => show win4_2.index t (1 : Fin 2) * 128 + 1 * (x 1).val = (i 1).val; rw [e1, h1]; omega

/-- Rows 1000·t … of the running sum. -/
theorem iblk4_3_apply (c : Dev nD) (t : Fin cfg4.N) (x : S1000x128.Idx) (i : S10000x128.Idx)
    (h0 : (i 0).val = t.val * 1000 + (x 0).val) (h1 : (i 1).val = (x 1).val) :
    (iblk4 V c 3 t : Vec Ideal S1000x128 .f32) x = (V c main_v24_1 : S10000x128.Idx → EReal) i := by
  obtain ⟨-, -, -, -, -, -, e0, e1, -⟩ := idx_facts4 t
  unfold iblk4
  rw [View.read_apply]
  show V c main_v24_1 _ = V c main_v24_1 _
  congr 1
  funext a
  apply Fin.ext
  match a with
  | ⟨0, _⟩ => show win4_3.index t (0 : Fin 2) * 1000 + 1 * (x 0).val = (i 0).val; rw [e0, h0]; omega
  | ⟨1, _⟩ => show win4_3.index t (1 : Fin 2) * 128 + 1 * (x 1).val = (i 1).val; rw [e1, h1]; omega

/-- The coefficient row, whole. -/
theorem iblk4_4_apply (c : Dev nD) (t : Fin cfg4.N) (x : S1x128.Idx) :
    (iblk4 V c 4 t : Vec Ideal S1x128 .f32) x = (V c main_v28 : S1x128.Idx → EReal) x := by
  obtain ⟨-, -, -, -, -, -, -, -, e0, e1, -⟩ := idx_facts4 t
  unfold iblk4
  rw [View.read_apply]
  show V c main_v28 _ = V c main_v28 _
  congr 1
  funext a
  apply Fin.ext
  match a with
  | ⟨0, _⟩ => show win4_4.index t (0 : Fin 2) * 1 + 1 * (x 0).val = (x 0).val; rw [e0]; omega
  | ⟨1, _⟩ => show win4_4.index t (1 : Fin 2) * 128 + 1 * (x 1).val = (x 1).val; rw [e1]; omega

/-- The body's new features at point t, block entry y: row 1000·t + (row of y) of the whole-array function. -/
theorem blockU4 (c : Dev nD) (t : Fin cfg4.N) (y : S1000x128.Idx) (i : S10000x128.Idx)
    (h0 : (i 0).val = t.val * 1000 + (y 0).val) (h1 : (i 1).val = (y 1).val) :
    k4_pay1 (F := Ideal) (iblk4 V c 2 t) (iblk4 V c 0 t) (iblk4 V c 1 t) y
      = passU (V c main_v14_2) (V c main_v25) (V c main_v24_0) i := by
  obtain ⟨p, q, rfl⟩ : ∃ (p : Fin 1000) (q : Fin 128), y = ix2 p q := ⟨y 0, y 1, eq_ix2 y⟩
  refine (k4_pay1_apply (iblk4 V c 2 t) (iblk4 V c 0 t) (iblk4 V c 1 t) p q).trans ?_
  unfold passU
  refine congrArg₂ (fun a b : EReal => a + b) (iblk4_2_apply V c t (ix2 p q) i h0 h1) (Finset.sum_congr rfl fun k _ => ?_)
  exact congrArg₂ (fun a b : EReal => a * b) (iblk4_0_apply V c t (ix2 p k) (ix2 (i 0) k) h0 rfl)
    ((iblk4_1_apply V c t (ix2 k q)).trans (congrArg (V c main_v25 : S10000x128.Idx → EReal)
      (funext fun a => Fin.ext (by match a with | ⟨0, _⟩ => rfl | ⟨1, _⟩ => exact h1.symm))))

/-- The body's new running sum at point t, block entry y. -/
theorem blockAcc4 (c : Dev nD) (t : Fin cfg4.N) (y : S1000x128.Idx) (i : S10000x128.Idx)
    (h0 : (i 0).val = t.val * 1000 + (y 0).val) (h1 : (i 1).val = (y 1).val) :
    k4_pay2 (F := Ideal) (iblk4 V c 2 t) (iblk4 V c 0 t) (iblk4 V c 1 t) (iblk4 V c 3 t) (iblk4 V c 4 t) y
      = passAccRelu (V c main_v14_2) (V c main_v25) (V c main_v24_0) (V c main_v24_1) (V c main_v28) i := by
  have hu := blockU4 V c t y i h0 h1
  obtain ⟨p, q, rfl⟩ : ∃ (p : Fin 1000) (q : Fin 128), y = ix2 p q := ⟨y 0, y 1, eq_ix2 y⟩
  refine (k4_pay2_apply (iblk4 V c 2 t) (iblk4 V c 0 t) (iblk4 V c 1 t) (iblk4 V c 3 t) (iblk4 V c 4 t) p q).trans ?_
  have hu' := (k4_pay1_apply (iblk4 V c 2 t) (iblk4 V c 0 t) (iblk4 V c 1 t) p q).symm.trans hu
  have hq : (ix2 (0 : Fin 1) q : S1x128.Idx) = ix2 (0 : Fin 1) (i 1) := funext fun a => Fin.ext (by match a with | ⟨0, _⟩ => rfl | ⟨1, _⟩ => exact h1.symm)
  rw [hu', iblk4_3_apply V c t (ix2 p q) i h0 h1, iblk4_4_apply V c t (ix2 (0 : Fin 1) q), hq]
  rfl

/-- What point t writes back to the features' array is block t of the whole-array function. -/
theorem flushed4_5_eq (c : Dev nD) (t : Fin cfg4.N) :
    (dat4 (F := Ideal) V c).flushed 5 t
      = ((cfg4.win 5).blk t).view.read (Elt Ideal) (passU (V c main_v14_2) (V c main_v25) (V c main_v24_0)) := by
  show (cfg4.win 5).cut (grid4.coords t) ((dat4 V c).after 5 t) = _
  rw [after4_5]
  unfold out4_5
  rw [View.canon_unit_zero hz4]
  simp only [View.ld_unit_zero (S := S1000x128) hz4, View.ld_unit_zero (S := S1000x10000) hz4, View.ld_unit_zero (S := S10000x128) hz4]
  obtain ⟨-, -, -, -, -, -, -, -, -, -, e0, e1, -⟩ := idx_facts4 t
  funext j
  exact blockU4 V c t j (((cfg4.win 5).blk t).view.emb j)
    (show win4_5.index t (0 : Fin 2) * 1000 + 1 * (j 0).val = t.val * 1000 + (j 0).val by rw [e0]; omega)
    (show win4_5.index t (1 : Fin 2) * 128 + 1 * (j 1).val = (j 1).val by rw [e1]; omega)

/-- What point t writes back to the running sum's array is block t of the whole-array function. -/
theorem flushed4_6_eq (c : Dev nD) (t : Fin cfg4.N) :
    (dat4 (F := Ideal) V c).flushed 6 t
      = ((cfg4.win 6).blk t).view.read (Elt Ideal) (passAccRelu (V c main_v14_2) (V c main_v25) (V c main_v24_0) (V c main_v24_1) (V c main_v28)) := by
  show (cfg4.win 6).cut (grid4.coords t) ((dat4 V c).after 6 t) = _
  rw [after4_6]
  unfold out4_6
  rw [View.canon_unit_zero hz4]
  simp only [View.ld_unit_zero (S := S1000x128) hz4, View.ld_unit_zero (S := S1000x10000) hz4, View.ld_unit_zero (S := S10000x128) hz4, View.ld_unit_zero (S := S1x128) hz4]
  obtain ⟨-, -, -, -, -, -, -, -, -, -, -, -, e0, e1⟩ := idx_facts4 t
  funext j
  exact blockAcc4 V c t j (((cfg4.win 6).blk t).view.emb j)
    (show win4_6.index t (0 : Fin 2) * 1000 + 1 * (j 0).val = t.val * 1000 + (j 0).val by rw [e0]; omega)
    (show win4_6.index t (1 : Fin 2) * 128 + 1 * (j 1).val = (j 1).val by rw [e1]; omega)

/-- An index of the features' array is in point t's block iff its row is among rows 1000·t … 1000·t + 999. -/
theorem mem_blk4_5 (t : Fin cfg4.N) (i : S10000x128.Idx) :
    i ∈ ((cfg4.win 5).blk t).view.set ↔ ∀ a : Fin 2, win4_5.index t a * S1000x128.size a ≤ (i a).val ∧ (i a).val < win4_5.index t a * S1000x128.size a + S1000x128.size a := by
  show i ∈ ((View.whole main_v29_0).slice (win4_5.rect t)).set ↔ _
  rw [View.set_slice_whole, Rect.mem_set_unit]
  exact Iff.rfl

theorem mem_blk4_6 (t : Fin cfg4.N) (i : S10000x128.Idx) :
    i ∈ ((cfg4.win 6).blk t).view.set ↔ ∀ a : Fin 2, win4_6.index t a * S1000x128.size a ≤ (i a).val ∧ (i a).val < win4_6.index t a * S1000x128.size a + S1000x128.size a := by
  show i ∈ ((View.whole main_v29_1).slice (win4_6.rect t)).set ↔ _
  rw [View.set_slice_whole, Rect.mem_set_unit]
  exact Iff.rfl

/-- Row r is written by point r / 1000. -/
theorem cover4_5 (i : S10000x128.Idx) : ∃ t : Fin cfg4.N, (cfg4.win 5).flush t = true ∧ i ∈ ((cfg4.win 5).blk t).view.set := by
  have hi0 : (i 0).val < 10000 := (i 0).isLt
  have hi1 : (i 1).val < 128 := (i 1).isLt
  have hN : cfg4.N = 10 := N_4
  let t : Fin cfg4.N := ⟨(i 0).val / 1000, by rw [hN]; omega⟩
  obtain ⟨-, -, -, -, -, -, -, -, -, -, e0, e1, -⟩ := idx_facts4 t
  refine ⟨t, flush4_5 t, ?_⟩
  rw [mem_blk4_5]
  intro a
  have ht : t.val = (i 0).val / 1000 := rfl
  match a with
  | ⟨0, _⟩ => show win4_5.index t (0 : Fin 2) * 1000 ≤ (i 0).val ∧ (i 0).val < win4_5.index t (0 : Fin 2) * 1000 + 1000; rw [e0, ht]; omega
  | ⟨1, _⟩ => show win4_5.index t (1 : Fin 2) * 128 ≤ (i 1).val ∧ (i 1).val < win4_5.index t (1 : Fin 2) * 128 + 128; rw [e1]; omega

theorem cover4_6 (i : S10000x128.Idx) : ∃ t : Fin cfg4.N, (cfg4.win 6).flush t = true ∧ i ∈ ((cfg4.win 6).blk t).view.set := by
  have hi0 : (i 0).val < 10000 := (i 0).isLt
  have hi1 : (i 1).val < 128 := (i 1).isLt
  have hN : cfg4.N = 10 := N_4
  let t : Fin cfg4.N := ⟨(i 0).val / 1000, by rw [hN]; omega⟩
  obtain ⟨-, -, -, -, -, -, -, -, -, -, -, -, e0, e1⟩ := idx_facts4 t
  refine ⟨t, flush4_6 t, ?_⟩
  rw [mem_blk4_6]
  intro a
  have ht : t.val = (i 0).val / 1000 := rfl
  match a with
  | ⟨0, _⟩ => show win4_6.index t (0 : Fin 2) * 1000 ≤ (i 0).val ∧ (i 0).val < win4_6.index t (0 : Fin 2) * 1000 + 1000; rw [e0, ht]; omega
  | ⟨1, _⟩ => show win4_6.index t (1 : Fin 2) * 128 ≤ (i 1).val ∧ (i 1).val < win4_6.index t (1 : Fin 2) * 128 + 128; rw [e1]; omega

/-- The features' array after region 4. -/
theorem final4_5 (c : Dev nD) :
    (dat4 (F := Ideal) V c).arrAt 5 cfg4.N = passU (V c main_v14_2) (V c main_v25) (V c main_v24_0) :=
  (dat4 (F := Ideal) V c).arrAt_eq_of_cover 5 _ (fun t _ => flushed4_5_eq V c t) (cover4_5)

/-- The running sum's array after region 4. -/
theorem final4_6 (c : Dev nD) :
    (dat4 (F := Ideal) V c).arrAt 6 cfg4.N = passAccRelu (V c main_v14_2) (V c main_v25) (V c main_v24_0) (V c main_v24_1) (V c main_v28) :=
  (dat4 (F := Ideal) V c).arrAt_eq_of_cover 6 _ (fun t _ => flushed4_6_eq V c t) (cover4_6)

end Cert.KernelIdeal.KVal

end
-- ==== Proof.KProp5Pay.lean ====
/-
  What one propagation pass computes on a block of 1000 rows, entry by entry (region 5).

  The body loads a block `u` of 1000 rows of the current features, the matching 1000 rows `e` of the stored
  matrix E = L - 1, the whole feature array `ub` (10000 rows), a block `acc` of the running sum and the layer's
  coefficient as one row `ct`. It stores
      new_u(p, q)   = u(p, q) + Σ_k e(p, k) · ub(k, q)
      new_acc(p, q) = acc(p, q) + ct(0, q) · new_u(p, q).
  The product is accumulated from an all-zero block, so its entry is the plain sum over k.
-/
import proofs.«116373_g1589137899740_cont_week2b_1182_8_alg».proof.Proof.Gen.KernelIdeal.Skeleton
import proofs.«116373_g1589137899740_cont_week2b_1182_8_alg».proof.Proof.LibPlainDot
import proofs.«116373_g1589137899740_cont_week2b_1182_8_alg».proof.Proof.KRowTile

noncomputable section

namespace Cert.KernelIdeal.KVal

open Cert.KernelIdeal Cert.KernelIdeal.Gen Idealize.ShloMosaic Idealize.ShloMosaic.ValueIdx

/-- The new features of a block, at entry (p, q). -/
theorem k5_pay1_apply (v0 : Vec Ideal S1000x128 .f32) (v2 : Vec Ideal S1000x10000 .bf16) (v4 : Vec Ideal S10000x128 .bf16)
    (p : Fin 1000) (q : Fin 128) :
    k5_pay1 (F := Ideal) v0 v2 v4 (ix2 p q) = (v0 (ix2 p q) + ∑ k : Fin 10000, v2 (ix2 p k) * v4 (ix2 k q) : EReal) := by
  have e : k5_pay1 (F := Ideal) v0 v2 v4
      = addf v0 (matmul (φ₁ := .bf16) (φ₂ := .bf16) dot_S1000x10000_S10000x128_S1000x128_1_0_0_1_n_n none v2 v4 (constant S1000x128 .f32 0x00000000#32)) := by
    unfold k5_pay1
    simp only [shapeCast_self]
  rw [e, addf_apply]
  exact congrArg (v0 (ix2 p q) + ·)
    (PlainDot.matmul_zero_apply (φ₁ := .bf16) (φ₂ := .bf16) dot_S1000x10000_S10000x128_S1000x128_1_0_0_1_n_n rfl rfl rfl rfl rfl rfl rfl rfl none v2 v4 p q)

/-- The new running sum of a block, at entry (p, q). -/
theorem k5_pay2_apply (v0 : Vec Ideal S1000x128 .f32) (v2 : Vec Ideal S1000x10000 .bf16) (v4 : Vec Ideal S10000x128 .bf16)
    (v9 : Vec Ideal S1000x128 .f32) (v11 : Vec Ideal S1x128 .f32) (p : Fin 1000) (q : Fin 128) :
    k5_pay2 (F := Ideal) v0 v2 v4 v9 v11 (ix2 p q)
      = (v9 (ix2 p q) + v11 (ix2 (0 : Fin 1) q) * (v0 (ix2 p q) + ∑ k : Fin 10000, v2 (ix2 p k) * v4 (ix2 k q)) : EReal) := by
  have e : k5_pay2 (F := Ideal) v0 v2 v4 v9 v11
      = addf v9 (mulf (broadcastTo S1000x128 v11 broadcasts_S1x128_S1000x128) (k5_pay1 v0 v2 v4)) := by
    unfold k5_pay2
    simp only [shapeCast_self]
  rw [e, addf_apply, mulf_apply, k5_pay1_apply, rowTile_apply]

end Cert.KernelIdeal.KVal

end
-- ==== Proof.KProp5Final.lean ====
/-
  Region 5 (a propagation pass over 10 blocks of 1000 rows): what its two output arrays hold after the region,
  as whole-array functions of the arrays the region finds.

  Point t of the grid loads rows 1000·t … 1000·t + 999 of the stored matrix, of the features and of the running
  sum, and the whole copy of the features and the coefficient row; it writes back rows 1000·t … 1000·t + 999 of
  the new features and of the new running sum. Row r of an output is therefore written by point r / 1000, and the
  ten blocks fill the array.
-/
import proofs.«116373_g1589137899740_cont_week2b_1182_8_alg».proof.Proof.FrameKI
import proofs.«116373_g1589137899740_cont_week2b_1182_8_alg».proof.Proof.KProp5Pay
import proofs.«116373_g1589137899740_cont_week2b_1182_8_alg».proof.Proof.KPassSpec

set_option maxRecDepth 16384

noncomputable section

namespace Cert.KernelIdeal.KVal

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz5 : (![0, 0] : Fin 2 → Nat) = fun _ => 0 := funext fun a => by fin_cases a <;> rfl

/-- The printed index maps over the grid: the row-blocked windows sit at block (t, 0), the whole ones at (0, 0). -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- Rows 1000·t … of the stored matrix. -/
theorem iblk5_0_apply (c : Dev nD) (t : Fin cfg5.N) (x : S1000x10000.Idx) (i : S10000x10000.Idx)
    (h0 : (i 0).val = t.val * 1000 + (x 0).val) (h1 : (i 1).val = (x 1).val) :
    (iblk5 V c 0 t : Vec Ideal S1000x10000 .bf16) x = (V c main_v14_2 : S10000x10000.Idx → EReal) i := by
  obtain ⟨e0, e1, -⟩ := idx_facts5 t
  unfold iblk5
  rw [View.read_apply]
  show V c main_v14_2 _ = V c main_v14_2 _
  congr 1
  funext a
  apply Fin.ext
  match a with
  | ⟨0, _⟩ => show win5_0.index t (0 : Fin 2) * 1000 + 1 * (x 0).val = (i 0).val; rw [e0, h0]; omega
  | ⟨1, _⟩ => show win5_0.index t (1 : Fin 2) * 10000 + 1 * (x 1).val = (i 1).val; rw [e1, h1]; omega

/-- The whole copy of the features. -/
theorem iblk5_1_apply (c : Dev nD) (t : Fin cfg5.N) (x : S10000x128.Idx) :
    (iblk5 V c 1 t : Vec Ideal S10000x128 .bf16) x = (V c main_v34 : S10000x128.Idx → EReal) x := by
  obtain ⟨-, -, e0, e1, -⟩ := idx_facts5 t
  unfold iblk5
  rw [View.read_apply]
  show V c main_v34 _ = V c main_v34 _
  congr 1
  funext a
  apply Fin.ext
  match a with
  | ⟨0, _⟩ => show win5_1.index t (0 : Fin 2) * 10000 + 1 * (x 0).val = (x 0).val; rw [e0]; omega
  | ⟨1, _⟩ => show win5_1.index t (1 : Fin 2) * 128 + 1 * (x 1).val = (x 1).val; rw [e1]; omega

/-- Rows 1000·t … of the features. -/
theorem iblk5_2_apply (c : Dev nD) (t : Fin cfg5.N) (x : S1000x128.Idx) (i : S10000x128.Idx)
    (h0 : (i 0).val = t.val * 1000 + (x 0).val) (h1 : (i 1).val = (x 1).val) :
    (iblk5 V c 2 t : Vec Ideal S1000x128 .f32) x = (V c main_v29_1 : S10000x128.Idx → EReal) i := by
  obtain ⟨-, -, -, -, e0, e1, -⟩ := idx_facts5 t
  unfold iblk5
  rw [View.read_apply]
  show V c main_v29_1 _ = V c main_v29_1 _
  congr 1
  funext a
  apply Fin.ext
  match a with
  | ⟨0, _⟩ => show win5_2.index t (0 : Fin 2) * 1000 + 1 * (x 0).val = (i 0).val; rw [e0, h0]; omega
  | ⟨1, _⟩ => show win5_2.index t (1 : Fin 2) * 128 + 1 * (x 1).val = (i 1).val; rw [e1, h1]; omega

/-- Rows 1000·t … of the running sum. -/
theorem iblk5_3_apply (c : Dev nD) (t : Fin cfg5.N) (x : S1000x128.Idx) (i : S10000x128.Idx)
    (h0 : (i 0).val = t.val * 1000 + (x 0).val) (h1 : (i 1).val = (x 1).val) :
    (iblk5 V c 3 t : Vec Ideal S1000x128 .f32) x = (V c main_v33 : S10000x128.Idx → EReal) i := by
  obtain ⟨-, -, -, -, -, -, e0, e1, -⟩ := idx_facts5 t
  unfold iblk5
  rw [View.read_apply]
  show V c main_v33 _ = V c main_v33 _
  congr 1
  funext a
  apply Fin.ext
  match a with
  | ⟨0, _⟩ => show win5_3.index t (0 : Fin 2) * 1000 + 1 * (x 0).val = (i 0).val; rw [e0, h0]; omega
  | ⟨1, _⟩ => show win5_3.index t (1 : Fin 2) * 128 + 1 * (x 1).val = (i 1).val; rw [e1, h1]; omega

/-- The coefficient row, whole. -/
theorem iblk5_4_apply (c : Dev nD) (t : Fin cfg5.N) (x : S1x128.Idx) :
    (iblk5 V c 4 t : Vec Ideal S1x128 .f32) x = (V c main_v37 : S1x128.Idx → EReal) x := by
  obtain ⟨-, -, -, -, -, -, -, -, e0, e1, -⟩ := idx_facts5 t
  unfold iblk5
  rw [View.read_apply]
  show V c main_v37 _ = V c main_v37 _
  congr 1
  funext a
  apply Fin.ext
  match a with
  | ⟨0, _⟩ => show win5_4.index t (0 : Fin 2) * 1 + 1 * (x 0).val = (x 0).val; rw [e0]; omega
  | ⟨1, _⟩ => show win5_4.index t (1 : Fin 2) * 128 + 1 * (x 1).val = (x 1).val; rw [e1]; omega

/-- The body's new features at point t, block entry y: row 1000·t + (row of y) of the whole-array function. -/
theorem blockU5 (c : Dev nD) (t : Fin cfg5.N) (y : S1000x128.Idx) (i : S10000x128.Idx)
    (h0 : (i 0).val = t.val * 1000 + (y 0).val) (h1 : (i 1).val = (y 1).val) :
    k5_pay1 (F := Ideal) (iblk5 V c 2 t) (iblk5 V c 0 t) (iblk5 V c 1 t) y
      = passU (V c main_v14_2) (V c main_v34) (V c main_v29_1) i := by
  obtain ⟨p, q, rfl⟩ : ∃ (p : Fin 1000) (q : Fin 128), y = ix2 p q := ⟨y 0, y 1, eq_ix2 y⟩
  refine (k5_pay1_apply (iblk5 V c 2 t) (iblk5 V c 0 t) (iblk5 V c 1 t) p q).trans ?_
  unfold passU
  refine congrArg₂ (fun a b : EReal => a + b) (iblk5_2_apply V c t (ix2 p q) i h0 h1) (Finset.sum_congr rfl fun k _ => ?_)
  exact congrArg₂ (fun a b : EReal => a * b) (iblk5_0_apply V c t (ix2 p k) (ix2 (i 0) k) h0 rfl)
    ((iblk5_1_apply V c t (ix2 k q)).trans (congrArg (V c main_v34 : S10000x128.Idx → EReal)
      (funext fun a => Fin.ext (by match a with | ⟨0, _⟩ => rfl | ⟨1, _⟩ => exact h1.symm))))

/-- The body's new running sum at point t, block entry y. -/
theorem blockAcc5 (c : Dev nD) (t : Fin cfg5.N) (y : S1000x128.Idx) (i : S10000x128.Idx)
    (h0 : (i 0).val = t.val * 1000 + (y 0).val) (h1 : (i 1).val = (y 1).val) :
    k5_pay2 (F := Ideal) (iblk5 V c 2 t) (iblk5 V c 0 t) (iblk5 V c 1 t) (iblk5 V c 3 t) (iblk5 V c 4 t) y
      = passAcc (V c main_v14_2) (V c main_v34) (V c main_v29_1) (V c main_v33) (V c main_v37) i := by
  have hu := blockU5 V c t y i h0 h1
  obtain ⟨p, q, rfl⟩ : ∃ (p : Fin 1000) (q : Fin 128), y = ix2 p q := ⟨y 0, y 1, eq_ix2 y⟩
  refine (k5_pay2_apply (iblk5 V c 2 t) (iblk5 V c 0 t) (iblk5 V c 1 t) (iblk5 V c 3 t) (iblk5 V c 4 t) p q).trans ?_
  have hu' := (k5_pay1_apply (iblk5 V c 2 t) (iblk5 V c 0 t) (iblk5 V c 1 t) p q).symm.trans hu
  have hq : (ix2 (0 : Fin 1) q : S1x128.Idx) = ix2 (0 : Fin 1) (i 1) := funext fun a => Fin.ext (by match a with | ⟨0, _⟩ => rfl | ⟨1, _⟩ => exact h1.symm)
  rw [hu', iblk5_3_apply V c t (ix2 p q) i h0 h1, iblk5_4_apply V c t (ix2 (0 : Fin 1) q), hq]
  rfl

/-- What point t writes back to the features' array is block t of the whole-array function. -/
theorem flushed5_5_eq (c : Dev nD) (t : Fin cfg5.N) :
    (dat5 (F := Ideal) V c).flushed 5 t
      = ((cfg5.win 5).blk t).view.read (Elt Ideal) (passU (V c main_v14_2) (V c main_v34) (V c main_v29_1)) := by
  show (cfg5.win 5).cut (grid5.coords t) ((dat5 V c).after 5 t) = _
  rw [after5_5]
  unfold out5_5
  rw [View.canon_unit_zero hz5]
  simp only [View.ld_unit_zero (S := S1000x128) hz5, View.ld_unit_zero (S := S1000x10000) hz5, View.ld_unit_zero (S := S10000x128) hz5]
  obtain ⟨-, -, -, -, -, -, -, -, -, -, e0, e1, -⟩ := idx_facts5 t
  funext j
  exact blockU5 V c t j (((cfg5.win 5).blk t).view.emb j)
    (show win5_5.index t (0 : Fin 2) * 1000 + 1 * (j 0).val = t.val * 1000 + (j 0).val by rw [e0]; omega)
    (show win5_5.index t (1 : Fin 2) * 128 + 1 * (j 1).val = (j 1).val by rw [e1]; omega)

/-- What point t writes back to the running sum's array is block t of the whole-array function. -/
theorem flushed5_6_eq (c : Dev nD) (t : Fin cfg5.N) :
    (dat5 (F := Ideal) V c).flushed 6 t
      = ((cfg5.win 6).blk t).view.read (Elt Ideal) (passAcc (V c main_v14_2) (V c main_v34) (V c main_v29_1) (V c main_v33) (V c main_v37)) := by
  show (cfg5.win 6).cut (grid5.coords t) ((dat5 V c).after 6 t) = _
  rw [after5_6]
  unfold out5_6
  rw [View.canon_unit_zero hz5]
  simp only [View.ld_unit_zero (S := S1000x128) hz5, View.ld_unit_zero (S := S1000x10000) hz5, View.ld_unit_zero (S := S10000x128) hz5, View.ld_unit_zero (S := S1x128) hz5]
  obtain ⟨-, -, -, -, -, -, -, -, -, -, -, -, e0, e1⟩ := idx_facts5 t
  funext j
  exact blockAcc5 V c t j (((cfg5.win 6).blk t).view.emb j)
    (show win5_6.index t (0 : Fin 2) * 1000 + 1 * (j 0).val = t.val * 1000 + (j 0).val by rw [e0]; omega)
    (show win5_6.index t (1 : Fin 2) * 128 + 1 * (j 1).val = (j 1).val by rw [e1]; omega)

/-- An index of the features' array is in point t's block iff its row is among rows 1000·t … 1000·t + 999. -/
theorem mem_blk5_5 (t : Fin cfg5.N) (i : S10000x128.Idx) :
    i ∈ ((cfg5.win 5).blk t).view.set ↔ ∀ a : Fin 2, win5_5.index t a * S1000x128.size a ≤ (i a).val ∧ (i a).val < win5_5.index t a * S1000x128.size a + S1000x128.size a := by
  show i ∈ ((View.whole main_v38_0).slice (win5_5.rect t)).set ↔ _
  rw [View.set_slice_whole, Rect.mem_set_unit]
  exact Iff.rfl

theorem mem_blk5_6 (t : Fin cfg5.N) (i : S10000x128.Idx) :
    i ∈ ((cfg5.win 6).blk t).view.set ↔ ∀ a : Fin 2, win5_6.index t a * S1000x128.size a ≤ (i a).val ∧ (i a).val < win5_6.index t a * S1000x128.size a + S1000x128.size a := by
  show i ∈ ((View.whole main_v38_1).slice (win5_6.rect t)).set ↔ _
  rw [View.set_slice_whole, Rect.mem_set_unit]
  exact Iff.rfl

/-- Row r is written by point r / 1000. -/
theorem cover5_5 (i : S10000x128.Idx) : ∃ t : Fin cfg5.N, (cfg5.win 5).flush t = true ∧ i ∈ ((cfg5.win 5).blk t).view.set := by
  have hi0 : (i 0).val < 10000 := (i 0).isLt
  have hi1 : (i 1).val < 128 := (i 1).isLt
  have hN : cfg5.N = 10 := N_5
  let t : Fin cfg5.N := ⟨(i 0).val / 1000, by rw [hN]; omega⟩
  obtain ⟨-, -, -, -, -, -, -, -, -, -, e0, e1, -⟩ := idx_facts5 t
  refine ⟨t, flush5_5 t, ?_⟩
  rw [mem_blk5_5]
  intro a
  have ht : t.val = (i 0).val / 1000 := rfl
  match a with
  | ⟨0, _⟩ => show win5_5.index t (0 : Fin 2) * 1000 ≤ (i 0).val ∧ (i 0).val < win5_5.index t (0 : Fin 2) * 1000 + 1000; rw [e0, ht]; omega
  | ⟨1, _⟩ => show win5_5.index t (1 : Fin 2) * 128 ≤ (i 1).val ∧ (i 1).val < win5_5.index t (1 : Fin 2) * 128 + 128; rw [e1]; omega

theorem cover5_6 (i : S10000x128.Idx) : ∃ t : Fin cfg5.N, (cfg5.win 6).flush t = true ∧ i ∈ ((cfg5.win 6).blk t).view.set := by
  have hi0 : (i 0).val < 10000 := (i 0).isLt
  have hi1 : (i 1).val < 128 := (i 1).isLt
  have hN : cfg5.N = 10 := N_5
  let t : Fin cfg5.N := ⟨(i 0).val / 1000, by rw [hN]; omega⟩
  obtain ⟨-, -, -, -, -, -, -, -, -, -, -, -, e0, e1⟩ := idx_facts5 t
  refine ⟨t, flush5_6 t, ?_⟩
  rw [mem_blk5_6]
  intro a
  have ht : t.val = (i 0).val / 1000 := rfl
  match a with
  | ⟨0, _⟩ => show win5_6.index t (0 : Fin 2) * 1000 ≤ (i 0).val ∧ (i 0).val < win5_6.index t (0 : Fin 2) * 1000 + 1000; rw [e0, ht]; omega
  | ⟨1, _⟩ => show win5_6.index t (1 : Fin 2) * 128 ≤ (i 1).val ∧ (i 1).val < win5_6.index t (1 : Fin 2) * 128 + 128; rw [e1]; omega

/-- The features' array after region 5. -/
theorem final5_5 (c : Dev nD) :
    (dat5 (F := Ideal) V c).arrAt 5 cfg5.N = passU (V c main_v14_2) (V c main_v34) (V c main_v29_1) :=
  (dat5 (F := Ideal) V c).arrAt_eq_of_cover 5 _ (fun t _ => flushed5_5_eq V c t) (cover5_5)

/-- The running sum's array after region 5. -/
theorem final5_6 (c : Dev nD) :
    (dat5 (F := Ideal) V c).arrAt 6 cfg5.N = passAcc (V c main_v14_2) (V c main_v34) (V c main_v29_1) (V c main_v33) (V c main_v37) :=
  (dat5 (F := Ideal) V c).arrAt_eq_of_cover 6 _ (fun t _ => flushed5_6_eq V c t) (cover5_6)

end Cert.KernelIdeal.KVal

end
-- ==== Proof.KProp6Pay.lean ====
/-
  What one propagation pass computes on a block of 1000 rows, entry by entry (region 6).

  The body loads a block `u` of 1000 rows of the current features, the matching 1000 rows `e` of the stored
  matrix E = L - 1, the whole feature array `ub` (10000 rows), a block `acc` of the running sum and the layer's
  coefficient as one row `ct`. It stores
      new_u(p, q)   = u(p, q) + Σ_k e(p, k) · ub(k, q)
      new_acc(p, q) = acc(p, q) + ct(0, q) · new_u(p, q).
  The product is accumulated from an all-zero block, so its entry is the plain sum over k.
-/
import proofs.«116373_g1589137899740_cont_week2b_1182_8_alg».proof.Proof.Gen.KernelIdeal.Skeleton
import proofs.«116373_g1589137899740_cont_week2b_1182_8_alg».proof.Proof.LibPlainDot
import proofs.«116373_g1589137899740_cont_week2b_1182_8_alg».proof.Proof.KRowTile

noncomputable section

namespace Cert.KernelIdeal.KVal

open Cert.KernelIdeal Cert.KernelIdeal.Gen Idealize.ShloMosaic Idealize.ShloMosaic.ValueIdx

/-- The new features of a block, at entry (p, q). -/
theorem k6_pay1_apply (v0 : Vec Ideal S1000x128 .f32) (v2 : Vec Ideal S1000x10000 .bf16) (v4 : Vec Ideal S10000x128 .bf16)
    (p : Fin 1000) (q : Fin 128) :
    k6_pay1 (F := Ideal) v0 v2 v4 (ix2 p q) = (v0 (ix2 p q) + ∑ k : Fin 10000, v2 (ix2 p k) * v4 (ix2 k q) : EReal) := by
  have e : k6_pay1 (F := Ideal) v0 v2 v4
      = addf v0 (matmul (φ₁ := .bf16) (φ₂ := .bf16) dot_S1000x10000_S10000x128_S1000x128_1_0_0_1_n_n none v2 v4 (constant S1000x128 .f32 0x00000000#32)) := by
    unfold k6_pay1
    simp only [shapeCast_self]
  rw [e, addf_apply]
  exact congrArg (v0 (ix2 p q) + ·)
    (PlainDot.matmul_zero_apply (φ₁ := .bf16) (φ₂ := .bf16) dot_S1000x10000_S10000x128_S1000x128_1_0_0_1_n_n rfl rfl rfl rfl rfl rfl rfl rfl none v2 v4 p q)

/-- The new running sum of a block, at entry (p, q). -/
theorem k6_pay2_apply (v0 : Vec Ideal S1000x128 .f32) (v2 : Vec Ideal S1000x10000 .bf16) (v4 : Vec Ideal S10000x128 .bf16)
    (v9 : Vec Ideal S1000x128 .f32) (v11 : Vec Ideal S1x128 .f32) (p : Fin 1000) (q : Fin 128) :
    k6_pay2 (F := Ideal) v0 v2 v4 v9 v11 (ix2 p q)
      = (v9 (ix2 p q) + v11 (ix2 (0 : Fin 1) q) * (v0 (ix2 p q) + ∑ k : Fin 10000, v2 (ix2 p k) * v4 (ix2 k q)) : EReal) := by
  have e : k6_pay2 (F := Ideal) v0 v2 v4 v9 v11
      = addf v9 (mulf (broadcastTo S1000x128 v11 broadcasts_S1x128_S1000x128) (k6_pay1 v0 v2 v4)) := by
    unfold k6_pay2
    simp only [shapeCast_self]
  rw [e, addf_apply, mulf_apply, k6_pay1_apply, rowTile_apply]

end Cert.KernelIdeal.KVal

end
-- ==== Proof.KProp6Final.lean ====
/-
  Region 6 (a propagation pass over 10 blocks of 1000 rows): what its two output arrays hold after the region,
  as whole-array functions of the arrays the region finds.

  Point t of the grid loads rows 1000·t … 1000·t + 999 of the stored matrix, of the features and of the running
  sum, and the whole copy of the features and the coefficient row; it writes back rows 1000·t … 1000·t + 999 of
  the new features and of the new running sum. Row r of an output is therefore written by point r / 1000, and the
  ten blocks fill the array.
-/
import proofs.«116373_g1589137899740_cont_week2b_1182_8_alg».proof.Proof.FrameKI
import proofs.«116373_g1589137899740_cont_week2b_1182_8_alg».proof.Proof.KProp6Pay
import proofs.«116373_g1589137899740_cont_week2b_1182_8_alg».proof.Proof.KPassSpec

set_option maxRecDepth 16384

noncomputable section

namespace Cert.KernelIdeal.KVal

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz6 : (![0, 0] : Fin 2 → Nat) = fun _ => 0 := funext fun a => by fin_cases a <;> rfl

/-- The printed index maps over the grid: the row-blocked windows sit at block (t, 0), the whole ones at (0, 0). -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

/-- Rows 1000·t … of the stored matrix. -/
theorem iblk6_0_apply (c : Dev nD) (t : Fin cfg6.N) (x : S1000x10000.Idx) (i : S10000x10000.Idx)
    (h0 : (i 0).val = t.val * 1000 + (x 0).val) (h1 : (i 1).val = (x 1).val) :
    (iblk6 V c 0 t : Vec Ideal S1000x10000 .bf16) x = (V c main_v14_2 : S10000x10000.Idx → EReal) i := by
  obtain ⟨e0, e1, -⟩ := idx_facts6 t
  unfold iblk6
  rw [View.read_apply]
  show V c main_v14_2 _ = V c main_v14_2 _
  congr 1
  funext a
  apply Fin.ext
  match a with
  | ⟨0, _⟩ => show win6_0.index t (0 : Fin 2) * 1000 + 1 * (x 0).val = (i 0).val; rw [e0, h0]; omega
  | ⟨1, _⟩ => show win6_0.index t (1 : Fin 2) * 10000 + 1 * (x 1).val = (i 1).val; rw [e1, h1]; omega

/-- The whole copy of the features. -/
theorem iblk6_1_apply (c : Dev nD) (t : Fin cfg6.N) (x : S10000x128.Idx) :
    (iblk6 V c 1 t : Vec Ideal S10000x128 .bf16) x = (V c main_v39 : S10000x128.Idx → EReal) x := by
  obtain ⟨-, -, e0, e1, -⟩ := idx_facts6 t
  unfold iblk6
  rw [View.read_apply]
  show V c main_v39 _ = V c main_v39 _
  congr 1
  funext a
  apply Fin.ext
  match a with
  | ⟨0, _⟩ => show win6_1.index t (0 : Fin 2) * 10000 + 1 * (x 0).val = (x 0).val; rw [e0]; omega
  | ⟨1, _⟩ => show win6_1.index t (1 : Fin 2) * 128 + 1 * (x 1).val = (x 1).val; rw [e1]; omega

/-- Rows 1000·t … of the features. -/
theorem iblk6_2_apply (c : Dev nD) (t : Fin cfg6.N) (x : S1000x128.Idx) (i : S10000x128.Idx)
    (h0 : (i 0).val = t.val * 1000 + (x 0).val) (h1 : (i 1).val = (x 1).val) :
    (iblk6 V c 2 t : Vec Ideal S1000x128 .f32) x = (V c main_v38_0 : S10000x128.Idx → EReal) i := by
  obtain ⟨-, -, -, -, e0, e1, -⟩ := idx_facts6 t
  unfold iblk6
  rw [View.read_apply]
  show V c main_v38_0 _ = V c main_v38_0 _
  congr 1
  funext a
  apply Fin.ext
  match a with
  | ⟨0, _⟩ => show win6_2.index t (0 : Fin 2) * 1000 + 1 * (x 0).val = (i 0).val; rw [e0, h0]; omega
  | ⟨1, _⟩ => show win6_2.index t (1 : Fin 2) * 128 + 1 * (x 1).val = (i 1).val; rw [e1, h1]; omega

/-- Rows 1000·t … of the running sum. -/
theorem iblk6_3_apply (c : Dev nD) (t : Fin cfg6.N) (x : S1000x128.Idx) (i : S10000x128.Idx)
    (h0 : (i 0).val = t.val * 1000 + (x 0).val) (h1 : (i 1).val = (x 1).val) :
    (iblk6 V c 3 t : Vec Ideal S1000x128 .f32) x = (V c main_v38_1 : S10000x128.Idx → EReal) i := by
  obtain ⟨-, -, -, -, -, -, e0, e1, -⟩ := idx_facts6 t
  unfold iblk6
  rw [View.read_apply]
  show V c main_v38_1 _ = V c main_v38_1 _
  congr 1
  funext a
  apply Fin.ext
  match a with
  | ⟨0, _⟩ => show win6_3.index t (0 : Fin 2) * 1000 + 1 * (x 0).val = (i 0).val; rw [e0, h0]; omega
  | ⟨1, _⟩ => show win6_3.index t (1 : Fin 2) * 128 + 1 * (x 1).val = (i 1).val; rw [e1, h1]; omega

/-- The coefficient row, whole. -/
theorem iblk6_4_apply (c : Dev nD) (t : Fin cfg6.N) (x : S1x128.Idx) :
    (iblk6 V c 4 t : Vec Ideal S1x128 .f32) x = (V c main_v42 : S1x128.Idx → EReal) x := by
  obtain ⟨-, -, -, -, -, -, -, -, e0, e1, -⟩ := idx_facts6 t
  unfold iblk6
  rw [View.read_apply]
  show V c main_v42 _ = V c main_v42 _
  congr 1
  funext a
  apply Fin.ext
  match a with
  | ⟨0, _⟩ => show win6_4.index t (0 : Fin 2) * 1 + 1 * (x 0).val = (x 0).val; rw [e0]; omega
  | ⟨1, _⟩ => show win6_4.index t (1 : Fin 2) * 128 + 1 * (x 1).val = (x 1).val; rw [e1]; omega

/-- The body's new features at point t, block entry y: row 1000·t + (row of y) of the whole-array function. -/
theorem blockU6 (c : Dev nD) (t : Fin cfg6.N) (y : S1000x128.Idx) (i : S10000x128.Idx)
    (h0 : (i 0).val = t.val * 1000 + (y 0).val) (h1 : (i 1).val = (y 1).val) :
    k6_pay1 (F := Ideal) (iblk6 V c 2 t) (iblk6 V c 0 t) (iblk6 V c 1 t) y
      = passU (V c main_v14_2) (V c main_v39) (V c main_v38_0) i := by
  obtain ⟨p, q, rfl⟩ : ∃ (p : Fin 1000) (q : Fin 128), y = ix2 p q := ⟨y 0, y 1, eq_ix2 y⟩
  refine (k6_pay1_apply (iblk6 V c 2 t) (iblk6 V c 0 t) (iblk6 V c 1 t) p q).trans ?_
  unfold passU
  refine congrArg₂ (fun a b : EReal => a + b) (iblk6_2_apply V c t (ix2 p q) i h0 h1) (Finset.sum_congr rfl fun k _ => ?_)
  exact congrArg₂ (fun a b : EReal => a * b) (iblk6_0_apply V c t (ix2 p k) (ix2 (i 0) k) h0 rfl)
    ((iblk6_1_apply V c t (ix2 k q)).trans (congrArg (V c main_v39 : S10000x128.Idx → EReal)
      (funext fun a => Fin.ext (by match a with | ⟨0, _⟩ => rfl | ⟨1, _⟩ => exact h1.symm))))

/-- The body's new running sum at point t, block entry y. -/
theorem blockAcc6 (c : Dev nD) (t : Fin cfg6.N) (y : S1000x128.Idx) (i : S10000x128.Idx)
    (h0 : (i 0).val = t.val * 1000 + (y 0).val) (h1 : (i 1).val = (y 1).val) :
    k6_pay2 (F := Ideal) (iblk6 V c 2 t) (iblk6 V c 0 t) (iblk6 V c 1 t) (iblk6 V c 3 t) (iblk6 V c 4 t) y
      = passAcc (V c main_v14_2) (V c main_v39) (V c main_v38_0) (V c main_v38_1) (V c main_v42) i := by
  have hu := blockU6 V c t y i h0 h1
  obtain ⟨p, q, rfl⟩ : ∃ (p : Fin 1000) (q : Fin 128), y = ix2 p q := ⟨y 0, y 1, eq_ix2 y⟩
  refine (k6_pay2_apply (iblk6 V c 2 t) (iblk6 V c 0 t) (iblk6 V c 1 t) (iblk6 V c 3 t) (iblk6 V c 4 t) p q).trans ?_
  have hu' := (k6_pay1_apply (iblk6 V c 2 t) (iblk6 V c 0 t) (iblk6 V c 1 t) p q).symm.trans hu
  have hq : (ix2 (0 : Fin 1) q : S1x128.Idx) = ix2 (0 : Fin 1) (i 1) := funext fun a => Fin.ext (by match a with | ⟨0, _⟩ => rfl | ⟨1, _⟩ => exact h1.symm)
  rw [hu', iblk6_3_apply V c t (ix2 p q) i h0 h1, iblk6_4_apply V c t (ix2 (0 : Fin 1) q), hq]
  rfl

/-- What point t writes back to the features' array is block t of the whole-array function. -/
theorem flushed6_5_eq (c : Dev nD) (t : Fin cfg6.N) :
    (dat6 (F := Ideal) V c).flushed 5 t
      = ((cfg6.win 5).blk t).view.read (Elt Ideal) (passU (V c main_v14_2) (V c main_v39) (V c main_v38_0)) := by
  show (cfg6.win 5).cut (grid6.coords t) ((dat6 V c).after 5 t) = _
  rw [after6_5]
  unfold out6_5
  rw [View.canon_unit_zero hz6]
  simp only [View.ld_unit_zero (S := S1000x128) hz6, View.ld_unit_zero (S := S1000x10000) hz6, View.ld_unit_zero (S := S10000x128) hz6]
  obtain ⟨-, -, -, -, -, -, -, -, -, -, e0, e1, -⟩ := idx_facts6 t
  funext j
  exact blockU6 V c t j (((cfg6.win 5).blk t).view.emb j)
    (show win6_5.index t (0 : Fin 2) * 1000 + 1 * (j 0).val = t.val * 1000 + (j 0).val by rw [e0]; omega)
    (show win6_5.index t (1 : Fin 2) * 128 + 1 * (j 1).val = (j 1).val by rw [e1]; omega)

/-- What point t writes back to the running sum's array is block t of the whole-array function. -/
theorem flushed6_6_eq (c : Dev nD) (t : Fin cfg6.N) :
    (dat6 (F := Ideal) V c).flushed 6 t
      = ((cfg6.win 6).blk t).view.read (Elt Ideal) (passAcc (V c main_v14_2) (V c main_v39) (V c main_v38_0) (V c main_v38_1) (V c main_v42)) := by
  show (cfg6.win 6).cut (grid6.coords t) ((dat6 V c).after 6 t) = _
  rw [after6_6]
  unfold out6_6
  rw [View.canon_unit_zero hz6]
  simp only [View.ld_unit_zero (S := S1000x128) hz6, View.ld_unit_zero (S := S1000x10000) hz6, View.ld_unit_zero (S := S10000x128) hz6, View.ld_unit_zero (S := S1x128) hz6]
  obtain ⟨-, -, -, -, -, -, -, -, -, -, -, -, e0, e1⟩ := idx_facts6 t
  funext j
  exact blockAcc6 V c t j (((cfg6.win 6).blk t).view.emb j)
    (show win6_6.index t (0 : Fin 2) * 1000 + 1 * (j 0).val = t.val * 1000 + (j 0).val by rw [e0]; omega)
    (show win6_6.index t (1 : Fin 2) * 128 + 1 * (j 1).val = (j 1).val by rw [e1]; omega)

/-- An index of the features' array is in point t's block iff its row is among rows 1000·t … 1000·t + 999. -/
theorem mem_blk6_5 (t : Fin cfg6.N) (i : S10000x128.Idx) :
    i ∈ ((cfg6.win 5).blk t).view.set ↔ ∀ a : Fin 2, win6_5.index t a * S1000x128.size a ≤ (i a).val ∧ (i a).val < win6_5.index t a * S1000x128.size a + S1000x128.size a := by
  show i ∈ ((View.whole main_v43_0).slice (win6_5.rect t)).set ↔ _
  rw [View.set_slice_whole, Rect.mem_set_unit]
  exact Iff.rfl

theorem mem_blk6_6 (t : Fin cfg6.N) (i : S10000x128.Idx) :
    i ∈ ((cfg6.win 6).blk t).view.set ↔ ∀ a : Fin 2, win6_6.index t a * S1000x128.size a ≤ (i a).val ∧ (i a).val < win6_6.index t a * S1000x128.size a + S1000x128.size a := by
  show i ∈ ((View.whole main_v43_1).slice (win6_6.rect t)).set ↔ _
  rw [View.set_slice_whole, Rect.mem_set_unit]
  exact Iff.rfl

/-- Row r is written by point r / 1000. -/
theorem cover6_5 (i : S10000x128.Idx) : ∃ t : Fin cfg6.N, (cfg6.win 5).flush t = true ∧ i ∈ ((cfg6.win 5).blk t).view.set := by
  have hi0 : (i 0).val < 10000 := (i 0).isLt
  have hi1 : (i 1).val < 128 := (i 1).isLt
  have hN : cfg6.N = 10 := N_6
  let t : Fin cfg6.N := ⟨(i 0).val / 1000, by rw [hN]; omega⟩
  obtain ⟨-, -, -, -, -, -, -, -, -, -, e0, e1, -⟩ := idx_facts6 t
  refine ⟨t, flush6_5 t, ?_⟩
  rw [mem_blk6_5]
  intro a
  have ht : t.val = (i 0).val / 1000 := rfl
  match a with
  | ⟨0, _⟩ => show win6_5.index t (0 : Fin 2) * 1000 ≤ (i 0).val ∧ (i 0).val < win6_5.index t (0 : Fin 2) * 1000 + 1000; rw [e0, ht]; omega
  | ⟨1, _⟩ => show win6_5.index t (1 : Fin 2) * 128 ≤ (i 1).val ∧ (i 1).val < win6_5.index t (1 : Fin 2) * 128 + 128; rw [e1]; omega

theorem cover6_6 (i : S10000x128.Idx) : ∃ t : Fin cfg6.N, (cfg6.win 6).flush t = true ∧ i ∈ ((cfg6.win 6).blk t).view.set := by
  have hi0 : (i 0).val < 10000 := (i 0).isLt
  have hi1 : (i 1).val < 128 := (i 1).isLt
  have hN : cfg6.N = 10 := N_6
  let t : Fin cfg6.N := ⟨(i 0).val / 1000, by rw [hN]; omega⟩
  obtain ⟨-, -, -, -, -, -, -, -, -, -, -, -, e0, e1⟩ := idx_facts6 t
  refine ⟨t, flush6_6 t, ?_⟩
  rw [mem_blk6_6]
  intro a
  have ht : t.val = (i 0).val / 1000 := rfl
  match a with
  | ⟨0, _⟩ => show win6_6.index t (0 : Fin 2) * 1000 ≤ (i 0).val ∧ (i 0).val < win6_6.index t (0 : Fin 2) * 1000 + 1000; rw [e0, ht]; omega
  | ⟨1, _⟩ => show win6_6.index t (1 : Fin 2) * 128 ≤ (i 1).val ∧ (i 1).val < win6_6.index t (1 : Fin 2) * 128 + 128; rw [e1]; omega

/-- The features' array after region 6. -/
theorem final6_5 (c : Dev nD) :
    (dat6 (F := Ideal) V c).arrAt 5 cfg6.N = passU (V c main_v14_2) (V c main_v39) (V c main_v38_0) :=
  (dat6 (F := Ideal) V c).arrAt_eq_of_cover 5 _ (fun t _ => flushed6_5_eq V c t) (cover6_5)

/-- The running sum's array after region 6. -/
theorem final6_6 (c : Dev nD) :
    (dat6 (F := Ideal) V c).arrAt 6 cfg6.N = passAcc (V c main_v14_2) (V c main_v39) (V c main_v38_0) (V c main_v38_1) (V c main_v42) :=
  (dat6 (F := Ideal) V c).arrAt_eq_of_cover 6 _ (fun t _ => flushed6_6_eq V c t) (cover6_6)

end Cert.KernelIdeal.KVal

end
-- ==== Proof.KProp7Pay.lean ====
/-
  What one propagation pass computes on a block of 1000 rows, entry by entry (region 7).

  The body loads a block `u` of 1000 rows of the current features, the matching 1000 rows `e` of the stored
  matrix E = L - 1, the whole feature array `ub` (10000 rows), a block `acc` of the running sum and the layer's
  coefficient as one row `ct`. It stores
      new_u(p, q)   = u(p, q) + Σ_k e(p, k) · ub(k, q)
      new_acc(p, q) = acc(p, q) + ct(0, q) · new_u(p, q).
  The product is accumulated from an all-zero block, so its entry is the plain sum over k.
-/
import proofs.«116373_g1589137899740_cont_week2b_1182_8_alg».proof.Proof.Gen.KernelIdeal.Skeleton
import proofs.«116373_g1589137899740_cont_week2b_1182_8_alg».proof.Proof.LibPlainDot
import proofs.«116373_g1589137899740_cont_week2b_1182_8_alg».proof.Proof.KRowTile

noncomputable section

namespace Cert.KernelIdeal.KVal

open Cert.KernelIdeal Cert.KernelIdeal.Gen Idealize.ShloMosaic Idealize.ShloMosaic.ValueIdx

/-- The new features of a block, at entry (p, q). -/
theorem k7_pay1_apply (v0 : Vec Ideal S1000x128 .f32) (v2 : Vec Ideal S1000x10000 .bf16) (v4 : Vec Ideal S10000x128 .bf16)
    (p : Fin 1000) (q : Fin 128) :
    k7_pay1 (F := Ideal) v0 v2 v4 (ix2 p q) = (v0 (ix2 p q) + ∑ k : Fin 10000, v2 (ix2 p k) * v4 (ix2 k q) : EReal) := by
  have e : k7_pay1 (F := Ideal) v0 v2 v4
      = addf v0 (matmul (φ₁ := .bf16) (φ₂ := .bf16) dot_S1000x10000_S10000x128_S1000x128_1_0_0_1_n_n none v2 v4 (constant S1000x128 .f32 0x00000000#32)) := by
    unfold k7_pay1
    simp only [shapeCast_self]
  rw [e, addf_apply]
  exact congrArg (v0 (ix2 p q) + ·)
    (PlainDot.matmul_zero_apply (φ₁ := .bf16) (φ₂ := .bf16) dot_S1000x10000_S10000x128_S1000x128_1_0_0_1_n_n rfl rfl rfl rfl rfl rfl rfl rfl none v2 v4 p q)

/-- The new running sum of a block, at entry (p, q). -/
theorem k7_pay2_apply (v0 : Vec Ideal S1000x128 .f32) (v2 : Vec Ideal S1000x10000 .bf16) (v4 : Vec Ideal S10000x128 .bf16)
    (v9 : Vec Ideal S1000x128 .f32) (v11 : Vec Ideal S1x128 .f32) (p : Fin 1000) (q : Fin 128) :
    k7_pay2 (F := Ideal) v0 v2 v4 v9 v11 (ix2 p q)
      = (v9 (ix2 p q) + v11 (ix2 (0 : Fin 1) q) * (v0 (ix2 p q) + ∑ k : Fin 10000, v2 (ix2 p k) * v4 (ix2 k q)) : EReal) := by
  have e : k7_pay2 (F := Ideal) v0 v2 v4 v9 v11
      = addf v9 (mulf (broadcastTo S1000x128 v11 broadcasts_S1x128_S1000x128) (k7_pay1 v0 v2 v4)) := by
    unfold k7_pay2
    simp only [shapeCast_self]
  rw [e, addf_apply, mulf_apply, k7_pay1_apply, rowTile_apply]

end Cert.KernelIdeal.KVal

end
-- ==== Proof.KProp7Final.lean ====
/-
  Region 7 (a propagation pass over 10 blocks of 1000 rows): what its two output arrays hold after the region,
  as whole-array functions of the arrays the region finds.

  Point t of the grid loads rows 1000·t … 1000·t + 999 of the stored matrix, of the features and of the running
  sum, and the whole copy of the features and the coefficient row; it writes back rows 1000·t … 1000·t + 999 of
  the new features and of the new running sum. Row r of an output is therefore written by point r / 1000, and the
  ten blocks fill the array.
-/
import proofs.«116373_g1589137899740_cont_week2b_1182_8_alg».proof.Proof.FrameKI
import proofs.«116373_g1589137899740_cont_week2b_1182_8_alg».proof.Proof.KProp7Pay
import proofs.«116373_g1589137899740_cont_week2b_1182_8_alg».proof.Proof.KPassSpec

set_option maxRecDepth 16384

noncomputable section

namespace Cert.KernelIdeal.KVal

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz7 : (![0, 0] : Fin 2 → Nat) = fun _ => 0 := funext fun a => by fin_cases a <;> rfl

/-- The printed index maps over the grid: the row-blocked windows sit at block (t, 0), the whole ones at (0, 0). -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0
    ∧ win7_6.index t (0 : Fin 2) = t.val ∧ win7_6.index t (1 : Fin 2) = 0 :=
  (by decide +kernel : ∀ t : Fin grid7.N, _)

/-- Rows 1000·t … of the stored matrix. -/
theorem iblk7_0_apply (c : Dev nD) (t : Fin cfg7.N) (x : S1000x10000.Idx) (i : S10000x10000.Idx)
    (h0 : (i 0).val = t.val * 1000 + (x 0).val) (h1 : (i 1).val = (x 1).val) :
    (iblk7 V c 0 t : Vec Ideal S1000x10000 .bf16) x = (V c main_v14_2 : S10000x10000.Idx → EReal) i := by
  obtain ⟨e0, e1, -⟩ := idx_facts7 t
  unfold iblk7
  rw [View.read_apply]
  show V c main_v14_2 _ = V c main_v14_2 _
  congr 1
  funext a
  apply Fin.ext
  match a with
  | ⟨0, _⟩ => show win7_0.index t (0 : Fin 2) * 1000 + 1 * (x 0).val = (i 0).val; rw [e0, h0]; omega
  | ⟨1, _⟩ => show win7_0.index t (1 : Fin 2) * 10000 + 1 * (x 1).val = (i 1).val; rw [e1, h1]; omega

/-- The whole copy of the features. -/
theorem iblk7_1_apply (c : Dev nD) (t : Fin cfg7.N) (x : S10000x128.Idx) :
    (iblk7 V c 1 t : Vec Ideal S10000x128 .bf16) x = (V c main_v44 : S10000x128.Idx → EReal) x := by
  obtain ⟨-, -, e0, e1, -⟩ := idx_facts7 t
  unfold iblk7
  rw [View.read_apply]
  show V c main_v44 _ = V c main_v44 _
  congr 1
  funext a
  apply Fin.ext
  match a with
  | ⟨0, _⟩ => show win7_1.index t (0 : Fin 2) * 10000 + 1 * (x 0).val = (x 0).val; rw [e0]; omega
  | ⟨1, _⟩ => show win7_1.index t (1 : Fin 2) * 128 + 1 * (x 1).val = (x 1).val; rw [e1]; omega

/-- Rows 1000·t … of the features. -/
theorem iblk7_2_apply (c : Dev nD) (t : Fin cfg7.N) (x : S1000x128.Idx) (i : S10000x128.Idx)
    (h0 : (i 0).val = t.val * 1000 + (x 0).val) (h1 : (i 1).val = (x 1).val) :
    (iblk7 V c 2 t : Vec Ideal S1000x128 .f32) x = (V c main_v43_0 : S10000x128.Idx → EReal) i := by
  obtain ⟨-, -, -, -, e0, e1, -⟩ := idx_facts7 t
  unfold iblk7
  rw [View.read_apply]
  show V c main_v43_0 _ = V c main_v43_0 _
  congr 1
  funext a
  apply Fin.ext
  match a with
  | ⟨0, _⟩ => show win7_2.index t (0 : Fin 2) * 1000 + 1 * (x 0).val = (i 0).val; rw [e0, h0]; omega
  | ⟨1, _⟩ => show win7_2.index t (1 : Fin 2) * 128 + 1 * (x 1).val = (i 1).val; rw [e1, h1]; omega

/-- Rows 1000·t … of the running sum. -/
theorem iblk7_3_apply (c : Dev nD) (t : Fin cfg7.N) (x : S1000x128.Idx) (i : S10000x128.Idx)
    (h0 : (i 0).val = t.val * 1000 + (x 0).val) (h1 : (i 1).val = (x 1).val) :
    (iblk7 V c 3 t : Vec Ideal S1000x128 .f32) x = (V c main_v43_1 : S10000x128.Idx → EReal) i := by
  obtain ⟨-, -, -, -, -, -, e0, e1, -⟩ := idx_facts7 t
  unfold iblk7
  rw [View.read_apply]
  show V c main_v43_1 _ = V c main_v43_1 _
  congr 1
  funext a
  apply Fin.ext
  match a with
  | ⟨0, _⟩ => show win7_3.index t (0 : Fin 2) * 1000 + 1 * (x 0).val = (i 0).val; rw [e0, h0]; omega
  | ⟨1, _⟩ => show win7_3.index t (1 : Fin 2) * 128 + 1 * (x 1).val = (i 1).val; rw [e1, h1]; omega

/-- The coefficient row, whole. -/
theorem iblk7_4_apply (c : Dev nD) (t : Fin cfg7.N) (x : S1x128.Idx) :
    (iblk7 V c 4 t : Vec Ideal S1x128 .f32) x = (V c main_v47 : S1x128.Idx → EReal) x := by
  obtain ⟨-, -, -, -, -, -, -, -, e0, e1, -⟩ := idx_facts7 t
  unfold iblk7
  rw [View.read_apply]
  show V c main_v47 _ = V c main_v47 _
  congr 1
  funext a
  apply Fin.ext
  match a with
  | ⟨0, _⟩ => show win7_4.index t (0 : Fin 2) * 1 + 1 * (x 0).val = (x 0).val; rw [e0]; omega
  | ⟨1, _⟩ => show win7_4.index t (1 : Fin 2) * 128 + 1 * (x 1).val = (x 1).val; rw [e1]; omega

/-- The body's new features at point t, block entry y: row 1000·t + (row of y) of the whole-array function. -/
theorem blockU7 (c : Dev nD) (t : Fin cfg7.N) (y : S1000x128.Idx) (i : S10000x128.Idx)
    (h0 : (i 0).val = t.val * 1000 + (y 0).val) (h1 : (i 1).val = (y 1).val) :
    k7_pay1 (F := Ideal) (iblk7 V c 2 t) (iblk7 V c 0 t) (iblk7 V c 1 t) y
      = passU (V c main_v14_2) (V c main_v44) (V c main_v43_0) i := by
  obtain ⟨p, q, rfl⟩ : ∃ (p : Fin 1000) (q : Fin 128), y = ix2 p q := ⟨y 0, y 1, eq_ix2 y⟩
  refine (k7_pay1_apply (iblk7 V c 2 t) (iblk7 V c 0 t) (iblk7 V c 1 t) p q).trans ?_
  unfold passU
  refine congrArg₂ (fun a b : EReal => a + b) (iblk7_2_apply V c t (ix2 p q) i h0 h1) (Finset.sum_congr rfl fun k _ => ?_)
  exact congrArg₂ (fun a b : EReal => a * b) (iblk7_0_apply V c t (ix2 p k) (ix2 (i 0) k) h0 rfl)
    ((iblk7_1_apply V c t (ix2 k q)).trans (congrArg (V c main_v44 : S10000x128.Idx → EReal)
      (funext fun a => Fin.ext (by match a with | ⟨0, _⟩ => rfl | ⟨1, _⟩ => exact h1.symm))))

/-- The body's new running sum at point t, block entry y. -/
theorem blockAcc7 (c : Dev nD) (t : Fin cfg7.N) (y : S1000x128.Idx) (i : S10000x128.Idx)
    (h0 : (i 0).val = t.val * 1000 + (y 0).val) (h1 : (i 1).val = (y 1).val) :
    k7_pay2 (F := Ideal) (iblk7 V c 2 t) (iblk7 V c 0 t) (iblk7 V c 1 t) (iblk7 V c 3 t) (iblk7 V c 4 t) y
      = passAcc (V c main_v14_2) (V c main_v44) (V c main_v43_0) (V c main_v43_1) (V c main_v47) i := by
  have hu := blockU7 V c t y i h0 h1
  obtain ⟨p, q, rfl⟩ : ∃ (p : Fin 1000) (q : Fin 128), y = ix2 p q := ⟨y 0, y 1, eq_ix2 y⟩
  refine (k7_pay2_apply (iblk7 V c 2 t) (iblk7 V c 0 t) (iblk7 V c 1 t) (iblk7 V c 3 t) (iblk7 V c 4 t) p q).trans ?_
  have hu' := (k7_pay1_apply (iblk7 V c 2 t) (iblk7 V c 0 t) (iblk7 V c 1 t) p q).symm.trans hu
  have hq : (ix2 (0 : Fin 1) q : S1x128.Idx) = ix2 (0 : Fin 1) (i 1) := funext fun a => Fin.ext (by match a with | ⟨0, _⟩ => rfl | ⟨1, _⟩ => exact h1.symm)
  rw [hu', iblk7_3_apply V c t (ix2 p q) i h0 h1, iblk7_4_apply V c t (ix2 (0 : Fin 1) q), hq]
  rfl

/-- What point t writes back to the features' array is block t of the whole-array function. -/
theorem flushed7_5_eq (c : Dev nD) (t : Fin cfg7.N) :
    (dat7 (F := Ideal) V c).flushed 5 t
      = ((cfg7.win 5).blk t).view.read (Elt Ideal) (passU (V c main_v14_2) (V c main_v44) (V c main_v43_0)) := by
  show (cfg7.win 5).cut (grid7.coords t) ((dat7 V c).after 5 t) = _
  rw [after7_5]
  unfold out7_5
  rw [View.canon_unit_zero hz7]
  simp only [View.ld_unit_zero (S := S1000x128) hz7, View.ld_unit_zero (S := S1000x10000) hz7, View.ld_unit_zero (S := S10000x128) hz7]
  obtain ⟨-, -, -, -, -, -, -, -, -, -, e0, e1, -⟩ := idx_facts7 t
  funext j
  exact blockU7 V c t j (((cfg7.win 5).blk t).view.emb j)
    (show win7_5.index t (0 : Fin 2) * 1000 + 1 * (j 0).val = t.val * 1000 + (j 0).val by rw [e0]; omega)
    (show win7_5.index t (1 : Fin 2) * 128 + 1 * (j 1).val = (j 1).val by rw [e1]; omega)

/-- What point t writes back to the running sum's array is block t of the whole-array function. -/
theorem flushed7_6_eq (c : Dev nD) (t : Fin cfg7.N) :
    (dat7 (F := Ideal) V c).flushed 6 t
      = ((cfg7.win 6).blk t).view.read (Elt Ideal) (passAcc (V c main_v14_2) (V c main_v44) (V c main_v43_0) (V c main_v43_1) (V c main_v47)) := by
  show (cfg7.win 6).cut (grid7.coords t) ((dat7 V c).after 6 t) = _
  rw [after7_6]
  unfold out7_6
  rw [View.canon_unit_zero hz7]
  simp only [View.ld_unit_zero (S := S1000x128) hz7, View.ld_unit_zero (S := S1000x10000) hz7, View.ld_unit_zero (S := S10000x128) hz7, View.ld_unit_zero (S := S1x128) hz7]
  obtain ⟨-, -, -, -, -, -, -, -, -, -, -, -, e0, e1⟩ := idx_facts7 t
  funext j
  exact blockAcc7 V c t j (((cfg7.win 6).blk t).view.emb j)
    (show win7_6.index t (0 : Fin 2) * 1000 + 1 * (j 0).val = t.val * 1000 + (j 0).val by rw [e0]; omega)
    (show win7_6.index t (1 : Fin 2) * 128 + 1 * (j 1).val = (j 1).val by rw [e1]; omega)

/-- An index of the features' array is in point t's block iff its row is among rows 1000·t … 1000·t + 999. -/
theorem mem_blk7_5 (t : Fin cfg7.N) (i : S10000x128.Idx) :
    i ∈ ((cfg7.win 5).blk t).view.set ↔ ∀ a : Fin 2, win7_5.index t a * S1000x128.size a ≤ (i a).val ∧ (i a).val < win7_5.index t a * S1000x128.size a + S1000x128.size a := by
  show i ∈ ((View.whole main_v48_0).slice (win7_5.rect t)).set ↔ _
  rw [View.set_slice_whole, Rect.mem_set_unit]
  exact Iff.rfl

theorem mem_blk7_6 (t : Fin cfg7.N) (i : S10000x128.Idx) :
    i ∈ ((cfg7.win 6).blk t).view.set ↔ ∀ a : Fin 2, win7_6.index t a * S1000x128.size a ≤ (i a).val ∧ (i a).val < win7_6.index t a * S1000x128.size a + S1000x128.size a := by
  show i ∈ ((View.whole main_v48_1).slice (win7_6.rect t)).set ↔ _
  rw [View.set_slice_whole, Rect.mem_set_unit]
  exact Iff.rfl

/-- Row r is written by point r / 1000. -/
theorem cover7_5 (i : S10000x128.Idx) : ∃ t : Fin cfg7.N, (cfg7.win 5).flush t = true ∧ i ∈ ((cfg7.win 5).blk t).view.set := by
  have hi0 : (i 0).val < 10000 := (i 0).isLt
  have hi1 : (i 1).val < 128 := (i 1).isLt
  have hN : cfg7.N = 10 := N_7
  let t : Fin cfg7.N := ⟨(i 0).val / 1000, by rw [hN]; omega⟩
  obtain ⟨-, -, -, -, -, -, -, -, -, -, e0, e1, -⟩ := idx_facts7 t
  refine ⟨t, flush7_5 t, ?_⟩
  rw [mem_blk7_5]
  intro a
  have ht : t.val = (i 0).val / 1000 := rfl
  match a with
  | ⟨0, _⟩ => show win7_5.index t (0 : Fin 2) * 1000 ≤ (i 0).val ∧ (i 0).val < win7_5.index t (0 : Fin 2) * 1000 + 1000; rw [e0, ht]; omega
  | ⟨1, _⟩ => show win7_5.index t (1 : Fin 2) * 128 ≤ (i 1).val ∧ (i 1).val < win7_5.index t (1 : Fin 2) * 128 + 128; rw [e1]; omega

theorem cover7_6 (i : S10000x128.Idx) : ∃ t : Fin cfg7.N, (cfg7.win 6).flush t = true ∧ i ∈ ((cfg7.win 6).blk t).view.set := by
  have hi0 : (i 0).val < 10000 := (i 0).isLt
  have hi1 : (i 1).val < 128 := (i 1).isLt
  have hN : cfg7.N = 10 := N_7
  let t : Fin cfg7.N := ⟨(i 0).val / 1000, by rw [hN]; omega⟩
  obtain ⟨-, -, -, -, -, -, -, -, -, -, -, -, e0, e1⟩ := idx_facts7 t
  refine ⟨t, flush7_6 t, ?_⟩
  rw [mem_blk7_6]
  intro a
  have ht : t.val = (i 0).val / 1000 := rfl
  match a with
  | ⟨0, _⟩ => show win7_6.index t (0 : Fin 2) * 1000 ≤ (i 0).val ∧ (i 0).val < win7_6.index t (0 : Fin 2) * 1000 + 1000; rw [e0, ht]; omega
  | ⟨1, _⟩ => show win7_6.index t (1 : Fin 2) * 128 ≤ (i 1).val ∧ (i 1).val < win7_6.index t (1 : Fin 2) * 128 + 128; rw [e1]; omega

/-- The features' array after region 7. -/
theorem final7_5 (c : Dev nD) :
    (dat7 (F := Ideal) V c).arrAt 5 cfg7.N = passU (V c main_v14_2) (V c main_v44) (V c main_v43_0) :=
  (dat7 (F := Ideal) V c).arrAt_eq_of_cover 5 _ (fun t _ => flushed7_5_eq V c t) (cover7_5)

/-- The running sum's array after region 7. -/
theorem final7_6 (c : Dev nD) :
    (dat7 (F := Ideal) V c).arrAt 6 cfg7.N = passAcc (V c main_v14_2) (V c main_v44) (V c main_v43_0) (V c main_v43_1) (V c main_v47) :=
  (dat7 (F := Ideal) V c).arrAt_eq_of_cover 6 _ (fun t _ => flushed7_6_eq V c t) (cover7_6)

end Cert.KernelIdeal.KVal

end
-- ==== Proof.KProp8Pay.lean ====
/-
  What one propagation pass computes on a block of 1000 rows, entry by entry (region 8).

  The body loads a block `u` of 1000 rows of the current features, the matching 1000 rows `e` of the stored
  matrix E = L - 1, the whole feature array `ub` (10000 rows), a block `acc` of the running sum and the layer's
  coefficient as one row `ct`. It stores
      new_u(p, q)   = u(p, q) + Σ_k e(p, k) · ub(k, q)
      new_acc(p, q) = max (acc(p, q) + ct(0, q) · new_u(p, q)) 0.
  The product is accumulated from an all-zero block, so its entry is the plain sum over k.
-/
import proofs.«116373_g1589137899740_cont_week2b_1182_8_alg».proof.Proof.Gen.KernelIdeal.Skeleton
import proofs.«116373_g1589137899740_cont_week2b_1182_8_alg».proof.Proof.LibPlainDot
import proofs.«116373_g1589137899740_cont_week2b_1182_8_alg».proof.Proof.KRowTile

noncomputable section

namespace Cert.KernelIdeal.KVal

open Cert.KernelIdeal Cert.KernelIdeal.Gen Idealize.ShloMosaic Idealize.ShloMosaic.ValueIdx

/-- The new features of a block, at entry (p, q). -/
theorem k8_pay1_apply (v0 : Vec Ideal S1000x128 .f32) (v2 : Vec Ideal S1000x10000 .bf16) (v4 : Vec Ideal S10000x128 .bf16)
    (p : Fin 1000) (q : Fin 128) :
    k8_pay1 (F := Ideal) v0 v2 v4 (ix2 p q) = (v0 (ix2 p q) + ∑ k : Fin 10000, v2 (ix2 p k) * v4 (ix2 k q) : EReal) := by
  have e : k8_pay1 (F := Ideal) v0 v2 v4
      = addf v0 (matmul (φ₁ := .bf16) (φ₂ := .bf16) dot_S1000x10000_S10000x128_S1000x128_1_0_0_1_n_n none v2 v4 (constant S1000x128 .f32 0x00000000#32)) := by
    unfold k8_pay1
    simp only [shapeCast_self]
  rw [e, addf_apply]
  exact congrArg (v0 (ix2 p q) + ·)
    (PlainDot.matmul_zero_apply (φ₁ := .bf16) (φ₂ := .bf16) dot_S1000x10000_S10000x128_S1000x128_1_0_0_1_n_n rfl rfl rfl rfl rfl rfl rfl rfl none v2 v4 p q)

/-- The new running sum of a block, at entry (p, q). -/
theorem k8_pay2_apply (v0 : Vec Ideal S1000x128 .f32) (v2 : Vec Ideal S1000x10000 .bf16) (v4 : Vec Ideal S10000x128 .bf16)
    (v9 : Vec Ideal S1000x128 .f32) (v11 : Vec Ideal S1x128 .f32) (p : Fin 1000) (q : Fin 128) :
    k8_pay2 (F := Ideal) v0 v2 v4 v9 v11 (ix2 p q)
      = (max (v9 (ix2 p q) + v11 (ix2 (0 : Fin 1) q) * (v0 (ix2 p q) + ∑ k : Fin 10000, v2 (ix2 p k) * v4 (ix2 k q))) 0 : EReal) := by
  have e : k8_pay2 (F := Ideal) v0 v2 v4 v9 v11
      = maximumf (addf v9 (mulf (broadcastTo S1000x128 v11 broadcasts_S1x128_S1000x128) (k8_pay1 v0 v2 v4))) (broadcast S1000x128 (Scalar.ofBits (F := Ideal) .f32 0x00000000#32)) := by
    unfold k8_pay2
    simp only [shapeCast_self]
  rw [e, maximumf_apply, addf_apply, mulf_apply, k8_pay1_apply, rowTile_apply]
  rw [broadcast_apply]
  exact congrArg (max _) Ideal.ofBits_zero_f32

end Cert.KernelIdeal.KVal

end
-- ==== Proof.KProp8Final.lean ====
/-
  Region 8 (a propagation pass over 10 blocks of 1000 rows): what its two output arrays hold after the region,
  as whole-array functions of the arrays the region finds.

  Point t of the grid loads rows 1000·t … 1000·t + 999 of the stored matrix, of the features and of the running
  sum, and the whole copy of the features and the coefficient row; it writes back rows 1000·t … 1000·t + 999 of
  the new features and of the new running sum. Row r of an output is therefore written by point r / 1000, and the
  ten blocks fill the array.
-/
import proofs.«116373_g1589137899740_cont_week2b_1182_8_alg».proof.Proof.FrameKI
import proofs.«116373_g1589137899740_cont_week2b_1182_8_alg».proof.Proof.KProp8Pay
import proofs.«116373_g1589137899740_cont_week2b_1182_8_alg».proof.Proof.KPassSpec

set_option maxRecDepth 16384

noncomputable section

namespace Cert.KernelIdeal.KVal

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz8 : (![0, 0] : Fin 2 → Nat) = fun _ => 0 := funext fun a => by fin_cases a <;> rfl

/-- The printed index maps over the grid: the row-blocked windows sit at block (t, 0), the whole ones at (0, 0). -/
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0
    ∧ win8_6.index t (0 : Fin 2) = t.val ∧ win8_6.index t (1 : Fin 2) = 0 :=
  (by decide +kernel : ∀ t : Fin grid8.N, _)

/-- Rows 1000·t … of the stored matrix. -/
theorem iblk8_0_apply (c : Dev nD) (t : Fin cfg8.N) (x : S1000x10000.Idx) (i : S10000x10000.Idx)
    (h0 : (i 0).val = t.val * 1000 + (x 0).val) (h1 : (i 1).val = (x 1).val) :
    (iblk8 V c 0 t : Vec Ideal S1000x10000 .bf16) x = (V c main_v14_2 : S10000x10000.Idx → EReal) i := by
  obtain ⟨e0, e1, -⟩ := idx_facts8 t
  unfold iblk8
  rw [View.read_apply]
  show V c main_v14_2 _ = V c main_v14_2 _
  congr 1
  funext a
  apply Fin.ext
  match a with
  | ⟨0, _⟩ => show win8_0.index t (0 : Fin 2) * 1000 + 1 * (x 0).val = (i 0).val; rw [e0, h0]; omega
  | ⟨1, _⟩ => show win8_0.index t (1 : Fin 2) * 10000 + 1 * (x 1).val = (i 1).val; rw [e1, h1]; omega

/-- The whole copy of the features. -/
theorem iblk8_1_apply (c : Dev nD) (t : Fin cfg8.N) (x : S10000x128.Idx) :
    (iblk8 V c 1 t : Vec Ideal S10000x128 .bf16) x = (V c main_v49 : S10000x128.Idx → EReal) x := by
  obtain ⟨-, -, e0, e1, -⟩ := idx_facts8 t
  unfold iblk8
  rw [View.read_apply]
  show V c main_v49 _ = V c main_v49 _
  congr 1
  funext a
  apply Fin.ext
  match a with
  | ⟨0, _⟩ => show win8_1.index t (0 : Fin 2) * 10000 + 1 * (x 0).val = (x 0).val; rw [e0]; omega
  | ⟨1, _⟩ => show win8_1.index t (1 : Fin 2) * 128 + 1 * (x 1).val = (x 1).val; rw [e1]; omega

/-- Rows 1000·t … of the features. -/
theorem iblk8_2_apply (c : Dev nD) (t : Fin cfg8.N) (x : S1000x128.Idx) (i : S10000x128.Idx)
    (h0 : (i 0).val = t.val * 1000 + (x 0).val) (h1 : (i 1).val = (x 1).val) :
    (iblk8 V c 2 t : Vec Ideal S1000x128 .f32) x = (V c main_v48_0 : S10000x128.Idx → EReal) i := by
  obtain ⟨-, -, -, -, e0, e1, -⟩ := idx_facts8 t
  unfold iblk8
  rw [View.read_apply]
  show V c main_v48_0 _ = V c main_v48_0 _
  congr 1
  funext a
  apply Fin.ext
  match a with
  | ⟨0, _⟩ => show win8_2.index t (0 : Fin 2) * 1000 + 1 * (x 0).val = (i 0).val; rw [e0, h0]; omega
  | ⟨1, _⟩ => show win8_2.index t (1 : Fin 2) * 128 + 1 * (x 1).val = (i 1).val; rw [e1, h1]; omega

/-- Rows 1000·t … of the running sum. -/
theorem iblk8_3_apply (c : Dev nD) (t : Fin cfg8.N) (x : S1000x128.Idx) (i : S10000x128.Idx)
    (h0 : (i 0).val = t.val * 1000 + (x 0).val) (h1 : (i 1).val = (x 1).val) :
    (iblk8 V c 3 t : Vec Ideal S1000x128 .f32) x = (V c main_v48_1 : S10000x128.Idx → EReal) i := by
  obtain ⟨-, -, -, -, -, -, e0, e1, -⟩ := idx_facts8 t
  unfold iblk8
  rw [View.read_apply]
  show V c main_v48_1 _ = V c main_v48_1 _
  congr 1
  funext a
  apply Fin.ext
  match a with
  | ⟨0, _⟩ => show win8_3.index t (0 : Fin 2) * 1000 + 1 * (x 0).val = (i 0).val; rw [e0, h0]; omega
  | ⟨1, _⟩ => show win8_3.index t (1 : Fin 2) * 128 + 1 * (x 1).val = (i 1).val; rw [e1, h1]; omega

/-- The coefficient row, whole. -/
theorem iblk8_4_apply (c : Dev nD) (t : Fin cfg8.N) (x : S1x128.Idx) :
    (iblk8 V c 4 t : Vec Ideal S1x128 .f32) x = (V c main_v52 : S1x128.Idx → EReal) x := by
  obtain ⟨-, -, -, -, -, -, -, -, e0, e1, -⟩ := idx_facts8 t
  unfold iblk8
  rw [View.read_apply]
  show V c main_v52 _ = V c main_v52 _
  congr 1
  funext a
  apply Fin.ext
  match a with
  | ⟨0, _⟩ => show win8_4.index t (0 : Fin 2) * 1 + 1 * (x 0).val = (x 0).val; rw [e0]; omega
  | ⟨1, _⟩ => show win8_4.index t (1 : Fin 2) * 128 + 1 * (x 1).val = (x 1).val; rw [e1]; omega

/-- The body's new features at point t, block entry y: row 1000·t + (row of y) of the whole-array function. -/
theorem blockU8 (c : Dev nD) (t : Fin cfg8.N) (y : S1000x128.Idx) (i : S10000x128.Idx)
    (h0 : (i 0).val = t.val * 1000 + (y 0).val) (h1 : (i 1).val = (y 1).val) :
    k8_pay1 (F := Ideal) (iblk8 V c 2 t) (iblk8 V c 0 t) (iblk8 V c 1 t) y
      = passU (V c main_v14_2) (V c main_v49) (V c main_v48_0) i := by
  obtain ⟨p, q, rfl⟩ : ∃ (p : Fin 1000) (q : Fin 128), y = ix2 p q := ⟨y 0, y 1, eq_ix2 y⟩
  refine (k8_pay1_apply (iblk8 V c 2 t) (iblk8 V c 0 t) (iblk8 V c 1 t) p q).trans ?_
  unfold passU
  refine congrArg₂ (fun a b : EReal => a + b) (iblk8_2_apply V c t (ix2 p q) i h0 h1) (Finset.sum_congr rfl fun k _ => ?_)
  exact congrArg₂ (fun a b : EReal => a * b) (iblk8_0_apply V c t (ix2 p k) (ix2 (i 0) k) h0 rfl)
    ((iblk8_1_apply V c t (ix2 k q)).trans (congrArg (V c main_v49 : S10000x128.Idx → EReal)
      (funext fun a => Fin.ext (by match a with | ⟨0, _⟩ => rfl | ⟨1, _⟩ => exact h1.symm))))

/-- The body's new running sum at point t, block entry y. -/
theorem blockAcc8 (c : Dev nD) (t : Fin cfg8.N) (y : S1000x128.Idx) (i : S10000x128.Idx)
    (h0 : (i 0).val = t.val * 1000 + (y 0).val) (h1 : (i 1).val = (y 1).val) :
    k8_pay2 (F := Ideal) (iblk8 V c 2 t) (iblk8 V c 0 t) (iblk8 V c 1 t) (iblk8 V c 3 t) (iblk8 V c 4 t) y
      = passAccRelu (V c main_v14_2) (V c main_v49) (V c main_v48_0) (V c main_v48_1) (V c main_v52) i := by
  have hu := blockU8 V c t y i h0 h1
  obtain ⟨p, q, rfl⟩ : ∃ (p : Fin 1000) (q : Fin 128), y = ix2 p q := ⟨y 0, y 1, eq_ix2 y⟩
  refine (k8_pay2_apply (iblk8 V c 2 t) (iblk8 V c 0 t) (iblk8 V c 1 t) (iblk8 V c 3 t) (iblk8 V c 4 t) p q).trans ?_
  have hu' := (k8_pay1_apply (iblk8 V c 2 t) (iblk8 V c 0 t) (iblk8 V c 1 t) p q).symm.trans hu
  have hq : (ix2 (0 : Fin 1) q : S1x128.Idx) = ix2 (0 : Fin 1) (i 1) := funext fun a => Fin.ext (by match a with | ⟨0, _⟩ => rfl | ⟨1, _⟩ => exact h1.symm)
  rw [hu', iblk8_3_apply V c t (ix2 p q) i h0 h1, iblk8_4_apply V c t (ix2 (0 : Fin 1) q), hq]
  rfl

/-- What point t writes back to the features' array is block t of the whole-array function. -/
theorem flushed8_5_eq (c : Dev nD) (t : Fin cfg8.N) :
    (dat8 (F := Ideal) V c).flushed 5 t
      = ((cfg8.win 5).blk t).view.read (Elt Ideal) (passU (V c main_v14_2) (V c main_v49) (V c main_v48_0)) := by
  show (cfg8.win 5).cut (grid8.coords t) ((dat8 V c).after 5 t) = _
  rw [after8_5]
  unfold out8_5
  rw [View.canon_unit_zero hz8]
  simp only [View.ld_unit_zero (S := S1000x128) hz8, View.ld_unit_zero (S := S1000x10000) hz8, View.ld_unit_zero (S := S10000x128) hz8]
  obtain ⟨-, -, -, -, -, -, -, -, -, -, e0, e1, -⟩ := idx_facts8 t
  funext j
  exact blockU8 V c t j (((cfg8.win 5).blk t).view.emb j)
    (show win8_5.index t (0 : Fin 2) * 1000 + 1 * (j 0).val = t.val * 1000 + (j 0).val by rw [e0]; omega)
    (show win8_5.index t (1 : Fin 2) * 128 + 1 * (j 1).val = (j 1).val by rw [e1]; omega)

/-- What point t writes back to the running sum's array is block t of the whole-array function. -/
theorem flushed8_6_eq (c : Dev nD) (t : Fin cfg8.N) :
    (dat8 (F := Ideal) V c).flushed 6 t
      = ((cfg8.win 6).blk t).view.read (Elt Ideal) (passAccRelu (V c main_v14_2) (V c main_v49) (V c main_v48_0) (V c main_v48_1) (V c main_v52)) := by
  show (cfg8.win 6).cut (grid8.coords t) ((dat8 V c).after 6 t) = _
  rw [after8_6]
  unfold out8_6
  rw [View.canon_unit_zero hz8]
  simp only [View.ld_unit_zero (S := S1000x128) hz8, View.ld_unit_zero (S := S1000x10000) hz8, View.ld_unit_zero (S := S10000x128) hz8, View.ld_unit_zero (S := S1x128) hz8]
  obtain ⟨-, -, -, -, -, -, -, -, -, -, -, -, e0, e1⟩ := idx_facts8 t
  funext j
  exact blockAcc8 V c t j (((cfg8.win 6).blk t).view.emb j)
    (show win8_6.index t (0 : Fin 2) * 1000 + 1 * (j 0).val = t.val * 1000 + (j 0).val by rw [e0]; omega)
    (show win8_6.index t (1 : Fin 2) * 128 + 1 * (j 1).val = (j 1).val by rw [e1]; omega)

/-- An index of the features' array is in point t's block iff its row is among rows 1000·t … 1000·t + 999. -/
theorem mem_blk8_5 (t : Fin cfg8.N) (i : S10000x128.Idx) :
    i ∈ ((cfg8.win 5).blk t).view.set ↔ ∀ a : Fin 2, win8_5.index t a * S1000x128.size a ≤ (i a).val ∧ (i a).val < win8_5.index t a * S1000x128.size a + S1000x128.size a := by
  show i ∈ ((View.whole main_v53_0).slice (win8_5.rect t)).set ↔ _
  rw [View.set_slice_whole, Rect.mem_set_unit]
  exact Iff.rfl

theorem mem_blk8_6 (t : Fin cfg8.N) (i : S10000x128.Idx) :
    i ∈ ((cfg8.win 6).blk t).view.set ↔ ∀ a : Fin 2, win8_6.index t a * S1000x128.size a ≤ (i a).val ∧ (i a).val < win8_6.index t a * S1000x128.size a + S1000x128.size a := by
  show i ∈ ((View.whole main_v53_1).slice (win8_6.rect t)).set ↔ _
  rw [View.set_slice_whole, Rect.mem_set_unit]
  exact Iff.rfl

/-- Row r is written by point r / 1000. -/
theorem cover8_5 (i : S10000x128.Idx) : ∃ t : Fin cfg8.N, (cfg8.win 5).flush t = true ∧ i ∈ ((cfg8.win 5).blk t).view.set := by
  have hi0 : (i 0).val < 10000 := (i 0).isLt
  have hi1 : (i 1).val < 128 := (i 1).isLt
  have hN : cfg8.N = 10 := N_8
  let t : Fin cfg8.N := ⟨(i 0).val / 1000, by rw [hN]; omega⟩
  obtain ⟨-, -, -, -, -, -, -, -, -, -, e0, e1, -⟩ := idx_facts8 t
  refine ⟨t, flush8_5 t, ?_⟩
  rw [mem_blk8_5]
  intro a
  have ht : t.val = (i 0).val / 1000 := rfl
  match a with
  | ⟨0, _⟩ => show win8_5.index t (0 : Fin 2) * 1000 ≤ (i 0).val ∧ (i 0).val < win8_5.index t (0 : Fin 2) * 1000 + 1000; rw [e0, ht]; omega
  | ⟨1, _⟩ => show win8_5.index t (1 : Fin 2) * 128 ≤ (i 1).val ∧ (i 1).val < win8_5.index t (1 : Fin 2) * 128 + 128; rw [e1]; omega

theorem cover8_6 (i : S10000x128.Idx) : ∃ t : Fin cfg8.N, (cfg8.win 6).flush t = true ∧ i ∈ ((cfg8.win 6).blk t).view.set := by
  have hi0 : (i 0).val < 10000 := (i 0).isLt
  have hi1 : (i 1).val < 128 := (i 1).isLt
  have hN : cfg8.N = 10 := N_8
  let t : Fin cfg8.N := ⟨(i 0).val / 1000, by rw [hN]; omega⟩
  obtain ⟨-, -, -, -, -, -, -, -, -, -, -, -, e0, e1⟩ := idx_facts8 t
  refine ⟨t, flush8_6 t, ?_⟩
  rw [mem_blk8_6]
  intro a
  have ht : t.val = (i 0).val / 1000 := rfl
  match a with
  | ⟨0, _⟩ => show win8_6.index t (0 : Fin 2) * 1000 ≤ (i 0).val ∧ (i 0).val < win8_6.index t (0 : Fin 2) * 1000 + 1000; rw [e0, ht]; omega
  | ⟨1, _⟩ => show win8_6.index t (1 : Fin 2) * 128 ≤ (i 1).val ∧ (i 1).val < win8_6.index t (1 : Fin 2) * 128 + 128; rw [e1]; omega

/-- The features' array after region 8. -/
theorem final8_5 (c : Dev nD) :
    (dat8 (F := Ideal) V c).arrAt 5 cfg8.N = passU (V c main_v14_2) (V c main_v49) (V c main_v48_0) :=
  (dat8 (F := Ideal) V c).arrAt_eq_of_cover 5 _ (fun t _ => flushed8_5_eq V c t) (cover8_5)

/-- The running sum's array after region 8. -/
theorem final8_6 (c : Dev nD) :
    (dat8 (F := Ideal) V c).arrAt 6 cfg8.N = passAccRelu (V c main_v14_2) (V c main_v49) (V c main_v48_0) (V c main_v48_1) (V c main_v52) :=
  (dat8 (F := Ideal) V c).arrAt_eq_of_cover 6 _ (fun t _ => flushed8_6_eq V c t) (cover8_6)

end Cert.KernelIdeal.KVal

end
-- ==== Proof.KChainProp.lean ====
/-
  The seven propagation regions read at real arguments: each region's exit contents from its entry contents.

  The run's contents at a region's exit are its entry contents with the region's output arrays replaced by what the
  write-backs leave; what they leave is the region's whole-array function of the entry arrays, and at real arguments
  that function is one more application of `L` to the features and one more term added to the running sum.
-/
import proofs.«116373_g1589137899740_cont_week2b_1182_8_alg».proof.Proof.FrameKI
import proofs.«116373_g1589137899740_cont_week2b_1182_8_alg».proof.Proof.KProp2Final
import proofs.«116373_g1589137899740_cont_week2b_1182_8_alg».proof.Proof.KProp3Final
import proofs.«116373_g1589137899740_cont_week2b_1182_8_alg».proof.Proof.KProp4Final
import proofs.«116373_g1589137899740_cont_week2b_1182_8_alg».proof.Proof.KProp5Final
import proofs.«116373_g1589137899740_cont_week2b_1182_8_alg».proof.Proof.KProp6Final
import proofs.«116373_g1589137899740_cont_week2b_1182_8_alg».proof.Proof.KProp7Final
import proofs.«116373_g1589137899740_cont_week2b_1182_8_alg».proof.Proof.KProp8Final
import proofs.«116373_g1589137899740_cont_week2b_1182_8_alg».proof.Proof.KTransport

set_option maxRecDepth 16384

noncomputable section

namespace Cert.KernelIdeal.KVal

open Matrix Bern
open Cert.KernelIdeal Cert.KernelIdeal.Gen Cert.KernelIdeal.GenP
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Region 2: from the stored matrix `L - 1`, the features `U` (read twice), the running sum `A` and the coefficient
    `cv`, the region leaves the features `L U` and the running sum `A + cv · L U`. -/
theorem stage2 (L : Matrix (Fin 10000) (Fin 10000) ℝ) (U A : Matrix (Fin 10000) (Fin 128) ℝ) (cv : ℝ)
    (hE : (W5 m ρ c (Proc.devRef .tc main_v14_2) : S10000x10000.Idx → EReal) = toE (L - 1))
    (hub : (W5 m ρ c (Proc.devRef .tc main_v15) : S10000x128.Idx → EReal) = toE U)
    (hu : (W5 m ρ c (Proc.devRef .tc main_v14_0) : S10000x128.Idx → EReal) = toE U)
    (hacc : (W5 m ρ c (Proc.devRef .tc main_v14_1) : S10000x128.Idx → EReal) = toE A)
    (hct : (W5 m ρ c (Proc.devRef .tc main_v18) : S1x128.Idx → EReal) = toERow fun _ => cv) :
    (W6 m ρ c (Proc.devRef .tc main_v19_0) : S10000x128.Idx → EReal) = toE (kstep L U)
    ∧ (W6 m ρ c (Proc.devRef .tc main_v19_1) : S10000x128.Idx → EReal) = toE (A + cv • kstep L U) := by
  constructor
  · refine (W6_arr m ρ c 5).trans ?_
    rw [final2_5 (V5 m ρ) c]
    show passU (W5 m ρ c (Proc.devRef .tc main_v14_2)) (W5 m ρ c (Proc.devRef .tc main_v15)) (W5 m ρ c (Proc.devRef .tc main_v14_0)) = _
    rw [hE, hub, hu]
    exact passU_kstep L U
  · refine (W6_arr m ρ c 6).trans ?_
    rw [final2_6 (V5 m ρ) c]
    show passAcc (W5 m ρ c (Proc.devRef .tc main_v14_2)) (W5 m ρ c (Proc.devRef .tc main_v15)) (W5 m ρ c (Proc.devRef .tc main_v14_0)) (W5 m ρ c (Proc.devRef .tc main_v14_1)) (W5 m ρ c (Proc.devRef .tc main_v18)) = _
    rw [hE, hub, hu, hacc, hct]
    exact passAcc_toE L U A cv

/-- Region 3: from the stored matrix `L - 1`, the features `U` (read twice), the running sum `A` and the coefficient
    `cv`, the region leaves the features `L U` and the running sum `A + cv · L U`. -/
theorem stage3 (L : Matrix (Fin 10000) (Fin 10000) ℝ) (U A : Matrix (Fin 10000) (Fin 128) ℝ) (cv : ℝ)
    (hE : (W7 m ρ c (Proc.devRef .tc main_v14_2) : S10000x10000.Idx → EReal) = toE (L - 1))
    (hub : (W7 m ρ c (Proc.devRef .tc main_v20) : S10000x128.Idx → EReal) = toE U)
    (hu : (W7 m ρ c (Proc.devRef .tc main_v19_0) : S10000x128.Idx → EReal) = toE U)
    (hacc : (W7 m ρ c (Proc.devRef .tc main_v19_1) : S10000x128.Idx → EReal) = toE A)
    (hct : (W7 m ρ c (Proc.devRef .tc main_v23) : S1x128.Idx → EReal) = toERow fun _ => cv) :
    (W8 m ρ c (Proc.devRef .tc main_v24_0) : S10000x128.Idx → EReal) = toE (kstep L U)
    ∧ (W8 m ρ c (Proc.devRef .tc main_v24_1) : S10000x128.Idx → EReal) = toE (A + cv • kstep L U) := by
  constructor
  · refine (W8_arr m ρ c 5).trans ?_
    rw [final3_5 (V7 m ρ) c]
    show passU (W7 m ρ c (Proc.devRef .tc main_v14_2)) (W7 m ρ c (Proc.devRef .tc main_v20)) (W7 m ρ c (Proc.devRef .tc main_v19_0)) = _
    rw [hE, hub, hu]
    exact passU_kstep L U
  · refine (W8_arr m ρ c 6).trans ?_
    rw [final3_6 (V7 m ρ) c]
    show passAcc (W7 m ρ c (Proc.devRef .tc main_v14_2)) (W7 m ρ c (Proc.devRef .tc main_v20)) (W7 m ρ c (Proc.devRef .tc main_v19_0)) (W7 m ρ c (Proc.devRef .tc main_v19_1)) (W7 m ρ c (Proc.devRef .tc main_v23)) = _
    rw [hE, hub, hu, hacc, hct]
    exact passAcc_toE L U A cv

/-- Region 4: from the stored matrix `L - 1`, the features `U` (read twice), the running sum `A` and the coefficient
    `cv`, the region leaves the features `L U` and the running sum `max (A + cv · L U) 0`. -/
theorem stage4 (L : Matrix (Fin 10000) (Fin 10000) ℝ) (U A : Matrix (Fin 10000) (Fin 128) ℝ) (cv : ℝ)
    (hE : (W9 m ρ c (Proc.devRef .tc main_v14_2) : S10000x10000.Idx → EReal) = toE (L - 1))
    (hub : (W9 m ρ c (Proc.devRef .tc main_v25) : S10000x128.Idx → EReal) = toE U)
    (hu : (W9 m ρ c (Proc.devRef .tc main_v24_0) : S10000x128.Idx → EReal) = toE U)
    (hacc : (W9 m ρ c (Proc.devRef .tc main_v24_1) : S10000x128.Idx → EReal) = toE A)
    (hct : (W9 m ρ c (Proc.devRef .tc main_v28) : S1x128.Idx → EReal) = toERow fun _ => cv) :
    (W10 m ρ c (Proc.devRef .tc main_v29_0) : S10000x128.Idx → EReal) = toE (kstep L U)
    ∧ (W10 m ρ c (Proc.devRef .tc main_v29_1) : S10000x128.Idx → EReal) = toE (relu (A + cv • kstep L U)) := by
  constructor
  · refine (W10_arr m ρ c 5).trans ?_
    rw [final4_5 (V9 m ρ) c]
    show passU (W9 m ρ c (Proc.devRef .tc main_v14_2)) (W9 m ρ c (Proc.devRef .tc main_v25)) (W9 m ρ c (Proc.devRef .tc main_v24_0)) = _
    rw [hE, hub, hu]
    exact passU_kstep L U
  · refine (W10_arr m ρ c 6).trans ?_
    rw [final4_6 (V9 m ρ) c]
    show passAccRelu (W9 m ρ c (Proc.devRef .tc main_v14_2)) (W9 m ρ c (Proc.devRef .tc main_v25)) (W9 m ρ c (Proc.devRef .tc main_v24_0)) (W9 m ρ c (Proc.devRef .tc main_v24_1)) (W9 m ρ c (Proc.devRef .tc main_v28)) = _
    rw [hE, hub, hu, hacc, hct]
    exact passAccRelu_toE L U A cv

/-- Region 5: from the stored matrix `L - 1`, the features `U` (read twice), the running sum `A` and the coefficient
    `cv`, the region leaves the features `L U` and the running sum `A + cv · L U`. -/
theorem stage5 (L : Matrix (Fin 10000) (Fin 10000) ℝ) (U A : Matrix (Fin 10000) (Fin 128) ℝ) (cv : ℝ)
    (hE : (W11 m ρ c (Proc.devRef .tc main_v14_2) : S10000x10000.Idx → EReal) = toE (L - 1))
    (hub : (W11 m ρ c (Proc.devRef .tc main_v34) : S10000x128.Idx → EReal) = toE U)
    (hu : (W11 m ρ c (Proc.devRef .tc main_v29_1) : S10000x128.Idx → EReal) = toE U)
    (hacc : (W11 m ρ c (Proc.devRef .tc main_v33) : S10000x128.Idx → EReal) = toE A)
    (hct : (W11 m ρ c (Proc.devRef .tc main_v37) : S1x128.Idx → EReal) = toERow fun _ => cv) :
    (W12 m ρ c (Proc.devRef .tc main_v38_0) : S10000x128.Idx → EReal) = toE (kstep L U)
    ∧ (W12 m ρ c (Proc.devRef .tc main_v38_1) : S10000x128.Idx → EReal) = toE (A + cv • kstep L U) := by
  constructor
  · refine (W12_arr m ρ c 5).trans ?_
    rw [final5_5 (V11 m ρ) c]
    show passU (W11 m ρ c (Proc.devRef .tc main_v14_2)) (W11 m ρ c (Proc.devRef .tc main_v34)) (W11 m ρ c (Proc.devRef .tc main_v29_1)) = _
    rw [hE, hub, hu]
    exact passU_kstep L U
  · refine (W12_arr m ρ c 6).trans ?_
    rw [final5_6 (V11 m ρ) c]
    show passAcc (W11 m ρ c (Proc.devRef .tc main_v14_2)) (W11 m ρ c (Proc.devRef .tc main_v34)) (W11 m ρ c (Proc.devRef .tc main_v29_1)) (W11 m ρ c (Proc.devRef .tc main_v33)) (W11 m ρ c (Proc.devRef .tc main_v37)) = _
    rw [hE, hub, hu, hacc, hct]
    exact passAcc_toE L U A cv

/-- Region 6: from the stored matrix `L - 1`, the features `U` (read twice), the running sum `A` and the coefficient
    `cv`, the region leaves the features `L U` and the running sum `A + cv · L U`. -/
theorem stage6 (L : Matrix (Fin 10000) (Fin 10000) ℝ) (U A : Matrix (Fin 10000) (Fin 128) ℝ) (cv : ℝ)
    (hE : (W13 m ρ c (Proc.devRef .tc main_v14_2) : S10000x10000.Idx → EReal) = toE (L - 1))
    (hub : (W13 m ρ c (Proc.devRef .tc main_v39) : S10000x128.Idx → EReal) = toE U)
    (hu : (W13 m ρ c (Proc.devRef .tc main_v38_0) : S10000x128.Idx → EReal) = toE U)
    (hacc : (W13 m ρ c (Proc.devRef .tc main_v38_1) : S10000x128.Idx → EReal) = toE A)
    (hct : (W13 m ρ c (Proc.devRef .tc main_v42) : S1x128.Idx → EReal) = toERow fun _ => cv) :
    (W14 m ρ c (Proc.devRef .tc main_v43_0) : S10000x128.Idx → EReal) = toE (kstep L U)
    ∧ (W14 m ρ c (Proc.devRef .tc main_v43_1) : S10000x128.Idx → EReal) = toE (A + cv • kstep L U) := by
  constructor
  · refine (W14_arr m ρ c 5).trans ?_
    rw [final6_5 (V13 m ρ) c]
    show passU (W13 m ρ c (Proc.devRef .tc main_v14_2)) (W13 m ρ c (Proc.devRef .tc main_v39)) (W13 m ρ c (Proc.devRef .tc main_v38_0)) = _
    rw [hE, hub, hu]
    exact passU_kstep L U
  · refine (W14_arr m ρ c 6).trans ?_
    rw [final6_6 (V13 m ρ) c]
    show passAcc (W13 m ρ c (Proc.devRef .tc main_v14_2)) (W13 m ρ c (Proc.devRef .tc main_v39)) (W13 m ρ c (Proc.devRef .tc main_v38_0)) (W13 m ρ c (Proc.devRef .tc main_v38_1)) (W13 m ρ c (Proc.devRef .tc main_v42)) = _
    rw [hE, hub, hu, hacc, hct]
    exact passAcc_toE L U A cv

/-- Region 7: from the stored matrix `L - 1`, the features `U` (read twice), the running sum `A` and the coefficient
    `cv`, the region leaves the features `L U` and the running sum `A + cv · L U`. -/
theorem stage7 (L : Matrix (Fin 10000) (Fin 10000) ℝ) (U A : Matrix (Fin 10000) (Fin 128) ℝ) (cv : ℝ)
    (hE : (W15 m ρ c (Proc.devRef .tc main_v14_2) : S10000x10000.Idx → EReal) = toE (L - 1))
    (hub : (W15 m ρ c (Proc.devRef .tc main_v44) : S10000x128.Idx → EReal) = toE U)
    (hu : (W15 m ρ c (Proc.devRef .tc main_v43_0) : S10000x128.Idx → EReal) = toE U)
    (hacc : (W15 m ρ c (Proc.devRef .tc main_v43_1) : S10000x128.Idx → EReal) = toE A)
    (hct : (W15 m ρ c (Proc.devRef .tc main_v47) : S1x128.Idx → EReal) = toERow fun _ => cv) :
    (W16 m ρ c (Proc.devRef .tc main_v48_0) : S10000x128.Idx → EReal) = toE (kstep L U)
    ∧ (W16 m ρ c (Proc.devRef .tc main_v48_1) : S10000x128.Idx → EReal) = toE (A + cv • kstep L U) := by
  constructor
  · refine (W16_arr m ρ c 5).trans ?_
    rw [final7_5 (V15 m ρ) c]
    show passU (W15 m ρ c (Proc.devRef .tc main_v14_2)) (W15 m ρ c (Proc.devRef .tc main_v44)) (W15 m ρ c (Proc.devRef .tc main_v43_0)) = _
    rw [hE, hub, hu]
    exact passU_kstep L U
  · refine (W16_arr m ρ c 6).trans ?_
    rw [final7_6 (V15 m ρ) c]
    show passAcc (W15 m ρ c (Proc.devRef .tc main_v14_2)) (W15 m ρ c (Proc.devRef .tc main_v44)) (W15 m ρ c (Proc.devRef .tc main_v43_0)) (W15 m ρ c (Proc.devRef .tc main_v43_1)) (W15 m ρ c (Proc.devRef .tc main_v47)) = _
    rw [hE, hub, hu, hacc, hct]
    exact passAcc_toE L U A cv

/-- Region 8: from the stored matrix `L - 1`, the features `U` (read twice), the running sum `A` and the coefficient
    `cv`, the region leaves the features `L U` and the running sum `max (A + cv · L U) 0`. -/
theorem stage8 (L : Matrix (Fin 10000) (Fin 10000) ℝ) (U A : Matrix (Fin 10000) (Fin 128) ℝ) (cv : ℝ)
    (hE : (W17 m ρ c (Proc.devRef .tc main_v14_2) : S10000x10000.Idx → EReal) = toE (L - 1))
    (hub : (W17 m ρ c (Proc.devRef .tc main_v49) : S10000x128.Idx → EReal) = toE U)
    (hu : (W17 m ρ c (Proc.devRef .tc main_v48_0) : S10000x128.Idx → EReal) = toE U)
    (hacc : (W17 m ρ c (Proc.devRef .tc main_v48_1) : S10000x128.Idx → EReal) = toE A)
    (hct : (W17 m ρ c (Proc.devRef .tc main_v52) : S1x128.Idx → EReal) = toERow fun _ => cv) :
    (W18 m ρ c (Proc.devRef .tc main_v53_0) : S10000x128.Idx → EReal) = toE (kstep L U)
    ∧ (W18 m ρ c (Proc.devRef .tc main_v53_1) : S10000x128.Idx → EReal) = toE (relu (A + cv • kstep L U)) := by
  constructor
  · refine (W18_arr m ρ c 5).trans ?_
    rw [final8_5 (V17 m ρ) c]
    show passU (W17 m ρ c (Proc.devRef .tc main_v14_2)) (W17 m ρ c (Proc.devRef .tc main_v49)) (W17 m ρ c (Proc.devRef .tc main_v48_0)) = _
    rw [hE, hub, hu]
    exact passU_kstep L U
  · refine (W18_arr m ρ c 6).trans ?_
    rw [final8_6 (V17 m ρ) c]
    show passAccRelu (W17 m ρ c (Proc.devRef .tc main_v14_2)) (W17 m ρ c (Proc.devRef .tc main_v49)) (W17 m ρ c (Proc.devRef .tc main_v48_0)) (W17 m ρ c (Proc.devRef .tc main_v48_1)) (W17 m ρ c (Proc.devRef .tc main_v52)) = _
    rw [hE, hub, hu, hacc, hct]
    exact passAccRelu_toE L U A cv

end Cert.KernelIdeal.KVal

end
-- ==== Proof.KChainLayer1.lean ====
/-
  The first filter layer of the kernel after its first pass, read at real arguments: from region 1's exit (features
  `L H`, running sum `C 0 0 · H + C 0 1 · L H`, the stored matrix `L - 1`) to region 4's exit, where the running-sum
  buffer holds the layer's output in monomial form.
-/
import proofs.«116373_g1589137899740_cont_week2b_1182_8_alg».proof.Proof.KChainProp
import proofs.«116373_g1589137899740_cont_week2b_1182_8_alg».proof.Proof.KKeptHost

set_option maxRecDepth 16384

noncomputable section

namespace Cert.KernelIdeal.KVal

open Matrix Bern
open Cert.KernelIdeal Cert.KernelIdeal.Gen Cert.KernelIdeal.GenP
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- From region 1's exit to region 4's exit. -/
theorem layer1 (L : Matrix (Fin 10000) (Fin 10000) ℝ) (C : Matrix (Fin 2) (Fin 5) ℝ) (W3 : Matrix (Fin 128) (Fin 40) ℝ) (b3 : Fin 40 → ℝ)
    (H : Matrix (Fin 10000) (Fin 128) ℝ)
    (k4 : Kept (W4 m ρ c) L C W3 b3)
    (u4 : (W4 m ρ c (Proc.devRef .tc main_v14_0) : S10000x128.Idx → EReal) = toE (kstep L H))
    (a4 : (W4 m ρ c (Proc.devRef .tc main_v14_1) : S10000x128.Idx → EReal) = toE (C 0 0 • H + C 0 1 • kstep L H)) :
    (W10 m ρ c (Proc.devRef .tc main_v29_1) : S10000x128.Idx → EReal)
        = toE (relu ((((C 0 0 • H + C 0 1 • kstep L H) + C 0 2 • kstep L (kstep L H)) + C 0 3 • kstep L (kstep L (kstep L H))) + C 0 4 • kstep L (kstep L (kstep L (kstep L H)))))
    ∧ Kept (W10 m ρ c) L C W3 b3 := by
  -- the host stretch before region 2: the features narrowed, the coefficient C 0 2 laid out as a row
  have k5 : Kept (W5 m ρ c) L C W3 b3 := kept_host2 m ρ c k4
  have ub5 : (W5 m ρ c (Proc.devRef .tc main_v15) : S10000x128.Idx → EReal) = toE (kstep L (H)) := KHost.hostOps2_v15 (W4 m ρ c) (kstep L (H)) u4
  have ct5 : (W5 m ρ c (Proc.devRef .tc main_v18) : S1x128.Idx → EReal) = toERow fun _ => C 0 2 := KHost.hostOps2_v18 (W4 m ρ c) C k4.2.1
  have u5 : (W5 m ρ c (Proc.devRef .tc main_v14_0) : S10000x128.Idx → EReal) = toE (kstep L (H)) := (KHost.hostOps2_kept (W4 m ρ c) main_v14_0 (by decide)).trans u4
  have a5 : (W5 m ρ c (Proc.devRef .tc main_v14_1) : S10000x128.Idx → EReal) = toE (C 0 0 • H + C 0 1 • kstep L H) := (KHost.hostOps2_kept (W4 m ρ c) main_v14_1 (by decide)).trans a4
  -- region 2
  obtain ⟨u6, a6⟩ := stage2 m ρ c L (kstep L (H)) (C 0 0 • H + C 0 1 • kstep L H) (C 0 2) k5.1 ub5 u5 a5 ct5
  have k6 : Kept (W6 m ρ c) L C W3 b3 := kept_region2 m ρ c k5
  -- the host stretch before region 3: the features narrowed, the coefficient C 0 3 laid out as a row
  have k7 : Kept (W7 m ρ c) L C W3 b3 := kept_host3 m ρ c k6
  have ub7 : (W7 m ρ c (Proc.devRef .tc main_v20) : S10000x128.Idx → EReal) = toE (kstep L (kstep L (H))) := KHost.hostOps3_v20 (W6 m ρ c) (kstep L (kstep L (H))) u6
  have ct7 : (W7 m ρ c (Proc.devRef .tc main_v23) : S1x128.Idx → EReal) = toERow fun _ => C 0 3 := KHost.hostOps3_v23 (W6 m ρ c) C k6.2.1
  have u7 : (W7 m ρ c (Proc.devRef .tc main_v19_0) : S10000x128.Idx → EReal) = toE (kstep L (kstep L (H))) := (KHost.hostOps3_kept (W6 m ρ c) main_v19_0 (by decide)).trans u6
  have a7 : (W7 m ρ c (Proc.devRef .tc main_v19_1) : S10000x128.Idx → EReal) = toE (C 0 0 • H + C 0 1 • kstep L H + C 0 2 • kstep L (kstep L H)) := (KHost.hostOps3_kept (W6 m ρ c) main_v19_1 (by decide)).trans a6
  -- region 3
  obtain ⟨u8, a8⟩ := stage3 m ρ c L (kstep L (kstep L (H))) (C 0 0 • H + C 0 1 • kstep L H + C 0 2 • kstep L (kstep L H)) (C 0 3) k7.1 ub7 u7 a7 ct7
  have k8 : Kept (W8 m ρ c) L C W3 b3 := kept_region3 m ρ c k7
  -- the host stretch before region 4: the features narrowed, the coefficient C 0 4 laid out as a row
  have k9 : Kept (W9 m ρ c) L C W3 b3 := kept_host4 m ρ c k8
  have ub9 : (W9 m ρ c (Proc.devRef .tc main_v25) : S10000x128.Idx → EReal) = toE (kstep L (kstep L (kstep L (H)))) := KHost.hostOps4_v25 (W8 m ρ c) (kstep L (kstep L (kstep L (H)))) u8
  have ct9 : (W9 m ρ c (Proc.devRef .tc main_v28) : S1x128.Idx → EReal) = toERow fun _ => C 0 4 := KHost.hostOps4_v28 (W8 m ρ c) C k8.2.1
  have u9 : (W9 m ρ c (Proc.devRef .tc main_v24_0) : S10000x128.Idx → EReal) = toE (kstep L (kstep L (kstep L (H)))) := (KHost.hostOps4_kept (W8 m ρ c) main_v24_0 (by decide)).trans u8
  have a9 : (W9 m ρ c (Proc.devRef .tc main_v24_1) : S10000x128.Idx → EReal) = toE (C 0 0 • H + C 0 1 • kstep L H + C 0 2 • kstep L (kstep L H) + C 0 3 • kstep L (kstep L (kstep L H))) := (KHost.hostOps4_kept (W8 m ρ c) main_v24_1 (by decide)).trans a8
  -- region 4
  obtain ⟨u10, a10⟩ := stage4 m ρ c L (kstep L (kstep L (kstep L (H)))) (C 0 0 • H + C 0 1 • kstep L H + C 0 2 • kstep L (kstep L H) + C 0 3 • kstep L (kstep L (kstep L H))) (C 0 4) k9.1 ub9 u9 a9 ct9
  have k10 : Kept (W10 m ρ c) L C W3 b3 := kept_region4 m ρ c k9
  exact ⟨a10, k10⟩

end Cert.KernelIdeal.KVal

end
-- ==== Proof.KChainLayer2.lean ====
/-
  The second filter layer of the kernel, read at real arguments: from the first layer's output `H` (in the running-sum
  buffer of region 4) to the second layer's output `monoLayer L H (θ row 1)` (in the running-sum buffer of region 8).

  The host scales `H` by the coefficient C 1 0 to start the running sum; regions 5–8 apply `L` four times to the
  features, each adding C 1 j times the new features to the running sum, the last one clamping at 0. That is the
  monomial form of the layer, term by term.
-/
import proofs.«116373_g1589137899740_cont_week2b_1182_8_alg».proof.Proof.KChainProp
import proofs.«116373_g1589137899740_cont_week2b_1182_8_alg».proof.Proof.KKeptHost

set_option maxRecDepth 16384

noncomputable section

namespace Cert.KernelIdeal.KVal

open Matrix Bern
open Cert.KernelIdeal Cert.KernelIdeal.Gen Cert.KernelIdeal.GenP
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- From region 4's exit to region 8's exit. -/
theorem layer2 (L : Matrix (Fin 10000) (Fin 10000) ℝ) (C : Matrix (Fin 2) (Fin 5) ℝ) (W3 : Matrix (Fin 128) (Fin 40) ℝ) (b3 : Fin 40 → ℝ)
    (H : Matrix (Fin 10000) (Fin 128) ℝ)
    (k10 : Kept (W10 m ρ c) L C W3 b3)
    (hH : (W10 m ρ c (Proc.devRef .tc main_v29_1) : S10000x128.Idx → EReal) = toE H) :
    (W18 m ρ c (Proc.devRef .tc main_v53_1) : S10000x128.Idx → EReal)
        = toE (relu ((((C 1 0 • H + C 1 1 • kstep L H) + C 1 2 • kstep L (kstep L H)) + C 1 3 • kstep L (kstep L (kstep L H))) + C 1 4 • kstep L (kstep L (kstep L (kstep L H)))))
    ∧ Kept (W18 m ρ c) L C W3 b3 := by
  -- the host stretch before region 5: the running sum started at C 1 0 · H, the features narrowed, C 1 1 as a row
  have k11 : Kept (W11 m ρ c) L C W3 b3 := kept_host5 m ρ c k10
  have a11 : (W11 m ρ c (Proc.devRef .tc main_v33) : S10000x128.Idx → EReal) = toE (C 1 0 • H) := KHost.hostOps5_v33 (W10 m ρ c) C H k10.2.1 hH
  have ub11 : (W11 m ρ c (Proc.devRef .tc main_v34) : S10000x128.Idx → EReal) = toE H := KHost.hostOps5_v34 (W10 m ρ c) H hH
  have ct11 : (W11 m ρ c (Proc.devRef .tc main_v37) : S1x128.Idx → EReal) = toERow fun _ => C 1 1 := KHost.hostOps5_v37 (W10 m ρ c) C k10.2.1
  have u11 : (W11 m ρ c (Proc.devRef .tc main_v29_1) : S10000x128.Idx → EReal) = toE H := (KHost.hostOps5_kept (W10 m ρ c) main_v29_1 (by decide)).trans hH
  -- region 5
  obtain ⟨u12, a12⟩ := stage5 m ρ c L H (C 1 0 • H) (C 1 1) k11.1 ub11 u11 a11 ct11
  have k12 : Kept (W12 m ρ c) L C W3 b3 := kept_region5 m ρ c k11
  -- the host stretch before region 6: the features narrowed, the coefficient C 1 2 laid out as a row
  have k13 : Kept (W13 m ρ c) L C W3 b3 := kept_host6 m ρ c k12
  have ub13 : (W13 m ρ c (Proc.devRef .tc main_v39) : S10000x128.Idx → EReal) = toE (kstep L (H)) := KHost.hostOps6_v39 (W12 m ρ c) (kstep L (H)) u12
  have ct13 : (W13 m ρ c (Proc.devRef .tc main_v42) : S1x128.Idx → EReal) = toERow fun _ => C 1 2 := KHost.hostOps6_v42 (W12 m ρ c) C k12.2.1
  have u13 : (W13 m ρ c (Proc.devRef .tc main_v38_0) : S10000x128.Idx → EReal) = toE (kstep L (H)) := (KHost.hostOps6_kept (W12 m ρ c) main_v38_0 (by decide)).trans u12
  have a13 : (W13 m ρ c (Proc.devRef .tc main_v38_1) : S10000x128.Idx → EReal) = toE (C 1 0 • H + C 1 1 • kstep L H) := (KHost.hostOps6_kept (W12 m ρ c) main_v38_1 (by decide)).trans a12
  -- region 6
  obtain ⟨u14, a14⟩ := stage6 m ρ c L (kstep L (H)) (C 1 0 • H + C 1 1 • kstep L H) (C 1 2) k13.1 ub13 u13 a13 ct13
  have k14 : Kept (W14 m ρ c) L C W3 b3 := kept_region6 m ρ c k13
  -- the host stretch before region 7: the features narrowed, the coefficient C 1 3 laid out as a row
  have k15 : Kept (W15 m ρ c) L C W3 b3 := kept_host7 m ρ c k14
  have ub15 : (W15 m ρ c (Proc.devRef .tc main_v44) : S10000x128.Idx → EReal) = toE (kstep L (kstep L (H))) := KHost.hostOps7_v44 (W14 m ρ c) (kstep L (kstep L (H))) u14
  have ct15 : (W15 m ρ c (Proc.devRef .tc main_v47) : S1x128.Idx → EReal) = toERow fun _ => C 1 3 := KHost.hostOps7_v47 (W14 m ρ c) C k14.2.1
  have u15 : (W15 m ρ c (Proc.devRef .tc main_v43_0) : S10000x128.Idx → EReal) = toE (kstep L (kstep L (H))) := (KHost.hostOps7_kept (W14 m ρ c) main_v43_0 (by decide)).trans u14
  have a15 : (W15 m ρ c (Proc.devRef .tc main_v43_1) : S10000x128.Idx → EReal) = toE (C 1 0 • H + C 1 1 • kstep L H + C 1 2 • kstep L (kstep L H)) := (KHost.hostOps7_kept (W14 m ρ c) main_v43_1 (by decide)).trans a14
  -- region 7
  obtain ⟨u16, a16⟩ := stage7 m ρ c L (kstep L (kstep L (H))) (C 1 0 • H + C 1 1 • kstep L H + C 1 2 • kstep L (kstep L H)) (C 1 3) k15.1 ub15 u15 a15 ct15
  have k16 : Kept (W16 m ρ c) L C W3 b3 := kept_region7 m ρ c k15
  -- the host stretch before region 8: the features narrowed, the coefficient C 1 4 laid out as a row
  have k17 : Kept (W17 m ρ c) L C W3 b3 := kept_host8 m ρ c k16
  have ub17 : (W17 m ρ c (Proc.devRef .tc main_v49) : S10000x128.Idx → EReal) = toE (kstep L (kstep L (kstep L (H)))) := KHost.hostOps8_v49 (W16 m ρ c) (kstep L (kstep L (kstep L (H)))) u16
  have ct17 : (W17 m ρ c (Proc.devRef .tc main_v52) : S1x128.Idx → EReal) = toERow fun _ => C 1 4 := KHost.hostOps8_v52 (W16 m ρ c) C k16.2.1
  have u17 : (W17 m ρ c (Proc.devRef .tc main_v48_0) : S10000x128.Idx → EReal) = toE (kstep L (kstep L (kstep L (H)))) := (KHost.hostOps8_kept (W16 m ρ c) main_v48_0 (by decide)).trans u16
  have a17 : (W17 m ρ c (Proc.devRef .tc main_v48_1) : S10000x128.Idx → EReal) = toE (C 1 0 • H + C 1 1 • kstep L H + C 1 2 • kstep L (kstep L H) + C 1 3 • kstep L (kstep L (kstep L H))) := (KHost.hostOps8_kept (W16 m ρ c) main_v48_1 (by decide)).trans a16
  -- region 8
  obtain ⟨u18, a18⟩ := stage8 m ρ c L (kstep L (kstep L (kstep L (H)))) (C 1 0 • H + C 1 1 • kstep L H + C 1 2 • kstep L (kstep L H) + C 1 3 • kstep L (kstep L (kstep L H))) (C 1 4) k17.1 ub17 u17 a17 ct17
  have k18 : Kept (W18 m ρ c) L C W3 b3 := kept_region8 m ρ c k17
  exact ⟨a18, k18⟩

end Cert.KernelIdeal.KVal

end
-- ==== Proof.KNet.lean ====
/-
  The idealized kernel's result at real arguments: the network with monomial-form layers.

  The run's last boundary holds, in the result buffer, what the chain of host stretches and regions computes from the
  launch memory. At real arguments that is: the perceptron `H₀`; a first layer `H₁ = monoLayer L H₀ (θ row 0)` (the host
  starts the running sum at `c₀ · H₀`, four regions apply `L` and add `c_j · L^j H₀`, the last clamping at 0, with
  `c = mono · θ row 0` read off the coefficient table); a second layer `H₂ = monoLayer L H₁ (θ row 1)`; and the read-out
  `H₂ · W3 + b3`.
-/
import proofs.«116373_g1589137899740_cont_week2b_1182_8_alg».proof.Proof.KRun
import proofs.«116373_g1589137899740_cont_week2b_1182_8_alg».proof.Proof.KChainEnds
import proofs.«116373_g1589137899740_cont_week2b_1182_8_alg».proof.Proof.KChainLayer1
import proofs.«116373_g1589137899740_cont_week2b_1182_8_alg».proof.Proof.KChainLayer2

set_option maxRecDepth 16384

noncomputable section

namespace Cert.KernelIdeal.KVal

open Matrix Bern
open Cert.KernelIdeal Cert.KernelIdeal.Gen Cert.KernelIdeal.GenP
open Idealize.ShloMosaic Idealize.ShloMosaic.TcCoe Idealize.ShloMosaic.ValueIdx Idealize.SL.Sem

/-- The result buffer at the run's last boundary, at real arguments. -/
theorem chain (m : (ℓ : Loc nD τ sig) → Buf (Elt Ideal) ℓ) (ρ : Dev nD → PrngReg) (c : Dev nD)
    (x : Matrix (Fin 10000) (Fin 256) ℝ) (L : Matrix (Fin 10000) (Fin 10000) ℝ) (W1m : Matrix (Fin 256) (Fin 128) ℝ)
    (b1 : Fin 128 → ℝ) (W2m : Matrix (Fin 128) (Fin 128) ℝ) (b2 : Fin 128 → ℝ) (θ : Matrix (Fin 2) (Fin 5) ℝ)
    (W3 : Matrix (Fin 128) (Fin 40) ℝ) (b3 : Fin 40 → ℝ)
    (h0 : (m ((c.tc : Thread nD τ).loc main_arg0) : S10000x256.Idx → EReal) = toE x)
    (h1 : (m ((c.tc : Thread nD τ).loc main_arg1) : S10000x10000.Idx → EReal) = toE L)
    (h2 : (m ((c.tc : Thread nD τ).loc main_arg2) : S256x128.Idx → EReal) = toE W1m)
    (h3 : (m ((c.tc : Thread nD τ).loc main_arg3) : S128.Idx → EReal) = toE1 b1)
    (h4 : (m ((c.tc : Thread nD τ).loc main_arg4) : S128x128.Idx → EReal) = toE W2m)
    (h5 : (m ((c.tc : Thread nD τ).loc main_arg5) : S128.Idx → EReal) = toE1 b2)
    (h6 : (m ((c.tc : Thread nD τ).loc main_arg6) : S2x5.Idx → EReal) = toE θ)
    (h7 : (m ((c.tc : Thread nD τ).loc main_arg7) : S128x40.Idx → EReal) = toE W3)
    (h8 : (m ((c.tc : Thread nD τ).loc main_arg8) : S40.Idx → EReal) = toE1 b3) :
    (W25 m ρ c (Proc.devRef .tc main_v58) : S10000x40.Idx → EReal) = toE (netMono x L W1m b1 W2m b2 θ W3 b3) := by
  obtain ⟨k4, u4, a4⟩ := head m ρ c x L W1m b1 W2m b2 θ W3 b3 h0 h1 h2 h3 h4 h5 h6 h7 h8
  obtain ⟨h10, k10⟩ := layer1 m ρ c L (coefTable θ) W3 b3 (mlp x W1m b1 W2m b2) k4 u4 a4
  have h10' : (W10 m ρ c (Proc.devRef .tc main_v29_1) : S10000x128.Idx → EReal) = toE (monoLayer L (mlp x W1m b1 W2m b2) (θ 0)) := h10
  obtain ⟨h18, k18⟩ := layer2 m ρ c L (coefTable θ) W3 b3 (monoLayer L (mlp x W1m b1 W2m b2) (θ 0)) k10 h10'
  have h18' : (W18 m ρ c (Proc.devRef .tc main_v53_1) : S10000x128.Idx → EReal)
      = toE (monoLayer L (monoLayer L (mlp x W1m b1 W2m b2) (θ 0)) (θ 1)) := h18
  exact tail m ρ c L (coefTable θ) W3 b3 _ h18' k18

/-- The idealized kernel's run at real arguments: the result is the network with monomial-form layers. -/
theorem run_real (m : (ℓ : Loc nD τ sig) → Buf (Elt Ideal) ℓ) (ρ : Dev nD → PrngReg)
    (x : Dev nD → Matrix (Fin 10000) (Fin 256) ℝ) (L : Dev nD → Matrix (Fin 10000) (Fin 10000) ℝ) (W1m : Dev nD → Matrix (Fin 256) (Fin 128) ℝ)
    (b1 : Dev nD → Fin 128 → ℝ) (W2m : Dev nD → Matrix (Fin 128) (Fin 128) ℝ) (b2 : Dev nD → Fin 128 → ℝ) (θ : Dev nD → Matrix (Fin 2) (Fin 5) ℝ)
    (W3 : Dev nD → Matrix (Fin 128) (Fin 40) ℝ) (b3 : Dev nD → Fin 40 → ℝ)
    (h0 : ∀ c : Dev nD, (m ((c.tc : Thread nD τ).loc main_arg0) : S10000x256.Idx → EReal) = toE (x c))
    (h1 : ∀ c : Dev nD, (m ((c.tc : Thread nD τ).loc main_arg1) : S10000x10000.Idx → EReal) = toE (L c))
    (h2 : ∀ c : Dev nD, (m ((c.tc : Thread nD τ).loc main_arg2) : S256x128.Idx → EReal) = toE (W1m c))
    (h3 : ∀ c : Dev nD, (m ((c.tc : Thread nD τ).loc main_arg3) : S128.Idx → EReal) = toE1 (b1 c))
    (h4 : ∀ c : Dev nD, (m ((c.tc : Thread nD τ).loc main_arg4) : S128x128.Idx → EReal) = toE (W2m c))
    (h5 : ∀ c : Dev nD, (m ((c.tc : Thread nD τ).loc main_arg5) : S128.Idx → EReal) = toE1 (b2 c))
    (h6 : ∀ c : Dev nD, (m ((c.tc : Thread nD τ).loc main_arg6) : S2x5.Idx → EReal) = toE (θ c))
    (h7 : ∀ c : Dev nD, (m ((c.tc : Thread nD τ).loc main_arg7) : S128x40.Idx → EReal) = toE (W3 c))
    (h8 : ∀ c : Dev nD, (m ((c.tc : Thread nD τ).loc main_arg8) : S40.Idx → EReal) = toE1 (b3 c)) :
    θ_run (defs (F := Ideal)) (onTc (τ := τ) (main (F := Ideal))) ⟨m, fun _ => 0, ρ⟩ (fun r => ∀ c : Dev nD,
      r.2.mem ((c.tc : Thread nD τ).loc main_v58) = toE (netMono (x c) (L c) (W1m c) (b1 c) (W2m c) (b2 c) (θ c) (W3 c) (b3 c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono
    (fun r h c => ⟨(h c).1.trans (chain m ρ c (x c) (L c) (W1m c) (b1 c) (W2m c) (b2 c) (θ c) (W3 c) (b3 c) (h0 c) (h1 c) (h2 c) (h3 c) (h4 c) (h5 c) (h6 c) (h7 c) (h8 c)), (h c).2⟩)
    (run_val (F := Ideal) m ρ)

end Cert.KernelIdeal.KVal

end
-- ==== Proof.LibGatherScatterRead.lean ====
import Idealize.ShloMosaic.PureOps.Ideal
import Idealize.ShloMosaic.Lib.ValueIdx

/-!
# Row gathers and row scatter-adds read at an index

A gather of rows of a table `[N, C]` (or of entries of a vector `[N]`) by a column `[M, 1]` of
integer start indices reads, at result row `e`, the table's row whose number is the start index
read as a signed integer and clamped into `[0, N - 1]`.  A scatter-add of update rows `[M, C]`
(or update entries `[M]`) into `[N, C]` (or `[N]`) by such a column adds update row `e` to the
row whose number is the index read as a signed integer, and drops it when that number is outside
`[0, N)`; on the extended reals element `(n, j)` of the result is the operand's element plus the
sum of the updates' elements `(e, j)` over the `e` that land in row `n`.

The statements are generic in the extents and in the dimension-number record, which they take
with its fields given by equations, so that they apply to any record with those fields.
-/

noncomputable section

open scoped BigOperators

namespace LibGatherScatterRead

open Idealize.ShloMosaic Idealize.ShloMosaic.ValueIdx

/-! ## The two row functions of an index word -/

/-- The row a gather reads for the start index word `v`: `v` as a signed integer, clamped into
`[0, N - 1]`. -/
def gatherRowOf (N : Nat) (hN : 0 < N) {w : Nat} (v : BitVec w) : Fin N :=
  ⟨min v.toInt.toNat (N - 1), by omega⟩

/-- The row a scatter lands in for the index word `v`: `v` as a signed integer when it is in
`[0, N)`, and no row otherwise (the update is dropped). -/
def scatterRowOf? (N : Nat) {w : Nat} (v : BitVec w) : Option (Fin N) :=
  if h : 0 ≤ v.toInt ∧ v.toInt < (N : Int) then some ⟨v.toInt.toNat, by omega⟩ else none

/-- The value of `gatherRowOf`. -/
theorem gatherRowOf_val (N : Nat) (hN : 0 < N) {w : Nat} (v : BitVec w) :
    (gatherRowOf N hN v).val = min v.toInt.toNat (N - 1) := rfl

/-- `scatterRowOf? N v = some n` says exactly that `v`, read signed, is the number `n`. -/
theorem scatterRowOf?_eq_some_iff {N w : Nat} (v : BitVec w) (n : Fin N) :
    scatterRowOf? N v = some n ↔ v.toInt = (n.val : Int) := by
  unfold scatterRowOf?
  constructor
  · intro h
    split at h
    · rename_i hv
      have := congrArg Fin.val (Option.some.inj h)
      simp only at this
      omega
    · exact absurd h (by simp)
  · intro h
    have hn := n.isLt
    rw [dif_pos (by omega)]
    congr 1
    exact Fin.ext (by simp only; omega)

/-- **A row that a scatter keeps is the row the gather reads.**  If the index word `v` lands in
row `n` of a scatter (so `0 ≤ v < N` as a signed integer) then the gather row of `v` is `n`. -/
theorem gatherRowOf_of_scatterRowOf? {N w : Nat} (hN : 0 < N) (v : BitVec w) (n : Fin N)
    (h : scatterRowOf? N v = some n) : gatherRowOf N hN v = n := by
  have hv := (scatterRowOf?_eq_some_iff v n).mp h
  have hn := n.isLt
  exact Fin.ext (by rw [gatherRowOf_val]; omega)

/-- The negative-index normalisation `select (v <ₛ 0) (v + c) v` leaves a word that is
non-negative as a signed integer unchanged. -/
theorem normalise_of_nonneg {w : Nat} (v c : BitVec w) (hv : 0 ≤ v.toInt) :
    Scalar.select (IntOp.cmpi .slt v 0#w) (IntOp.addi v c) v = v := by
  have hs : v.slt 0#w = false := by
    rw [BitVec.slt_eq_decide, BitVec.toInt_zero]
    exact decide_eq_false (by omega)
  have hc : IntOp.cmpi .slt v 0#w = 0#1 := by
    show BitVec.ofBool (v.slt 0#w) = 0#1
    rw [hs]; rfl
  rw [hc]
  exact select_zero _ _

/-- **The one arithmetic fact of the layer law.**  If the scatter lands the index word `v` in row
`n`, then the gather row of the normalised word `select (v <ₛ 0) (v + c) v` is `n`. -/
theorem gatherRowOf_normalise_of_scatterRowOf? {N w : Nat} (hN : 0 < N) (v c : BitVec w) (n : Fin N)
    (h : scatterRowOf? N v = some n) :
    gatherRowOf N hN (Scalar.select (IntOp.cmpi .slt v 0#w) (IntOp.addi v c) v) = n := by
  have hv := (scatterRowOf?_eq_some_iff v n).mp h
  rw [normalise_of_nonneg v c (by omega)]
  exact gatherRowOf_of_scatterRowOf? hN v n h

/-! ## Sums over a rank-1 index set -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## Gathers read at an index -/

section Gather
variable {α : Type}

/-- The dimension numbers of a row gather of a table `[N, C]` by a column `[M, 1]` of start
indices: offset axis `1`, collapsed axis `0`, start index map `[0]`, index vector axis `1`, slice
sizes `[1, C]`. -/
abbrev rowsGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of a gather of entries of a vector `[N]` by a column `[M, 1]` of start
indices: no offset axis, collapsed axis `0`, start index map `[0]`, index vector axis `1`, slice
size `[1]`. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem gather_rowsDims_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowsGatherDims N M C wf) x idx (ix2 e j)
      = x (ix2 (gatherRowOf N hN (idx (ix2 e (0 : Fin 1)))) j) := by
  unfold Host.gather
  congr 1
  funext a
  refine Fin.ext ?_
  have h10 : (1 : Fin 2) ∉ ([0] : List (Fin 2)) := by decide
  match a with
  | ⟨0, _⟩ =>
    show GatherDims.start (rowsGatherDims N M C wf) (ix2 e j) idx 0
      + GatherDims.batchCoord (rowsGatherDims N M C wf) (ix2 e j) 0
      + GatherDims.offCoord (rowsGatherDims N M C wf) (ix2 e j) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (rowsGatherDims N M C wf) (ix2 e j)
        ⟨List.idxOf (0 : Fin 2) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
    rfl
  | ⟨1, _⟩ =>
    show GatherDims.start (rowsGatherDims N M C wf) (ix2 e j) idx 1
      + GatherDims.batchCoord (rowsGatherDims N M C wf) (ix2 e j) 1
      + GatherDims.offCoord (rowsGatherDims N M C wf) (ix2 e j) 1 = j.val
    have hst : GatherDims.start (rowsGatherDims N M C wf) (ix2 e j) idx 1 = 0 := by
      unfold GatherDims.start
      exact dif_neg h10
    have hoff : GatherDims.offCoord (rowsGatherDims N M C wf) (ix2 e j) 1 = j.val := by
      unfold GatherDims.offCoord
      rw [dif_pos ((GatherDims.mem_sKept _ _).mpr ⟨h10, List.not_mem_nil⟩)]
      rfl
    rw [GatherDims.batchCoord_eq_zero _ _ _ List.not_mem_nil, hst, hoff]
    omega

/-- **A row gather of a table, read at `(e, j)`**: with offset axis `1`, collapsed axis `0`, start
index map `[0]`, index vector axis `1` and slice sizes `[1, C]`, element `(e, j)` of the result is
the table's element `(g, j)`, `g` the gather row of the start index `idx[e, 0]`. -/
theorem gather_rows_apply {N M C w : Nat} (hN : 0 < N)
    (d : GatherDims ⟨2, ![N, C]⟩ ⟨2, ![M, 1]⟩ ⟨2, ![M, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (j : Fin C) :
    Host.gather d x idx (ix2 e j) = x (ix2 (gatherRowOf N hN (idx (ix2 e (0 : Fin 1)))) j) := by
  obtain ⟨od, cs, ob, sb, sm, iv, ss, wf⟩ := d
  dsimp only at hod hcs hob hsb hsm hiv hss
  subst hod hcs hob hsb hsm hiv hss
  exact gather_rowsDims_apply hN wf x idx e j

theorem gather_flatDims_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (gatherRowOf N hN (idx (ix2 e (0 : Fin 1))))) := by
  unfold Host.gather
  congr 1
  funext a
  obtain rfl : a = 0 := Subsingleton.elim _ _
  refine Fin.ext ?_
  show GatherDims.start (flatGatherDims N M wf) (ix1 e) idx 0
    + GatherDims.batchCoord (flatGatherDims N M wf) (ix1 e) 0
    + GatherDims.offCoord (flatGatherDims N M wf) (ix1 e) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (List.mem_singleton.mpr rfl)]
  have hsi : GatherDims.siIdx (flatGatherDims N M wf) (ix1 e)
      ⟨List.idxOf (0 : Fin 1) [0], List.idxOf_lt_length_iff.2 (List.mem_singleton.mpr rfl)⟩
        = ix2 e (0 : Fin 1) := by
    funext b; refine Fin.ext ?_
    match b with
    | ⟨0, _⟩ => rfl
    | ⟨1, _⟩ => rfl
  rw [hsi]
  rfl

/-- **A gather of entries of a vector, read at `e`**: with no offset axis, collapsed axis `0`,
start index map `[0]`, index vector axis `1` and slice size `[1]`, element `e` of the result is the
vector's entry `g`, `g` the gather row of the start index `idx[e, 0]`. -/
theorem gather_flat_apply {N M w : Nat} (hN : 0 < N)
    (d : GatherDims ⟨1, ![N]⟩ ⟨2, ![M, 1]⟩ ⟨1, ![M]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![M, 1]⟩ w) (e : Fin M) :
    Host.gather d x idx (ix1 e) = x (ix1 (gatherRowOf N hN (idx (ix2 e (0 : Fin 1))))) := by
  obtain ⟨od, cs, ob, sb, sm, iv, ss, wf⟩ := d
  dsimp only at hod hcs hob hsb hsm hiv hss
  subst hod hcs hob hsb hsm hiv hss
  exact gather_flatDims_apply hN wf x idx e

end Gather

/-! ## Scatter-adds read at an index -/

section Scatter

/-- The dimension numbers of a scatter of update rows `[M, C]` into a table `[N, C]` by a column
`[M, 1]` of indices: update window axis `1`, inserted window axis `0`, scatter axis to operand
axis `[0]`, index vector axis `1`. -/
abbrev rowsScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The dimension numbers of a scatter of update entries `[M]` into a vector `[N]` by a column
`[M, 1]` of indices: no update window axis, inserted window axis `0`, scatter axis to operand
axis `[0]`, index vector axis `1`. -/
abbrev flatScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update `(e, c)` of a row scatter lands: in row `scatterRowOf? (idx[e, 0])`, column `c`. -/
theorem resultIdx?_rowsDims {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) :
    (rowsScatterDims N M C wf).resultIdx? (ix2 e c) idx
      = (scatterRowOf? N (idx (ix2 e (0 : Fin 1)))).map (fun r => ix2 r c) := by
  have h10 : (1 : Fin 2) ∉ ([0] : List (Fin 2)) := by decide
  have hs0 : (rowsScatterDims N M C wf).start (ix2 e c) idx 0 = (idx (ix2 e (0 : Fin 1))).toInt := by
    unfold ScatterDims.start
    rw [dif_pos (List.mem_singleton.mpr rfl)]
    have hsi : ScatterDims.siIdx (rowsScatterDims N M C wf) (ix2 e c)
        ⟨List.idxOf (0 : Fin 2) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
  have hs1 : (rowsScatterDims N M C wf).start (ix2 e c) idx 1 = 0 := by
    unfold ScatterDims.start
    exact dif_neg h10
  have hk0 : (0 : Fin 2) ∉ (rowsScatterDims N M C wf).sKept := fun h => by
    have := (List.mem_filter.mp h).2
    simp at this
  have hk1 : (1 : Fin 2) ∈ (rowsScatterDims N M C wf).sKept :=
    List.mem_filter.mpr ⟨List.mem_finRange _, by simp⟩
  have hw0 : (rowsScatterDims N M C wf).window (ix2 e c) 0 = 0 := by
    unfold ScatterDims.window
    exact dif_neg hk0
  have hw1 : (rowsScatterDims N M C wf).window (ix2 e c) 1 = c.val := by
    unfold ScatterDims.window
    rw [dif_pos hk1]
    rfl
  unfold ScatterDims.resultIdx?
  split
  · rename_i h
    have h0 := h 0
    rw [hs0, hw0] at h0
    have hv : 0 ≤ (idx (ix2 e (0 : Fin 1))).toInt ∧ (idx (ix2 e (0 : Fin 1))).toInt < (N : Int) := by
      have hsz : ((⟨2, ![N, C]⟩ : Shape).size 0 : Nat) = N := rfl
      rw [hsz] at h0
      simpa using h0
    have hrow : scatterRowOf? N (idx (ix2 e (0 : Fin 1)))
        = some ⟨(idx (ix2 e (0 : Fin 1))).toInt.toNat, by omega⟩ := by
      unfold scatterRowOf?; rw [dif_pos hv]
    rw [hrow, Option.map_some]
    congr 1
    funext a; refine Fin.ext ?_
    match a with
    | ⟨0, _⟩ =>
      show ((rowsScatterDims N M C wf).start (ix2 e c) idx 0
        + ((rowsScatterDims N M C wf).window (ix2 e c) 0 : Int)).toNat = (idx (ix2 e (0 : Fin 1))).toInt.toNat
      rw [hs0, hw0]; simp
    | ⟨1, _⟩ =>
      show ((rowsScatterDims N M C wf).start (ix2 e c) idx 1
        + ((rowsScatterDims N M C wf).window (ix2 e c) 1 : Int)).toNat = c.val
      rw [hs1, hw1]; simp
  · rename_i h
    have hv : ¬ (0 ≤ (idx (ix2 e (0 : Fin 1))).toInt ∧ (idx (ix2 e (0 : Fin 1))).toInt < (N : Int)) := by
      intro hv
      apply h
      intro a
      match a with
      | ⟨0, _⟩ =>
        show 0 ≤ (rowsScatterDims N M C wf).start (ix2 e c) idx 0
            + ((rowsScatterDims N M C wf).window (ix2 e c) 0 : Int)
          ∧ (rowsScatterDims N M C wf).start (ix2 e c) idx 0
            + ((rowsScatterDims N M C wf).window (ix2 e c) 0 : Int) < (N : Int)
        rw [hs0, hw0]; simpa using hv
      | ⟨1, _⟩ =>
        show 0 ≤ (rowsScatterDims N M C wf).start (ix2 e c) idx 1
            + ((rowsScatterDims N M C wf).window (ix2 e c) 1 : Int)
          ∧ (rowsScatterDims N M C wf).start (ix2 e c) idx 1
            + ((rowsScatterDims N M C wf).window (ix2 e c) 1 : Int) < (C : Int)
        rw [hs1, hw1]; have := c.isLt; omega
    have hrow : scatterRowOf? N (idx (ix2 e (0 : Fin 1))) = none := by
      unfold scatterRowOf?; rw [dif_neg hv]
    rw [hrow]; rfl

/-- Update `(e, c)` of a row scatter lands at `(n, j)` exactly when `e`'s row is `n` and `c = j`. -/
theorem resultIdx?_rowsDims_eq_some_iff {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (j : Fin C) :
    (rowsScatterDims N M C wf).resultIdx? (ix2 e c) idx = some (ix2 n j)
      ↔ scatterRowOf? N (idx (ix2 e (0 : Fin 1))) = some n ∧ c = j := by
  rw [resultIdx?_rowsDims]
  cases hr : scatterRowOf? N (idx (ix2 e (0 : Fin 1))) with
  | none => simp
  | some r =>
    rw [Option.map_some]
    constructor
    · intro h
      have h' := Option.some.inj h
      have e0 : r = n := congrFun h' 0
      have e1 : c = j := congrFun h' 1
      exact ⟨by rw [e0], e1⟩
    · rintro ⟨h1, h2⟩
      rw [Option.some.inj h1, h2]

/-- The extended-real scatter-add of update rows, for the literal record, read at `(n, j)`. -/
theorem hostScatterAdd_rowsDims_apply {N M C w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (j : Fin C) :
    Ideal.hostScatterAdd (rowsScatterDims N M C wf) x idx upd (ix2 n j)
      = x (ix2 n j) + ∑ e ∈ Finset.univ.filter
          (fun e : Fin M => scatterRowOf? N (idx (ix2 e (0 : Fin 1))) = some n), upd (ix2 e j) := by
  unfold Ideal.hostScatterAdd
  congr 1
  rw [Finset.sum_filter, sum_idx2, Finset.sum_filter]
  refine Finset.sum_congr rfl (fun e _ => ?_)
  by_cases hr : scatterRowOf? N (idx (ix2 e (0 : Fin 1))) = some n
  · rw [if_pos hr, Finset.sum_eq_single j]
    · rw [if_pos ((resultIdx?_rowsDims_eq_some_iff wf idx e j n j).mpr ⟨hr, rfl⟩)]
    · intro b _ hb
      rw [if_neg (fun h => hb ((resultIdx?_rowsDims_eq_some_iff wf idx e b n j).mp h).2)]
    · intro h; exact absurd (Finset.mem_univ j) h
  · rw [if_neg hr]
    exact Finset.sum_eq_zero (fun b _ =>
      if_neg (fun h => hr ((resultIdx?_rowsDims_eq_some_iff wf idx e b n j).mp h).1))

/-- **A scatter-add of update rows into a table, on the extended reals, read at `(n, j)`**: with
update window axis `1`, inserted window axis `0`, scatter axis to operand axis `[0]` and index vector
axis `1`, element `(n, j)` of the result is the operand's element `(n, j)` plus the sum of the
updates' elements `(e, j)` over the rows `e` whose index `idx[e, 0]`, read signed, is `n`. -/
theorem scatterAdd_rows_apply {N M C w : Nat} {φ : FTy}
    (d : ScatterDims ⟨2, ![N, C]⟩ ⟨2, ![M, 1]⟩ ⟨2, ![M, C]⟩)
    (huw : d.updateWindowDims = [1]) (hiw : d.insertedWindowDims = [0])
    (hsd : d.scatterDimsToOperandDims = [0]) (hiv : d.indexVectorDim = 1)
    (x : FVec Ideal ⟨2, ![N, C]⟩ φ) (idx : IVec ⟨2, ![M, 1]⟩ w) (upd : FVec Ideal ⟨2, ![M, C]⟩ φ)
    (n : Fin N) (j : Fin C) :
    Host.scatterAdd (F := Ideal) d x idx upd (ix2 n j)
      = x (ix2 n j) + ∑ e ∈ Finset.univ.filter
          (fun e : Fin M => scatterRowOf? N (idx (ix2 e (0 : Fin 1))) = some n), upd (ix2 e j) := by
  obtain ⟨uw, iw, sd, iv, wf⟩ := d
  dsimp only at huw hiw hsd hiv
  subst huw hiw hsd hiv
  exact hostScatterAdd_rowsDims_apply wf x idx upd n j

/-- Where update `e` of an entry scatter lands: at entry `scatterRowOf? (idx[e, 0])`. -/
theorem resultIdx?_flatDims {N M w : Nat}
    (wf : ScatterDims.WF ⟨1, ![N]⟩ ⟨2, ![M, 1]⟩ ⟨1, ![M]⟩ [] [0] [0] 1)
    (idx : IVec ⟨2, ![M, 1]⟩ w) (e : Fin M) :
    (flatScatterDims N M wf).resultIdx? (ix1 e) idx
      = (scatterRowOf? N (idx (ix2 e (0 : Fin 1)))).map (fun r => ix1 r) := by
  have hs0 : (flatScatterDims N M wf).start (ix1 e) idx 0 = (idx (ix2 e (0 : Fin 1))).toInt := by
    unfold ScatterDims.start
    rw [dif_pos (List.mem_singleton.mpr rfl)]
    have hsi : ScatterDims.siIdx (flatScatterDims N M wf) (ix1 e)
        ⟨List.idxOf (0 : Fin 1) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
  have hk0 : (0 : Fin 1) ∉ (flatScatterDims N M wf).sKept := fun h => by
    have := (List.mem_filter.mp h).2
    simp at this
  have hw0 : (flatScatterDims N M wf).window (ix1 e) 0 = 0 := by
    unfold ScatterDims.window
    exact dif_neg hk0
  unfold ScatterDims.resultIdx?
  split
  · rename_i h
    have h0 := h 0
    rw [hs0, hw0] at h0
    have hv : 0 ≤ (idx (ix2 e (0 : Fin 1))).toInt ∧ (idx (ix2 e (0 : Fin 1))).toInt < (N : Int) := by
      have hsz : ((⟨1, ![N]⟩ : Shape).size 0 : Nat) = N := rfl
      rw [hsz] at h0
      simpa using h0
    have hrow : scatterRowOf? N (idx (ix2 e (0 : Fin 1)))
        = some ⟨(idx (ix2 e (0 : Fin 1))).toInt.toNat, by omega⟩ := by
      unfold scatterRowOf?; rw [dif_pos hv]
    rw [hrow, Option.map_some]
    congr 1
    funext a
    obtain rfl : a = 0 := Subsingleton.elim _ _
    refine Fin.ext ?_
    show ((flatScatterDims N M wf).start (ix1 e) idx 0
      + ((flatScatterDims N M wf).window (ix1 e) 0 : Int)).toNat = (idx (ix2 e (0 : Fin 1))).toInt.toNat
    rw [hs0, hw0]; simp
  · rename_i h
    have hv : ¬ (0 ≤ (idx (ix2 e (0 : Fin 1))).toInt ∧ (idx (ix2 e (0 : Fin 1))).toInt < (N : Int)) := by
      intro hv
      apply h
      intro a
      obtain rfl : a = 0 := Subsingleton.elim _ _
      show 0 ≤ (flatScatterDims N M wf).start (ix1 e) idx 0
          + ((flatScatterDims N M wf).window (ix1 e) 0 : Int)
        ∧ (flatScatterDims N M wf).start (ix1 e) idx 0
          + ((flatScatterDims N M wf).window (ix1 e) 0 : Int) < (N : Int)
      rw [hs0, hw0]; simpa using hv
    have hrow : scatterRowOf? N (idx (ix2 e (0 : Fin 1))) = none := by
      unfold scatterRowOf?; rw [dif_neg hv]
    rw [hrow]; rfl

/-- Update `e` of an entry scatter lands at `n` exactly when `e`'s row is `n`. -/
theorem resultIdx?_flatDims_eq_some_iff {N M w : Nat}
    (wf : ScatterDims.WF ⟨1, ![N]⟩ ⟨2, ![M, 1]⟩ ⟨1, ![M]⟩ [] [0] [0] 1)
    (idx : IVec ⟨2, ![M, 1]⟩ w) (e : Fin M) (n : Fin N) :
    (flatScatterDims N M wf).resultIdx? (ix1 e) idx = some (ix1 n)
      ↔ scatterRowOf? N (idx (ix2 e (0 : Fin 1))) = some n := by
  rw [resultIdx?_flatDims]
  cases hr : scatterRowOf? N (idx (ix2 e (0 : Fin 1))) with
  | none => simp
  | some r =>
    rw [Option.map_some]
    constructor
    · intro h
      have e0 : r = n := congrFun (Option.some.inj h) 0
      rw [e0]
    · intro h
      rw [Option.some.inj h]

/-- The extended-real scatter-add of update entries, for the literal record, read at `n`. -/
theorem hostScatterAdd_flatDims_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (flatScatterDims N M wf) x idx upd (ix1 n)
      = x (ix1 n) + ∑ e ∈ Finset.univ.filter
          (fun e : Fin M => scatterRowOf? N (idx (ix2 e (0 : Fin 1))) = some n), upd (ix1 e) := by
  unfold Ideal.hostScatterAdd
  congr 1
  rw [Finset.sum_filter, sum_idx1, Finset.sum_filter]
  refine Finset.sum_congr rfl (fun e _ => ?_)
  by_cases hr : scatterRowOf? N (idx (ix2 e (0 : Fin 1))) = some n
  · rw [if_pos hr, if_pos ((resultIdx?_flatDims_eq_some_iff wf idx e n).mpr hr)]
  · rw [if_neg hr, if_neg (fun h => hr ((resultIdx?_flatDims_eq_some_iff wf idx e n).mp h))]

/-- **A scatter-add of update entries into a vector, on the extended reals, read at `n`**: with
no update window axis, inserted window axis `0`, scatter axis to operand axis `[0]` and index
vector axis `1`, entry `n` of the result is the operand's entry `n` plus the sum of the updates'
entries `e` over the `e` whose index `idx[e, 0]`, read signed, is `n`. -/
theorem scatterAdd_flat_apply {N M w : Nat} {φ : FTy}
    (d : ScatterDims ⟨1, ![N]⟩ ⟨2, ![M, 1]⟩ ⟨1, ![M]⟩)
    (huw : d.updateWindowDims = []) (hiw : d.insertedWindowDims = [0])
    (hsd : d.scatterDimsToOperandDims = [0]) (hiv : d.indexVectorDim = 1)
    (x : FVec Ideal ⟨1, ![N]⟩ φ) (idx : IVec ⟨2, ![M, 1]⟩ w) (upd : FVec Ideal ⟨1, ![M]⟩ φ)
    (n : Fin N) :
    Host.scatterAdd (F := Ideal) d x idx upd (ix1 n)
      = x (ix1 n) + ∑ e ∈ Finset.univ.filter
          (fun e : Fin M => scatterRowOf? N (idx (ix2 e (0 : Fin 1))) = some n), upd (ix1 e) := by
  obtain ⟨uw, iw, sd, iv, wf⟩ := d
  dsimp only at huw hiw hsd hiv
  subst huw hiw hsd hiv
  exact hostScatterAdd_flatDims_apply wf x idx upd n

end Scatter

end LibGatherScatterRead

end
-- ==== Proof.LibWeightedMix.lean ====
import Mathlib.Data.EReal.Inv
import Mathlib.Algebra.BigOperators.Group.Finset.Basic
import Mathlib.Algebra.BigOperators.Ring.Finset
import Mathlib.Tactic.Ring

/-!
# A weighted mix under a finite sum, in the extended reals

For real families `f A B C : K → ℝ` over a finite index type and real weights `w₀ w₁ w₂`, read in the
extended reals,

  `∑ k, f k * ((w₀ * A k + w₁ * B k) + w₂ * C k) = ((w₀ * ∑ k, f k * A k) + w₁ * ∑ k, f k * B k) + w₂ * ∑ k, f k * C k`:

contracting against a weighted mix of three families is the weighted mix of the three contractions. The
extended reals are not a ring (addition and multiplication do not distribute at the infinities), so the law
is proved for real entries: the coercion `ℝ → EReal` is pushed out of every product and sum, and the
identity is then distributivity in `ℝ`.

* `coe_finset_sum`: the coercion commutes with a finite sum.
* `sum_mul_mix`: the law for families given as real functions.
* `sum_mul_mix_of_real`: the law for extended-real families each of whose entries is a real number.
* `exists_real_add`, `exists_real_mul`, `exists_real_sum`, `exists_real_sum_mul`: sums, products and finite sums
  (of products) of real numbers are real numbers.
-/

namespace LibWeightedMix

open scoped BigOperators

variable {K : Type*}

/-- The coercion of the reals into the extended reals commutes with a finite sum. -/
theorem coe_finset_sum (s : Finset K) (f : K → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The sum of two real numbers is a real number. -/
theorem exists_real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- The product of two real numbers is a real number. -/
theorem exists_real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of real numbers is a real number. -/
theorem exists_real_sum (s : Finset K) (g : K → EReal) (hg : ∀ k, ∃ r : ℝ, g k = (r : EReal)) :
    ∃ r : ℝ, ∑ k ∈ s, g k = (r : EReal) := by
  choose g' hg' using hg
  exact ⟨∑ k ∈ s, g' k, by simp only [hg', coe_finset_sum]⟩

/-- A finite sum of products of real numbers is a real number. -/
theorem exists_real_sum_mul (s : Finset K) (f A : K → EReal) (hf : ∀ k, ∃ r : ℝ, f k = (r : EReal))
    (hA : ∀ k, ∃ r : ℝ, A k = (r : EReal)) : ∃ r : ℝ, ∑ k ∈ s, f k * A k = (r : EReal) :=
  exists_real_sum s _ fun k => exists_real_mul (hf k) (hA k)

variable [Fintype K]

/-- Contracting against a weighted mix of three real families is the weighted mix of the three contractions. -/
theorem sum_mul_mix (f A B C : K → ℝ) (w0 w1 w2 : ℝ) :
    ∑ k, (f k : EReal) * (((w0 : EReal) * (A k : EReal) + (w1 : EReal) * (B k : EReal)) + (w2 : EReal) * (C k : EReal))
      = (((w0 : EReal) * ∑ k, (f k : EReal) * (A k : EReal)) + (w1 : EReal) * ∑ k, (f k : EReal) * (B k : EReal))
          + (w2 : EReal) * ∑ k, (f k : EReal) * (C k : EReal) := by
  simp only [← EReal.coe_mul, ← EReal.coe_add, ← coe_finset_sum]
  congr 1
  simp only [Finset.mul_sum, ← Finset.sum_add_distrib]
  exact Finset.sum_congr rfl fun k _ => by ring

/-- The same law for extended-real families and weights each of which is a real number. -/
theorem sum_mul_mix_of_real (f A B C : K → EReal) (w0 w1 w2 : EReal)
    (hf : ∀ k, ∃ r : ℝ, f k = (r : EReal)) (hA : ∀ k, ∃ r : ℝ, A k = (r : EReal))
    (hB : ∀ k, ∃ r : ℝ, B k = (r : EReal)) (hC : ∀ k, ∃ r : ℝ, C k = (r : EReal))
    (h0 : ∃ r : ℝ, w0 = (r : EReal)) (h1 : ∃ r : ℝ, w1 = (r : EReal)) (h2 : ∃ r : ℝ, w2 = (r : EReal)) :
    ∑ k, f k * ((w0 * A k + w1 * B k) + w2 * C k)
      = ((w0 * ∑ k, f k * A k) + w1 * ∑ k, f k * B k) + w2 * ∑ k, f k * C k := by
  choose f' hf' using hf
  choose A' hA' using hA
  choose B' hB' using hB
  choose C' hC' using hC
  obtain ⟨r0, rfl⟩ := h0
  obtain ⟨r1, rfl⟩ := h1
  obtain ⟨r2, rfl⟩ := h2
  simp only [hf', hA', hB', hC']
  exact sum_mul_mix f' A' B' C' r0 r1 r2

end LibWeightedMix
-- ==== Proof.LibRealArrays.lean ====
/-
# Arrays of extended reals whose entries are real numbers

On the extended reals a float input that passes the test |v| < +∞ is a real number, and real entries stay real through
the host operations a gather–scatter aggregation is made of.

* `IsReal v` — every entry of the array `v` is (the coercion of) a real number.
* `real_of_abs_lt_top` — an extended real whose absolute value is below +∞ is a real number; `inf_word` — the f32 word
  0x7F800000 denotes +∞.
* `isReal_of_all` — the printed form of `jnp.all(|x| < inf)` (a reduce by `and` of the comparison against the
  broadcast +∞ word, equal to 1) gives `IsReal x`, at any shape and any list of reduced axes.
* `isReal_broadcastInDim`, `isReal_zero`, `isReal_one` — a broadcast re-indexes; the splats of 0.0 and 1.0 are real.
* `isReal_gather_rows` — a row gather of a real table is real; `isReal_scatterAdd_rows` — a scatter-add of real rows
  into a real table is real (each entry gains a finite sum of entries).
* `max_one_real` — the maximum of a real array with an array of ones is real and at least 1;
  `isReal_div` — a real array divided by a real array whose entries are at least 1 is real (the quotient is then
  the product with a real inverse, never the division's corner at zero).
-/
import proofs.«116373_g1589137899740_cont_week2b_1182_8_alg».proof.Proof.LibGatherScatterRead
import proofs.«116373_g1589137899740_cont_week2b_1182_8_alg».proof.Proof.LibWeightedMix
import Idealize.ShloMosaic.Lib.ReduceAll
import Idealize.ShloMosaic.PureOps.Ideal.Laws
import Idealize.ShloMosaic.Lib.ValueIdx
import Mathlib.Tactic.Linarith

noncomputable section

namespace LibRealArrays

open Idealize.ShloMosaic Idealize.ShloMosaic.ValueIdx
open scoped BigOperators

/-- Every entry of the array is a real number. -/
def IsReal {s : Shape} (v : s.Idx → EReal) : Prop := ∀ i, ∃ r : ℝ, v i = (r : EReal)

/-! ## From an all-finite test -/

/-- A rank-0 array has one index. -/
instance : Subsingleton (⟨0, ![]⟩ : Shape).Idx := ⟨fun _ _ => funext fun d => d.elim0⟩

/-- The word 0x7F800000 denotes +∞. -/
theorem inf_word : Ideal.ofBits .f32 0x7F800000#32 = ⊤ := by simp [Ideal.ofBits, Ideal.ieee]

/-- The zero word denotes 0. -/
theorem zero_word : Ideal.ofBits .f32 0x00000000#32 = ((0 : ℝ) : EReal) := by simp [Ideal.ofBits, Ideal.ieee]

/-- The word 0x3F800000 denotes 1. -/
theorem one_word : Ideal.ofBits .f32 0x3F800000#32 = ((1 : ℝ) : EReal) := by
  simp [Ideal.ofBits, Ideal.ieee, -EReal.coe_mul]; norm_num

/-- An extended real whose absolute value is below +∞ is a real number. -/
theorem real_of_abs_lt_top (v : EReal) (h : max v (-v) < ⊤) : ∃ r : ℝ, v = (r : EReal) := by
  induction v using EReal.rec with
  | bot => simp at h
  | coe r => exact ⟨r, rfl⟩
  | top => simp at h

/-- An array all of whose entries pass |v| < +∞ has real entries. -/
theorem isReal_of_all {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (h : Host.reduce IntOp.andi (cmpf .olt (Host.absf x)
        (broadcastInDim s ![] hb (constant (F := Ideal) ⟨0, ![]⟩ .f32 0x7F800000#32))) (constantI ⟨0, ![]⟩ 1 1#1) hr hu ix0 = 1#1) :
    IsReal x := fun i => by
  have hi := Host.reduce_andi_all _ _ hr hu _ h i
  simp only [cmpf, Host.absf, broadcastInDim, constant, Ideal.cmpf_def, Ideal.hostAbsf_def, Ideal.absf_def,
    Ideal.ofBits_def, inf_word] at hi
  refine real_of_abs_lt_top _ ?_
  by_contra hlt
  have h0 : Ideal.cmp CmpFPredicate.olt (max (x i) (-x i)) ⊤ = 0#1 := by
    show BitVec.ofBool (decide (max (x i) (-x i) < ⊤)) = 0#1
    rw [decide_eq_false hlt]; rfl
  rw [h0] at hi
  exact absurd hi (by decide)

/-! ## Real entries are preserved -/

/-- A broadcast re-indexes its operand. -/
theorem isReal_broadcastInDim {s t : Shape} (dims : Fin s.rank → Fin t.rank) (h : s.BroadcastsInDim t dims)
    (x : s.Idx → EReal) (hx : IsReal x) : IsReal (broadcastInDim t dims h x) := fun _ => hx _

/-- A splat of the zero word. -/
theorem isReal_zero (s : Shape) : IsReal (constant (F := Ideal) s .f32 0x00000000#32) := fun _ =>
  ⟨0, by show Ideal.ofBits .f32 0x00000000#32 = _; exact zero_word⟩

/-- A splat of the word of 1.0. -/
theorem isReal_one (s : Shape) : IsReal (constant (F := Ideal) s .f32 0x3F800000#32) := fun _ =>
  ⟨1, by show Ideal.ofBits .f32 0x3F800000#32 = _; exact one_word⟩

/-- A row gather re-reads rows of its table. -/
theorem isReal_gather_rows {N M C w : Nat} (hN : 0 < N)
    (d : GatherDims ⟨2, ![N, C]⟩ ⟨2, ![M, 1]⟩ ⟨2, ![M, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → EReal) (idx : IVec ⟨2, ![M, 1]⟩ w) (hx : IsReal x) :
    IsReal (Host.gather d x idx) := fun i => by
  obtain ⟨e, j, rfl⟩ : ∃ (e : Fin M) (j : Fin C), i = ix2 e j := ⟨i 0, i 1, eq_ix2 i⟩
  rw [LibGatherScatterRead.gather_rows_apply hN d hod hcs hob hsb hsm hiv hss]
  exact hx _

/-- A scatter-add of real rows into a real table is a real table: each entry gains a finite sum of entries. -/
theorem isReal_scatterAdd_rows {N M C w : Nat}
    (d : ScatterDims ⟨2, ![N, C]⟩ ⟨2, ![M, 1]⟩ ⟨2, ![M, C]⟩)
    (huw : d.updateWindowDims = [1]) (hiw : d.insertedWindowDims = [0])
    (hsd : d.scatterDimsToOperandDims = [0]) (hiv : d.indexVectorDim = 1)
    (x : FVec Ideal ⟨2, ![N, C]⟩ .f32) (idx : IVec ⟨2, ![M, 1]⟩ w) (upd : FVec Ideal ⟨2, ![M, C]⟩ .f32)
    (hx : IsReal x) (hu : IsReal upd) : IsReal (Host.scatterAdd (F := Ideal) d x idx upd) := fun i => by
  obtain ⟨n, j, rfl⟩ : ∃ (n : Fin N) (j : Fin C), i = ix2 n j := ⟨i 0, i 1, eq_ix2 i⟩
  rw [LibGatherScatterRead.scatterAdd_rows_apply d huw hiw hsd hiv]
  exact LibWeightedMix.exists_real_add (hx _) (LibWeightedMix.exists_real_sum _ _ fun e => hu _)

/-- The maximum of a real array with an array of ones: real, and at least 1. -/
theorem max_one_real {s : Shape} (c one : FVec Ideal s .f32) (hc : IsReal c) (h1 : ∀ i, one i = ((1 : ℝ) : EReal)) (i : s.Idx) :
    ∃ r : ℝ, maximumf (F := Ideal) c one i = (r : EReal) ∧ 1 ≤ r := by
  obtain ⟨cr, hcr⟩ := hc i
  refine ⟨max cr 1, ?_, le_max_right _ _⟩
  show max (c i) (one i) = _
  rw [hcr, h1]
  exact (EReal.coe_strictMono.monotone.map_max).symm

/-- Dividing a real array by a real array whose entries are at least 1 gives a real array. -/
theorem isReal_div {s : Shape} (a b : FVec Ideal s .f32) (ha : IsReal a)
    (hb : ∀ i, ∃ r : ℝ, b i = (r : EReal) ∧ 1 ≤ r) : IsReal (Host.divf (F := Ideal) a b) := fun i => by
  obtain ⟨ar, har⟩ := ha i
  obtain ⟨br, hbr, hb1⟩ := hb i
  refine ⟨ar * (1 / br), ?_⟩
  show Ideal.div (a i) (b i) = _
  rw [har, hbr, Ideal.div_coe (by linarith : br ≠ 0), ← EReal.coe_mul]

end LibRealArrays

end
-- ==== Proof.KFinite.lean ====
/-
  From the finiteness precondition to real matrices.

  The precondition is the conjunction of nine tests, one per argument array: "every entry `v` of the array satisfies
  `|v| < +∞`", each computed as the reduction by `and`, from the constant 1, of the entrywise comparison of `|v|`
  against the broadcast of the f32 word of +∞, and the nine results combined by `and`.

  * A conjunction of bits is 1 exactly when both bits are 1, so when the whole precondition is 1 each of the nine
    reductions is 1.
  * A reduction by `and` over all axes that is 1 met a 1 at every index, so every entry of every argument passes
    `|v| < +∞`; on the extended reals, where `|v| = max v (-v)`, that excludes `+∞` and `-∞`, and what remains is a
    real number.
  * An array all of whose entries are real is the entrywise coercion of the real matrix (or vector) of its entries.

  So the nine argument arrays are `toE` / `toE1` of real matrices and vectors.  Nothing here looks at any particular
  index: the argument is the same for a 2 × 5 array and for a 10000 × 10000 one.
-/
import proofs.«116373_g1589137899740_cont_week2b_1182_8_alg».proof.Pre_finite_inputs
import proofs.«116373_g1589137899740_cont_week2b_1182_8_alg».proof.Proof.Gen.Pre_finite_inputs
import proofs.«116373_g1589137899740_cont_week2b_1182_8_alg».proof.Proof.LibRealArrays
import proofs.«116373_g1589137899740_cont_week2b_1182_8_alg».proof.Proof.BernTransport

noncomputable section

namespace Cert.KernelIdeal.KFin

open Matrix Idealize.ShloMosaic Idealize.ShloMosaic.ValueIdx Cert.Pre_finite_inputs LibRealArrays

/-- If the nine all-finite tests of the precondition come out true, the nine argument arrays are the coercions of real
    matrices and vectors. -/
theorem real_args [Cert.Pre_finite_inputs.Facts] (a0 : FVec Ideal S10000x256 .f32) (a1 : FVec Ideal S10000x10000 .f32)
    (a2 : FVec Ideal S256x128 .f32) (a3 : FVec Ideal S128 .f32) (a4 : FVec Ideal S128x128 .f32) (a5 : FVec Ideal S128 .f32)
    (a6 : FVec Ideal S2x5 .f32) (a7 : FVec Ideal S128x40 .f32) (a8 : FVec Ideal S40 .f32)
    (h : Cert.Pre_finite_inputs.fn (F := Ideal) a0 a1 a2 a3 a4 a5 a6 a7 a8 = fun _ => 1#1) :
    ∃ (x : Matrix (Fin 10000) (Fin 256) ℝ) (L : Matrix (Fin 10000) (Fin 10000) ℝ) (W1 : Matrix (Fin 256) (Fin 128) ℝ)
      (b1 : Fin 128 → ℝ) (W2 : Matrix (Fin 128) (Fin 128) ℝ) (b2 : Fin 128 → ℝ) (θ : Matrix (Fin 2) (Fin 5) ℝ)
      (W3 : Matrix (Fin 128) (Fin 40) ℝ) (b3 : Fin 40 → ℝ),
      a0 = Bern.toE x ∧ a1 = Bern.toE L ∧ a2 = Bern.toE W1 ∧ a3 = Bern.toE1 b1 ∧ a4 = Bern.toE W2 ∧ a5 = Bern.toE1 b2
        ∧ a6 = Bern.toE θ ∧ a7 = Bern.toE W3 ∧ a8 = Bern.toE1 b3 := by
  have h0 := congrFun h ix0
  dsimp only [Cert.Pre_finite_inputs.fn, Cert.Pre_finite_inputs.fn_part1, Cert.Pre_finite_inputs.fn_part2,
    Idealize.ShloMosaic.andi] at h0
  obtain ⟨h0, r8⟩ := IntOp.andi_eq_one.1 h0
  obtain ⟨h0, r7⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨h0, r3⟩ := IntOp.andi_eq_one.1 h0
  obtain ⟨h0, r2⟩ := IntOp.andi_eq_one.1 h0
  obtain ⟨r0, r1⟩ := IntOp.andi_eq_one.1 h0
  obtain ⟨x, hx⟩ := Bern.exists_toE a0 (isReal_of_all a0 _ _ _ r0)
  obtain ⟨L, hL⟩ := Bern.exists_toE a1 (isReal_of_all a1 _ _ _ r1)
  obtain ⟨W1, hW1⟩ := Bern.exists_toE a2 (isReal_of_all a2 _ _ _ r2)
  obtain ⟨b1, hb1⟩ := Bern.exists_toE1 a3 (isReal_of_all a3 _ _ _ r3)
  obtain ⟨W2, hW2⟩ := Bern.exists_toE a4 (isReal_of_all a4 _ _ _ r4)
  obtain ⟨b2, hb2⟩ := Bern.exists_toE1 a5 (isReal_of_all a5 _ _ _ r5)
  obtain ⟨θ, hθ⟩ := Bern.exists_toE a6 (isReal_of_all a6 _ _ _ r6)
  obtain ⟨W3, hW3⟩ := Bern.exists_toE a7 (isReal_of_all a7 _ _ _ r7)
  obtain ⟨b3, hb3⟩ := Bern.exists_toE1 a8 (isReal_of_all a8 _ _ _ r8)
  exact ⟨x, L, W1, b1, W2, b2, θ, W3, b3, hx, hL, hW1, hb1, hW2, hb2, hθ, hW3, hb3⟩

end Cert.KernelIdeal.KFin

end
-- ==== Proof.RefBridgeRun.lean ====
/-
  The reference's run on real inputs: its result is the network with Bernstein-form layers.

  The generated run gives the result array as one composed term of the argument arrays, with the arrays used more
  than once named: the perceptron's output, the two rows of coefficients, and the iterates `u ↦ 2·u - L u` of each
  layer. With every argument the coercion of a real matrix or vector, each named array is the coercion of the
  matching real matrix, bottom-up:

    perceptron output            = mlp x W1 b1 W2 b2                         (`res_v9`)
    coefficient rows             = θ 0, θ 1                                  (`res_v11`, `res_v70`)
    iterates of the first layer  = bstep L applied 1, 2, 3 times             (`res_v15`, `res_v19`, `res_v23`)
    first layer                  = bernLayer L (mlp …) (θ 0)                 (`res_v68`)
    iterates of the second layer = bstep L applied 1, 2, 3 times to it       (`res_v74`, `res_v78`, `res_v82`)

  and the result is the second layer, times W3, plus the bias rows: `netBern`.
-/
import proofs.«116373_g1589137899740_cont_week2b_1182_8_alg».proof.Proof.Gen.ReferenceIdeal.Run
import proofs.«116373_g1589137899740_cont_week2b_1182_8_alg».proof.Proof.RefBridge

noncomputable section

namespace Cert.ReferenceIdeal.RefValue

open Matrix Idealize.ShloMosaic Idealize.ShloMosaic.ValueIdx Idealize.ShloMosaic.TcCoe Idealize.SL.Sem
  Idealize.ShloMosaic.StableHlo Cert.Rgcn Bern
open Cert.ReferenceIdeal Cert.ReferenceIdeal.Gen Cert.ReferenceIdeal.Value

/-! ## The program's four products are ordinary matrix products -/

theorem isProduct_in : IsProduct dot_S10000x256_S256x128_S10000x128_1_0_0_1_n_n :=
  isProduct_of _ rfl rfl rfl rfl rfl rfl rfl rfl

theorem isProduct_hid : IsProduct dot_S10000x128_S128x128_S10000x128_1_0_0_1_n_n :=
  isProduct_of _ rfl rfl rfl rfl rfl rfl rfl rfl

theorem isProduct_L : IsProduct dot_S10000x10000_S10000x128_S10000x128_1_0_0_1_n_n :=
  isProduct_of _ rfl rfl rfl rfl rfl rfl rfl rfl

theorem isProduct_out : IsProduct dot_S10000x128_S128x40_S10000x40_1_0_0_1_n_n :=
  isProduct_of _ rfl rfl rfl rfl rfl rfl rfl rfl

/-! ## The named arrays -/

section Named
variable (V0 : Valuation τ sig (Elt Ideal))

/-- The perceptron's output. -/
theorem res_v9 (x : Matrix (Fin 10000) (Fin 256) ℝ) (W1 : Matrix (Fin 256) (Fin 128) ℝ) (b1 : Fin 128 → ℝ)
    (W2 : Matrix (Fin 128) (Fin 128) ℝ) (b2 : Fin 128 → ℝ)
    (h0 : V0 (Proc.devRef .tc main_arg0) = toE x) (h2 : V0 (Proc.devRef .tc main_arg2) = toE W1)
    (h3 : V0 (Proc.devRef .tc main_arg3) = toE1 b1) (h4 : V0 (Proc.devRef .tc main_arg4) = toE W2)
    (h5 : V0 (Proc.devRef .tc main_arg5) = toE1 b2) :
    res_main_v9 V0 = toE (mlp x W1 b1 W2 b2) := by
  unfold res_main_v9
  rw [h0, h2, h3, h4, h5]
  exact mlp_host_toE isProduct_in isProduct_hid _ _ _ _ _ x W1 b1 W2 b2

/-- Row 0 of the coefficients. -/
theorem res_v11 (θ : Matrix (Fin 2) (Fin 5) ℝ) (h6 : V0 (Proc.devRef .tc main_arg6) = toE θ) :
    res_main_v11 V0 = toE1 (θ 0) := by
  unfold res_main_v11
  rw [h6]
  exact thetaRow_toE θ 0 _ _

/-- Row 1 of the coefficients. -/
theorem res_v70 (θ : Matrix (Fin 2) (Fin 5) ℝ) (h6 : V0 (Proc.devRef .tc main_arg6) = toE θ) :
    res_main_v70 V0 = toE1 (θ 1) := by
  unfold res_main_v70
  rw [h6]
  exact thetaRow_toE θ 1 _ _

variable (Lm : Matrix (Fin 10000) (Fin 10000) ℝ) (h1 : V0 (Proc.devRef .tc main_arg1) = toE Lm)
  (H : Matrix (Fin 10000) (Fin 128) ℝ)

include h1 in
/-- The first iterate of the first layer. -/
theorem res_v15 (e : res_main_v9 V0 = toE H) : res_main_v15 V0 = toE (bstep Lm H) := by
  unfold res_main_v15
  rw [e, h1]
  exact bstep_host_toE isProduct_L _ Lm H

include h1 in
/-- The second iterate of the first layer. -/
theorem res_v19 (e : res_main_v15 V0 = toE H) : res_main_v19 V0 = toE (bstep Lm H) := by
  unfold res_main_v19
  rw [e, h1]
  exact bstep_host_toE isProduct_L _ Lm H

include h1 in
/-- The third iterate of the first layer. -/
theorem res_v23 (e : res_main_v19 V0 = toE H) : res_main_v23 V0 = toE (bstep Lm H) := by
  unfold res_main_v23
  rw [e, h1]
  exact bstep_host_toE isProduct_L _ Lm H

include h1 in
/-- The first iterate of the second layer. -/
theorem res_v74 (e : res_main_v68 V0 = toE H) : res_main_v74 V0 = toE (bstep Lm H) := by
  unfold res_main_v74
  rw [e, h1]
  exact bstep_host_toE isProduct_L _ Lm H

include h1 in
/-- The second iterate of the second layer. -/
theorem res_v78 (e : res_main_v74 V0 = toE H) : res_main_v78 V0 = toE (bstep Lm H) := by
  unfold res_main_v78
  rw [e, h1]
  exact bstep_host_toE isProduct_L _ Lm H

include h1 in
/-- The third iterate of the second layer. -/
theorem res_v82 (e : res_main_v78 V0 = toE H) : res_main_v82 V0 = toE (bstep Lm H) := by
  unfold res_main_v82
  rw [e, h1]
  exact bstep_host_toE isProduct_L _ Lm H

include h1 in
/-- The first layer. -/
theorem res_v68 (t : Fin 5 → ℝ) (e9 : res_main_v9 V0 = toE H) (e11 : res_main_v11 V0 = toE1 t)
    (e15 : res_main_v15 V0 = toE (bstep Lm H)) (e19 : res_main_v19 V0 = toE (bstep Lm (bstep Lm H)))
    (e23 : res_main_v23 V0 = toE (bstep Lm (bstep Lm (bstep Lm H)))) :
    res_main_v68 V0 = toE (bernLayer Lm H t) := by
  unfold res_main_v68
  rw [e9, e11, e15, e19, e23, h1]
  exact bernLayer_host_toE isProduct_L _ Lm H t _ _ _ _ _
    (weight_apply _ _ ofBits_sixteenth t 0 _ _) (weight_apply _ _ ofBits_quarter t 1 _ _)
    (weight_apply _ _ ofBits_three_eighths t 2 _ _) (weight_apply _ _ ofBits_quarter t 3 _ _)
    (weight_apply _ _ ofBits_sixteenth t 4 _ _)

end Named

/-! ## The run -/

/-- On real inputs the reference ends with the network with Bernstein-form layers in its result array, the
    arguments unchanged. -/
theorem run_real (m : (ℓ : Loc nD τ sig) → Buf (Elt Ideal) ℓ) (ρ : Dev nD → PrngReg)
    (x : Dev nD → Matrix (Fin 10000) (Fin 256) ℝ) (L : Dev nD → Matrix (Fin 10000) (Fin 10000) ℝ)
    (W1 : Dev nD → Matrix (Fin 256) (Fin 128) ℝ) (b1 : Dev nD → Fin 128 → ℝ)
    (W2 : Dev nD → Matrix (Fin 128) (Fin 128) ℝ) (b2 : Dev nD → Fin 128 → ℝ)
    (θ : Dev nD → Matrix (Fin 2) (Fin 5) ℝ) (W3 : Dev nD → Matrix (Fin 128) (Fin 40) ℝ) (b3 : Dev nD → Fin 40 → ℝ)
    (h0 : ∀ c : Dev nD, m ((c.tc : Thread nD τ).loc main_arg0) = toE (x c))
    (h1 : ∀ c : Dev nD, m ((c.tc : Thread nD τ).loc main_arg1) = toE (L c))
    (h2 : ∀ c : Dev nD, m ((c.tc : Thread nD τ).loc main_arg2) = toE (W1 c))
    (h3 : ∀ c : Dev nD, m ((c.tc : Thread nD τ).loc main_arg3) = toE1 (b1 c))
    (h4 : ∀ c : Dev nD, m ((c.tc : Thread nD τ).loc main_arg4) = toE (W2 c))
    (h5 : ∀ c : Dev nD, m ((c.tc : Thread nD τ).loc main_arg5) = toE1 (b2 c))
    (h6 : ∀ c : Dev nD, m ((c.tc : Thread nD τ).loc main_arg6) = toE (θ c))
    (h7 : ∀ c : Dev nD, m ((c.tc : Thread nD τ).loc main_arg7) = toE (W3 c))
    (h8 : ∀ c : Dev nD, m ((c.tc : Thread nD τ).loc main_arg8) = toE1 (b3 c)) :
    θ_run (Cert.ReferenceIdeal.defs (F := Ideal)) (onTc (τ := τ) (main (F := Ideal))) ⟨m, fun _ => 0, ρ⟩
      (fun r => ∀ c : Dev nD,
        r.2.mem ((c.tc : Thread nD τ).loc main_v131)
          = toE (netBern (x c) (L c) (W1 c) (b1 c) (W2 c) (b2 c) (θ c) (W3 c) (b3 c))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)) := by
  refine (θ_run (Cert.ReferenceIdeal.defs (F := Ideal)) _ _).mono (fun _ h c => ⟨(h c).1.trans ?_, (h c).2⟩)
    (Value.run (F := Ideal) m ρ)
  have a0 : launchContents m c (Proc.devRef .tc main_arg0) = toE (x c) := h0 c
  have a1 : launchContents m c (Proc.devRef .tc main_arg1) = toE (L c) := h1 c
  have a2 : launchContents m c (Proc.devRef .tc main_arg2) = toE (W1 c) := h2 c
  have a3 : launchContents m c (Proc.devRef .tc main_arg3) = toE1 (b1 c) := h3 c
  have a4 : launchContents m c (Proc.devRef .tc main_arg4) = toE (W2 c) := h4 c
  have a5 : launchContents m c (Proc.devRef .tc main_arg5) = toE1 (b2 c) := h5 c
  have a6 : launchContents m c (Proc.devRef .tc main_arg6) = toE (θ c) := h6 c
  have a7 : launchContents m c (Proc.devRef .tc main_arg7) = toE (W3 c) := h7 c
  have a8 : launchContents m c (Proc.devRef .tc main_arg8) = toE1 (b3 c) := h8 c
  have e9 := res_v9 (launchContents m c) (x c) (W1 c) (b1 c) (W2 c) (b2 c) a0 a2 a3 a4 a5
  have e11 := res_v11 (launchContents m c) (θ c) a6
  have e70 := res_v70 (launchContents m c) (θ c) a6
  have e15 := res_v15 (launchContents m c) (L c) a1 _ e9
  have e19 := res_v19 (launchContents m c) (L c) a1 _ e15
  have e23 := res_v23 (launchContents m c) (L c) a1 _ e19
  have e68 := res_v68 (launchContents m c) (L c) a1 _ (θ c 0) e9 e11 e15 e19 e23
  have e74 := res_v74 (launchContents m c) (L c) a1 _ e68
  have e78 := res_v78 (launchContents m c) (L c) a1 _ e74
  have e82 := res_v82 (launchContents m c) (L c) a1 _ e78
  rw [e68, e70, e74, e78, e82, a1, a7, a8]
  exact readout_host_toE isProduct_out _ _ _ _
    (bernLayer_host_toE isProduct_L _ (L c) (bernLayer (L c) (mlp (x c) (W1 c) (b1 c) (W2 c) (b2 c)) (θ c 0)) (θ c 1)
      _ _ _ _ _
      (weight_apply _ _ ofBits_sixteenth (θ c 1) 0 _ _) (weight_apply _ _ ofBits_quarter (θ c 1) 1 _ _)
      (weight_apply _ _ ofBits_three_eighths (θ c 1) 2 _ _) (weight_apply _ _ ofBits_quarter (θ c 1) 3 _ _)
      (weight_apply _ _ ofBits_sixteenth (θ c 1) 4 _ _))
    (W3 c) (b3 c)

end Cert.ReferenceIdeal.RefValue

end
-- ==== Proof.lean ====
/-
  A two-layer spectral graph filter network (BernNet): the kernel against its reference, on the extended reals.

  Both programs compute `out = h₂·W3 + b3` with `h₀ = relu (x·W1 + b1)·W2 + b2` and `h_{l+1} = relu (p_l(L) h_l)`, where
  `p_l(λ) = Σ_j θ_{l,j} · C(4,j)/16 · (2-λ)^(4-j) · λ^j` is a degree-4 polynomial in the Bernstein basis on [0, 2].
  The reference evaluates `p_l(L) h` in the Bernstein basis (fourteen products with `L` per layer); the kernel changes
  basis once on the host, `c_l = mono · θ_l`, and evaluates `Σ_m c_{l,m} L^m h` with four passes per layer, each pass
  computing `L u` as `u + (L - 1) u` from a stored copy of `L - 1`.

  The two agree because powers of one matrix commute, so expanding `(2 - L)^(4-j)` by the binomial theorem turns the
  Bernstein form into the monomial form — a law of the real numbers (distributivity, cancelling `u - u`), which is why
  the precondition is used: with every input finite, every array either program builds has real entries, each program's
  result is the coercion of a real matrix expression (`netMono` for the kernel, `netBern` for the reference), and the
  two expressions are equal as real matrices.

  The frames of the two kernel programs are the frame certificates over their ten regions; the reference's frame is its
  run with the result dropped; the idealization rewrote nothing, so `preserves` is trivial.
-/
import proofs.«116373_g1589137899740_cont_week2b_1182_8_alg».proof.Defs
import proofs.«116373_g1589137899740_cont_week2b_1182_8_alg».proof.Proof.Gen.Kernel
import proofs.«116373_g1589137899740_cont_week2b_1182_8_alg».proof.Proof.Gen.KernelIdeal
import proofs.«116373_g1589137899740_cont_week2b_1182_8_alg».proof.Proof.Gen.ReferenceIdeal
import proofs.«116373_g1589137899740_cont_week2b_1182_8_alg».proof.Proof.Gen.Pre_finite_inputs
import proofs.«116373_g1589137899740_cont_week2b_1182_8_alg».proof.Proof.FrameK
import proofs.«116373_g1589137899740_cont_week2b_1182_8_alg».proof.Proof.FrameKI
import proofs.«116373_g1589137899740_cont_week2b_1182_8_alg».proof.Proof.KNet
import proofs.«116373_g1589137899740_cont_week2b_1182_8_alg».proof.Proof.KFinite
import proofs.«116373_g1589137899740_cont_week2b_1182_8_alg».proof.Proof.RefBridgeRun
import proofs.«116373_g1589137899740_cont_week2b_1182_8_alg».proof.Proof.BernTransport
import Idealize.ShloMosaic.Adequacy
import Idealize.ShloMosaic.Init

noncomputable section

namespace Cert.Proof

open Idealize.ShloMosaic Idealize.SL.Sem

/-- The word-level kernel's frame: the frame certificate over its ten regions. -/
theorem frame_k : Cert.frame_Kernel (hKernel := Cert.Kernel.Gen.facts) (hPre_finite_inputs := Cert.Pre_finite_inputs.Gen.facts) :=
  fun m ρ _ => Cert.Kernel.GenP.frame m ρ

/-- The idealized kernel's frame, likewise. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference's frame: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on finite arguments both idealized programs end with the same result: the kernel's is the
    network with monomial-form layers, the reference's the network with Bernstein-form layers, of the same real
    matrices, and the two forms are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hreal := fun c => @Cert.KernelIdeal.KFin.real_args Cert.Pre_finite_inputs.Gen.facts _ _ _ _ _ _ _ _ _ (hpre c)
  choose x L W1 b1 W2 b2 θ W3 b3 hx using hreal
  refine ⟨fun c => Bern.toE (Bern.netMono (x c) (L c) (W1 c) (b1 c) (W2 c) (b2 c) (θ c) (W3 c) (b3 c)),
    Cert.KernelIdeal.KVal.run_real m ρ x L W1 b1 W2 b2 θ W3 b3 (fun c => (hx c).1) (fun c => (hx c).2.1) (fun c => (hx c).2.2.1)
      (fun c => (hx c).2.2.2.1) (fun c => (hx c).2.2.2.2.1) (fun c => (hx c).2.2.2.2.2.1) (fun c => (hx c).2.2.2.2.2.2.1)
      (fun c => (hx c).2.2.2.2.2.2.2.1) (fun c => (hx c).2.2.2.2.2.2.2.2), ?_⟩
  refine (θ_run Cert.ReferenceIdeal.defs _ _).mono
    (fun r h c => ⟨(h c).1.trans (congrArg Bern.toE (Bern.netMono_eq_netBern (x c) (L c) (W1 c) (b1 c) (W2 c) (b2 c) (θ c) (W3 c) (b3 c)).symm), (h c).2⟩)
    (Cert.ReferenceIdeal.RefValue.run_real m' ρ' x L W1 b1 W2 b2 θ W3 b3
      (fun c => (hagree c).1.trans (hx c).1) (fun c => (hagree c).2.1.trans (hx c).2.1) (fun c => (hagree c).2.2.1.trans (hx c).2.2.1)
      (fun c => (hagree c).2.2.2.1.trans (hx c).2.2.2.1) (fun c => (hagree c).2.2.2.2.1.trans (hx c).2.2.2.2.1)
      (fun c => (hagree c).2.2.2.2.2.1.trans (hx c).2.2.2.2.2.1) (fun c => (hagree c).2.2.2.2.2.2.1.trans (hx c).2.2.2.2.2.2.1)
      (fun c => (hagree c).2.2.2.2.2.2.2.1.trans (hx c).2.2.2.2.2.2.2.1) (fun c => (hagree c).2.2.2.2.2.2.2.2.trans (hx c).2.2.2.2.2.2.2.2))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
